-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v284) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S320x1 : Shape := ⟨2, ![320, 1]⟩
abbrev S320x3 : Shape := ⟨2, ![320, 3]⟩
abbrev S_ : Shape := ⟨0, ![]⟩

class Facts : Prop where
  bcast_S_S320x1 : S_.BroadcastsInDim S320x1 (![] : Fin 0 → Fin S320x1.rank)
  reducesTo_S320x1_S_d0_1 : S320x1.ReducesTo [0, 1] S_
  h_S_ : 0 < S_.numel
  bcast_S_S320x3 : S_.BroadcastsInDim S320x3 (![] : Fin 0 → Fin S320x3.rank)
  reducesTo_S320x3_S_d0_1 : S320x3.ReducesTo [0, 1] S_

variable [Facts]

def fn {F : FTy → Type} [FloatOps F] (main_arg0 : FVec F S320x1 .f32) (main_arg1 : FVec F S320x3 .f32) : IVec S_ 1 :=
  let main_v0 : FVec F S320x1 .f32 := Host.absf main_arg0
  let main_cst : FVec F S_ .f32 := constant S_ .f32 0x7F800000#32
  let main_v1 : FVec F S320x1 .f32 := broadcastInDim S320x1 ![] bcast_S_S320x1 main_cst
  let main_v2 : IVec S320x1 1 := cmpf .olt main_v0 main_v1
  let main_c : IVec S_ 1 := constantI S_ 1 1#1
  let main_v3 : IVec S_ 1 := (fun x v => Host.reduce IntOp.andi x v reducesTo_S320x1_S_d0_1 h_S_) main_v2 main_c
  let main_v4 : FVec F S320x3 .f32 := Host.absf main_arg1
  let main_cst_0 : FVec F S_ .f32 := constant S_ .f32 0x7F800000#32
  let main_v5 : FVec F S320x3 .f32 := broadcastInDim S320x3 ![] bcast_S_S320x3 main_cst_0
  let main_v6 : IVec S320x3 1 := cmpf .olt main_v4 main_v5
  let main_c_1 : IVec S_ 1 := constantI S_ 1 1#1
  let main_v7 : IVec S_ 1 := (fun x v => Host.reduce IntOp.andi x v reducesTo_S320x3_S_d0_1 h_S_) main_v6 main_c_1
  let main_v8 : IVec S_ 1 := andi main_v3 main_v7
  main_v8
-- ==== Kernel.lean ====
abbrev S320x1 : Shape := ⟨2, ![320, 1]⟩
abbrev S320x3 : Shape := ⟨2, ![320, 3]⟩
abbrev S320x1x3 : Shape := ⟨3, ![320, 1, 3]⟩
abbrev S1x320x3 : Shape := ⟨3, ![1, 320, 3]⟩
abbrev S320x320x3 : Shape := ⟨3, ![320, 320, 3]⟩
abbrev S_ : Shape := ⟨0, ![]⟩
abbrev S320x320 : Shape := ⟨2, ![320, 320]⟩
abbrev S1x320x320 : Shape := ⟨3, ![1, 320, 320]⟩
abbrev S2x320x320 : Shape := ⟨3, ![2, 320, 320]⟩
abbrev S320x22 : Shape := ⟨2, ![320, 22]⟩
abbrev S8x1 : Shape := ⟨2, ![8, 1]⟩
abbrev S8x3 : Shape := ⟨2, ![8, 3]⟩
abbrev S8x22 : Shape := ⟨2, ![8, 22]⟩
abbrev S8x1x3 : Shape := ⟨3, ![8, 1, 3]⟩
abbrev S8x320x3 : Shape := ⟨3, ![8, 320, 3]⟩
abbrev S8x320 : Shape := ⟨2, ![8, 320]⟩
abbrev S8 : Shape := ⟨1, ![8]⟩
abbrev S8x320x320 : Shape := ⟨3, ![8, 320, 320]⟩
abbrev S8x320x1 : Shape := ⟨3, ![8, 320, 1]⟩
abbrev S8x1x320 : Shape := ⟨3, ![8, 1, 320]⟩

abbrev nBuf : Space → Nat
  | .hbm => 67
  | .vmem => 8
  | .smem => 0
  | _ => 0

abbrev bufTy : (tb : Table) → Fin (tcTables nBuf tb) → BufTy
  | .hbm, ⟨0, _⟩ => ⟨S320x1, .f32⟩
  | .hbm, ⟨1, _⟩ => ⟨S320x3, .f32⟩
  | .hbm, ⟨2, _⟩ => ⟨S320x1x3, .f32⟩
  | .hbm, ⟨3, _⟩ => ⟨S1x320x3, .f32⟩
  | .hbm, ⟨4, _⟩ => ⟨S320x320x3, .f32⟩
  | .hbm, ⟨5, _⟩ => ⟨S320x320x3, .f32⟩
  | .hbm, ⟨6, _⟩ => ⟨S320x320x3, .f32⟩
  | .hbm, ⟨7, _⟩ => ⟨S320x320x3, .f32⟩
  | .hbm, ⟨8, _⟩ => ⟨S_, .f32⟩
  | .hbm, ⟨9, _⟩ => ⟨S320x320, .f32⟩
  | .hbm, ⟨10, _⟩ => ⟨S_, .f32⟩
  | .hbm, ⟨11, _⟩ => ⟨S320x320, .f32⟩
  | .hbm, ⟨12, _⟩ => ⟨S320x320, .i1⟩
  | .hbm, ⟨13, _⟩ => ⟨S_, .f32⟩
  | .hbm, ⟨14, _⟩ => ⟨S_, .f32⟩
  | .hbm, ⟨15, _⟩ => ⟨S320x320, .f32⟩
  | .hbm, ⟨16, _⟩ => ⟨S320x320, .f32⟩
  | .hbm, ⟨17, _⟩ => ⟨S320x320, .f32⟩
  | .hbm, ⟨18, _⟩ => ⟨S_, .f32⟩
  | .hbm, ⟨19, _⟩ => ⟨S_, .f32⟩
  | .hbm, ⟨20, _⟩ => ⟨S320x320, .f32⟩
  | .hbm, ⟨21, _⟩ => ⟨S320x320, .f32⟩
  | .hbm, ⟨22, _⟩ => ⟨S320x320, .i32⟩
  | .hbm, ⟨23, _⟩ => ⟨S320x320, .i32⟩
  | .hbm, ⟨24, _⟩ => ⟨S_, .i32⟩
  | .hbm, ⟨25, _⟩ => ⟨S320x320, .i32⟩
  | .hbm, ⟨26, _⟩ => ⟨S320x320, .i32⟩
  | .hbm, ⟨27, _⟩ => ⟨S320x320, .i1⟩
  | .hbm, ⟨28, _⟩ => ⟨S320x320, .f32⟩
  | .hbm, ⟨29, _⟩ => ⟨S_, .f32⟩
  | .hbm, ⟨30, _⟩ => ⟨S320x320, .f32⟩
  | .hbm, ⟨31, _⟩ => ⟨S320x320, .i1⟩
  | .hbm, ⟨32, _⟩ => ⟨S_, .f32⟩
  | .hbm, ⟨33, _⟩ => ⟨S320x320, .f32⟩
  | .hbm, ⟨34, _⟩ => ⟨S320x320, .f32⟩
  | .hbm, ⟨35, _⟩ => ⟨S_, .f32⟩
  | .hbm, ⟨36, _⟩ => ⟨S320x320, .f32⟩
  | .hbm, ⟨37, _⟩ => ⟨S320x320, .f32⟩
  | .hbm, ⟨38, _⟩ => ⟨S320x320, .f32⟩
  | .hbm, ⟨39, _⟩ => ⟨S_, .f32⟩
  | .hbm, ⟨40, _⟩ => ⟨S320x320, .f32⟩
  | .hbm, ⟨41, _⟩ => ⟨S320x320, .f32⟩
  | .hbm, ⟨42, _⟩ => ⟨S_, .f32⟩
  | .hbm, ⟨43, _⟩ => ⟨S320x320, .f32⟩
  | .hbm, ⟨44, _⟩ => ⟨S320x320, .f32⟩
  | .hbm, ⟨45, _⟩ => ⟨S_, .f32⟩
  | .hbm, ⟨46, _⟩ => ⟨S_, .f32⟩
  | .hbm, ⟨47, _⟩ => ⟨S320x320, .f32⟩
  | .hbm, ⟨48, _⟩ => ⟨S320x320, .f32⟩
  | .hbm, ⟨49, _⟩ => ⟨S_, .f32⟩
  | .hbm, ⟨50, _⟩ => ⟨S320x320, .f32⟩
  | .hbm, ⟨51, _⟩ => ⟨S320x320, .f32⟩
  | .hbm, ⟨52, _⟩ => ⟨S320x320, .f32⟩
  | .hbm, ⟨53, _⟩ => ⟨S_, .f32⟩
  | .hbm, ⟨54, _⟩ => ⟨S320x320, .f32⟩
  | .hbm, ⟨55, _⟩ => ⟨S320x320, .f32⟩
  | .hbm, ⟨56, _⟩ => ⟨S320x320, .f32⟩
  | .hbm, ⟨57, _⟩ => ⟨S320x320, .f32⟩
  | .hbm, ⟨58, _⟩ => ⟨S_, .f32⟩
  | .hbm, ⟨59, _⟩ => ⟨S320x320, .f32⟩
  | .hbm, ⟨60, _⟩ => ⟨S320x320, .f32⟩
  | .hbm, ⟨61, _⟩ => ⟨S320x320, .f32⟩
  | .hbm, ⟨62, _⟩ => ⟨S320x320, .f32⟩
  | .hbm, ⟨63, _⟩ => ⟨S1x320x320, .f32⟩
  | .hbm, ⟨64, _⟩ => ⟨S1x320x320, .f32⟩
  | .hbm, ⟨65, _⟩ => ⟨S2x320x320, .f32⟩
  | .hbm, ⟨66, _⟩ => ⟨S320x22, .f32⟩
  | .local _ .vmem, ⟨0, _⟩ => ⟨S8x1, .f32⟩
  | .local _ .vmem, ⟨1, _⟩ => ⟨S8x1, .f32⟩
  | .local _ .vmem, ⟨2, _⟩ => ⟨S8x3, .f32⟩
  | .local _ .vmem, ⟨3, _⟩ => ⟨S8x3, .f32⟩
  | .local _ .vmem, ⟨4, _⟩ => ⟨S320x3, .f32⟩
  | .local _ .vmem, ⟨5, _⟩ => ⟨S2x320x320, .f32⟩
  | .local _ .vmem, ⟨6, _⟩ => ⟨S8x22, .f32⟩
  | .local _ .vmem, ⟨7, _⟩ => ⟨S8x22, .f32⟩
  | _, _ => ⟨S320x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_call1_v0 : Ref sig .tc := ⟨.hbm, 19, rfl⟩
abbrev main_call1_v1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_call2_v0 : Ref sig .tc := ⟨.hbm, 46, rfl⟩
abbrev main_call2_v1 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_11 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S320x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x320x320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x22 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S320x3_S320x1x3_0_2 : S320x3.BroadcastsInDim S320x1x3 (![0, 2] : Fin 2 → Fin S320x1x3.rank)
  bcast_S320x3_S1x320x3_1_2 : S320x3.BroadcastsInDim S1x320x3 (![1, 2] : Fin 2 → Fin S1x320x3.rank)
  bcast_S320x1x3_S320x320x3_0_1_2 : S320x1x3.BroadcastsInDim S320x320x3 (![0, 1, 2] : Fin 3 → Fin S320x320x3.rank)
  bcast_S1x320x3_S320x320x3_0_1_2 : S1x320x3.BroadcastsInDim S320x320x3 (![0, 1, 2] : Fin 3 → Fin S320x320x3.rank)
  reducesTo_S320x320x3_S320x320_d2 : S320x320x3.ReducesTo [2] S320x320
  h_S_ : 0 < S_.numel
  bcast_S_S320x320 : S_.BroadcastsInDim S320x320 (![] : Fin 0 → Fin S320x320.rank)
  bcast_S320x320_S1x320x320_1_2 : S320x320.BroadcastsInDim S1x320x320 (![1, 2] : Fin 2 → Fin S1x320x320.rank)
  concatenates_S1x320x320_S1x320x320_S2x320x320_d0 : Shape.Concatenates [S1x320x320, S1x320x320] S2x320x320 0
  inb_S8x1_S8x1_0_0 : ∀ a, (![0, 0] : Fin 2 → Nat) a + S8x1.size a ≤ S8x1.size a
  h_S8x1 : 0 < S8x1.numel
  inb_S8x3_S8x3_0_0 : ∀ a, (![0, 0] : Fin 2 → Nat) a + S8x3.size a ≤ S8x3.size a
  h_S8x3 : 0 < S8x3.numel
  inb_S320x3_S320x3_0_0 : ∀ a, (![0, 0] : Fin 2 → Nat) a + S320x3.size a ≤ S320x3.size a
  h_S320x3 : 0 < S320x3.numel
  shapeCasts_S8x3_S8x1x3 : S8x3.ShapeCasts S8x1x3
  shapeCasts_S320x3_S1x320x3 : S320x3.ShapeCasts S1x320x3
  broadcasts_S8x1x3_S8x320x3 : S8x1x3.Broadcasts S8x320x3
  broadcasts_S1x320x3_S8x320x3 : S1x320x3.Broadcasts S8x320x3
  reduces_S8x320x3_S8x320 : S8x320x3.Reduces [2] S8x320
  iota_S8x320_d0_w32 : S8x320.Iotas .tc 32 [0]
  iota_S8x320_d1_w32 : S8x320.Iotas .tc 32 [1]
  natLt_1_32 : 1 < 32
  reduces_S8x320_S8 : S8x320.Reduces [1] S8
  shapeCasts_S8_S8x1 : S8.ShapeCasts S8x1
  shapeCasts_S8x320_S8x320x1 : S8x320.ShapeCasts S8x320x1
  shapeCasts_S8x320_S8x1x320 : S8x320.ShapeCasts S8x1x320
  broadcasts_S8x320x1_S8x320x320 : S8x320x1.Broadcasts S8x320x320
  broadcasts_S8x1x320_S8x320x320 : S8x1x320.Broadcasts S8x320x320
  iota_S320x320_d0_w32 : S320x320.Iotas .tc 32 [0]
  iota_S320x320_d1_w32 : S320x320.Iotas .tc 32 [1]
  shapeCasts_S320x320_S1x320x320 : S320x320.ShapeCasts S1x320x320
  broadcasts_S1x320x320_S8x320x320 : S1x320x320.Broadcasts S8x320x320
  inb_S2x320x320_S1x320x320_0_0_0 : ∀ a, (![0, 0, 0] : Fin 3 → Nat) a + S1x320x320.size a ≤ S2x320x320.size a
  h_S1x320x320 : 0 < S1x320x320.numel
  shapeCasts_S1x320x320_S320x320 : S1x320x320.ShapeCasts S320x320
  reduces_S8x320x320_S8x320 : S8x320x320.Reduces [2] S8x320
  inb_S2x320x320_S1x320x320_1_0_0 : ∀ a, (![1, 0, 0] : Fin 3 → Nat) a + S1x320x320.size a ≤ S2x320x320.size a
  concatenates_S8x1_S8x1_S8x1_S8x1_S8x1_S8x1_S8x1_S8x1_S8x1_S8x1_S8x1_S8x1_S8x1_S8x1_S8x1_S8x1_S8x1_S8x1_S8x1_S8x1_S8x1_S8x1_S8x22_d1 : Shape.Concatenates [S8x1, S8x1, S8x1, S8x1, S8x1, S8x1, S8x1, S8x1, S8x1, S8x1, S8x1, S8x1, S8x1, S8x1, S8x1, S8x1, S8x1, S8x1, S8x1, S8x1, S8x1, S8x1] S8x22 1
  inb_S8x22_S8x22_0_0 : ∀ a, (![0, 0] : Fin 2 → Nat) a + S8x22.size a ≤ S8x22.size a
  h_S8x22 : 0 < S8x22.numel
  dot_S8x320x3_S8x320x3_S8x320x320_2_2_1_1_0_0_wf : DotDims.WF S8x320x3 S8x320x3 S8x320x320 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1.size a ≤ S320x1.size a
  hwx0_0 : ∀ i : grid0.Coords, EltTy.bits .f32 = 32 ∨ (Rect.block (s := S320x1) S8x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3.size a ≤ S320x3.size a
  hwx0_1 : ∀ i : grid0.Coords, EltTy.bits .f32 = 32 ∨ (Rect.block (s := S320x3) S8x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S320x3.size a ≤ S320x3.size a
  hwx0_2 : ∀ i : grid0.Coords, EltTy.bits .f32 = 32 ∨ (Rect.block (s := S320x3) S320x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x320x320.size a ≤ S2x320x320.size a
  hwx0_3 : ∀ i : grid0.Coords, EltTy.bits .f32 = 32 ∨ (Rect.block (s := S2x320x320) S2x320x320.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x22.size a ≤ S320x22.size a
  hwx0_4 : ∀ i : grid0.Coords, EltTy.bits .f32 = 32 ∨ (Rect.block (s := S320x22) S8x22.size (cc0_transform_4 i) (hinb0_4 i)).WholeWords (EltTy.packing .f32)

variable [Facts₀]

def dot_S8x320x3_S8x320x3_S8x320x320_2_2_1_1_0_0 : DotDims S8x320x3 S8x320x3 S8x320x320 where
  lhsContracting := [2]
  rhsContracting := [2]
  lhsNonContracting := [1]
  rhsNonContracting := [1]
  lhsBatch := [0]
  rhsBatch := [0]
  wf := dot_S8x320x3_S8x320x3_S8x320x320_2_2_1_1_0_0_wf

abbrev win0_0 : Pipeline.Window sig grid0 :=
  Pipeline.Window.ofSpec (Memref.whole main_arg0) S8x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S320x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S2x320x320.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v44) S8x22.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S320x1 : Shape := ⟨2, ![320, 1]⟩
abbrev S320x3 : Shape := ⟨2, ![320, 3]⟩
abbrev S320x1x3 : Shape := ⟨3, ![320, 1, 3]⟩
abbrev S1x320x3 : Shape := ⟨3, ![1, 320, 3]⟩
abbrev S320x320x3 : Shape := ⟨3, ![320, 320, 3]⟩
abbrev S_ : Shape := ⟨0, ![]⟩
abbrev S320x320 : Shape := ⟨2, ![320, 320]⟩
abbrev S320 : Shape := ⟨1, ![320]⟩
abbrev S320x320x320 : Shape := ⟨3, ![320, 320, 320]⟩
abbrev S320x320x1 : Shape := ⟨3, ![320, 320, 1]⟩
abbrev S320x1x320 : Shape := ⟨3, ![320, 1, 320]⟩
abbrev S1x320x320 : Shape := ⟨3, ![1, 320, 320]⟩
abbrev S320x16 : Shape := ⟨2, ![320, 16]⟩
abbrev S320x6 : Shape := ⟨2, ![320, 6]⟩
abbrev S320x22 : Shape := ⟨2, ![320, 22]⟩

abbrev nBuf : Space → Nat
  | .hbm => 391
  | .vmem => 0
  | .smem => 0
  | _ => 0

abbrev hbmTy0_0 (i : Nat) : BufTy := match i % 128 with
  | 0 => ⟨S320x1, .f32⟩
  | 1 => ⟨S320x3, .f32⟩
  | 2 => ⟨S320x1x3, .f32⟩
  | 3 => ⟨S1x320x3, .f32⟩
  | 4 => ⟨S320x320x3, .f32⟩
  | 5 => ⟨S320x320x3, .f32⟩
  | 6 => ⟨S320x320x3, .f32⟩
  | 7 => ⟨S320x320x3, .f32⟩
  | 8 => ⟨S_, .f32⟩
  | 9 => ⟨S320x320, .f32⟩
  | 10 => ⟨S_, .f32⟩
  | 11 => ⟨S320x320, .f32⟩
  | 12 => ⟨S320x320, .i1⟩
  | 13 => ⟨S_, .f32⟩
  | 14 => ⟨S_, .f32⟩
  | 15 => ⟨S320x320, .f32⟩
  | 16 => ⟨S320x320, .f32⟩
  | 17 => ⟨S320x320, .f32⟩
  | 18 => ⟨S_, .f32⟩
  | 19 => ⟨S_, .f32⟩
  | 20 => ⟨S320x320, .f32⟩
  | 21 => ⟨S320x320, .f32⟩
  | 22 => ⟨S320x320, .i32⟩
  | 23 => ⟨S320x320, .i32⟩
  | 24 => ⟨S_, .i32⟩
  | 25 => ⟨S320x320, .i32⟩
  | 26 => ⟨S320x320, .i32⟩
  | 27 => ⟨S320x320, .i1⟩
  | 28 => ⟨S320x320, .f32⟩
  | 29 => ⟨S_, .f32⟩
  | 30 => ⟨S320x320, .f32⟩
  | 31 => ⟨S320x320, .i1⟩
  | 32 => ⟨S_, .f32⟩
  | 33 => ⟨S320x320, .f32⟩
  | 34 => ⟨S320x320, .f32⟩
  | 35 => ⟨S_, .f32⟩
  | 36 => ⟨S320x320, .f32⟩
  | 37 => ⟨S320x320, .f32⟩
  | 38 => ⟨S320x320, .f32⟩
  | 39 => ⟨S_, .f32⟩
  | 40 => ⟨S320x320, .f32⟩
  | 41 => ⟨S320x320, .f32⟩
  | 42 => ⟨S_, .f32⟩
  | 43 => ⟨S320x320, .f32⟩
  | 44 => ⟨S320x320, .f32⟩
  | 45 => ⟨S_, .f32⟩
  | 46 => ⟨S_, .f32⟩
  | 47 => ⟨S320x320, .f32⟩
  | 48 => ⟨S320x320, .f32⟩
  | 49 => ⟨S_, .f32⟩
  | 50 => ⟨S320x320, .f32⟩
  | 51 => ⟨S320x320, .f32⟩
  | 52 => ⟨S320x320, .f32⟩
  | 53 => ⟨S_, .f32⟩
  | 54 => ⟨S320, .f32⟩
  | 55 => ⟨S320x1, .f32⟩
  | 56 => ⟨S_, .f32⟩
  | 57 => ⟨S320x320, .f32⟩
  | 58 => ⟨S320x320, .f32⟩
  | 59 => ⟨S320x320, .f32⟩
  | 60 => ⟨S_, .f32⟩
  | 61 => ⟨S320x320, .f32⟩
  | 62 => ⟨S320x320, .f32⟩
  | 63 => ⟨S320x320, .f32⟩
  | 64 => ⟨S320x320, .f32⟩
  | 65 => ⟨S_, .f32⟩
  | 66 => ⟨S320, .f32⟩
  | 67 => ⟨S320x1, .f32⟩
  | 68 => ⟨S_, .f32⟩
  | 69 => ⟨S320x320, .f32⟩
  | 70 => ⟨S320x320, .f32⟩
  | 71 => ⟨S320x320, .f32⟩
  | 72 => ⟨S_, .f32⟩
  | 73 => ⟨S320x320, .f32⟩
  | 74 => ⟨S320x320, .f32⟩
  | 75 => ⟨S320x320, .f32⟩
  | 76 => ⟨S320x320, .f32⟩
  | 77 => ⟨S_, .f32⟩
  | 78 => ⟨S320, .f32⟩
  | 79 => ⟨S320x1, .f32⟩
  | 80 => ⟨S_, .f32⟩
  | 81 => ⟨S320x320, .f32⟩
  | 82 => ⟨S320x320, .f32⟩
  | 83 => ⟨S320x320, .f32⟩
  | 84 => ⟨S_, .f32⟩
  | 85 => ⟨S320x320, .f32⟩
  | 86 => ⟨S320x320, .f32⟩
  | 87 => ⟨S320x320, .f32⟩
  | 88 => ⟨S320x320, .f32⟩
  | 89 => ⟨S_, .f32⟩
  | 90 => ⟨S320, .f32⟩
  | 91 => ⟨S320x1, .f32⟩
  | 92 => ⟨S_, .f32⟩
  | 93 => ⟨S320x320, .f32⟩
  | 94 => ⟨S320x320, .f32⟩
  | 95 => ⟨S320x320, .f32⟩
  | 96 => ⟨S_, .f32⟩
  | 97 => ⟨S320x320, .f32⟩
  | 98 => ⟨S320x320, .f32⟩
  | 99 => ⟨S320x320, .f32⟩
  | 100 => ⟨S320x320, .f32⟩
  | 101 => ⟨S_, .f32⟩
  | 102 => ⟨S320, .f32⟩
  | 103 => ⟨S320x1, .f32⟩
  | 104 => ⟨S_, .f32⟩
  | 105 => ⟨S320x320, .f32⟩
  | 106 => ⟨S320x320, .f32⟩
  | 107 => ⟨S320x320, .f32⟩
  | 108 => ⟨S_, .f32⟩
  | 109 => ⟨S320x320, .f32⟩
  | 110 => ⟨S320x320, .f32⟩
  | 111 => ⟨S320x320, .f32⟩
  | 112 => ⟨S320x320, .f32⟩
  | 113 => ⟨S_, .f32⟩
  | 114 => ⟨S320, .f32⟩
  | 115 => ⟨S320x1, .f32⟩
  | 116 => ⟨S_, .f32⟩
  | 117 => ⟨S320x320, .f32⟩
  | 118 => ⟨S320x320, .f32⟩
  | 119 => ⟨S320x320, .f32⟩
  | 120 => ⟨S_, .f32⟩
  | 121 => ⟨S320x320, .f32⟩
  | 122 => ⟨S320x320, .f32⟩
  | 123 => ⟨S320x320, .f32⟩
  | 124 => ⟨S320x320, .f32⟩
  | 125 => ⟨S_, .f32⟩
  | 126 => ⟨S320, .f32⟩
  | 127 => ⟨S320x1, .f32⟩
  | _ => ⟨S320x1, .f32⟩

abbrev hbmTy0_1 (i : Nat) : BufTy := match i % 128 with
  | 0 => ⟨S_, .f32⟩
  | 1 => ⟨S320x320, .f32⟩
  | 2 => ⟨S320x320, .f32⟩
  | 3 => ⟨S320x320, .f32⟩
  | 4 => ⟨S_, .f32⟩
  | 5 => ⟨S320x320, .f32⟩
  | 6 => ⟨S320x320, .f32⟩
  | 7 => ⟨S320x320, .f32⟩
  | 8 => ⟨S320x320, .f32⟩
  | 9 => ⟨S_, .f32⟩
  | 10 => ⟨S320, .f32⟩
  | 11 => ⟨S320x1, .f32⟩
  | 12 => ⟨S_, .f32⟩
  | 13 => ⟨S320x320, .f32⟩
  | 14 => ⟨S320x320, .f32⟩
  | 15 => ⟨S320x320, .f32⟩
  | 16 => ⟨S_, .f32⟩
  | 17 => ⟨S320x320, .f32⟩
  | 18 => ⟨S320x320, .f32⟩
  | 19 => ⟨S320x320, .f32⟩
  | 20 => ⟨S320x320, .f32⟩
  | 21 => ⟨S_, .f32⟩
  | 22 => ⟨S320, .f32⟩
  | 23 => ⟨S320x1, .f32⟩
  | 24 => ⟨S_, .f32⟩
  | 25 => ⟨S320x320, .f32⟩
  | 26 => ⟨S320x320, .f32⟩
  | 27 => ⟨S320x320, .f32⟩
  | 28 => ⟨S320x320, .f32⟩
  | 29 => ⟨S_, .f32⟩
  | 30 => ⟨S320, .f32⟩
  | 31 => ⟨S320x1, .f32⟩
  | 32 => ⟨S_, .f32⟩
  | 33 => ⟨S320x320, .f32⟩
  | 34 => ⟨S320x320, .f32⟩
  | 35 => ⟨S320x320, .f32⟩
  | 36 => ⟨S320x320, .f32⟩
  | 37 => ⟨S_, .f32⟩
  | 38 => ⟨S320, .f32⟩
  | 39 => ⟨S320x1, .f32⟩
  | 40 => ⟨S_, .f32⟩
  | 41 => ⟨S320x320, .f32⟩
  | 42 => ⟨S320x320, .f32⟩
  | 43 => ⟨S320x320, .f32⟩
  | 44 => ⟨S320x320, .f32⟩
  | 45 => ⟨S_, .f32⟩
  | 46 => ⟨S320, .f32⟩
  | 47 => ⟨S320x1, .f32⟩
  | 48 => ⟨S_, .f32⟩
  | 49 => ⟨S320x320, .f32⟩
  | 50 => ⟨S320x320, .f32⟩
  | 51 => ⟨S320x320, .f32⟩
  | 52 => ⟨S320x320, .f32⟩
  | 53 => ⟨S_, .f32⟩
  | 54 => ⟨S320, .f32⟩
  | 55 => ⟨S320x1, .f32⟩
  | 56 => ⟨S320x320x320, .f32⟩
  | 57 => ⟨S320x320x1, .f32⟩
  | 58 => ⟨S320x1x320, .f32⟩
  | 59 => ⟨S320x320x320, .f32⟩
  | 60 => ⟨S320x320x320, .f32⟩
  | 61 => ⟨S320x320x320, .f32⟩
  | 62 => ⟨S_, .f32⟩
  | 63 => ⟨S320x320x320, .f32⟩
  | 64 => ⟨S320x320x320, .i1⟩
  | 65 => ⟨S_, .f32⟩
  | 66 => ⟨S_, .f32⟩
  | 67 => ⟨S320x320x320, .f32⟩
  | 68 => ⟨S320x320x320, .f32⟩
  | 69 => ⟨S320x320x320, .f32⟩
  | 70 => ⟨S320x320x1, .f32⟩
  | 71 => ⟨S320x1x320, .f32⟩
  | 72 => ⟨S320x320x320, .f32⟩
  | 73 => ⟨S320x320x320, .f32⟩
  | 74 => ⟨S320x320x320, .f32⟩
  | 75 => ⟨S1x320x320, .f32⟩
  | 76 => ⟨S320x320x320, .f32⟩
  | 77 => ⟨S320x320x320, .f32⟩
  | 78 => ⟨S_, .f32⟩
  | 79 => ⟨S320x320, .f32⟩
  | 80 => ⟨S320x320, .f32⟩
  | 81 => ⟨S1x320x320, .f32⟩
  | 82 => ⟨S320x320x1, .f32⟩
  | 83 => ⟨S320x1x320, .f32⟩
  | 84 => ⟨S320x320x320, .f32⟩
  | 85 => ⟨S320x320x320, .f32⟩
  | 86 => ⟨S320x320x320, .f32⟩
  | 87 => ⟨S320x320x320, .f32⟩
  | 88 => ⟨S320x320x320, .f32⟩
  | 89 => ⟨S1x320x320, .f32⟩
  | 90 => ⟨S320x320x320, .f32⟩
  | 91 => ⟨S320x320x320, .f32⟩
  | 92 => ⟨S_, .f32⟩
  | 93 => ⟨S320x320x320, .f32⟩
  | 94 => ⟨S320x320x320, .f32⟩
  | 95 => ⟨S_, .f32⟩
  | 96 => ⟨S320x320x320, .f32⟩
  | 97 => ⟨S320x320x320, .f32⟩
  | 98 => ⟨S_, .f32⟩
  | 99 => ⟨S320x320x320, .f32⟩
  | 100 => ⟨S320x320x320, .f32⟩
  | 101 => ⟨S_, .f32⟩
  | 102 => ⟨S320x320x320, .f32⟩
  | 103 => ⟨S320x320x320, .f32⟩
  | 104 => ⟨S320x320x320, .f32⟩
  | 105 => ⟨S320x320x320, .f32⟩
  | 106 => ⟨S320x320x320, .f32⟩
  | 107 => ⟨S_, .f32⟩
  | 108 => ⟨S320, .f32⟩
  | 109 => ⟨S_, .f32⟩
  | 110 => ⟨S320, .f32⟩
  | 111 => ⟨S320, .f32⟩
  | 112 => ⟨S320x1, .f32⟩
  | 113 => ⟨S_, .f32⟩
  | 114 => ⟨S320x320x320, .f32⟩
  | 115 => ⟨S320x320x320, .f32⟩
  | 116 => ⟨S_, .f32⟩
  | 117 => ⟨S320x320x320, .f32⟩
  | 118 => ⟨S320x320x320, .f32⟩
  | 119 => ⟨S_, .f32⟩
  | 120 => ⟨S320x320x320, .f32⟩
  | 121 => ⟨S320x320x320, .f32⟩
  | 122 => ⟨S_, .f32⟩
  | 123 => ⟨S320x320x320, .f32⟩
  | 124 => ⟨S320x320x320, .f32⟩
  | 125 => ⟨S320x320x320, .f32⟩
  | 126 => ⟨S320x320x320, .f32⟩
  | 127 => ⟨S320x320x320, .f32⟩
  | _ => ⟨S320x1, .f32⟩

abbrev hbmTy0_2 (i : Nat) : BufTy := match i % 128 with
  | 0 => ⟨S_, .f32⟩
  | 1 => ⟨S320, .f32⟩
  | 2 => ⟨S_, .f32⟩
  | 3 => ⟨S320, .f32⟩
  | 4 => ⟨S320, .f32⟩
  | 5 => ⟨S320x1, .f32⟩
  | 6 => ⟨S_, .f32⟩
  | 7 => ⟨S320x320x320, .f32⟩
  | 8 => ⟨S320x320x320, .f32⟩
  | 9 => ⟨S_, .f32⟩
  | 10 => ⟨S320x320x320, .f32⟩
  | 11 => ⟨S320x320x320, .f32⟩
  | 12 => ⟨S_, .f32⟩
  | 13 => ⟨S320x320x320, .f32⟩
  | 14 => ⟨S320x320x320, .f32⟩
  | 15 => ⟨S_, .f32⟩
  | 16 => ⟨S320x320x320, .f32⟩
  | 17 => ⟨S320x320x320, .f32⟩
  | 18 => ⟨S320x320x320, .f32⟩
  | 19 => ⟨S320x320x320, .f32⟩
  | 20 => ⟨S320x320x320, .f32⟩
  | 21 => ⟨S_, .f32⟩
  | 22 => ⟨S320, .f32⟩
  | 23 => ⟨S_, .f32⟩
  | 24 => ⟨S320, .f32⟩
  | 25 => ⟨S320, .f32⟩
  | 26 => ⟨S320x1, .f32⟩
  | 27 => ⟨S_, .f32⟩
  | 28 => ⟨S320x320x320, .f32⟩
  | 29 => ⟨S320x320x320, .f32⟩
  | 30 => ⟨S_, .f32⟩
  | 31 => ⟨S320x320x320, .f32⟩
  | 32 => ⟨S320x320x320, .f32⟩
  | 33 => ⟨S_, .f32⟩
  | 34 => ⟨S320x320x320, .f32⟩
  | 35 => ⟨S320x320x320, .f32⟩
  | 36 => ⟨S_, .f32⟩
  | 37 => ⟨S320x320x320, .f32⟩
  | 38 => ⟨S320x320x320, .f32⟩
  | 39 => ⟨S320x320x320, .f32⟩
  | 40 => ⟨S320x320x320, .f32⟩
  | 41 => ⟨S320x320x320, .f32⟩
  | 42 => ⟨S_, .f32⟩
  | 43 => ⟨S320, .f32⟩
  | 44 => ⟨S_, .f32⟩
  | 45 => ⟨S320, .f32⟩
  | 46 => ⟨S320, .f32⟩
  | 47 => ⟨S320x1, .f32⟩
  | 48 => ⟨S_, .f32⟩
  | 49 => ⟨S320x320x320, .f32⟩
  | 50 => ⟨S320x320x320, .f32⟩
  | 51 => ⟨S_, .f32⟩
  | 52 => ⟨S320x320x320, .f32⟩
  | 53 => ⟨S320x320x320, .f32⟩
  | 54 => ⟨S_, .f32⟩
  | 55 => ⟨S320x320x320, .f32⟩
  | 56 => ⟨S320x320x320, .f32⟩
  | 57 => ⟨S_, .f32⟩
  | 58 => ⟨S320x320x320, .f32⟩
  | 59 => ⟨S320x320x320, .f32⟩
  | 60 => ⟨S320x320x320, .f32⟩
  | 61 => ⟨S320x320x320, .f32⟩
  | 62 => ⟨S320x320x320, .f32⟩
  | 63 => ⟨S_, .f32⟩
  | 64 => ⟨S320, .f32⟩
  | 65 => ⟨S_, .f32⟩
  | 66 => ⟨S320, .f32⟩
  | 67 => ⟨S320, .f32⟩
  | 68 => ⟨S320x1, .f32⟩
  | 69 => ⟨S_, .f32⟩
  | 70 => ⟨S320x320x320, .f32⟩
  | 71 => ⟨S320x320x320, .f32⟩
  | 72 => ⟨S_, .f32⟩
  | 73 => ⟨S320x320x320, .f32⟩
  | 74 => ⟨S320x320x320, .f32⟩
  | 75 => ⟨S_, .f32⟩
  | 76 => ⟨S320x320x320, .f32⟩
  | 77 => ⟨S320x320x320, .f32⟩
  | 78 => ⟨S_, .f32⟩
  | 79 => ⟨S320x320x320, .f32⟩
  | 80 => ⟨S320x320x320, .f32⟩
  | 81 => ⟨S320x320x320, .f32⟩
  | 82 => ⟨S320x320x320, .f32⟩
  | 83 => ⟨S320x320x320, .f32⟩
  | 84 => ⟨S_, .f32⟩
  | 85 => ⟨S320, .f32⟩
  | 86 => ⟨S_, .f32⟩
  | 87 => ⟨S320, .f32⟩
  | 88 => ⟨S320, .f32⟩
  | 89 => ⟨S320x1, .f32⟩
  | 90 => ⟨S_, .f32⟩
  | 91 => ⟨S320x320x320, .f32⟩
  | 92 => ⟨S320x320x320, .f32⟩
  | 93 => ⟨S_, .f32⟩
  | 94 => ⟨S320x320x320, .f32⟩
  | 95 => ⟨S320x320x320, .f32⟩
  | 96 => ⟨S_, .f32⟩
  | 97 => ⟨S320x320x320, .f32⟩
  | 98 => ⟨S320x320x320, .f32⟩
  | 99 => ⟨S_, .f32⟩
  | 100 => ⟨S320x320x320, .f32⟩
  | 101 => ⟨S320x320x320, .f32⟩
  | 102 => ⟨S320x320x320, .f32⟩
  | 103 => ⟨S320x320x320, .f32⟩
  | 104 => ⟨S320x320x320, .f32⟩
  | 105 => ⟨S_, .f32⟩
  | 106 => ⟨S320, .f32⟩
  | 107 => ⟨S_, .f32⟩
  | 108 => ⟨S320, .f32⟩
  | 109 => ⟨S320, .f32⟩
  | 110 => ⟨S320x1, .f32⟩
  | 111 => ⟨S_, .f32⟩
  | 112 => ⟨S320x320x320, .f32⟩
  | 113 => ⟨S320x320x320, .f32⟩
  | 114 => ⟨S_, .f32⟩
  | 115 => ⟨S320x320x320, .f32⟩
  | 116 => ⟨S320x320x320, .f32⟩
  | 117 => ⟨S_, .f32⟩
  | 118 => ⟨S320x320x320, .f32⟩
  | 119 => ⟨S320x320x320, .f32⟩
  | 120 => ⟨S_, .f32⟩
  | 121 => ⟨S320x320x320, .f32⟩
  | 122 => ⟨S320x320x320, .f32⟩
  | 123 => ⟨S320x320x320, .f32⟩
  | 124 => ⟨S320x320x320, .f32⟩
  | 125 => ⟨S320x320x320, .f32⟩
  | 126 => ⟨S_, .f32⟩
  | 127 => ⟨S320, .f32⟩
  | _ => ⟨S320x1, .f32⟩

abbrev hbmTy0_3 (i : Nat) : BufTy := match i % 128 with
  | 0 => ⟨S_, .f32⟩
  | 1 => ⟨S320, .f32⟩
  | 2 => ⟨S320, .f32⟩
  | 3 => ⟨S320x1, .f32⟩
  | 4 => ⟨S320x16, .f32⟩
  | 5 => ⟨S320x6, .f32⟩
  | 6 => ⟨S320x22, .f32⟩
  | _ => ⟨S320x1, .f32⟩

abbrev hbmTy (i : Nat) : BufTy := match i / 128 with
  | 0 => hbmTy0_0 i
  | 1 => hbmTy0_1 i
  | 2 => hbmTy0_2 i
  | 3 => hbmTy0_3 i
  | _ => ⟨S320x1, .f32⟩

abbrev bufTy : (tb : Table) → Fin (tcTables nBuf tb) → BufTy
  | .hbm, ⟨i, _⟩ => hbmTy i
  | _, _ => ⟨S320x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_call1_v0 : Ref sig .tc := ⟨.hbm, 19, rfl⟩
abbrev main_call1_v1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_call2_v0 : Ref sig .tc := ⟨.hbm, 46, rfl⟩
abbrev main_call2_v1 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_v34 : Ref sig .tc := ⟨.hbm, 55, rfl⟩
abbrev main_cst_11 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_12 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_13 : Ref sig .tc := ⟨.hbm, 65, rfl⟩
abbrev main_v42 : Ref sig .tc := ⟨.hbm, 66, rfl⟩
abbrev main_v43 : Ref sig .tc := ⟨.hbm, 67, rfl⟩
abbrev main_cst_14 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_15 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_16 : Ref sig .tc := ⟨.hbm, 77, rfl⟩
abbrev main_v51 : Ref sig .tc := ⟨.hbm, 78, rfl⟩
abbrev main_v52 : Ref sig .tc := ⟨.hbm, 79, rfl⟩
abbrev main_cst_17 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_18 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_19 : Ref sig .tc := ⟨.hbm, 89, rfl⟩
abbrev main_v60 : Ref sig .tc := ⟨.hbm, 90, rfl⟩
abbrev main_v61 : Ref sig .tc := ⟨.hbm, 91, rfl⟩
abbrev main_cst_20 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_21 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_22 : Ref sig .tc := ⟨.hbm, 101, rfl⟩
abbrev main_v69 : Ref sig .tc := ⟨.hbm, 102, rfl⟩
abbrev main_v70 : Ref sig .tc := ⟨.hbm, 103, rfl⟩
abbrev main_cst_23 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_24 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_25 : Ref sig .tc := ⟨.hbm, 113, rfl⟩
abbrev main_v78 : Ref sig .tc := ⟨.hbm, 114, rfl⟩
abbrev main_v79 : Ref sig .tc := ⟨.hbm, 115, rfl⟩
abbrev main_cst_26 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_27 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_28 : Ref sig .tc := ⟨.hbm, 125, rfl⟩
abbrev main_v87 : Ref sig .tc := ⟨.hbm, 126, rfl⟩
abbrev main_v88 : Ref sig .tc := ⟨.hbm, 127, rfl⟩
abbrev main_cst_29 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_30 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_31 : Ref sig .tc := ⟨.hbm, 137, rfl⟩
abbrev main_v96 : Ref sig .tc := ⟨.hbm, 138, rfl⟩
abbrev main_v97 : Ref sig .tc := ⟨.hbm, 139, rfl⟩
abbrev main_cst_32 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_33 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_34 : Ref sig .tc := ⟨.hbm, 149, rfl⟩
abbrev main_v105 : Ref sig .tc := ⟨.hbm, 150, rfl⟩
abbrev main_v106 : Ref sig .tc := ⟨.hbm, 151, rfl⟩
abbrev main_cst_35 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_36 : Ref sig .tc := ⟨.hbm, 157, rfl⟩
abbrev main_v111 : Ref sig .tc := ⟨.hbm, 158, rfl⟩
abbrev main_v112 : Ref sig .tc := ⟨.hbm, 159, rfl⟩
abbrev main_cst_37 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_38 : Ref sig .tc := ⟨.hbm, 165, rfl⟩
abbrev main_v117 : Ref sig .tc := ⟨.hbm, 166, rfl⟩
abbrev main_v118 : Ref sig .tc := ⟨.hbm, 167, rfl⟩
abbrev main_cst_39 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_cst_40 : Ref sig .tc := ⟨.hbm, 173, rfl⟩
abbrev main_v123 : Ref sig .tc := ⟨.hbm, 174, rfl⟩
abbrev main_v124 : Ref sig .tc := ⟨.hbm, 175, rfl⟩
abbrev main_cst_41 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_cst_42 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_cst_43 : Ref sig .tc := ⟨.hbm, 190, rfl⟩
abbrev main_v137 : Ref sig .tc := ⟨.hbm, 191, rfl⟩
abbrev main_v138 : Ref sig .tc := ⟨.hbm, 192, rfl⟩
abbrev main_cst_44 : Ref sig .tc := ⟨.hbm, 193, rfl⟩
abbrev main_call3_v0 : Ref sig .tc := ⟨.hbm, 194, rfl⟩
abbrev main_call3_v1 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_cst_45 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_cst_46 : Ref sig .tc := ⟨.hbm, 220, rfl⟩
abbrev main_v162 : Ref sig .tc := ⟨.hbm, 221, rfl⟩
abbrev main_v163 : Ref sig .tc := ⟨.hbm, 222, rfl⟩
abbrev main_cst_47 : Ref sig .tc := ⟨.hbm, 223, rfl⟩
abbrev main_v164 : Ref sig .tc := ⟨.hbm, 224, rfl⟩
abbrev main_v165 : Ref sig .tc := ⟨.hbm, 225, rfl⟩
abbrev main_cst_48 : Ref sig .tc := ⟨.hbm, 226, rfl⟩
abbrev main_v166 : Ref sig .tc := ⟨.hbm, 227, rfl⟩
abbrev main_v167 : Ref sig .tc := ⟨.hbm, 228, rfl⟩
abbrev main_cst_49 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_cst_50 : Ref sig .tc := ⟨.hbm, 235, rfl⟩
abbrev main_v173 : Ref sig .tc := ⟨.hbm, 236, rfl⟩
abbrev main_cst_51 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_cst_52 : Ref sig .tc := ⟨.hbm, 241, rfl⟩
abbrev main_v177 : Ref sig .tc := ⟨.hbm, 242, rfl⟩
abbrev main_v178 : Ref sig .tc := ⟨.hbm, 243, rfl⟩
abbrev main_cst_53 : Ref sig .tc := ⟨.hbm, 244, rfl⟩
abbrev main_v179 : Ref sig .tc := ⟨.hbm, 245, rfl⟩
abbrev main_v180 : Ref sig .tc := ⟨.hbm, 246, rfl⟩
abbrev main_cst_54 : Ref sig .tc := ⟨.hbm, 247, rfl⟩
abbrev main_v181 : Ref sig .tc := ⟨.hbm, 248, rfl⟩
abbrev main_v182 : Ref sig .tc := ⟨.hbm, 249, rfl⟩
abbrev main_cst_55 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_cst_56 : Ref sig .tc := ⟨.hbm, 256, rfl⟩
abbrev main_v188 : Ref sig .tc := ⟨.hbm, 257, rfl⟩
abbrev main_cst_57 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_cst_58 : Ref sig .tc := ⟨.hbm, 262, rfl⟩
abbrev main_v192 : Ref sig .tc := ⟨.hbm, 263, rfl⟩
abbrev main_v193 : Ref sig .tc := ⟨.hbm, 264, rfl⟩
abbrev main_cst_59 : Ref sig .tc := ⟨.hbm, 265, rfl⟩
abbrev main_v194 : Ref sig .tc := ⟨.hbm, 266, rfl⟩
abbrev main_v195 : Ref sig .tc := ⟨.hbm, 267, rfl⟩
abbrev main_cst_60 : Ref sig .tc := ⟨.hbm, 268, rfl⟩
abbrev main_v196 : Ref sig .tc := ⟨.hbm, 269, rfl⟩
abbrev main_v197 : Ref sig .tc := ⟨.hbm, 270, rfl⟩
abbrev main_cst_61 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_cst_62 : Ref sig .tc := ⟨.hbm, 277, rfl⟩
abbrev main_v203 : Ref sig .tc := ⟨.hbm, 278, rfl⟩
abbrev main_cst_63 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_cst_64 : Ref sig .tc := ⟨.hbm, 283, rfl⟩
abbrev main_v207 : Ref sig .tc := ⟨.hbm, 284, rfl⟩
abbrev main_v208 : Ref sig .tc := ⟨.hbm, 285, rfl⟩
abbrev main_cst_65 : Ref sig .tc := ⟨.hbm, 286, rfl⟩
abbrev main_v209 : Ref sig .tc := ⟨.hbm, 287, rfl⟩
abbrev main_v210 : Ref sig .tc := ⟨.hbm, 288, rfl⟩
abbrev main_cst_66 : Ref sig .tc := ⟨.hbm, 289, rfl⟩
abbrev main_v211 : Ref sig .tc := ⟨.hbm, 290, rfl⟩
abbrev main_v212 : Ref sig .tc := ⟨.hbm, 291, rfl⟩
abbrev main_cst_67 : Ref sig .tc := ⟨.hbm, 292, rfl⟩
abbrev main_v213 : Ref sig .tc := ⟨.hbm, 293, rfl⟩
abbrev main_v214 : Ref sig .tc := ⟨.hbm, 294, rfl⟩
abbrev main_v215 : Ref sig .tc := ⟨.hbm, 295, rfl⟩
abbrev main_v216 : Ref sig .tc := ⟨.hbm, 296, rfl⟩
abbrev main_v217 : Ref sig .tc := ⟨.hbm, 297, rfl⟩
abbrev main_cst_68 : Ref sig .tc := ⟨.hbm, 298, rfl⟩
abbrev main_v218 : Ref sig .tc := ⟨.hbm, 299, rfl⟩
abbrev main_cst_69 : Ref sig .tc := ⟨.hbm, 300, rfl⟩
abbrev main_v219 : Ref sig .tc := ⟨.hbm, 301, rfl⟩
abbrev main_v220 : Ref sig .tc := ⟨.hbm, 302, rfl⟩
abbrev main_v221 : Ref sig .tc := ⟨.hbm, 303, rfl⟩
abbrev main_cst_70 : Ref sig .tc := ⟨.hbm, 304, rfl⟩
abbrev main_v222 : Ref sig .tc := ⟨.hbm, 305, rfl⟩
abbrev main_v223 : Ref sig .tc := ⟨.hbm, 306, rfl⟩
abbrev main_cst_71 : Ref sig .tc := ⟨.hbm, 307, rfl⟩
abbrev main_v224 : Ref sig .tc := ⟨.hbm, 308, rfl⟩
abbrev main_v225 : Ref sig .tc := ⟨.hbm, 309, rfl⟩
abbrev main_cst_72 : Ref sig .tc := ⟨.hbm, 310, rfl⟩
abbrev main_v226 : Ref sig .tc := ⟨.hbm, 311, rfl⟩
abbrev main_v227 : Ref sig .tc := ⟨.hbm, 312, rfl⟩
abbrev main_cst_73 : Ref sig .tc := ⟨.hbm, 313, rfl⟩
abbrev main_v228 : Ref sig .tc := ⟨.hbm, 314, rfl⟩
abbrev main_v229 : Ref sig .tc := ⟨.hbm, 315, rfl⟩
abbrev main_v230 : Ref sig .tc := ⟨.hbm, 316, rfl⟩
abbrev main_v231 : Ref sig .tc := ⟨.hbm, 317, rfl⟩
abbrev main_v232 : Ref sig .tc := ⟨.hbm, 318, rfl⟩
abbrev main_cst_74 : Ref sig .tc := ⟨.hbm, 319, rfl⟩
abbrev main_v233 : Ref sig .tc := ⟨.hbm, 320, rfl⟩
abbrev main_cst_75 : Ref sig .tc := ⟨.hbm, 321, rfl⟩
abbrev main_v234 : Ref sig .tc := ⟨.hbm, 322, rfl⟩
abbrev main_v235 : Ref sig .tc := ⟨.hbm, 323, rfl⟩
abbrev main_v236 : Ref sig .tc := ⟨.hbm, 324, rfl⟩
abbrev main_cst_76 : Ref sig .tc := ⟨.hbm, 325, rfl⟩
abbrev main_v237 : Ref sig .tc := ⟨.hbm, 326, rfl⟩
abbrev main_v238 : Ref sig .tc := ⟨.hbm, 327, rfl⟩
abbrev main_cst_77 : Ref sig .tc := ⟨.hbm, 328, rfl⟩
abbrev main_v239 : Ref sig .tc := ⟨.hbm, 329, rfl⟩
abbrev main_v240 : Ref sig .tc := ⟨.hbm, 330, rfl⟩
abbrev main_cst_78 : Ref sig .tc := ⟨.hbm, 331, rfl⟩
abbrev main_v241 : Ref sig .tc := ⟨.hbm, 332, rfl⟩
abbrev main_v242 : Ref sig .tc := ⟨.hbm, 333, rfl⟩
abbrev main_cst_79 : Ref sig .tc := ⟨.hbm, 334, rfl⟩
abbrev main_v243 : Ref sig .tc := ⟨.hbm, 335, rfl⟩
abbrev main_v244 : Ref sig .tc := ⟨.hbm, 336, rfl⟩
abbrev main_v245 : Ref sig .tc := ⟨.hbm, 337, rfl⟩
abbrev main_v246 : Ref sig .tc := ⟨.hbm, 338, rfl⟩
abbrev main_v247 : Ref sig .tc := ⟨.hbm, 339, rfl⟩
abbrev main_cst_80 : Ref sig .tc := ⟨.hbm, 340, rfl⟩
abbrev main_v248 : Ref sig .tc := ⟨.hbm, 341, rfl⟩
abbrev main_cst_81 : Ref sig .tc := ⟨.hbm, 342, rfl⟩
abbrev main_v249 : Ref sig .tc := ⟨.hbm, 343, rfl⟩
abbrev main_v250 : Ref sig .tc := ⟨.hbm, 344, rfl⟩
abbrev main_v251 : Ref sig .tc := ⟨.hbm, 345, rfl⟩
abbrev main_cst_82 : Ref sig .tc := ⟨.hbm, 346, rfl⟩
abbrev main_v252 : Ref sig .tc := ⟨.hbm, 347, rfl⟩
abbrev main_v253 : Ref sig .tc := ⟨.hbm, 348, rfl⟩
abbrev main_cst_83 : Ref sig .tc := ⟨.hbm, 349, rfl⟩
abbrev main_v254 : Ref sig .tc := ⟨.hbm, 350, rfl⟩
abbrev main_v255 : Ref sig .tc := ⟨.hbm, 351, rfl⟩
abbrev main_cst_84 : Ref sig .tc := ⟨.hbm, 352, rfl⟩
abbrev main_v256 : Ref sig .tc := ⟨.hbm, 353, rfl⟩
abbrev main_v257 : Ref sig .tc := ⟨.hbm, 354, rfl⟩
abbrev main_cst_85 : Ref sig .tc := ⟨.hbm, 355, rfl⟩
abbrev main_v258 : Ref sig .tc := ⟨.hbm, 356, rfl⟩
abbrev main_v259 : Ref sig .tc := ⟨.hbm, 357, rfl⟩
abbrev main_v260 : Ref sig .tc := ⟨.hbm, 358, rfl⟩
abbrev main_v261 : Ref sig .tc := ⟨.hbm, 359, rfl⟩
abbrev main_v262 : Ref sig .tc := ⟨.hbm, 360, rfl⟩
abbrev main_cst_86 : Ref sig .tc := ⟨.hbm, 361, rfl⟩
abbrev main_v263 : Ref sig .tc := ⟨.hbm, 362, rfl⟩
abbrev main_cst_87 : Ref sig .tc := ⟨.hbm, 363, rfl⟩
abbrev main_v264 : Ref sig .tc := ⟨.hbm, 364, rfl⟩
abbrev main_v265 : Ref sig .tc := ⟨.hbm, 365, rfl⟩
abbrev main_v266 : Ref sig .tc := ⟨.hbm, 366, rfl⟩
abbrev main_cst_88 : Ref sig .tc := ⟨.hbm, 367, rfl⟩
abbrev main_v267 : Ref sig .tc := ⟨.hbm, 368, rfl⟩
abbrev main_v268 : Ref sig .tc := ⟨.hbm, 369, rfl⟩
abbrev main_cst_89 : Ref sig .tc := ⟨.hbm, 370, rfl⟩
abbrev main_v269 : Ref sig .tc := ⟨.hbm, 371, rfl⟩
abbrev main_v270 : Ref sig .tc := ⟨.hbm, 372, rfl⟩
abbrev main_cst_90 : Ref sig .tc := ⟨.hbm, 373, rfl⟩
abbrev main_v271 : Ref sig .tc := ⟨.hbm, 374, rfl⟩
abbrev main_v272 : Ref sig .tc := ⟨.hbm, 375, rfl⟩
abbrev main_cst_91 : Ref sig .tc := ⟨.hbm, 376, rfl⟩
abbrev main_v273 : Ref sig .tc := ⟨.hbm, 377, rfl⟩
abbrev main_v274 : Ref sig .tc := ⟨.hbm, 378, rfl⟩
abbrev main_v275 : Ref sig .tc := ⟨.hbm, 379, rfl⟩
abbrev main_v276 : Ref sig .tc := ⟨.hbm, 380, rfl⟩
abbrev main_v277 : Ref sig .tc := ⟨.hbm, 381, rfl⟩
abbrev main_cst_92 : Ref sig .tc := ⟨.hbm, 382, rfl⟩
abbrev main_v278 : Ref sig .tc := ⟨.hbm, 383, rfl⟩
abbrev main_cst_93 : Ref sig .tc := ⟨.hbm, 384, rfl⟩
abbrev main_v279 : Ref sig .tc := ⟨.hbm, 385, rfl⟩
abbrev main_v280 : Ref sig .tc := ⟨.hbm, 386, rfl⟩
abbrev main_v281 : Ref sig .tc := ⟨.hbm, 387, rfl⟩
abbrev main_v282 : Ref sig .tc := ⟨.hbm, 388, rfl⟩
abbrev main_v283 : Ref sig .tc := ⟨.hbm, 389, rfl⟩
abbrev main_v284 : Ref sig .tc := ⟨.hbm, 390, rfl⟩

abbrev nD : Nat := 1
abbrev τ : Topo := Topo.v7x

variable {F : FTy → Type} [FloatOps F]

class Facts₀ : Prop where
  bcast_S320x3_S320x1x3_0_2 : S320x3.BroadcastsInDim S320x1x3 (![0, 2] : Fin 2 → Fin S320x1x3.rank)
  bcast_S320x3_S1x320x3_1_2 : S320x3.BroadcastsInDim S1x320x3 (![1, 2] : Fin 2 → Fin S1x320x3.rank)
  bcast_S320x1x3_S320x320x3_0_1_2 : S320x1x3.BroadcastsInDim S320x320x3 (![0, 1, 2] : Fin 3 → Fin S320x320x3.rank)
  bcast_S1x320x3_S320x320x3_0_1_2 : S1x320x3.BroadcastsInDim S320x320x3 (![0, 1, 2] : Fin 3 → Fin S320x320x3.rank)
  reducesTo_S320x320x3_S320x320_d2 : S320x320x3.ReducesTo [2] S320x320
  h_S_ : 0 < S_.numel
  bcast_S_S320x320 : S_.BroadcastsInDim S320x320 (![] : Fin 0 → Fin S320x320.rank)
  reducesTo_S320x320_S320_d1 : S320x320.ReducesTo [1] S320
  bcast_S320_S320x1_0 : S320.BroadcastsInDim S320x1 (![0] : Fin 1 → Fin S320x1.rank)
  bcast_S320x320_S320x320x1_0_1 : S320x320.BroadcastsInDim S320x320x1 (![0, 1] : Fin 2 → Fin S320x320x1.rank)
  bcast_S320x320_S320x1x320_0_2 : S320x320.BroadcastsInDim S320x1x320 (![0, 2] : Fin 2 → Fin S320x1x320.rank)
  bcast_S320x320x1_S320x320x320_0_1_2 : S320x320x1.BroadcastsInDim S320x320x320 (![0, 1, 2] : Fin 3 → Fin S320x320x320.rank)
  bcast_S320x1x320_S320x320x320_0_1_2 : S320x1x320.BroadcastsInDim S320x320x320 (![0, 1, 2] : Fin 3 → Fin S320x320x320.rank)
  bcast_S_S320x320x320 : S_.BroadcastsInDim S320x320x320 (![] : Fin 0 → Fin S320x320x320.rank)
  bcast_S320x320_S1x320x320_1_2 : S320x320.BroadcastsInDim S1x320x320 (![1, 2] : Fin 2 → Fin S1x320x320.rank)
  bcast_S1x320x320_S320x320x320_0_1_2 : S1x320x320.BroadcastsInDim S320x320x320 (![0, 1, 2] : Fin 3 → Fin S320x320x320.rank)
  reducesTo_S320x320x320_S320_d1_2 : S320x320x320.ReducesTo [1, 2] S320
  bcast_S_S320 : S_.BroadcastsInDim S320 (![] : Fin 0 → Fin S320.rank)
  concatenates_S320x1_S320x1_S320x1_S320x1_S320x1_S320x1_S320x1_S320x1_S320x1_S320x1_S320x1_S320x1_S320x1_S320x1_S320x1_S320x1_S320x16_d1 : Shape.Concatenates [S320x1, S320x1, S320x1, S320x1, S320x1, S320x1, S320x1, S320x1, S320x1, S320x1, S320x1, S320x1, S320x1, S320x1, S320x1, S320x1] S320x16 1
  concatenates_S320x1_S320x1_S320x1_S320x1_S320x1_S320x1_S320x6_d1 : Shape.Concatenates [S320x1, S320x1, S320x1, S320x1, S320x1, S320x1] S320x6 1
  concatenates_S320x16_S320x6_S320x22_d1 : Shape.Concatenates [S320x16, S320x6] S320x22 1
  dot_S320x320x3_S320x320x3_S320x320x320_2_2_1_1_0_0_wf : DotDims.WF S320x320x3 S320x320x3 S320x320x320 [2] [2] [1] [1] [0] [0]

variable [Facts₀]

def dot_S320x320x3_S320x320x3_S320x320x320_2_2_1_1_0_0 : DotDims S320x320x3 S320x320x3 S320x320x320 where
  lhsContracting := [2]
  rhsContracting := [2]
  lhsNonContracting := [1]
  rhsNonContracting := [1]
  lhsBatch := [0]
  rhsBatch := [0]
  wf := dot_S320x320x3_S320x320x3_S320x320x320_2_2_1_1_0_0_wf

class Facts : Prop extends Facts₀ where

variable [Facts]
-- ==== Proof.KernelVal.lean ====
/-
  What one grid step of the kernel stores into its output block, as ONE pure function of the five
  vectors the body loads: the step's 8 atomic numbers `z`, its 8 coordinate rows `xt`, all 320 coordinate
  rows `xf`, and the two 320×320 pair-weight planes `wa`, `wb` (one per radial width of the angular
  terms). The body computes, for each of its 8 atoms, 22 features: the atomic number, the radial sums
  (one plain, eight Gaussian, four cosine) over the other atoms inside the cutoff, and the eight angular
  sums over ordered pairs of neighbours — four without and four with the pair weight. Every intermediate
  value is the generated payload of the same name; this module only composes them in the order the body does.
-/
import proofs.«101160_j40054865002568_2_alg».proof.Proof.Gen.Kernel.Skeleton

noncomputable section

namespace Cert.Kernel.Body

open Idealize.ShloMosaic Cert.Kernel Cert.Kernel.Gen

variable {F : FTy → Type} [FloatOps F]

/-- The 8×22 block of features grid step `i` stores, from the vectors it loads. -/
def tileVal (i : grid0.Coords) (z : Vec F S8x1 .f32) (xt : Vec F S8x3 .f32) (xf : Vec F S320x3 .f32)
    (wa wb : Vec F S1x320x320 .f32) : FVec F S8x22 .f32 :=
  let v8 := k0_pay2 xt xf
  let v10 := k0_pay3 xt xf
  let v17 := k0_pay4 xt xf
  let v40 := k0_pay5 i xt xf
  let v85 := k0_pay11 v17 v40
  let v130 := k0_pay18 v17 v40
  let v149 := k0_pay21 v8 v17
  let v154 := k0_pay22 v10
  let v167 := k0_pay23 v40
  let v170 := k0_pay24 v10
  let v173 := k0_pay25 wa
  let v177 := k0_pay26 v8 v17
  let c1 : F .f32 := Scalar.ofBits .f32 0x3F800000#32
  let v217 := k0_pay33 v154
  k0_pay1 z (k0_pay6 v40) (k0_pay7 v17 v40) (k0_pay8 v17 v40) (k0_pay9 v17 v40) (k0_pay10 v17 v40)
    (k0_pay12 v85) (k0_pay13 v17 v40) (k0_pay14 v17 v40) (k0_pay15 v17 v40) (k0_pay16 v17 v40) (k0_pay17 v17 v40)
    (k0_pay19 v130) (k0_pay20 v17 v40)
    (k0_pay28 v167 v170 v177 c1) (k0_pay29 v167 v170 v173 v177 c1) (k0_pay31 v149 v167 v170) (k0_pay32 v149 v167 v170 v173)
    (k0_pay36 v149 v167 v217) (k0_pay37 v149 v167 v217 wb) (k0_pay39 v149 v167 v217) (k0_pay40 v149 v167 v217 wb)

end Cert.Kernel.Body

end
-- ==== Proof.KernelBody.lean ====
/-
  The launch side of the kernel's run, part one: the program up to its one region, and one grid step of the body.

  Before the region the program computes, with host operations, the two 320×320 pair-weight planes from the
  coordinates; the region then visits 40 grid steps. At step t the body is handed five staging buffers: rows
  8t … 8t+7 of the atomic numbers, the same rows of the coordinates, ALL the coordinates (the same array, read
  through a second window), the two weight planes, and the block of 8×22 results to fill. The body loads the
  first four, computes the 22 features of its 8 atoms (`Body.tileVal`) and stores them over the whole result block.
  Here: what each buffer holds when the region is entered (`V`), the block of each window at a step (`iblk`),
  that an input window's staging buffer holds exactly its block whenever the body runs, and the body's
  specification as a separation-logic triple: inputs unchanged, the result block overwritten by `tileVal`.
-/
import proofs.«101160_j40054865002568_2_alg».proof.Proof.Gen.Kernel.Launch
import proofs.«101160_j40054865002568_2_alg».proof.Proof.Gen.Kernel.Skeleton
import proofs.«101160_j40054865002568_2_alg».proof.Proof.Gen.Kernel.Points
import proofs.«101160_j40054865002568_2_alg».proof.Proof.KernelVal
import Idealize.ShloMosaic.Lib.Pipeline.FrameBody
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- The program is its seven stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation writes the atomic numbers: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Nor the coordinates. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at step `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every step, whether the step fetched it or an
    earlier one did and the block has not moved since — for any proof data whose array is the region-entry
    contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S8x1 := Rect.unit (s := S8x1) ![0, 0] S8x1.size inb_S8x1_S8x1_0_0
abbrev r0_1 : Rect S8x3 := Rect.unit (s := S8x3) ![0, 0] S8x3.size inb_S8x3_S8x3_0_0
abbrev r0_2 : Rect S320x3 := Rect.unit (s := S320x3) ![0, 0] S320x3.size inb_S320x3_S320x3_0_0
abbrev r0_3a : Rect S2x320x320 := Rect.unit (s := S2x320x320) ![0, 0, 0] S1x320x320.size inb_S2x320x320_S1x320x320_0_0_0
abbrev r0_3b : Rect S2x320x320 := Rect.unit (s := S2x320x320) ![1, 0, 0] S1x320x320.size inb_S2x320x320_S1x320x320_1_0_0
abbrev r0_4 : Rect S8x22 := Rect.unit (s := S8x22) ![0, 0] S8x22.size inb_S8x22_S8x22_0_0

/-! ## What the body leaves in the result block -/

/-- The result block after the body at grid coordinates `i`: its one store, covering the block, of the step's
    features computed from what the four input buffers hold. -/
def out0_4 (i : grid0.Coords) (x0 : Vec F S8x1 .f32) (x1 : Vec F S8x3 .f32) (x2 : Vec F S320x3 .f32) (x3 : Vec F S2x320x320 .f32) : Vec F S8x22 .f32 :=
  View.canon [⟨r0_4, tileVal i (View.ld x0 r0_0) (View.ld x1 r0_1) (View.ld x2 r0_2) (View.ld x3 r0_3a) (View.ld x3 r0_3b)⟩]

/-- The one store tiles the block. -/
theorem cover0_4 (p0 : Vec F S8x22 .f32) (y : S8x22.Idx) :
    ∃ pc ∈ ([⟨r0_4, p0⟩] : List (View.Piece (Elt F) S8x22 .f32)), y ∈ pc.1.set :=
  View.cover_of_tiled [⟨r0_4, p0⟩] S8x22.size (by rfl) y

/-! ## The body's triple -/

set_option maxHeartbeats 4000000 in
/-- The body on whole staging buffers — the inputs at contents `x0 … x3`, the result block at anything — runs to
    its return with the inputs as they were and the result block at `out0_4`. -/
theorem sound_kernel (c : Dev nD) (E : Set ℕ) (i : grid0.Coords)
    (arg1 : Memref sig .tc .vmem S8x1 .f32) (harg1 : arg1.IsWhole) (arg2 : Memref sig .tc .vmem S8x3 .f32) (harg2 : arg2.IsWhole)
    (arg3 : Memref sig .tc .vmem S320x3 .f32) (harg3 : arg3.IsWhole) (arg4 : Memref sig .tc .vmem S2x320x320 .f32) (harg4 : arg4.IsWhole)
    (arg5 : Memref sig .tc .vmem S8x22 .f32) (harg5 : arg5.IsWhole)
    (x0 : Vec F S8x1 .f32) (x1 : Vec F S8x3 .f32) (x2 : Vec F S320x3 .f32) (x3 : Vec F S2x320x320 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 i x0 x1 x2 x3)) -∗ K ⟨⟩))
      ⊢ wp frame (wpE (defs₀ (F := F)) Variants.none c none) E (cc0__gnn_kernel i arg1 harg1 arg2 harg2 arg3 harg3 arg4 harg4 arg5 harg5) K := by
  simp only [cc0__gnn_kernel_eq_skeleton]; unfold cc0__gnn_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover0_4 _)

end Cert.Kernel.Fr

end
-- ==== Proof.LibSharedFrame.lean ====
/-
  A frame run for a pipelined kernel whose input windows may read ONE array through several windows.

  When every window has an array of its own, the launch hands each window its array whole. When two input
  windows read the same array (the kernel is given one operand twice, at different blockings), the array's
  one points-to must be divided among them: each window then holds the array at a fraction of the full
  share, and fractions of one array add up to the whole. This module states the frame run at such a
  division, left as a hypothesis (`hsplit`): the buffers behind the windows' arrays, each whole, yield the
  windows' arrays at the shares the proof data name. The conclusion is the library's frame post: after the
  run every windowed array holds what the proof data compute for it and every other unscoped buffer what it
  held when the region was entered.

  The kernel is assumed to use no semaphore of its own and no random generator; its invariant between grid
  points is any proposition the scoped buffers that are not staging buffers yield and give back.
-/
import Idealize.ShloMosaic.Lib.Pipeline.Frame

noncomputable section

namespace Idealize.ShloMosaic.Pipeline.SharedFrame

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The frame run of a kernel whose windows may share arrays. `hsplit` divides the buffers behind the arrays
    among the windows at the proof data's shares; `hin` / `hout` say the invariant is what the unstaged scoped
    buffers yield before the first point and give back after the last. -/
theorem θ_run_frame_shared
    (hinj : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, (scopedRest (cfg).spec c : sProp 𝕄) ⊢ (dats p c).Φ 0)
    (hout : ∀ c, (dats p c).Φ (Fin.last (cfg).N) ⊢ (scopedRest (cfg).spec c : sProp 𝕄)) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by
      iintro HU
      isplitr; · iempintro
      iexact HU)
    (hin := fun c => (show _ ⊢ (scopedRest (cfg).spec c : sProp 𝕄) from by iintro ⟨-, H⟩; iexact H).trans (hin c))
    (hout := fun c => (hout c).trans (by
      iintro H
      isplitr; · iempintro
      iexact H))
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end Idealize.ShloMosaic.Pipeline.SharedFrame

end
-- ==== Proof.KernelFrame.lean ====
/-
  The launch side of the kernel's run, part two: the proof data of the pipeline, the body at every grid step,
  and the run of the whole program.

  The coordinates array is read through two windows (8 rows at a time, and whole). Each of the two holds the
  array at half of the full share; the two halves make the whole, so the array's one points-to at the region's
  entry divides between them, and neither window can write it. Every other window holds its array whole.
  The run's conclusion: after the program every windowed array holds what the proof data compute for it — the
  two arguments what they held at launch, the result array its entry contents overwritten, block by block,
  by what each step's body left.
-/
import proofs.«101160_j40054865002568_2_alg».proof.Proof.KernelBody
import proofs.«101160_j40054865002568_2_alg».proof.Proof.LibSharedFrame

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The arrays as the region finds them; after the body at step `t` each input buffer at its block and the result
    block at the step's features; between steps the unstaged scoped buffers (there are none) untouched; the
    coordinates array at half a share for each of its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (grid0.coords t) (iblk m c 0 t) (iblk m c 1 t) (iblk m c 2 t) (iblk m c 3 t)
  Φ _ := Pipeline.scopedRest spec0 c
  q w := match w with
    | ⟨0, _⟩ => fullShare
    | ⟨1, _⟩ => (fullShare : PosShare TreeShare).left
    | ⟨2, _⟩ => (fullShare : PosShare TreeShare).right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (grid0.coords t) (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic step -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any step: the input buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The arrays at the region's entry, divided among the windows -/

/-- The four distinct buffers behind the five windows' arrays, each whole, are the five windows' arrays at
    their shares: the coordinates' points-to divides into the two halves its two windows hold. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_eq_bigSepL_of_eq [main_arg0, main_arg1, main_v43, main_v44] (by decide) (by decide), bigSep_W0]
  have e0 : (((cfg0.win 0).arr.view.loc (c.tc : Thread nD τ)) ↦[(cfg0.win 0).arr.view.set]{(dats m 0 c).share 0} (dats m 0 c).arrAt 0 0 : sProp 𝕄)
      = (((c.tc : Thread nD τ).loc main_arg0) ↦{fullShare} V m c main_arg0) := by
    rw [(arr_whole0 0).set_eq_univ]; rfl
  have e1 : (((cfg0.win 1).arr.view.loc (c.tc : Thread nD τ)) ↦[(cfg0.win 1).arr.view.set]{(dats m 0 c).share 1} (dats m 0 c).arrAt 1 0 : sProp 𝕄)
      = (((c.tc : Thread nD τ).loc main_arg1) ↦{(fullShare : PosShare TreeShare).left} V m c main_arg1) := by
    rw [(arr_whole0 1).set_eq_univ]; rfl
  have e2 : (((cfg0.win 2).arr.view.loc (c.tc : Thread nD τ)) ↦[(cfg0.win 2).arr.view.set]{(dats m 0 c).share 2} (dats m 0 c).arrAt 2 0 : sProp 𝕄)
      = (((c.tc : Thread nD τ).loc main_arg1) ↦{(fullShare : PosShare TreeShare).right} V m c main_arg1) := by
    rw [(arr_whole0 2).set_eq_univ]; rfl
  have e3 : (((cfg0.win 3).arr.view.loc (c.tc : Thread nD τ)) ↦[(cfg0.win 3).arr.view.set]{(dats m 0 c).share 3} (dats m 0 c).arrAt 3 0 : sProp 𝕄)
      = (((c.tc : Thread nD τ).loc main_v43) ↦{fullShare} V m c main_v43) := by
    rw [(arr_whole0 3).set_eq_univ]; rfl
  have e4 : (((cfg0.win 4).arr.view.loc (c.tc : Thread nD τ)) ↦[(cfg0.win 4).arr.view.set]{(dats m 0 c).share 4} (dats m 0 c).arrAt 4 0 : sProp 𝕄)
      = (((c.tc : Thread nD τ).loc main_v44) ↦{fullShare} V m c main_v44) := by
    rw [(arr_whole0 4).set_eq_univ]; rfl
  show (iprop((((c.tc : Thread nD τ).loc main_arg0) ↦{fullShare} V m c main_arg0) ∗ (((c.tc : Thread nD τ).loc main_arg1) ↦{fullShare} V m c main_arg1)
      ∗ (((c.tc : Thread nD τ).loc main_v43) ↦{fullShare} V m c main_v43) ∗ (((c.tc : Thread nD τ).loc main_v44) ↦{fullShare} V m c main_v44)) : sProp 𝕄) ⊢ _
  iintro ⟨H0, H1, H3, H4⟩
  have hs : ((((c.tc : Thread nD τ).loc main_arg1) ↦{fullShare} V m c main_arg1) : sProp 𝕄)
      ⊢ iprop((((c.tc : Thread nD τ).loc main_arg1) ↦{(fullShare : PosShare TreeShare).left} V m c main_arg1)
          ∗ (((c.tc : Thread nD τ).loc main_arg1) ↦{(fullShare : PosShare TreeShare).right} V m c main_arg1)) :=
    (pointsTo_share (PosShare.mem_left_op_right (fullShare : PosShare TreeShare))).1
  ihave H1' := hs $$ H1
  icases H1' with ⟨H1a, H1b⟩
  isplitl [H0]; · iapply (Entails.of_eq e0.symm); iexact H0
  isplitl [H1a]; · iapply (Entails.of_eq e1.symm); iexact H1a
  isplitl [H1b]; · iapply (Entails.of_eq e2.symm); iexact H1b
  isplitl [H3]; · iapply (Entails.of_eq e3.symm); iexact H3
  iapply (Entails.of_eq e4.symm); iexact H4

/-! ## The run -/

set_option backward.isDefEq.respectTransparency.types false in
/-- Every weakly fair execution of the program terminates, and in every final state each windowed array holds
    what the proof data compute for it and every other unscoped buffer what the region found in it. -/
theorem run_main : θ_run defs (onTc (τ := τ) (main (F := F))) (s₀ m ρ) (Pipeline.FramePost cfgs (dats m) 0 (V m)) :=
  Pipeline.SharedFrame.θ_run_frame_shared cfgs (dats m) (0 : Fin 1) defs₀ Variants.none cellOf_inj winFacts₀0 block_pos0 arr_whole0 stage_whole0 m ρ main
    (hbody := fun c => (body_obligation m c).loose) (howed := fun _ _ => rfl) (V := V m) (hmain := hmain m Variants.none)
    (hsplit := hsplit m) (hin := fun _ => .rfl) (hout := fun _ => .rfl)

/-- The frame: the program runs to the end and leaves both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.Kernel.Fr

end
-- ==== Proof.KernelIdealVal.lean ====
/-
  What one grid step of the kernel stores into its output block, as ONE pure function of the five
  vectors the body loads: the step's 8 atomic numbers `z`, its 8 coordinate rows `xt`, all 320 coordinate
  rows `xf`, and the two 320×320 pair-weight planes `wa`, `wb` (one per radial width of the angular
  terms). The body computes, for each of its 8 atoms, 22 features: the atomic number, the radial sums
  (one plain, eight Gaussian, four cosine) over the other atoms inside the cutoff, and the eight angular
  sums over ordered pairs of neighbours — four without and four with the pair weight. Every intermediate
  value is the generated payload of the same name; this module only composes them in the order the body does.
-/
import proofs.«101160_j40054865002568_2_alg».proof.Proof.Gen.KernelIdeal.Skeleton

noncomputable section

namespace Cert.KernelIdeal.Body

open Idealize.ShloMosaic Cert.KernelIdeal Cert.KernelIdeal.Gen

variable {F : FTy → Type} [FloatOps F]

/-- The 8×22 block of features grid step `i` stores, from the vectors it loads. -/
def tileVal (i : grid0.Coords) (z : Vec F S8x1 .f32) (xt : Vec F S8x3 .f32) (xf : Vec F S320x3 .f32)
    (wa wb : Vec F S1x320x320 .f32) : FVec F S8x22 .f32 :=
  let v8 := k0_pay2 xt xf
  let v10 := k0_pay3 xt xf
  let v17 := k0_pay4 xt xf
  let v40 := k0_pay5 i xt xf
  let v85 := k0_pay11 v17 v40
  let v130 := k0_pay18 v17 v40
  let v149 := k0_pay21 v8 v17
  let v154 := k0_pay22 v10
  let v167 := k0_pay23 v40
  let v170 := k0_pay24 v10
  let v173 := k0_pay25 wa
  let v177 := k0_pay26 v8 v17
  let c1 : F .f32 := Scalar.ofBits .f32 0x3F800000#32
  let v217 := k0_pay33 v154
  k0_pay1 z (k0_pay6 v40) (k0_pay7 v17 v40) (k0_pay8 v17 v40) (k0_pay9 v17 v40) (k0_pay10 v17 v40)
    (k0_pay12 v85) (k0_pay13 v17 v40) (k0_pay14 v17 v40) (k0_pay15 v17 v40) (k0_pay16 v17 v40) (k0_pay17 v17 v40)
    (k0_pay19 v130) (k0_pay20 v17 v40)
    (k0_pay28 v167 v170 v177 c1) (k0_pay29 v167 v170 v173 v177 c1) (k0_pay31 v149 v167 v170) (k0_pay32 v149 v167 v170 v173)
    (k0_pay36 v149 v167 v217) (k0_pay37 v149 v167 v217 wb) (k0_pay39 v149 v167 v217) (k0_pay40 v149 v167 v217 wb)

end Cert.KernelIdeal.Body

end
-- ==== Proof.KernelIdealBody.lean ====
/-
  The launch side of the kernel's run, part one: the program up to its one region, and one grid step of the body.

  Before the region the program computes, with host operations, the two 320×320 pair-weight planes from the
  coordinates; the region then visits 40 grid steps. At step t the body is handed five staging buffers: rows
  8t … 8t+7 of the atomic numbers, the same rows of the coordinates, ALL the coordinates (the same array, read
  through a second window), the two weight planes, and the block of 8×22 results to fill. The body loads the
  first four, computes the 22 features of its 8 atoms (`Body.tileVal`) and stores them over the whole result block.
  Here: what each buffer holds when the region is entered (`V`), the block of each window at a step (`iblk`),
  that an input window's staging buffer holds exactly its block whenever the body runs, and the body's
  specification as a separation-logic triple: inputs unchanged, the result block overwritten by `tileVal`.
-/
import proofs.«101160_j40054865002568_2_alg».proof.Proof.Gen.KernelIdeal.Launch
import proofs.«101160_j40054865002568_2_alg».proof.Proof.Gen.KernelIdeal.Skeleton
import proofs.«101160_j40054865002568_2_alg».proof.Proof.Gen.KernelIdeal.Points
import proofs.«101160_j40054865002568_2_alg».proof.Proof.KernelIdealVal
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- The program is its seven stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation writes the atomic numbers: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Nor the coordinates. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at step `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every step, whether the step fetched it or an
    earlier one did and the block has not moved since — for any proof data whose array is the region-entry
    contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S8x1 := Rect.unit (s := S8x1) ![0, 0] S8x1.size inb_S8x1_S8x1_0_0
abbrev r0_1 : Rect S8x3 := Rect.unit (s := S8x3) ![0, 0] S8x3.size inb_S8x3_S8x3_0_0
abbrev r0_2 : Rect S320x3 := Rect.unit (s := S320x3) ![0, 0] S320x3.size inb_S320x3_S320x3_0_0
abbrev r0_3a : Rect S2x320x320 := Rect.unit (s := S2x320x320) ![0, 0, 0] S1x320x320.size inb_S2x320x320_S1x320x320_0_0_0
abbrev r0_3b : Rect S2x320x320 := Rect.unit (s := S2x320x320) ![1, 0, 0] S1x320x320.size inb_S2x320x320_S1x320x320_1_0_0
abbrev r0_4 : Rect S8x22 := Rect.unit (s := S8x22) ![0, 0] S8x22.size inb_S8x22_S8x22_0_0

/-! ## What the body leaves in the result block -/

/-- The result block after the body at grid coordinates `i`: its one store, covering the block, of the step's
    features computed from what the four input buffers hold. -/
def out0_4 (i : grid0.Coords) (x0 : Vec F S8x1 .f32) (x1 : Vec F S8x3 .f32) (x2 : Vec F S320x3 .f32) (x3 : Vec F S2x320x320 .f32) : Vec F S8x22 .f32 :=
  View.canon [⟨r0_4, tileVal i (View.ld x0 r0_0) (View.ld x1 r0_1) (View.ld x2 r0_2) (View.ld x3 r0_3a) (View.ld x3 r0_3b)⟩]

/-- The one store tiles the block. -/
theorem cover0_4 (p0 : Vec F S8x22 .f32) (y : S8x22.Idx) :
    ∃ pc ∈ ([⟨r0_4, p0⟩] : List (View.Piece (Elt F) S8x22 .f32)), y ∈ pc.1.set :=
  View.cover_of_tiled [⟨r0_4, p0⟩] S8x22.size (by rfl) y

/-! ## The body's triple -/

set_option maxHeartbeats 4000000 in
/-- The body on whole staging buffers — the inputs at contents `x0 … x3`, the result block at anything — runs to
    its return with the inputs as they were and the result block at `out0_4`. -/
theorem sound_kernel (c : Dev nD) (E : Set ℕ) (i : grid0.Coords)
    (arg1 : Memref sig .tc .vmem S8x1 .f32) (harg1 : arg1.IsWhole) (arg2 : Memref sig .tc .vmem S8x3 .f32) (harg2 : arg2.IsWhole)
    (arg3 : Memref sig .tc .vmem S320x3 .f32) (harg3 : arg3.IsWhole) (arg4 : Memref sig .tc .vmem S2x320x320 .f32) (harg4 : arg4.IsWhole)
    (arg5 : Memref sig .tc .vmem S8x22 .f32) (harg5 : arg5.IsWhole)
    (x0 : Vec F S8x1 .f32) (x1 : Vec F S8x3 .f32) (x2 : Vec F S320x3 .f32) (x3 : Vec F S2x320x320 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 i x0 x1 x2 x3)) -∗ K ⟨⟩))
      ⊢ wp frame (wpE (defs₀ (F := F)) Variants.none c none) E (cc0__gnn_kernel i arg1 harg1 arg2 harg2 arg3 harg3 arg4 harg4 arg5 harg5) K := by
  simp only [cc0__gnn_kernel_eq_skeleton]; unfold cc0__gnn_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover0_4 _)

end Cert.KernelIdeal.Fr

end
-- ==== Proof.KernelIdealFrame.lean ====
/-
  The launch side of the kernel's run, part two: the proof data of the pipeline, the body at every grid step,
  and the run of the whole program.

  The coordinates array is read through two windows (8 rows at a time, and whole). Each of the two holds the
  array at half of the full share; the two halves make the whole, so the array's one points-to at the region's
  entry divides between them, and neither window can write it. Every other window holds its array whole.
  The run's conclusion: after the program every windowed array holds what the proof data compute for it — the
  two arguments what they held at launch, the result array its entry contents overwritten, block by block,
  by what each step's body left.
-/
import proofs.«101160_j40054865002568_2_alg».proof.Proof.KernelIdealBody
import proofs.«101160_j40054865002568_2_alg».proof.Proof.LibSharedFrame

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The arrays as the region finds them; after the body at step `t` each input buffer at its block and the result
    block at the step's features; between steps the unstaged scoped buffers (there are none) untouched; the
    coordinates array at half a share for each of its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (grid0.coords t) (iblk m c 0 t) (iblk m c 1 t) (iblk m c 2 t) (iblk m c 3 t)
  Φ _ := Pipeline.scopedRest spec0 c
  q w := match w with
    | ⟨0, _⟩ => fullShare
    | ⟨1, _⟩ => (fullShare : PosShare TreeShare).left
    | ⟨2, _⟩ => (fullShare : PosShare TreeShare).right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (grid0.coords t) (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic step -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any step: the input buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The arrays at the region's entry, divided among the windows -/

/-- The four distinct buffers behind the five windows' arrays, each whole, are the five windows' arrays at
    their shares: the coordinates' points-to divides into the two halves its two windows hold. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_eq_bigSepL_of_eq [main_arg0, main_arg1, main_v43, main_v44] (by decide) (by decide), bigSep_W0]
  have e0 : (((cfg0.win 0).arr.view.loc (c.tc : Thread nD τ)) ↦[(cfg0.win 0).arr.view.set]{(dats m 0 c).share 0} (dats m 0 c).arrAt 0 0 : sProp 𝕄)
      = (((c.tc : Thread nD τ).loc main_arg0) ↦{fullShare} V m c main_arg0) := by
    rw [(arr_whole0 0).set_eq_univ]; rfl
  have e1 : (((cfg0.win 1).arr.view.loc (c.tc : Thread nD τ)) ↦[(cfg0.win 1).arr.view.set]{(dats m 0 c).share 1} (dats m 0 c).arrAt 1 0 : sProp 𝕄)
      = (((c.tc : Thread nD τ).loc main_arg1) ↦{(fullShare : PosShare TreeShare).left} V m c main_arg1) := by
    rw [(arr_whole0 1).set_eq_univ]; rfl
  have e2 : (((cfg0.win 2).arr.view.loc (c.tc : Thread nD τ)) ↦[(cfg0.win 2).arr.view.set]{(dats m 0 c).share 2} (dats m 0 c).arrAt 2 0 : sProp 𝕄)
      = (((c.tc : Thread nD τ).loc main_arg1) ↦{(fullShare : PosShare TreeShare).right} V m c main_arg1) := by
    rw [(arr_whole0 2).set_eq_univ]; rfl
  have e3 : (((cfg0.win 3).arr.view.loc (c.tc : Thread nD τ)) ↦[(cfg0.win 3).arr.view.set]{(dats m 0 c).share 3} (dats m 0 c).arrAt 3 0 : sProp 𝕄)
      = (((c.tc : Thread nD τ).loc main_v43) ↦{fullShare} V m c main_v43) := by
    rw [(arr_whole0 3).set_eq_univ]; rfl
  have e4 : (((cfg0.win 4).arr.view.loc (c.tc : Thread nD τ)) ↦[(cfg0.win 4).arr.view.set]{(dats m 0 c).share 4} (dats m 0 c).arrAt 4 0 : sProp 𝕄)
      = (((c.tc : Thread nD τ).loc main_v44) ↦{fullShare} V m c main_v44) := by
    rw [(arr_whole0 4).set_eq_univ]; rfl
  show (iprop((((c.tc : Thread nD τ).loc main_arg0) ↦{fullShare} V m c main_arg0) ∗ (((c.tc : Thread nD τ).loc main_arg1) ↦{fullShare} V m c main_arg1)
      ∗ (((c.tc : Thread nD τ).loc main_v43) ↦{fullShare} V m c main_v43) ∗ (((c.tc : Thread nD τ).loc main_v44) ↦{fullShare} V m c main_v44)) : sProp 𝕄) ⊢ _
  iintro ⟨H0, H1, H3, H4⟩
  have hs : ((((c.tc : Thread nD τ).loc main_arg1) ↦{fullShare} V m c main_arg1) : sProp 𝕄)
      ⊢ iprop((((c.tc : Thread nD τ).loc main_arg1) ↦{(fullShare : PosShare TreeShare).left} V m c main_arg1)
          ∗ (((c.tc : Thread nD τ).loc main_arg1) ↦{(fullShare : PosShare TreeShare).right} V m c main_arg1)) :=
    (pointsTo_share (PosShare.mem_left_op_right (fullShare : PosShare TreeShare))).1
  ihave H1' := hs $$ H1
  icases H1' with ⟨H1a, H1b⟩
  isplitl [H0]; · iapply (Entails.of_eq e0.symm); iexact H0
  isplitl [H1a]; · iapply (Entails.of_eq e1.symm); iexact H1a
  isplitl [H1b]; · iapply (Entails.of_eq e2.symm); iexact H1b
  isplitl [H3]; · iapply (Entails.of_eq e3.symm); iexact H3
  iapply (Entails.of_eq e4.symm); iexact H4

/-! ## The run -/

set_option backward.isDefEq.respectTransparency.types false in
/-- Every weakly fair execution of the program terminates, and in every final state each windowed array holds
    what the proof data compute for it and every other unscoped buffer what the region found in it. -/
theorem run_main : θ_run defs (onTc (τ := τ) (main (F := F))) (s₀ m ρ) (Pipeline.FramePost cfgs (dats m) 0 (V m)) :=
  Pipeline.SharedFrame.θ_run_frame_shared cfgs (dats m) (0 : Fin 1) defs₀ Variants.none cellOf_inj winFacts₀0 block_pos0 arr_whole0 stage_whole0 m ρ main
    (hbody := fun c => (body_obligation m c).loose) (howed := fun _ _ => rfl) (V := V m) (hmain := hmain m Variants.none)
    (hsplit := hsplit m) (hin := fun _ => .rfl) (hout := fun _ => .rfl)

/-- The frame: the program runs to the end and leaves both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.KernelIdeal.Fr

end
-- ==== Proof.KernelIdealBlocks.lean ====
/-
  From blocks to arrays for the kernel's one region.

  The grid has 40 steps. At step `t` the windows over the atomic numbers, the coordinates and the result hold rows
  `8t … 8t+7` of their arrays; the second window over the coordinates and the window over the two pair-weight
  planes hold their whole arrays at every step. Read index by index: row `r` of a row block is row `8t + r` of the
  array, a whole-array block is the array, and each of the two planes loaded from the weight buffer is that plane of
  the array. The result blocks of the 40 steps tile the result array, so if every step writes back its block of one
  function of the index, the array ends holding that function.
-/
import proofs.«101160_j40054865002568_2_alg».proof.Proof.KernelIdealFrame
import Idealize.ShloMosaic.Lib.ValueIdx
import Idealize.ShloMosaic.Lib.Pipeline.Value

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The block index of every window at every step: the step's number on the row axis of the three row windows,
    zero everywhere else. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = t.val ∧ win0_4.index t (1 : Fin 2) = 0 :=
  (by decide +kernel : ∀ t : Fin grid0.N, _)

/-! ## The input blocks, read at an index -/

/-- Row `r` of the atomic-number block at step `t` is row `8t + r` of the array. -/
theorem iblk0_at (c : Dev nD) (t : Fin cfg0.N) (r : Fin 8) (hr : 8 * t.val + r.val < 320) :
    (iblk (F := Ideal) m c 0 t : Vec Ideal S8x1 .f32) (ix2 r (0 : Fin 1))
      = (V m c main_arg0 : S320x1.Idx → EReal) (ix2 ⟨8 * t.val + r.val, hr⟩ (0 : Fin 1)) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 8 + 1 * r.val = 8 * t.val + r.val; rw [e0]; omega
  | ⟨1, _⟩ => show win0_0.index t (1 : Fin 2) * 1 + 1 * 0 = 0; rw [e1]

/-- Row `r` of the coordinate block at step `t` is row `8t + r` of the coordinates. -/
theorem iblk1_at (c : Dev nD) (t : Fin cfg0.N) (r : Fin 8) (d : Fin 3) (hr : 8 * t.val + r.val < 320) :
    (iblk (F := Ideal) m c 1 t : Vec Ideal S8x3 .f32) (ix2 r d)
      = (V m c main_arg1 : S320x3.Idx → EReal) (ix2 ⟨8 * t.val + r.val, hr⟩ d) := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 8 + 1 * r.val = 8 * t.val + r.val; rw [e0]; omega
  | ⟨1, _⟩ => show win0_1.index t (1 : Fin 2) * 3 + 1 * d.val = d.val; rw [e1]; omega

/-- The whole-array window over the coordinates holds the coordinates at every step. -/
theorem iblk2_eq (c : Dev nD) (t : Fin cfg0.N) :
    (iblk (F := Ideal) m c 2 t : S320x3.Idx → EReal) = (V m c main_arg1 : S320x3.Idx → EReal) := by
  obtain ⟨-, -, -, -, e0, e1, -⟩ := idx_facts t
  funext y
  unfold iblk
  rw [View.read_apply]
  show V m c main_arg1 _ = V m c main_arg1 _
  congr 1
  funext a
  apply Fin.ext
  match a with
  | ⟨0, _⟩ => show win0_2.index t (0 : Fin 2) * 320 + 1 * (y 0).val = (y 0).val; rw [e0]; omega
  | ⟨1, _⟩ => show win0_2.index t (1 : Fin 2) * 3 + 1 * (y 1).val = (y 1).val; rw [e1]; omega

/-- The whole-array window over the two weight planes holds them at every step. -/
theorem iblk3_eq (c : Dev nD) (t : Fin cfg0.N) :
    (iblk (F := Ideal) m c 3 t : S2x320x320.Idx → EReal) = (V m c main_v43 : S2x320x320.Idx → EReal) := by
  obtain ⟨-, -, -, -, -, -, e0, e1, e2, -⟩ := idx_facts t
  funext y
  unfold iblk
  rw [View.read_apply]
  show V m c main_v43 _ = V m c main_v43 _
  congr 1
  funext a
  apply Fin.ext
  match a with
  | ⟨0, _⟩ => show win0_3.index t (0 : Fin 3) * 2 + 1 * (y 0).val = (y 0).val; rw [e0]; omega
  | ⟨1, _⟩ => show win0_3.index t (1 : Fin 3) * 320 + 1 * (y 1).val = (y 1).val; rw [e1]; omega
  | ⟨2, _⟩ => show win0_3.index t (2 : Fin 3) * 320 + 1 * (y 2).val = (y 2).val; rw [e2]; omega

/-- The first plane loaded from the weight buffer is plane 0 of the array. -/
theorem plane0_at (c : Dev nD) (t : Fin cfg0.N) (j k : Fin 320) :
    View.ld (iblk (F := Ideal) m c 3 t : S2x320x320.Idx → EReal) r0_3a (ix3 (0 : Fin 1) j k)
      = (V m c main_v43 : S2x320x320.Idx → EReal) (ix3 (0 : Fin 2) j k) := by
  rw [iblk3_eq]
  show V m c main_v43 _ = V m c main_v43 _
  congr 1
  funext a
  apply Fin.ext
  match a with
  | ⟨0, _⟩ => rfl
  | ⟨1, _⟩ => show 0 + 1 * j.val = j.val; omega
  | ⟨2, _⟩ => show 0 + 1 * k.val = k.val; omega

/-- The second plane loaded from the weight buffer is plane 1 of the array. -/
theorem plane1_at (c : Dev nD) (t : Fin cfg0.N) (j k : Fin 320) :
    View.ld (iblk (F := Ideal) m c 3 t : S2x320x320.Idx → EReal) r0_3b (ix3 (0 : Fin 1) j k)
      = (V m c main_v43 : S2x320x320.Idx → EReal) (ix3 (1 : Fin 2) j k) := by
  rw [iblk3_eq]
  show V m c main_v43 _ = V m c main_v43 _
  congr 1
  funext a
  apply Fin.ext
  match a with
  | ⟨0, _⟩ => rfl
  | ⟨1, _⟩ => show 0 + 1 * j.val = j.val; omega
  | ⟨2, _⟩ => show 0 + 1 * k.val = k.val; omega

/-- The loads of the three whole staging buffers read the buffers. -/
theorem ld0_eq (x0 : Vec Ideal S8x1 .f32) : View.ld x0 r0_0 = x0 := View.ld_unit_zero (S := S8x1) hz2 _ x0
theorem ld1_eq (x1 : Vec Ideal S8x3 .f32) : View.ld x1 r0_1 = x1 := View.ld_unit_zero (S := S8x3) hz2 _ x1
theorem ld2_eq (x2 : Vec Ideal S320x3 .f32) : View.ld x2 r0_2 = x2 := View.ld_unit_zero (S := S320x3) hz2 _ x2

/-! ## The result blocks -/

/-- Row `r` of step `t`'s block of a function on the result array is the function at row `8t + r`. -/
theorem blk4_read (t : Fin cfg0.N) (Gf : S320x22.Idx → EReal) (r : Fin 8) (f : Fin 22) (hr : 8 * t.val + r.val < 320) :
    (((cfg0.win 4).blk t).view.read (Elt Ideal) Gf : S8x22.Idx → EReal) (ix2 r f) = Gf (ix2 ⟨8 * t.val + r.val, hr⟩ f) := by
  obtain ⟨-, -, -, -, -, -, -, -, -, e0, e1⟩ := idx_facts t
  rw [View.read_apply]
  refine congrArg Gf ?_
  funext a
  apply Fin.ext
  match a with
  | ⟨0, _⟩ => show win0_4.index t (0 : Fin 2) * 8 + 1 * r.val = 8 * t.val + r.val; rw [e0]; omega
  | ⟨1, _⟩ => show win0_4.index t (1 : Fin 2) * 22 + 1 * f.val = f.val; rw [e1]; omega

/-- An index of the result array is in step `t`'s block iff each coordinate is in the block's range. -/
theorem mem_blk4 (t : Fin cfg0.N) (i : S320x22.Idx) :
    i ∈ ((cfg0.win 4).blk t).view.set ↔ ∀ a : Fin 2, win0_4.index t a * S8x22.size a ≤ (i a).val ∧ (i a).val < win0_4.index t a * S8x22.size a + S8x22.size a := by
  show i ∈ ((View.whole main_v44).slice (win0_4.rect t)).set ↔ _
  rw [View.set_slice_whole, Rect.mem_set_unit]
  exact Iff.rfl

/-- Every index of the result array is in the block of the step that holds its row: step `row / 8`. -/
theorem cover4 (i : S320x22.Idx) :
    ∃ t : Fin cfg0.N, (cfg0.win 4).flush t = true ∧ i ∈ ((cfg0.win 4).blk t).view.set := by
  have hi0 : (i 0).val < 320 := (i 0).isLt
  have hi1 : (i 1).val < 22 := (i 1).isLt
  have hN : cfg0.N = 40 := N_0
  refine ⟨⟨(i 0).val / 8, by rw [hN]; omega⟩, flush0_4 _, ?_⟩
  obtain ⟨-, -, -, -, -, -, -, -, -, e0, e1⟩ := idx_facts ⟨(i 0).val / 8, by rw [hN]; omega⟩
  rw [mem_blk4]
  intro a
  match a with
  | ⟨0, _⟩ =>
    show win0_4.index ⟨(i 0).val / 8, _⟩ (0 : Fin 2) * 8 ≤ (i 0).val ∧ (i 0).val < win0_4.index ⟨(i 0).val / 8, _⟩ (0 : Fin 2) * 8 + 8
    rw [e0]; show (i 0).val / 8 * 8 ≤ (i 0).val ∧ (i 0).val < (i 0).val / 8 * 8 + 8; omega
  | ⟨1, _⟩ =>
    show win0_4.index ⟨(i 0).val / 8, _⟩ (1 : Fin 2) * 22 ≤ (i 1).val ∧ (i 1).val < win0_4.index ⟨(i 0).val / 8, _⟩ (1 : Fin 2) * 22 + 22
    rw [e1]; omega

/-- The result array after the run: if every step writes back its block of one function `Gf`, it holds `Gf`. -/
theorem final4 (c : Dev nD) (Gf : S320x22.Idx → EReal)
    (hfl : ∀ t : Fin cfg0.N, (dats m 0 c).flushed 4 t = ((cfg0.win 4).blk t).view.read (Elt Ideal) Gf) :
    (dats m 0 c).arrAt 4 cfg0.N = Gf :=
  (dats m 0 c).arrAt_eq_of_cover 4 Gf (fun t _ => hfl t) cover4

end Cert.KernelIdeal.Val

end
-- ==== Proof.PlanesDef.lean ====
/-
  The two pair-weight planes the kernel's program computes on the host before it launches its region, as
  one term of the coordinates: for each of the two radial widths cw, the 320×320 plane
  exp(cw · r2(j,k)) · fc(j,k) — r2 the squared distance of atoms j and k, fc their cutoff weight —,
  the two planes stacked into one [2,320,320] array. The squared distances and the cutoff weights are the
  same operations, in the same order, as the first stages of the reference program, and are cited as such.
-/
import proofs.«101160_j40054865002568_2_alg».proof.Proof.Gen.KernelIdeal
import proofs.«101160_j40054865002568_2_alg».proof.Proof.RefReadP

noncomputable section

namespace Cert.KernelIdeal.Planes

open Idealize.ShloMosaic Cert.KernelIdeal Cert.KernelIdeal.Gen

/-- One plane: exp(cw · r2(j,k)) · fc(j,k), entry by entry. -/
def plane (cw : BitVec 32) (x1 : (⟨S320x3, .f32⟩ : BufTy).Contents (Elt Ideal)) : (⟨S320x320, .f32⟩ : BufTy).Contents (Elt Ideal) :=
  mulf (Host.exp (mulf (broadcastInDim S320x320 ![] Facts₀.bcast_S_S320x320 (constant (F := Ideal) S_ .f32 cw)) (Cert.ReferenceIdeal.ReadP.val_main_v6 (F := Ideal) x1)))
    (Cert.ReferenceIdeal.ReadP.val_main_v32 (F := Ideal) x1)

/-- The two planes, stacked along a new leading axis. -/
def planes (x1 : (⟨S320x3, .f32⟩ : BufTy).Contents (Elt Ideal)) : (⟨S2x320x320, .f32⟩ : BufTy).Contents (Elt Ideal) :=
  concatenate S2x320x320 0 [⟨S1x320x320, broadcastInDim S1x320x320 ![1, 2] Facts₀.bcast_S320x320_S1x320x320_1_2 (plane 0xBDCCCCCD#32 x1)⟩,
      ⟨S1x320x320, broadcastInDim S1x320x320 ![1, 2] Facts₀.bcast_S320x320_S1x320x320_1_2 (plane 0xBF000000#32 x1)⟩]
    Facts₀.concatenates_S1x320x320_S1x320x320_S2x320x320_d0

end Cert.KernelIdeal.Planes

end
-- ==== Proof.KernelIdealPlanes.lean ====
/-
  What the region finds in the stacked pair-weight array: the host operations before the launch, composed,
  are the two planes of the coordinates (`Planes.planes`) — the program's operations read back one by one.
-/
import proofs.«101160_j40054865002568_2_alg».proof.Proof.KernelIdealBody
import proofs.«101160_j40054865002568_2_alg».proof.Proof.PlanesDef
import Idealize.ShloMosaic.Lib.StableHlo.Run

set_option maxRecDepth 16384

noncomputable section

namespace Cert.KernelIdeal.Planes

open Idealize.ShloMosaic Idealize.ShloMosaic.TcCoe Idealize.SL.Sem Idealize.ShloMosaic.StableHlo
open Cert.KernelIdeal Cert.KernelIdeal.Gen Cert.KernelIdeal.Fr

set_option maxHeartbeats 40000000 in
/-- At the region's entry the stacked array holds the two planes of the launch coordinates. -/
theorem V_planes (m : (ℓ : Loc nD τ sig) → Buf (Elt Ideal) ℓ) (c : Dev nD) :
    V (F := Ideal) m c main_v43 = planes (m ((c.tc : Thread nD τ).loc main_arg1)) := by
  dsimp only [V]
  simp only [hostOps0, hostOps0_1, hostOps0_2, hostOps0_3, hostOps0_4, hostOps0_5, hostOps0_6, List.flatten_cons, List.flatten_nil, List.append_nil, List.cons_append, List.nil_append]
  after_results_simp <;> rfl

end Cert.KernelIdeal.Planes

end
-- ==== Proof.Spec.lean ====
/-
  The specification of the atom-centred symmetry-function features, written per atom.

  For a centre atom (its index `n`, its coordinate row `p`) and all coordinates `x`, every quantity is a
  function of the neighbour indices: the squared distance `r2row`, the guarded distance `rrow`, the cutoff
  weight `fcrow` (zero on the centre itself), the angle cosine `cosT` of a neighbour pair, and the 22 features
  `feat`.  Everything is an extended real; float literals stay as the words they are printed with.
  Sums over one neighbour are `init + ∑ j`; the two angular families sum over ordered neighbour pairs,
  written `init + ∑ j, ∑ k`.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The coordinate array: 320 atoms, 3 coordinates each. -/
abbrev X : Type := (⟨2, ![320, 3]⟩ : Shape).Idx → EReal
/-- The atomic-number column. -/
abbrev Z : Type := (⟨2, ![320, 1]⟩ : Shape).Idx → EReal

/-- The coordinate row of atom `n`. -/
def row (x : X) (n : Fin 320) : Fin 3 → EReal := fun d => x (ix2 n d)

/-- The indicator of the diagonal: `1` when the two atoms are the same, else `0`. -/
def eye (n j : Fin 320) : EReal := if n = j then 1 else 0

/-- Component `d` of the vector from atom `j` to the centre. -/
def diff (p : Fin 3 → EReal) (x : X) (j : Fin 320) (d : Fin 3) : EReal := p d - x (ix2 j d)

/-- The squared distance from the centre to atom `j`. -/
def r2row (p : Fin 3 → EReal) (x : X) (j : Fin 320) : EReal :=
  Ideal.ofBits .f32 0x00000000#32 + ∑ d : Fin 3, diff p x j d * diff p x j d

/-- The distance of a squared distance, guarded: the root where it is positive, `0` where it is not. -/
def rOf (a : EReal) : EReal :=
  Scalar.select (Ideal.cmp .ogt a (Ideal.ofBits .f32 0x00000000#32))
    (Ideal.sqrt (Scalar.select (Ideal.cmp .ogt a (Ideal.ofBits .f32 0x00000000#32)) a (Ideal.ofBits .f32 0x3F800000#32)))
    (Ideal.ofBits .f32 0x00000000#32)

/-- The distance from the centre to atom `j`. -/
def rrow (p : Fin 3 → EReal) (x : X) (j : Fin 320) : EReal := rOf (r2row p x j)

/-- The cosine cutoff `½ (cos (π r / 6) + 1)` inside the radius 6, `0` outside. -/
def cutoff (r : EReal) : EReal :=
  Scalar.select (Ideal.cmp .olt r (Ideal.ofBits .f32 0x40C00000#32))
    (Ideal.ofBits .f32 0x3F000000#32 *
      (Ideal.cos (Ideal.div (Ideal.ofBits .f32 0x40490FDB#32 * r) (Ideal.ofBits .f32 0x40C00000#32))
        + Ideal.ofBits .f32 0x3F800000#32))
    (Ideal.ofBits .f32 0x00000000#32)

/-- The cutoff weight of neighbour `j` of the centre `n`: the cutoff of the distance, and `0` for `j = n`. -/
def fcrow (n : Fin 320) (p : Fin 3 → EReal) (x : X) (j : Fin 320) : EReal :=
  cutoff (rrow p x j) * (Ideal.ofBits .f32 0x3F800000#32 - eye n j)

/-- The radial feature without a Gaussian: the sum of the cutoff weights. -/
def g1 (n : Fin 320) (p : Fin 3 → EReal) (x : X) : EReal :=
  Ideal.ofBits .f32 0x00000000#32 + ∑ j : Fin 320, fcrow n p x j

/-- The Gaussian radial feature with width `η` (already negated) and shift `rs`. -/
def g2 (η rs : EReal) (n : Fin 320) (p : Fin 3 → EReal) (x : X) : EReal :=
  Ideal.ofBits .f32 0x00000000#32 +
    ∑ j : Fin 320, Ideal.exp (η * ((rrow p x j - rs) * (rrow p x j - rs))) * fcrow n p x j

/-- The cosine radial feature with wave number `κ`. -/
def g3 (κ : EReal) (n : Fin 320) (p : Fin 3 → EReal) (x : X) : EReal :=
  Ideal.ofBits .f32 0x00000000#32 + ∑ j : Fin 320, Ideal.cos (κ * rrow p x j) * fcrow n p x j

/-- The inner product of the vectors from neighbours `j` and `k` to the centre. -/
def dotrow (p : Fin 3 → EReal) (x : X) (j k : Fin 320) : EReal :=
  ∑ d : Fin 3, diff p x j d * diff p x k d

/-- The cosine of the angle at the centre between neighbours `j` and `k`, the denominator guarded. -/
def cosT (p : Fin 3 → EReal) (x : X) (j k : Fin 320) : EReal :=
  Ideal.div (dotrow p x j k)
    (Scalar.select (Ideal.cmp .ogt (rrow p x j * rrow p x k) (Ideal.ofBits .f32 0x00000000#32))
      (rrow p x j * rrow p x k) (Ideal.ofBits .f32 0x3F800000#32))

/-- The angular factor `(1 + λ cos θ) ^ ζ`, the power taken as a real power. -/
def ang (lam ζ : EReal) (p : Fin 3 → EReal) (x : X) (j k : Fin 320) : EReal :=
  Ideal.pow (Ideal.ofBits .f32 0x3F800000#32 + lam * cosT p x j k) ζ

/-- The sum of the two squared distances from the centre. -/
def r2pair (p : Fin 3 → EReal) (x : X) (j k : Fin 320) : EReal := r2row p x j + r2row p x k

/-- The product of the two cutoff weights, without the diagonal `j = k`. -/
def fc2 (n : Fin 320) (p : Fin 3 → EReal) (x : X) (j k : Fin 320) : EReal :=
  (fcrow n p x j * fcrow n p x k) * (Ideal.ofBits .f32 0x3F800000#32 - eye j k)

/-- The squared distance between atoms `j` and `k`. -/
def r2pl (x : X) (j k : Fin 320) : EReal := r2row (row x j) x k

/-- The cutoff weight between atoms `j` and `k`. -/
def fcpl (x : X) (j k : Fin 320) : EReal := fcrow j (row x j) x k

/-- The pair weight `exp (c · r²(j,k)) · fc(j,k)`, a function of the two neighbours only. -/
def wplane (c : EReal) (x : X) (j k : Fin 320) : EReal := Ideal.exp (c * r2pl x j k) * fcpl x j k

/-- The summand of the angular feature that ignores the distance between the neighbours. -/
def t5 (c lam ζ : EReal) (n : Fin 320) (p : Fin 3 → EReal) (x : X) (j k : Fin 320) : EReal :=
  (ang lam ζ p x j k * Ideal.exp (c * r2pair p x j k)) * fc2 n p x j k

/-- The summand of the angular feature over the whole triangle. -/
def t4 (c lam ζ : EReal) (n : Fin 320) (p : Fin 3 → EReal) (x : X) (j k : Fin 320) : EReal :=
  (ang lam ζ p x j k * Ideal.exp (c * (r2pair p x j k + r2pl x j k))) * (fc2 n p x j k * fcpl x j k)

/-- The angular feature over the whole triangle: the scaled sum over ordered neighbour pairs. -/
def g4 (sc c lam ζ : EReal) (n : Fin 320) (p : Fin 3 → EReal) (x : X) : EReal :=
  sc * (Ideal.ofBits .f32 0x00000000#32 + ∑ j : Fin 320, ∑ k : Fin 320, t4 c lam ζ n p x j k)

/-- The angular feature without the third side. -/
def g5 (sc c lam ζ : EReal) (n : Fin 320) (p : Fin 3 → EReal) (x : X) : EReal :=
  sc * (Ideal.ofBits .f32 0x00000000#32 + ∑ j : Fin 320, ∑ k : Fin 320, t5 c lam ζ n p x j k)

/-- The 22 features of the centre atom `n` with atomic number `zn` and coordinates `p`. -/
def feat (zn : EReal) (n : Fin 320) (p : Fin 3 → EReal) (x : X) (f : Fin 22) : EReal :=
  match f with
  | ⟨0, _⟩ => zn
  | ⟨1, _⟩ => g1 n p x
  | ⟨2, _⟩ => g2 (Ideal.ofBits .f32 0xBF000000#32) (Ideal.ofBits .f32 0x00000000#32) n p x
  | ⟨3, _⟩ => g2 (Ideal.ofBits .f32 0xBF800000#32) (Ideal.ofBits .f32 0x00000000#32) n p x
  | ⟨4, _⟩ => g2 (Ideal.ofBits .f32 0xC0000000#32) (Ideal.ofBits .f32 0x00000000#32) n p x
  | ⟨5, _⟩ => g2 (Ideal.ofBits .f32 0xC0800000#32) (Ideal.ofBits .f32 0x00000000#32) n p x
  | ⟨6, _⟩ => g2 (Ideal.ofBits .f32 0xBF000000#32) (Ideal.ofBits .f32 0x40400000#32) n p x
  | ⟨7, _⟩ => g2 (Ideal.ofBits .f32 0xBF800000#32) (Ideal.ofBits .f32 0x40400000#32) n p x
  | ⟨8, _⟩ => g2 (Ideal.ofBits .f32 0xC0000000#32) (Ideal.ofBits .f32 0x40400000#32) n p x
  | ⟨9, _⟩ => g2 (Ideal.ofBits .f32 0xC0800000#32) (Ideal.ofBits .f32 0x40400000#32) n p x
  | ⟨10, _⟩ => g3 (Ideal.ofBits .f32 0x3F000000#32) n p x
  | ⟨11, _⟩ => g3 (Ideal.ofBits .f32 0x3F800000#32) n p x
  | ⟨12, _⟩ => g3 (Ideal.ofBits .f32 0x3FC00000#32) n p x
  | ⟨13, _⟩ => g3 (Ideal.ofBits .f32 0x40000000#32) n p x
  | ⟨14, _⟩ => g4 (Ideal.ofBits .f32 0x3F000000#32) (Ideal.ofBits .f32 0xBDCCCCCD#32) (Ideal.ofBits .f32 0x3F800000#32) (Ideal.ofBits .f32 0x3F800000#32) n p x
  | ⟨15, _⟩ => g4 (Ideal.ofBits .f32 0x3E800000#32) (Ideal.ofBits .f32 0xBDCCCCCD#32) (Ideal.ofBits .f32 0xBF800000#32) (Ideal.ofBits .f32 0x40000000#32) n p x
  | ⟨16, _⟩ => g4 (Ideal.ofBits .f32 0x3D800000#32) (Ideal.ofBits .f32 0xBF000000#32) (Ideal.ofBits .f32 0x3F800000#32) (Ideal.ofBits .f32 0x40800000#32) n p x
  | ⟨17, _⟩ => g4 (Ideal.ofBits .f32 0x3D800000#32) (Ideal.ofBits .f32 0xBF000000#32) (Ideal.ofBits .f32 0xBF800000#32) (Ideal.ofBits .f32 0x40800000#32) n p x
  | ⟨18, _⟩ => g5 (Ideal.ofBits .f32 0x3F000000#32) (Ideal.ofBits .f32 0xBDCCCCCD#32) (Ideal.ofBits .f32 0x3F800000#32) (Ideal.ofBits .f32 0x3F800000#32) n p x
  | ⟨19, _⟩ => g5 (Ideal.ofBits .f32 0x3E800000#32) (Ideal.ofBits .f32 0xBDCCCCCD#32) (Ideal.ofBits .f32 0xBF800000#32) (Ideal.ofBits .f32 0x40000000#32) n p x
  | ⟨20, _⟩ => g5 (Ideal.ofBits .f32 0x3D800000#32) (Ideal.ofBits .f32 0xBF000000#32) (Ideal.ofBits .f32 0x3F800000#32) (Ideal.ofBits .f32 0x40800000#32) n p x
  | ⟨21, _⟩ => g5 (Ideal.ofBits .f32 0x3D800000#32) (Ideal.ofBits .f32 0xBF000000#32) (Ideal.ofBits .f32 0xBF800000#32) (Ideal.ofBits .f32 0x40800000#32) n p x
  | ⟨k + 22, h⟩ => absurd h (by omega)

/-- The whole result: row `n` holds the features of atom `n`. -/
def G (z : Z) (x : X) (idx : (⟨2, ![320, 22]⟩ : Shape).Idx) : EReal :=
  feat (z (ix2 (idx 0) 0)) (idx 0) (row x (idx 0)) x (idx 1)

/-- Read at coordinates. -/
theorem G_ix2 (z : Z) (x : X) (n : Fin 320) (f : Fin 22) :
    G z x (ix2 n f) = feat (z (ix2 n 0)) n (row x n) x f := rfl

/-- The zero word is the extended real `0`, so a sum's initial value disappears: the pair sum is the iterated sum
    with or without initial values at either level. -/
theorem pairSum_eq_iter (F : Fin 320 → Fin 320 → EReal) :
    Ideal.ofBits .f32 0x00000000#32 + ∑ j : Fin 320, ∑ k : Fin 320, F j k
      = ∑ j : Fin 320, ∑ k : Fin 320, F j k := by
  rw [Ideal.ofBits_zero_f32, zero_add]

theorem pairSum_eq_iter0 (F : Fin 320 → Fin 320 → EReal) :
    Ideal.ofBits .f32 0x00000000#32 + ∑ j : Fin 320, ∑ k : Fin 320, F j k
      = 0 + ∑ j : Fin 320, (0 + ∑ k : Fin 320, F j k) := by
  rw [Ideal.ofBits_zero_f32]; simp only [zero_add]

/-- A sum over one neighbour likewise. -/
theorem rowSum_eq (F : Fin 320 → EReal) :
    Ideal.ofBits .f32 0x00000000#32 + ∑ j : Fin 320, F j = ∑ j : Fin 320, F j := by
  rw [Ideal.ofBits_zero_f32, zero_add]

end Cert.Spec
-- ==== Proof.RefValueBc.lean ====
/-
  The reference's layout operations and one-axis sums read at an index given by its coordinates: a broadcast
  reads its operand at the coordinates it keeps (a unit axis at `0`), and a sum over one axis is its initial value
  plus the sum over that axis's coordinate.
-/
import proofs.«101160_j40054865002568_2_alg».proof.Proof.RefReadP
import proofs.«101160_j40054865002568_2_alg».proof.Proof.Spec

noncomputable section

open scoped BigOperators

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

/-- The coordinate array and the atomic-number column as the reference's argument types. -/
abbrev X1T : Type := (⟨S320x3, .f32⟩ : BufTy).Contents (Elt Ideal)
abbrev Z0T : Type := (⟨S320x1, .f32⟩ : BufTy).Contents (Elt Ideal)

/-- Two indices with the same coordinates are equal: one case per axis. -/
macro "idx1" : tactic => `(tactic| (funext a; match a with | ⟨0, _⟩ => rfl))
macro "idx2" : tactic => `(tactic| (funext a; match a with | ⟨0, _⟩ => rfl | ⟨1, _⟩ => rfl))
macro "idx3" : tactic => `(tactic| (funext a; match a with | ⟨0, _⟩ => rfl | ⟨1, _⟩ => rfl | ⟨2, _⟩ => rfl))

theorem bc_v0 (x1 : X1T) (c0 : Fin 320) (c1 : Fin 1) (c2 : Fin 3) :
    val_main_v0 (F := Ideal) x1 (ix3 c0 c1 c2) = x1 (ix2 c0 c2) := by
  rw [val_main_v0_apply]; exact congrArg _ (by idx2)

theorem bc_v1 (x1 : X1T) (c0 : Fin 1) (c1 : Fin 320) (c2 : Fin 3) :
    val_main_v1 (F := Ideal) x1 (ix3 c0 c1 c2) = x1 (ix2 c1 c2) := by
  rw [val_main_v1_apply]; exact congrArg _ (by idx2)

theorem bc_v2 (x1 : X1T) (c0 : Fin 320) (c1 : Fin 320) (c2 : Fin 3) :
    val_main_v2 (F := Ideal) x1 (ix3 c0 c1 c2) = (val_main_v0 (F := Ideal) x1) (ix3 c0 (0 : Fin 1) c2) := by
  rw [val_main_v2_apply]; exact congrArg _ (by idx3)

theorem bc_v3 (x1 : X1T) (c0 : Fin 320) (c1 : Fin 320) (c2 : Fin 3) :
    val_main_v3 (F := Ideal) x1 (ix3 c0 c1 c2) = (val_main_v1 (F := Ideal) x1) (ix3 (0 : Fin 1) c1 c2) := by
  rw [val_main_v3_apply]; exact congrArg _ (by idx3)

theorem red_v6 (x1 : X1T) (c0 : Fin 320) (c1 : Fin 320) :
    val_main_v6 (F := Ideal) x1 (ix2 c0 c1) = val_main_cst (F := Ideal) (Shape.Idx.first h_S_) + ∑ k : Fin 3, (val_main_v5 (F := Ideal) x1) (ix3 c0 c1 k) := by
  rw [val_main_v6_apply]; exact congrArg (_ + ·) (Finset.sum_congr rfl fun k _ => congrArg _ (by idx3))

theorem red_v33 (x1 : X1T) (c0 : Fin 320) :
    val_main_v33 (F := Ideal) x1 (ix1 c0) = val_main_cst_10 (F := Ideal) (Shape.Idx.first h_S_) + ∑ k : Fin 320, (val_main_v32 (F := Ideal) x1) (ix2 c0 k) := by
  rw [val_main_v33_apply]; exact congrArg (_ + ·) (Finset.sum_congr rfl fun k _ => congrArg _ (by idx2))

theorem bc_v34 (x1 : X1T) (c0 : Fin 320) (c1 : Fin 1) :
    val_main_v34 (F := Ideal) x1 (ix2 c0 c1) = (val_main_v33 (F := Ideal) x1) (ix1 c0) := by
  rw [val_main_v34_apply]; exact congrArg _ (by idx1)

theorem red_v42 (x1 : X1T) (c0 : Fin 320) :
    val_main_v42 (F := Ideal) x1 (ix1 c0) = val_main_cst_13 (F := Ideal) (Shape.Idx.first h_S_) + ∑ k : Fin 320, (val_main_v41 (F := Ideal) x1) (ix2 c0 k) := by
  rw [val_main_v42_apply]; exact congrArg (_ + ·) (Finset.sum_congr rfl fun k _ => congrArg _ (by idx2))

theorem bc_v43 (x1 : X1T) (c0 : Fin 320) (c1 : Fin 1) :
    val_main_v43 (F := Ideal) x1 (ix2 c0 c1) = (val_main_v42 (F := Ideal) x1) (ix1 c0) := by
  rw [val_main_v43_apply]; exact congrArg _ (by idx1)

theorem red_v51 (x1 : X1T) (c0 : Fin 320) :
    val_main_v51 (F := Ideal) x1 (ix1 c0) = val_main_cst_16 (F := Ideal) (Shape.Idx.first h_S_) + ∑ k : Fin 320, (val_main_v50 (F := Ideal) x1) (ix2 c0 k) := by
  rw [val_main_v51_apply]; exact congrArg (_ + ·) (Finset.sum_congr rfl fun k _ => congrArg _ (by idx2))

theorem bc_v52 (x1 : X1T) (c0 : Fin 320) (c1 : Fin 1) :
    val_main_v52 (F := Ideal) x1 (ix2 c0 c1) = (val_main_v51 (F := Ideal) x1) (ix1 c0) := by
  rw [val_main_v52_apply]; exact congrArg _ (by idx1)

theorem red_v60 (x1 : X1T) (c0 : Fin 320) :
    val_main_v60 (F := Ideal) x1 (ix1 c0) = val_main_cst_19 (F := Ideal) (Shape.Idx.first h_S_) + ∑ k : Fin 320, (val_main_v59 (F := Ideal) x1) (ix2 c0 k) := by
  rw [val_main_v60_apply]; exact congrArg (_ + ·) (Finset.sum_congr rfl fun k _ => congrArg _ (by idx2))

theorem bc_v61 (x1 : X1T) (c0 : Fin 320) (c1 : Fin 1) :
    val_main_v61 (F := Ideal) x1 (ix2 c0 c1) = (val_main_v60 (F := Ideal) x1) (ix1 c0) := by
  rw [val_main_v61_apply]; exact congrArg _ (by idx1)

theorem red_v69 (x1 : X1T) (c0 : Fin 320) :
    val_main_v69 (F := Ideal) x1 (ix1 c0) = val_main_cst_22 (F := Ideal) (Shape.Idx.first h_S_) + ∑ k : Fin 320, (val_main_v68 (F := Ideal) x1) (ix2 c0 k) := by
  rw [val_main_v69_apply]; exact congrArg (_ + ·) (Finset.sum_congr rfl fun k _ => congrArg _ (by idx2))

theorem bc_v70 (x1 : X1T) (c0 : Fin 320) (c1 : Fin 1) :
    val_main_v70 (F := Ideal) x1 (ix2 c0 c1) = (val_main_v69 (F := Ideal) x1) (ix1 c0) := by
  rw [val_main_v70_apply]; exact congrArg _ (by idx1)

theorem red_v78 (x1 : X1T) (c0 : Fin 320) :
    val_main_v78 (F := Ideal) x1 (ix1 c0) = val_main_cst_25 (F := Ideal) (Shape.Idx.first h_S_) + ∑ k : Fin 320, (val_main_v77 (F := Ideal) x1) (ix2 c0 k) := by
  rw [val_main_v78_apply]; exact congrArg (_ + ·) (Finset.sum_congr rfl fun k _ => congrArg _ (by idx2))

theorem bc_v79 (x1 : X1T) (c0 : Fin 320) (c1 : Fin 1) :
    val_main_v79 (F := Ideal) x1 (ix2 c0 c1) = (val_main_v78 (F := Ideal) x1) (ix1 c0) := by
  rw [val_main_v79_apply]; exact congrArg _ (by idx1)

theorem red_v87 (x1 : X1T) (c0 : Fin 320) :
    val_main_v87 (F := Ideal) x1 (ix1 c0) = val_main_cst_28 (F := Ideal) (Shape.Idx.first h_S_) + ∑ k : Fin 320, (val_main_v86 (F := Ideal) x1) (ix2 c0 k) := by
  rw [val_main_v87_apply]; exact congrArg (_ + ·) (Finset.sum_congr rfl fun k _ => congrArg _ (by idx2))

theorem bc_v88 (x1 : X1T) (c0 : Fin 320) (c1 : Fin 1) :
    val_main_v88 (F := Ideal) x1 (ix2 c0 c1) = (val_main_v87 (F := Ideal) x1) (ix1 c0) := by
  rw [val_main_v88_apply]; exact congrArg _ (by idx1)

theorem red_v96 (x1 : X1T) (c0 : Fin 320) :
    val_main_v96 (F := Ideal) x1 (ix1 c0) = val_main_cst_31 (F := Ideal) (Shape.Idx.first h_S_) + ∑ k : Fin 320, (val_main_v95 (F := Ideal) x1) (ix2 c0 k) := by
  rw [val_main_v96_apply]; exact congrArg (_ + ·) (Finset.sum_congr rfl fun k _ => congrArg _ (by idx2))

theorem bc_v97 (x1 : X1T) (c0 : Fin 320) (c1 : Fin 1) :
    val_main_v97 (F := Ideal) x1 (ix2 c0 c1) = (val_main_v96 (F := Ideal) x1) (ix1 c0) := by
  rw [val_main_v97_apply]; exact congrArg _ (by idx1)

theorem red_v105 (x1 : X1T) (c0 : Fin 320) :
    val_main_v105 (F := Ideal) x1 (ix1 c0) = val_main_cst_34 (F := Ideal) (Shape.Idx.first h_S_) + ∑ k : Fin 320, (val_main_v104 (F := Ideal) x1) (ix2 c0 k) := by
  rw [val_main_v105_apply]; exact congrArg (_ + ·) (Finset.sum_congr rfl fun k _ => congrArg _ (by idx2))

theorem bc_v106 (x1 : X1T) (c0 : Fin 320) (c1 : Fin 1) :
    val_main_v106 (F := Ideal) x1 (ix2 c0 c1) = (val_main_v105 (F := Ideal) x1) (ix1 c0) := by
  rw [val_main_v106_apply]; exact congrArg _ (by idx1)

theorem red_v111 (x1 : X1T) (c0 : Fin 320) :
    val_main_v111 (F := Ideal) x1 (ix1 c0) = val_main_cst_36 (F := Ideal) (Shape.Idx.first h_S_) + ∑ k : Fin 320, (val_main_v110 (F := Ideal) x1) (ix2 c0 k) := by
  rw [val_main_v111_apply]; exact congrArg (_ + ·) (Finset.sum_congr rfl fun k _ => congrArg _ (by idx2))

theorem bc_v112 (x1 : X1T) (c0 : Fin 320) (c1 : Fin 1) :
    val_main_v112 (F := Ideal) x1 (ix2 c0 c1) = (val_main_v111 (F := Ideal) x1) (ix1 c0) := by
  rw [val_main_v112_apply]; exact congrArg _ (by idx1)

theorem red_v117 (x1 : X1T) (c0 : Fin 320) :
    val_main_v117 (F := Ideal) x1 (ix1 c0) = val_main_cst_38 (F := Ideal) (Shape.Idx.first h_S_) + ∑ k : Fin 320, (val_main_v116 (F := Ideal) x1) (ix2 c0 k) := by
  rw [val_main_v117_apply]; exact congrArg (_ + ·) (Finset.sum_congr rfl fun k _ => congrArg _ (by idx2))

theorem bc_v118 (x1 : X1T) (c0 : Fin 320) (c1 : Fin 1) :
    val_main_v118 (F := Ideal) x1 (ix2 c0 c1) = (val_main_v117 (F := Ideal) x1) (ix1 c0) := by
  rw [val_main_v118_apply]; exact congrArg _ (by idx1)

theorem red_v123 (x1 : X1T) (c0 : Fin 320) :
    val_main_v123 (F := Ideal) x1 (ix1 c0) = val_main_cst_40 (F := Ideal) (Shape.Idx.first h_S_) + ∑ k : Fin 320, (val_main_v122 (F := Ideal) x1) (ix2 c0 k) := by
  rw [val_main_v123_apply]; exact congrArg (_ + ·) (Finset.sum_congr rfl fun k _ => congrArg _ (by idx2))

theorem bc_v124 (x1 : X1T) (c0 : Fin 320) (c1 : Fin 1) :
    val_main_v124 (F := Ideal) x1 (ix2 c0 c1) = (val_main_v123 (F := Ideal) x1) (ix1 c0) := by
  rw [val_main_v124_apply]; exact congrArg _ (by idx1)

theorem red_v129 (x1 : X1T) (c0 : Fin 320) :
    val_main_v129 (F := Ideal) x1 (ix1 c0) = val_main_cst_42 (F := Ideal) (Shape.Idx.first h_S_) + ∑ k : Fin 320, (val_main_v128 (F := Ideal) x1) (ix2 c0 k) := by
  rw [val_main_v129_apply]; exact congrArg (_ + ·) (Finset.sum_congr rfl fun k _ => congrArg _ (by idx2))

theorem bc_v130 (x1 : X1T) (c0 : Fin 320) (c1 : Fin 1) :
    val_main_v130 (F := Ideal) x1 (ix2 c0 c1) = (val_main_v129 (F := Ideal) x1) (ix1 c0) := by
  rw [val_main_v130_apply]; exact congrArg _ (by idx1)

theorem bc_v132 (x1 : X1T) (c0 : Fin 320) (c1 : Fin 320) (c2 : Fin 1) :
    val_main_v132 (F := Ideal) x1 (ix3 c0 c1 c2) = (val_main_v11 (F := Ideal) x1) (ix2 c0 c1) := by
  rw [val_main_v132_apply]; exact congrArg _ (by idx2)

theorem bc_v133 (x1 : X1T) (c0 : Fin 320) (c1 : Fin 1) (c2 : Fin 320) :
    val_main_v133 (F := Ideal) x1 (ix3 c0 c1 c2) = (val_main_v11 (F := Ideal) x1) (ix2 c0 c2) := by
  rw [val_main_v133_apply]; exact congrArg _ (by idx2)

theorem bc_v134 (x1 : X1T) (c0 : Fin 320) (c1 : Fin 320) (c2 : Fin 320) :
    val_main_v134 (F := Ideal) x1 (ix3 c0 c1 c2) = (val_main_v132 (F := Ideal) x1) (ix3 c0 c1 (0 : Fin 1)) := by
  rw [val_main_v134_apply]; exact congrArg _ (by idx3)

theorem bc_v135 (x1 : X1T) (c0 : Fin 320) (c1 : Fin 320) (c2 : Fin 320) :
    val_main_v135 (F := Ideal) x1 (ix3 c0 c1 c2) = (val_main_v133 (F := Ideal) x1) (ix3 c0 (0 : Fin 1) c2) := by
  rw [val_main_v135_apply]; exact congrArg _ (by idx3)

theorem bc_v141 (x1 : X1T) (c0 : Fin 320) (c1 : Fin 320) (c2 : Fin 1) :
    val_main_v141 (F := Ideal) x1 (ix3 c0 c1 c2) = (val_main_v6 (F := Ideal) x1) (ix2 c0 c1) := by
  rw [val_main_v141_apply]; exact congrArg _ (by idx2)

theorem bc_v142 (x1 : X1T) (c0 : Fin 320) (c1 : Fin 1) (c2 : Fin 320) :
    val_main_v142 (F := Ideal) x1 (ix3 c0 c1 c2) = (val_main_v6 (F := Ideal) x1) (ix2 c0 c2) := by
  rw [val_main_v142_apply]; exact congrArg _ (by idx2)

theorem bc_v143 (x1 : X1T) (c0 : Fin 320) (c1 : Fin 320) (c2 : Fin 320) :
    val_main_v143 (F := Ideal) x1 (ix3 c0 c1 c2) = (val_main_v141 (F := Ideal) x1) (ix3 c0 c1 (0 : Fin 1)) := by
  rw [val_main_v143_apply]; exact congrArg _ (by idx3)

theorem bc_v144 (x1 : X1T) (c0 : Fin 320) (c1 : Fin 320) (c2 : Fin 320) :
    val_main_v144 (F := Ideal) x1 (ix3 c0 c1 c2) = (val_main_v142 (F := Ideal) x1) (ix3 c0 (0 : Fin 1) c2) := by
  rw [val_main_v144_apply]; exact congrArg _ (by idx3)

theorem bc_v146 (x1 : X1T) (c0 : Fin 1) (c1 : Fin 320) (c2 : Fin 320) :
    val_main_v146 (F := Ideal) x1 (ix3 c0 c1 c2) = (val_main_v6 (F := Ideal) x1) (ix2 c1 c2) := by
  rw [val_main_v146_apply]; exact congrArg _ (by idx2)

theorem bc_v147 (x1 : X1T) (c0 : Fin 320) (c1 : Fin 320) (c2 : Fin 320) :
    val_main_v147 (F := Ideal) x1 (ix3 c0 c1 c2) = (val_main_v146 (F := Ideal) x1) (ix3 (0 : Fin 1) c1 c2) := by
  rw [val_main_v147_apply]; exact congrArg _ (by idx3)

theorem bc_v151 (c0 : Fin 1) (c1 : Fin 320) (c2 : Fin 320) :
    val_main_v151 (F := Ideal) (ix3 c0 c1 c2) = (val_main_v150 (F := Ideal)) (ix2 c1 c2) := by
  rw [val_main_v151_apply]; exact congrArg _ (by idx2)

theorem bc_v152 (x1 : X1T) (c0 : Fin 320) (c1 : Fin 320) (c2 : Fin 1) :
    val_main_v152 (F := Ideal) x1 (ix3 c0 c1 c2) = (val_main_v32 (F := Ideal) x1) (ix2 c0 c1) := by
  rw [val_main_v152_apply]; exact congrArg _ (by idx2)

theorem bc_v153 (x1 : X1T) (c0 : Fin 320) (c1 : Fin 1) (c2 : Fin 320) :
    val_main_v153 (F := Ideal) x1 (ix3 c0 c1 c2) = (val_main_v32 (F := Ideal) x1) (ix2 c0 c2) := by
  rw [val_main_v153_apply]; exact congrArg _ (by idx2)

theorem bc_v154 (x1 : X1T) (c0 : Fin 320) (c1 : Fin 320) (c2 : Fin 320) :
    val_main_v154 (F := Ideal) x1 (ix3 c0 c1 c2) = (val_main_v152 (F := Ideal) x1) (ix3 c0 c1 (0 : Fin 1)) := by
  rw [val_main_v154_apply]; exact congrArg _ (by idx3)

theorem bc_v155 (x1 : X1T) (c0 : Fin 320) (c1 : Fin 320) (c2 : Fin 320) :
    val_main_v155 (F := Ideal) x1 (ix3 c0 c1 c2) = (val_main_v153 (F := Ideal) x1) (ix3 c0 (0 : Fin 1) c2) := by
  rw [val_main_v155_apply]; exact congrArg _ (by idx3)

theorem bc_v157 (c0 : Fin 320) (c1 : Fin 320) (c2 : Fin 320) :
    val_main_v157 (F := Ideal) (ix3 c0 c1 c2) = (val_main_v151 (F := Ideal)) (ix3 (0 : Fin 1) c1 c2) := by
  rw [val_main_v157_apply]; exact congrArg _ (by idx3)

theorem bc_v159 (x1 : X1T) (c0 : Fin 1) (c1 : Fin 320) (c2 : Fin 320) :
    val_main_v159 (F := Ideal) x1 (ix3 c0 c1 c2) = (val_main_v32 (F := Ideal) x1) (ix2 c1 c2) := by
  rw [val_main_v159_apply]; exact congrArg _ (by idx2)

theorem bc_v160 (x1 : X1T) (c0 : Fin 320) (c1 : Fin 320) (c2 : Fin 320) :
    val_main_v160 (F := Ideal) x1 (ix3 c0 c1 c2) = (val_main_v159 (F := Ideal) x1) (ix3 (0 : Fin 1) c1 c2) := by
  rw [val_main_v160_apply]; exact congrArg _ (by idx3)

theorem bc_v176 (x1 : X1T) (c0 : Fin 320) (c1 : Fin 1) :
    val_main_v176 (F := Ideal) x1 (ix2 c0 c1) = (val_main_v175 (F := Ideal) x1) (ix1 c0) := by
  rw [val_main_v176_apply]; exact congrArg _ (by idx1)

theorem bc_v191 (x1 : X1T) (c0 : Fin 320) (c1 : Fin 1) :
    val_main_v191 (F := Ideal) x1 (ix2 c0 c1) = (val_main_v190 (F := Ideal) x1) (ix1 c0) := by
  rw [val_main_v191_apply]; exact congrArg _ (by idx1)

theorem bc_v206 (x1 : X1T) (c0 : Fin 320) (c1 : Fin 1) :
    val_main_v206 (F := Ideal) x1 (ix2 c0 c1) = (val_main_v205 (F := Ideal) x1) (ix1 c0) := by
  rw [val_main_v206_apply]; exact congrArg _ (by idx1)

theorem bc_v221 (x1 : X1T) (c0 : Fin 320) (c1 : Fin 1) :
    val_main_v221 (F := Ideal) x1 (ix2 c0 c1) = (val_main_v220 (F := Ideal) x1) (ix1 c0) := by
  rw [val_main_v221_apply]; exact congrArg _ (by idx1)

theorem bc_v236 (x1 : X1T) (c0 : Fin 320) (c1 : Fin 1) :
    val_main_v236 (F := Ideal) x1 (ix2 c0 c1) = (val_main_v235 (F := Ideal) x1) (ix1 c0) := by
  rw [val_main_v236_apply]; exact congrArg _ (by idx1)

theorem bc_v251 (x1 : X1T) (c0 : Fin 320) (c1 : Fin 1) :
    val_main_v251 (F := Ideal) x1 (ix2 c0 c1) = (val_main_v250 (F := Ideal) x1) (ix1 c0) := by
  rw [val_main_v251_apply]; exact congrArg _ (by idx1)

theorem bc_v266 (x1 : X1T) (c0 : Fin 320) (c1 : Fin 1) :
    val_main_v266 (F := Ideal) x1 (ix2 c0 c1) = (val_main_v265 (F := Ideal) x1) (ix1 c0) := by
  rw [val_main_v266_apply]; exact congrArg _ (by idx1)

theorem bc_v281 (x1 : X1T) (c0 : Fin 320) (c1 : Fin 1) :
    val_main_v281 (F := Ideal) x1 (ix2 c0 c1) = (val_main_v280 (F := Ideal) x1) (ix1 c0) := by
  rw [val_main_v281_apply]; exact congrArg _ (by idx1)

end Cert.ReferenceIdeal.RefValue
-- ==== Proof.RefValueLib.lean ====
/-
  Three readings used on the reference side, stated over literal shapes and independent of any program:
  a float sum over the last two axes of a cube read at a row as the sum over ordered pairs; the diagonal
  indicator computed from two counters; a list of single-column pieces joined along the column axis read at a column.
-/
import Idealize.ShloMosaic.PureOps.Ideal
import Idealize.ShloMosaic.PureOps.Ideal.Laws
import Idealize.ShloMosaic.Lib.ValueIdx
import Idealize.ShloMosaic.Lib.Pipeline.Value
import proofs.«101160_j40054865002568_2_alg».proof.Proof.Spec

noncomputable section

open scoped BigOperators

namespace Cert.RefValueLib

open Idealize.ShloMosaic Idealize.ShloMosaic.ValueIdx

/-- Dropping the last two coordinates of a cube index leaves its first coordinate. -/
theorem drop12_eq_iff (h : (⟨3, ![320, 320, 320]⟩ : Shape).ReducesTo [1, 2] ⟨1, ![320]⟩)
    (q : (⟨3, ![320, 320, 320]⟩ : Shape).Idx) (i : Fin 320) : h.drop q = ix1 i ↔ q 0 = i := by
  have hv : ((h.drop q 0 : Fin 320) : Nat) = (q 0 : Fin 320) := Shape.ReducesTo.drop_apply_val_of_eq h q 0 0
  constructor
  · intro e
    have : (h.drop q 0 : Fin 320) = i := by rw [e]
    exact Fin.ext (by rw [← hv, this])
  · intro e
    rw [eq_ix1 (h.drop q)]
    exact congrArg ix1 (Fin.ext (by rw [hv, e]))

/-- The host's float sum over the last two axes of a cube, read at row `i`: the initial value plus the sum over
    ordered pairs `(j, k)` of the cube at `(i, j, k)`. -/
theorem hostReduceAdd_12 (h : (⟨3, ![320, 320, 320]⟩ : Shape).ReducesTo [1, 2] ⟨1, ![320]⟩)
    (y : (⟨3, ![320, 320, 320]⟩ : Shape).Idx → EReal) (init : EReal) (i : Fin 320) :
    Ideal.hostReduceAdd h y init (ix1 i) = init + ∑ j : Fin 320, ∑ k : Fin 320, y (ix3 i j k) := by
  unfold Ideal.hostReduceAdd
  refine congrArg (init + ·) ?_
  rw [← Finset.sum_product' (s := (Finset.univ : Finset (Fin 320))) (t := (Finset.univ : Finset (Fin 320)))
    (f := fun j k => y (ix3 i j k))]
  refine Finset.sum_nbij' (fun q => ((q 1 : Fin 320), (q 2 : Fin 320))) (fun p => ix3 i p.1 p.2) ?_ ?_ ?_ ?_ ?_
  · intro q _; exact Finset.mem_product.2 ⟨Finset.mem_univ _, Finset.mem_univ _⟩
  · intro p _
    refine Finset.mem_filter.2 ⟨Finset.mem_univ _, ?_⟩
    exact (drop12_eq_iff h _ i).2 rfl
  · intro q hq
    have hq0 : q 0 = i := (drop12_eq_iff h q i).1 (Finset.mem_filter.1 hq).2
    subst hq0
    exact (eq_ix3 q).symm
  · intro p _; rfl
  · intro q hq
    have hq0 : q 0 = i := (drop12_eq_iff h q i).1 (Finset.mem_filter.1 hq).2
    subst hq0
    exact congrArg y (eq_ix3 q)

/-- Two counters below 320, compared as 32-bit words after adding a zero word to the first, then read as a float:
    the diagonal indicator. -/
theorem eye_read (a b : Fin 320) :
    FloatOps.uitofp (F := Ideal) .f32
        (IntOp.cmpi .eq (IntOp.addi (BitVec.ofNat 32 a.val) 0#32) (BitVec.ofNat 32 b.val)) = Cert.Spec.eye a b := by
  have ha : a.val < 2 ^ 32 := lt_trans a.isLt (by norm_num)
  have hb : b.val < 2 ^ 32 := lt_trans b.isLt (by norm_num)
  unfold Cert.Spec.eye IntOp.cmpi IntOp.addi
  rw [BitVec.add_zero]
  by_cases e : a = b
  · subst e; simp [FloatOps.uitofp]
  · have hne : (BitVec.ofNat 32 a.val == BitVec.ofNat 32 b.val) = false := by
      rw [beq_eq_false_iff_ne]
      intro hh
      apply e
      have := congrArg BitVec.toNat hh
      rw [BitVec.toNat_ofNat, BitVec.toNat_ofNat, Nat.mod_eq_of_lt ha, Nat.mod_eq_of_lt hb] at this
      exact Fin.ext this
    rw [if_neg e]
    simp [FloatOps.uitofp, hne]

/-- A list of pieces joined along the column axis, read at column `f`: when piece `k` is a single column and the
    pieces before it have `f` columns together, the entry is that piece's. -/
theorem concat_cols {α : Type} {C : Nat} (xs : List ((s : Shape) × (s.Idx → α)))
    (h : Shape.Concatenates (xs.map (·.1)) (⟨2, ![320, C]⟩ : Shape) (1 : Fin 2)) (n : Fin 320) (f : Fin C)
    (k : Nat) (hk : k < xs.length) (x₁ : (⟨2, ![320, 1]⟩ : Shape).Idx → α)
    (hxk : xs[k] = ⟨(⟨2, ![320, 1]⟩ : Shape), x₁⟩)
    (hpre : (((xs.take k).map (·.1)).map fun s : Shape =>
        if h : s.rank = (⟨2, ![320, C]⟩ : Shape).rank then s.size ((1 : Fin 2).cast h.symm) else 0).sum = f.val) :
    concatenate (⟨2, ![320, C]⟩ : Shape) (1 : Fin 2) xs h (ix2 n f) = x₁ (ix2 n 0) := by
  refine concatenate_apply_piece (1 : Fin 2) xs h (ix2 n f) k hk _ x₁ hxk rfl f.val hpre (ix2 n 0) ?_ ?_
  · intro b hb
    match b with
    | ⟨0, _⟩ => rfl
    | ⟨1, _⟩ => exact absurd rfl hb
  · show f.val + 0 = f.val
    rfl

end Cert.RefValueLib
-- ==== Proof.RefValuePair.lean ====
/-
  The reference's pair quantities read at a pair of atoms — the difference vector, the squared distance, the
  guarded distance, the diagonal indicator, the cutoff weight — and from them the fourteen radial features of
  an atom, each equal to the specification's.
-/
import proofs.«101160_j40054865002568_2_alg».proof.Proof.RefValueBc
import proofs.«101160_j40054865002568_2_alg».proof.Proof.RefValueLib

noncomputable section

open scoped BigOperators

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

theorem diff_at (x1 : X1T) (i j : Fin 320) (d : Fin 3) :
    val_main_v4 (F := Ideal) x1 (ix3 i j d) = Spec.diff (Spec.row x1 i) x1 j d := by
  simp only [val_main_v4_apply, bc_v2, bc_v0, bc_v3, bc_v1]
  rfl

theorem r2_at (x1 : X1T) (i j : Fin 320) :
    val_main_v6 (F := Ideal) x1 (ix2 i j) = Spec.r2row (Spec.row x1 i) x1 j := by
  simp only [red_v6, val_main_v5_apply, val_main_cst_apply, diff_at]
  rfl

theorem r_at (x1 : X1T) (i j : Fin 320) :
    val_main_v11 (F := Ideal) x1 (ix2 i j) = Spec.rrow (Spec.row x1 i) x1 j := by
  simp only [val_main_v11_apply, val_main_v8_apply, val_main_v7_apply, val_main_cst_0_apply, val_main_v10_apply, val_main_v9_apply, val_main_call0_v1_apply, val_main_call0_v0_apply, val_main_cst_1_apply, val_main_call1_v1_apply, val_main_call1_v0_apply, val_main_cst_2_apply, r2_at]
  rfl

theorem eye_at (i j : Fin 320) :
    val_main_v17 (F := Ideal) (ix2 i j) = Spec.eye i j := by
  simp only [val_main_v17_apply, val_main_v16_apply, val_main_v15_apply, val_main_v12_apply, val_main_v14_apply, val_main_c_apply, val_main_v13_apply]
  exact Cert.RefValueLib.eye_read i j

theorem fc_at (x1 : X1T) (i j : Fin 320) :
    val_main_v32 (F := Ideal) x1 (ix2 i j) = Spec.fcrow i (Spec.row x1 i) x1 j := by
  simp only [val_main_v32_apply, val_main_v29_apply, val_main_v19_apply, val_main_v18_apply, val_main_cst_3_apply, val_main_v28_apply, val_main_v27_apply, val_main_cst_7_apply, val_main_v26_apply, val_main_v24_apply, val_main_v23_apply, val_main_v21_apply, val_main_v20_apply, val_main_cst_4_apply, val_main_v22_apply, val_main_cst_5_apply, val_main_v25_apply, val_main_cst_6_apply, val_main_call2_v1_apply, val_main_call2_v0_apply, val_main_cst_8_apply, val_main_v31_apply, val_main_v30_apply, val_main_cst_9_apply, r_at, eye_at]
  rfl

/-- The reference's squared-distance plane is the specification's pair plane. -/
theorem r2pl_at (x1 : X1T) (j k : Fin 320) :
    val_main_v6 (F := Ideal) x1 (ix2 j k) = Spec.r2pl x1 j k := r2_at x1 j k

/-- The reference's cutoff-weight plane is the specification's pair plane. -/
theorem fcpl_at (x1 : X1T) (j k : Fin 320) :
    val_main_v32 (F := Ideal) x1 (ix2 j k) = Spec.fcpl x1 j k := fc_at x1 j k

theorem feat1_at (x1 : X1T) (zn : EReal) (n : Fin 320) :
    val_main_v34 (F := Ideal) x1 (ix2 n (0 : Fin 1)) = Spec.feat zn n (Spec.row x1 n) x1 ⟨1, by decide⟩ := by
  simp only [bc_v34, red_v33, val_main_cst_10_apply, fc_at]
  rfl

theorem feat2_at (x1 : X1T) (zn : EReal) (n : Fin 320) :
    val_main_v43 (F := Ideal) x1 (ix2 n (0 : Fin 1)) = Spec.feat zn n (Spec.row x1 n) x1 ⟨2, by decide⟩ := by
  simp only [bc_v43, red_v42, val_main_v41_apply, val_main_v40_apply, val_main_v39_apply, val_main_v38_apply, val_main_cst_12_apply, val_main_v37_apply, val_main_v36_apply, val_main_v35_apply, val_main_cst_11_apply, val_main_cst_13_apply, r_at, fc_at]
  rfl

theorem feat3_at (x1 : X1T) (zn : EReal) (n : Fin 320) :
    val_main_v52 (F := Ideal) x1 (ix2 n (0 : Fin 1)) = Spec.feat zn n (Spec.row x1 n) x1 ⟨3, by decide⟩ := by
  simp only [bc_v52, red_v51, val_main_v50_apply, val_main_v49_apply, val_main_v48_apply, val_main_v47_apply, val_main_cst_15_apply, val_main_v46_apply, val_main_v45_apply, val_main_v44_apply, val_main_cst_14_apply, val_main_cst_16_apply, r_at, fc_at]
  rfl

theorem feat4_at (x1 : X1T) (zn : EReal) (n : Fin 320) :
    val_main_v61 (F := Ideal) x1 (ix2 n (0 : Fin 1)) = Spec.feat zn n (Spec.row x1 n) x1 ⟨4, by decide⟩ := by
  simp only [bc_v61, red_v60, val_main_v59_apply, val_main_v58_apply, val_main_v57_apply, val_main_v56_apply, val_main_cst_18_apply, val_main_v55_apply, val_main_v54_apply, val_main_v53_apply, val_main_cst_17_apply, val_main_cst_19_apply, r_at, fc_at]
  rfl

theorem feat5_at (x1 : X1T) (zn : EReal) (n : Fin 320) :
    val_main_v70 (F := Ideal) x1 (ix2 n (0 : Fin 1)) = Spec.feat zn n (Spec.row x1 n) x1 ⟨5, by decide⟩ := by
  simp only [bc_v70, red_v69, val_main_v68_apply, val_main_v67_apply, val_main_v66_apply, val_main_v65_apply, val_main_cst_21_apply, val_main_v64_apply, val_main_v63_apply, val_main_v62_apply, val_main_cst_20_apply, val_main_cst_22_apply, r_at, fc_at]
  rfl

theorem feat6_at (x1 : X1T) (zn : EReal) (n : Fin 320) :
    val_main_v79 (F := Ideal) x1 (ix2 n (0 : Fin 1)) = Spec.feat zn n (Spec.row x1 n) x1 ⟨6, by decide⟩ := by
  simp only [bc_v79, red_v78, val_main_v77_apply, val_main_v76_apply, val_main_v75_apply, val_main_v74_apply, val_main_cst_24_apply, val_main_v73_apply, val_main_v72_apply, val_main_v71_apply, val_main_cst_23_apply, val_main_cst_25_apply, r_at, fc_at]
  rfl

theorem feat7_at (x1 : X1T) (zn : EReal) (n : Fin 320) :
    val_main_v88 (F := Ideal) x1 (ix2 n (0 : Fin 1)) = Spec.feat zn n (Spec.row x1 n) x1 ⟨7, by decide⟩ := by
  simp only [bc_v88, red_v87, val_main_v86_apply, val_main_v85_apply, val_main_v84_apply, val_main_v83_apply, val_main_cst_27_apply, val_main_v82_apply, val_main_v81_apply, val_main_v80_apply, val_main_cst_26_apply, val_main_cst_28_apply, r_at, fc_at]
  rfl

theorem feat8_at (x1 : X1T) (zn : EReal) (n : Fin 320) :
    val_main_v97 (F := Ideal) x1 (ix2 n (0 : Fin 1)) = Spec.feat zn n (Spec.row x1 n) x1 ⟨8, by decide⟩ := by
  simp only [bc_v97, red_v96, val_main_v95_apply, val_main_v94_apply, val_main_v93_apply, val_main_v92_apply, val_main_cst_30_apply, val_main_v91_apply, val_main_v90_apply, val_main_v89_apply, val_main_cst_29_apply, val_main_cst_31_apply, r_at, fc_at]
  rfl

theorem feat9_at (x1 : X1T) (zn : EReal) (n : Fin 320) :
    val_main_v106 (F := Ideal) x1 (ix2 n (0 : Fin 1)) = Spec.feat zn n (Spec.row x1 n) x1 ⟨9, by decide⟩ := by
  simp only [bc_v106, red_v105, val_main_v104_apply, val_main_v103_apply, val_main_v102_apply, val_main_v101_apply, val_main_cst_33_apply, val_main_v100_apply, val_main_v99_apply, val_main_v98_apply, val_main_cst_32_apply, val_main_cst_34_apply, r_at, fc_at]
  rfl

theorem feat10_at (x1 : X1T) (zn : EReal) (n : Fin 320) :
    val_main_v112 (F := Ideal) x1 (ix2 n (0 : Fin 1)) = Spec.feat zn n (Spec.row x1 n) x1 ⟨10, by decide⟩ := by
  simp only [bc_v112, red_v111, val_main_v110_apply, val_main_v109_apply, val_main_v108_apply, val_main_v107_apply, val_main_cst_35_apply, val_main_cst_36_apply, r_at, fc_at]
  rfl

theorem feat11_at (x1 : X1T) (zn : EReal) (n : Fin 320) :
    val_main_v118 (F := Ideal) x1 (ix2 n (0 : Fin 1)) = Spec.feat zn n (Spec.row x1 n) x1 ⟨11, by decide⟩ := by
  simp only [bc_v118, red_v117, val_main_v116_apply, val_main_v115_apply, val_main_v114_apply, val_main_v113_apply, val_main_cst_37_apply, val_main_cst_38_apply, r_at, fc_at]
  rfl

theorem feat12_at (x1 : X1T) (zn : EReal) (n : Fin 320) :
    val_main_v124 (F := Ideal) x1 (ix2 n (0 : Fin 1)) = Spec.feat zn n (Spec.row x1 n) x1 ⟨12, by decide⟩ := by
  simp only [bc_v124, red_v123, val_main_v122_apply, val_main_v121_apply, val_main_v120_apply, val_main_v119_apply, val_main_cst_39_apply, val_main_cst_40_apply, r_at, fc_at]
  rfl

theorem feat13_at (x1 : X1T) (zn : EReal) (n : Fin 320) :
    val_main_v130 (F := Ideal) x1 (ix2 n (0 : Fin 1)) = Spec.feat zn n (Spec.row x1 n) x1 ⟨13, by decide⟩ := by
  simp only [bc_v130, red_v129, val_main_v128_apply, val_main_v127_apply, val_main_v126_apply, val_main_v125_apply, val_main_cst_41_apply, val_main_cst_42_apply, r_at, fc_at]
  rfl

end Cert.ReferenceIdeal.RefValue
-- ==== Proof.PlanesAt.lean ====
/-
  The host-computed pair-weight planes read at an index, in the specification's vocabulary: entry (j, k) of the
  plane of radial width cw is exp(cw · r2(j,k)) · fc(j,k), the specification's pair weight; and the stacked array
  holds the plane of the first width at leading coordinate 0 and that of the second at leading coordinate 1.
-/
import Idealize.ShloMosaic.Lib.IdealHost
import proofs.«101160_j40054865002568_2_alg».proof.Proof.PlanesDef
import proofs.«101160_j40054865002568_2_alg».proof.Proof.RefValuePair
import proofs.«101160_j40054865002568_2_alg».proof.Proof.Spec

noncomputable section

namespace Cert.KernelIdeal.Planes

open Idealize.ShloMosaic Idealize.ShloMosaic.ValueIdx Cert.KernelIdeal Cert.KernelIdeal.Gen

/-- Equal arguments give equal values, for a function of three arguments. -/
theorem congr3 {α β γ δ : Sort _} (f : α → β → γ → δ) {a a' : α} {b b' : β} {c c' : γ}
    (ha : a = a') (hb : b = b') (hc : c = c') : f a b c = f a' b' c' := by
  subst ha hb hc; rfl

/-- The radial width, a scalar constant spread over the plane, reads the constant everywhere. -/
theorem width_at (cw : BitVec 32) (h : S_.BroadcastsInDim S320x320 ![]) (j k : Fin 320) :
    broadcastInDim S320x320 ![] h (constant (F := Ideal) S_ .f32 cw) (ix2 j k) = Ideal.ofBits .f32 cw :=
  broadcastInDim_scalar_apply h _ (ix2 j k)

/-- Entry (j, k) of the plane of radial width cw is the specification's pair weight. -/
theorem plane_at (cw : BitVec 32) (x1 : (⟨S320x3, .f32⟩ : BufTy).Contents (Elt Ideal)) (j k : Fin 320) :
    plane cw x1 (ix2 j k) = Cert.Spec.wplane (Ideal.ofBits .f32 cw) x1 j k := by
  unfold plane Cert.Spec.wplane
  exact congr3 (fun c a b : EReal => Ideal.exp (c * a) * b) (width_at cw _ j k)
    (Cert.ReferenceIdeal.RefValue.r2pl_at x1 j k) (Cert.ReferenceIdeal.RefValue.fcpl_at x1 j k)

/-- A plane put behind a new leading unit axis reads the plane. -/
theorem lead_at {α : Type} (w : S320x320.Idx → α) (h : S320x320.BroadcastsInDim S1x320x320 (![1, 2] : Fin 2 → Fin S1x320x320.rank))
    (u : Fin 1) (j k : Fin 320) : broadcastInDim S1x320x320 ![1, 2] h w (ix3 u j k) = w (ix2 j k) :=
  broadcastInDim_apply _ h w (ix3 u j k) (ix2 j k) (fun a => match a with
    | ⟨0, _⟩ => by show j.val = if (320 : Nat) = 1 then 0 else j.val; rw [if_neg (by decide)]
    | ⟨1, _⟩ => by show k.val = if (320 : Nat) = 1 then 0 else k.val; rw [if_neg (by decide)])

/-- The stacked array at leading coordinate 0 is the plane of the first radial width. -/
theorem planes_at0 (x1 : (⟨S320x3, .f32⟩ : BufTy).Contents (Elt Ideal)) (j k : Fin 320) :
    planes x1 (ix3 (0 : Fin 2) j k) = Cert.Spec.wplane (Ideal.ofBits .f32 0xBDCCCCCD#32) x1 j k := by
  unfold planes
  refine (concatenate_pair_apply_left (s₁ := S1x320x320) (s₂ := S1x320x320) (0 : Fin S2x320x320.rank) _ _ _ (ix3 (0 : Fin 2) j k) rfl (ix3 (0 : Fin 1) j k)
    (fun b => by match b with | ⟨0, _⟩ => rfl | ⟨1, _⟩ => rfl | ⟨2, _⟩ => rfl)).trans ?_
  exact (lead_at _ _ 0 j k).trans (plane_at _ x1 j k)

/-- The stacked array at leading coordinate 1 is the plane of the second radial width. -/
theorem planes_at1 (x1 : (⟨S320x3, .f32⟩ : BufTy).Contents (Elt Ideal)) (j k : Fin 320) :
    planes x1 (ix3 (1 : Fin 2) j k) = Cert.Spec.wplane (Ideal.ofBits .f32 0xBF000000#32) x1 j k := by
  unfold planes
  refine (concatenate_pair_apply_right (s₁ := S1x320x320) (s₂ := S1x320x320) (0 : Fin S2x320x320.rank) _ _ _ (ix3 (1 : Fin 2) j k) rfl rfl (ix3 (0 : Fin 1) j k)
    (fun b hb => by match b with | ⟨0, _⟩ => exact absurd rfl hb | ⟨1, _⟩ => rfl | ⟨2, _⟩ => rfl) rfl).trans ?_
  exact (lead_at _ _ 0 j k).trans (plane_at _ x1 j k)

end Cert.KernelIdeal.Planes

end
-- ==== Proof.TileValLayout.lean ====
/-
  Layout operations of the kernel's tile read at explicit coordinates: the reshapes that insert a unit
  axis into a row of coordinates, into a column of distances, or in front of a plane, the broadcasts of those
  to the tile's three-axis shapes, and the sums over the last axis, each as the operand at the index with the
  same coordinates (or the finite sum over the reduced coordinate).
-/
import Idealize.ShloMosaic.Lib.ValueLayout
import Idealize.ShloMosaic.PureOps.Ideal.Laws

noncomputable section

open scoped BigOperators

namespace Cert.KernelIdeal.TileVal

open Idealize.ShloMosaic Idealize.ShloMosaic.ValueIdx

variable {α : Type}

/-! ## Reshapes that insert a unit axis -/

/-- A row [a, c] viewed [a, 1, c]. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- A matrix [a, b] viewed [a, b, 1]. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A vector [a] viewed as a column [a, 1]. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Broadcasts along one unit axis of a three-axis shape -/

/-- From [a, 1, c] to [a, b, c]: the middle coordinate is forgotten. -/
theorem broadcastTo_a1c_abc_apply {a b c : ℕ} (ha : a ≠ 1) (hc : c ≠ 1) (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    rw [if_neg ha]
  | ⟨1, _⟩ => rfl
  | ⟨2, _⟩ =>
    show k.val = if c = 1 then 0 else k.val
    rw [if_neg hc]

/-- From [1, b, c] to [a, b, c]: the leading coordinate is forgotten. -/
theorem broadcastTo_1bc_abc_apply {a b c : ℕ} (hb : b ≠ 1) (hc : c ≠ 1) (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    rw [if_neg hb]
  | ⟨2, _⟩ =>
    show k.val = if c = 1 then 0 else k.val
    rw [if_neg hc]

/-- From [a, b, 1] to [a, b, c]: the last coordinate is forgotten. -/
theorem broadcastTo_ab1_abc_apply {a b c : ℕ} (ha : a ≠ 1) (hb : b ≠ 1) (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    rw [if_neg ha]
  | ⟨1, _⟩ =>
    show j.val = if b = 1 then 0 else j.val
    rw [if_neg hb]
  | ⟨2, _⟩ => rfl

/-! ## Sums over the last axis, at the ideal values -/

/-- The sum over the last axis of a three-axis vector, at (i, j). -/
theorem sum_last3_apply {a b c : ℕ} (src : FVec Ideal ⟨3, ![a, b, c]⟩ .f32)
    (h : Shape.Reduces ⟨3, ![a, b, c]⟩ [2] ⟨2, ![a, b]⟩) (hφ : FKind.Formats .f32)
    (hacc : (0x00000000#32 : BitVec 32) = FKind.add.neutral .f32 hφ) (i : Fin a) (j : Fin b) :
    multiReduction .add [2] ⟨2, ![a, b]⟩ src 0x00000000#32 h hφ hacc (ix2 i j) = ∑ k : Fin c, src (ix3 i j k) := by
  refine (Ideal.multiReduction_add_single src 0x00000000#32 h hφ hacc (ix2 i j)).trans ?_
  refine Finset.sum_congr rfl fun k _ => congrArg src ?_
  funext ax
  match ax with
  | ⟨0, _⟩ => rfl
  | ⟨1, _⟩ => rfl
  | ⟨2, _⟩ => rfl

/-- The sum over the last axis of a matrix, at i. -/
theorem sum_last2_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  refine Finset.sum_congr rfl fun k _ => congrArg src ?_
  funext ax
  match ax with
  | ⟨0, _⟩ => rfl
  | ⟨1, _⟩ => rfl

end Cert.KernelIdeal.TileVal

end
-- ==== Proof.TileValCols.lean ====
/-
  The tile's 22 feature columns laid side by side, read at (r, c): column c of the result is the c-th of the 22
  one-column pieces at row r (the eighteenth piece, numbered 17, is one sixteenth of a row sum that was still a
  plain vector of 8, reshaped to a column).
-/
import proofs.«101160_j40054865002568_2_alg».proof.Proof.Gen.KernelIdeal.Skeleton
import proofs.«101160_j40054865002568_2_alg».proof.Proof.TileValLayout

noncomputable section

open scoped BigOperators

namespace Cert.KernelIdeal.TileVal

open Idealize.ShloMosaic Idealize.ShloMosaic.ValueIdx Cert.KernelIdeal Cert.KernelIdeal.Gen

/-- The coordinates of a one-column piece's entry and of the result's entry agree off the column axis. -/
theorem col_off_axis (r : Fin 8) (c : Fin 22) (b : Fin S8x1.rank) (hb : b.cast (rfl : S8x1.rank = S8x22.rank) ≠ (1 : Fin S8x22.rank)) :
    ((ix2 r (0 : Fin 1) : S8x1.Idx) b).val = ((ix2 r c : S8x22.Idx) (b.cast (rfl : S8x1.rank = S8x22.rank))).val := by
  match b with
  | ⟨0, _⟩ => rfl
  | ⟨1, _⟩ => exact absurd rfl hb

/-- The extents of the pieces before piece k, all one, add up to k. -/
theorem pre_closed : ∀ k : Fin 23, (((List.take k.val (List.replicate 22 S8x1)).map fun s : Shape =>
    if h : s.rank = S8x22.rank then s.size ((1 : Fin S8x22.rank).cast h.symm) else 0).sum = k.val) := by decide

theorem pay1_col0 (v0 : Vec Ideal S8x1 .f32) (v42 v51 v60 v69 v78 v87 v96 v105 v114 v120 v126 v132 v138 v186 v193 v207 v214 v235 v242 v257 : FVec Ideal S8x1 .f32) (v261 : FVec Ideal S8 .f32) (r : Fin 8) (hc : 0 < 22) :
    k0_pay1 (F := Ideal) v0 v42 v51 v60 v69 v78 v87 v96 v105 v114 v120 v126 v132 v138 v186 v193 v207 v214 v235 v242 v257 v261 (ix2 r (⟨0, hc⟩ : Fin 22)) = v0 (ix2 r (0 : Fin 1)) := by
  unfold k0_pay1
  refine (concatenate_apply_piece (1 : Fin S8x22.rank) _ _ (ix2 r (⟨0, hc⟩ : Fin 22)) 0 (by exact hc) S8x1 _ rfl rfl 0
    (by exact pre_closed ⟨0, by omega⟩) (ix2 r (0 : Fin 1)) (col_off_axis r ⟨0, hc⟩) rfl).trans ?_
  rfl

theorem pay1_col1 (v0 : Vec Ideal S8x1 .f32) (v42 v51 v60 v69 v78 v87 v96 v105 v114 v120 v126 v132 v138 v186 v193 v207 v214 v235 v242 v257 : FVec Ideal S8x1 .f32) (v261 : FVec Ideal S8 .f32) (r : Fin 8) (hc : 1 < 22) :
    k0_pay1 (F := Ideal) v0 v42 v51 v60 v69 v78 v87 v96 v105 v114 v120 v126 v132 v138 v186 v193 v207 v214 v235 v242 v257 v261 (ix2 r (⟨1, hc⟩ : Fin 22)) = v42 (ix2 r (0 : Fin 1)) := by
  unfold k0_pay1
  refine (concatenate_apply_piece (1 : Fin S8x22.rank) _ _ (ix2 r (⟨1, hc⟩ : Fin 22)) 1 (by exact hc) S8x1 _ rfl rfl 1
    (by exact pre_closed ⟨1, by omega⟩) (ix2 r (0 : Fin 1)) (col_off_axis r ⟨1, hc⟩) rfl).trans ?_
  rfl

theorem pay1_col2 (v0 : Vec Ideal S8x1 .f32) (v42 v51 v60 v69 v78 v87 v96 v105 v114 v120 v126 v132 v138 v186 v193 v207 v214 v235 v242 v257 : FVec Ideal S8x1 .f32) (v261 : FVec Ideal S8 .f32) (r : Fin 8) (hc : 2 < 22) :
    k0_pay1 (F := Ideal) v0 v42 v51 v60 v69 v78 v87 v96 v105 v114 v120 v126 v132 v138 v186 v193 v207 v214 v235 v242 v257 v261 (ix2 r (⟨2, hc⟩ : Fin 22)) = v51 (ix2 r (0 : Fin 1)) := by
  unfold k0_pay1
  refine (concatenate_apply_piece (1 : Fin S8x22.rank) _ _ (ix2 r (⟨2, hc⟩ : Fin 22)) 2 (by exact hc) S8x1 _ rfl rfl 2
    (by exact pre_closed ⟨2, by omega⟩) (ix2 r (0 : Fin 1)) (col_off_axis r ⟨2, hc⟩) rfl).trans ?_
  rfl

theorem pay1_col3 (v0 : Vec Ideal S8x1 .f32) (v42 v51 v60 v69 v78 v87 v96 v105 v114 v120 v126 v132 v138 v186 v193 v207 v214 v235 v242 v257 : FVec Ideal S8x1 .f32) (v261 : FVec Ideal S8 .f32) (r : Fin 8) (hc : 3 < 22) :
    k0_pay1 (F := Ideal) v0 v42 v51 v60 v69 v78 v87 v96 v105 v114 v120 v126 v132 v138 v186 v193 v207 v214 v235 v242 v257 v261 (ix2 r (⟨3, hc⟩ : Fin 22)) = v60 (ix2 r (0 : Fin 1)) := by
  unfold k0_pay1
  refine (concatenate_apply_piece (1 : Fin S8x22.rank) _ _ (ix2 r (⟨3, hc⟩ : Fin 22)) 3 (by exact hc) S8x1 _ rfl rfl 3
    (by exact pre_closed ⟨3, by omega⟩) (ix2 r (0 : Fin 1)) (col_off_axis r ⟨3, hc⟩) rfl).trans ?_
  rfl

theorem pay1_col4 (v0 : Vec Ideal S8x1 .f32) (v42 v51 v60 v69 v78 v87 v96 v105 v114 v120 v126 v132 v138 v186 v193 v207 v214 v235 v242 v257 : FVec Ideal S8x1 .f32) (v261 : FVec Ideal S8 .f32) (r : Fin 8) (hc : 4 < 22) :
    k0_pay1 (F := Ideal) v0 v42 v51 v60 v69 v78 v87 v96 v105 v114 v120 v126 v132 v138 v186 v193 v207 v214 v235 v242 v257 v261 (ix2 r (⟨4, hc⟩ : Fin 22)) = v69 (ix2 r (0 : Fin 1)) := by
  unfold k0_pay1
  refine (concatenate_apply_piece (1 : Fin S8x22.rank) _ _ (ix2 r (⟨4, hc⟩ : Fin 22)) 4 (by exact hc) S8x1 _ rfl rfl 4
    (by exact pre_closed ⟨4, by omega⟩) (ix2 r (0 : Fin 1)) (col_off_axis r ⟨4, hc⟩) rfl).trans ?_
  rfl

theorem pay1_col5 (v0 : Vec Ideal S8x1 .f32) (v42 v51 v60 v69 v78 v87 v96 v105 v114 v120 v126 v132 v138 v186 v193 v207 v214 v235 v242 v257 : FVec Ideal S8x1 .f32) (v261 : FVec Ideal S8 .f32) (r : Fin 8) (hc : 5 < 22) :
    k0_pay1 (F := Ideal) v0 v42 v51 v60 v69 v78 v87 v96 v105 v114 v120 v126 v132 v138 v186 v193 v207 v214 v235 v242 v257 v261 (ix2 r (⟨5, hc⟩ : Fin 22)) = v78 (ix2 r (0 : Fin 1)) := by
  unfold k0_pay1
  refine (concatenate_apply_piece (1 : Fin S8x22.rank) _ _ (ix2 r (⟨5, hc⟩ : Fin 22)) 5 (by exact hc) S8x1 _ rfl rfl 5
    (by exact pre_closed ⟨5, by omega⟩) (ix2 r (0 : Fin 1)) (col_off_axis r ⟨5, hc⟩) rfl).trans ?_
  rfl

theorem pay1_col6 (v0 : Vec Ideal S8x1 .f32) (v42 v51 v60 v69 v78 v87 v96 v105 v114 v120 v126 v132 v138 v186 v193 v207 v214 v235 v242 v257 : FVec Ideal S8x1 .f32) (v261 : FVec Ideal S8 .f32) (r : Fin 8) (hc : 6 < 22) :
    k0_pay1 (F := Ideal) v0 v42 v51 v60 v69 v78 v87 v96 v105 v114 v120 v126 v132 v138 v186 v193 v207 v214 v235 v242 v257 v261 (ix2 r (⟨6, hc⟩ : Fin 22)) = v87 (ix2 r (0 : Fin 1)) := by
  unfold k0_pay1
  refine (concatenate_apply_piece (1 : Fin S8x22.rank) _ _ (ix2 r (⟨6, hc⟩ : Fin 22)) 6 (by exact hc) S8x1 _ rfl rfl 6
    (by exact pre_closed ⟨6, by omega⟩) (ix2 r (0 : Fin 1)) (col_off_axis r ⟨6, hc⟩) rfl).trans ?_
  rfl

theorem pay1_col7 (v0 : Vec Ideal S8x1 .f32) (v42 v51 v60 v69 v78 v87 v96 v105 v114 v120 v126 v132 v138 v186 v193 v207 v214 v235 v242 v257 : FVec Ideal S8x1 .f32) (v261 : FVec Ideal S8 .f32) (r : Fin 8) (hc : 7 < 22) :
    k0_pay1 (F := Ideal) v0 v42 v51 v60 v69 v78 v87 v96 v105 v114 v120 v126 v132 v138 v186 v193 v207 v214 v235 v242 v257 v261 (ix2 r (⟨7, hc⟩ : Fin 22)) = v96 (ix2 r (0 : Fin 1)) := by
  unfold k0_pay1
  refine (concatenate_apply_piece (1 : Fin S8x22.rank) _ _ (ix2 r (⟨7, hc⟩ : Fin 22)) 7 (by exact hc) S8x1 _ rfl rfl 7
    (by exact pre_closed ⟨7, by omega⟩) (ix2 r (0 : Fin 1)) (col_off_axis r ⟨7, hc⟩) rfl).trans ?_
  rfl

theorem pay1_col8 (v0 : Vec Ideal S8x1 .f32) (v42 v51 v60 v69 v78 v87 v96 v105 v114 v120 v126 v132 v138 v186 v193 v207 v214 v235 v242 v257 : FVec Ideal S8x1 .f32) (v261 : FVec Ideal S8 .f32) (r : Fin 8) (hc : 8 < 22) :
    k0_pay1 (F := Ideal) v0 v42 v51 v60 v69 v78 v87 v96 v105 v114 v120 v126 v132 v138 v186 v193 v207 v214 v235 v242 v257 v261 (ix2 r (⟨8, hc⟩ : Fin 22)) = v105 (ix2 r (0 : Fin 1)) := by
  unfold k0_pay1
  refine (concatenate_apply_piece (1 : Fin S8x22.rank) _ _ (ix2 r (⟨8, hc⟩ : Fin 22)) 8 (by exact hc) S8x1 _ rfl rfl 8
    (by exact pre_closed ⟨8, by omega⟩) (ix2 r (0 : Fin 1)) (col_off_axis r ⟨8, hc⟩) rfl).trans ?_
  rfl

theorem pay1_col9 (v0 : Vec Ideal S8x1 .f32) (v42 v51 v60 v69 v78 v87 v96 v105 v114 v120 v126 v132 v138 v186 v193 v207 v214 v235 v242 v257 : FVec Ideal S8x1 .f32) (v261 : FVec Ideal S8 .f32) (r : Fin 8) (hc : 9 < 22) :
    k0_pay1 (F := Ideal) v0 v42 v51 v60 v69 v78 v87 v96 v105 v114 v120 v126 v132 v138 v186 v193 v207 v214 v235 v242 v257 v261 (ix2 r (⟨9, hc⟩ : Fin 22)) = v114 (ix2 r (0 : Fin 1)) := by
  unfold k0_pay1
  refine (concatenate_apply_piece (1 : Fin S8x22.rank) _ _ (ix2 r (⟨9, hc⟩ : Fin 22)) 9 (by exact hc) S8x1 _ rfl rfl 9
    (by exact pre_closed ⟨9, by omega⟩) (ix2 r (0 : Fin 1)) (col_off_axis r ⟨9, hc⟩) rfl).trans ?_
  rfl

theorem pay1_col10 (v0 : Vec Ideal S8x1 .f32) (v42 v51 v60 v69 v78 v87 v96 v105 v114 v120 v126 v132 v138 v186 v193 v207 v214 v235 v242 v257 : FVec Ideal S8x1 .f32) (v261 : FVec Ideal S8 .f32) (r : Fin 8) (hc : 10 < 22) :
    k0_pay1 (F := Ideal) v0 v42 v51 v60 v69 v78 v87 v96 v105 v114 v120 v126 v132 v138 v186 v193 v207 v214 v235 v242 v257 v261 (ix2 r (⟨10, hc⟩ : Fin 22)) = v120 (ix2 r (0 : Fin 1)) := by
  unfold k0_pay1
  refine (concatenate_apply_piece (1 : Fin S8x22.rank) _ _ (ix2 r (⟨10, hc⟩ : Fin 22)) 10 (by exact hc) S8x1 _ rfl rfl 10
    (by exact pre_closed ⟨10, by omega⟩) (ix2 r (0 : Fin 1)) (col_off_axis r ⟨10, hc⟩) rfl).trans ?_
  rfl

theorem pay1_col11 (v0 : Vec Ideal S8x1 .f32) (v42 v51 v60 v69 v78 v87 v96 v105 v114 v120 v126 v132 v138 v186 v193 v207 v214 v235 v242 v257 : FVec Ideal S8x1 .f32) (v261 : FVec Ideal S8 .f32) (r : Fin 8) (hc : 11 < 22) :
    k0_pay1 (F := Ideal) v0 v42 v51 v60 v69 v78 v87 v96 v105 v114 v120 v126 v132 v138 v186 v193 v207 v214 v235 v242 v257 v261 (ix2 r (⟨11, hc⟩ : Fin 22)) = v126 (ix2 r (0 : Fin 1)) := by
  unfold k0_pay1
  refine (concatenate_apply_piece (1 : Fin S8x22.rank) _ _ (ix2 r (⟨11, hc⟩ : Fin 22)) 11 (by exact hc) S8x1 _ rfl rfl 11
    (by exact pre_closed ⟨11, by omega⟩) (ix2 r (0 : Fin 1)) (col_off_axis r ⟨11, hc⟩) rfl).trans ?_
  rfl

theorem pay1_col12 (v0 : Vec Ideal S8x1 .f32) (v42 v51 v60 v69 v78 v87 v96 v105 v114 v120 v126 v132 v138 v186 v193 v207 v214 v235 v242 v257 : FVec Ideal S8x1 .f32) (v261 : FVec Ideal S8 .f32) (r : Fin 8) (hc : 12 < 22) :
    k0_pay1 (F := Ideal) v0 v42 v51 v60 v69 v78 v87 v96 v105 v114 v120 v126 v132 v138 v186 v193 v207 v214 v235 v242 v257 v261 (ix2 r (⟨12, hc⟩ : Fin 22)) = v132 (ix2 r (0 : Fin 1)) := by
  unfold k0_pay1
  refine (concatenate_apply_piece (1 : Fin S8x22.rank) _ _ (ix2 r (⟨12, hc⟩ : Fin 22)) 12 (by exact hc) S8x1 _ rfl rfl 12
    (by exact pre_closed ⟨12, by omega⟩) (ix2 r (0 : Fin 1)) (col_off_axis r ⟨12, hc⟩) rfl).trans ?_
  rfl

theorem pay1_col13 (v0 : Vec Ideal S8x1 .f32) (v42 v51 v60 v69 v78 v87 v96 v105 v114 v120 v126 v132 v138 v186 v193 v207 v214 v235 v242 v257 : FVec Ideal S8x1 .f32) (v261 : FVec Ideal S8 .f32) (r : Fin 8) (hc : 13 < 22) :
    k0_pay1 (F := Ideal) v0 v42 v51 v60 v69 v78 v87 v96 v105 v114 v120 v126 v132 v138 v186 v193 v207 v214 v235 v242 v257 v261 (ix2 r (⟨13, hc⟩ : Fin 22)) = v138 (ix2 r (0 : Fin 1)) := by
  unfold k0_pay1
  refine (concatenate_apply_piece (1 : Fin S8x22.rank) _ _ (ix2 r (⟨13, hc⟩ : Fin 22)) 13 (by exact hc) S8x1 _ rfl rfl 13
    (by exact pre_closed ⟨13, by omega⟩) (ix2 r (0 : Fin 1)) (col_off_axis r ⟨13, hc⟩) rfl).trans ?_
  rfl

theorem pay1_col14 (v0 : Vec Ideal S8x1 .f32) (v42 v51 v60 v69 v78 v87 v96 v105 v114 v120 v126 v132 v138 v186 v193 v207 v214 v235 v242 v257 : FVec Ideal S8x1 .f32) (v261 : FVec Ideal S8 .f32) (r : Fin 8) (hc : 14 < 22) :
    k0_pay1 (F := Ideal) v0 v42 v51 v60 v69 v78 v87 v96 v105 v114 v120 v126 v132 v138 v186 v193 v207 v214 v235 v242 v257 v261 (ix2 r (⟨14, hc⟩ : Fin 22)) = v193 (ix2 r (0 : Fin 1)) := by
  unfold k0_pay1
  refine (concatenate_apply_piece (1 : Fin S8x22.rank) _ _ (ix2 r (⟨14, hc⟩ : Fin 22)) 14 (by exact hc) S8x1 _ rfl rfl 14
    (by exact pre_closed ⟨14, by omega⟩) (ix2 r (0 : Fin 1)) (col_off_axis r ⟨14, hc⟩) rfl).trans ?_
  rfl

theorem pay1_col15 (v0 : Vec Ideal S8x1 .f32) (v42 v51 v60 v69 v78 v87 v96 v105 v114 v120 v126 v132 v138 v186 v193 v207 v214 v235 v242 v257 : FVec Ideal S8x1 .f32) (v261 : FVec Ideal S8 .f32) (r : Fin 8) (hc : 15 < 22) :
    k0_pay1 (F := Ideal) v0 v42 v51 v60 v69 v78 v87 v96 v105 v114 v120 v126 v132 v138 v186 v193 v207 v214 v235 v242 v257 v261 (ix2 r (⟨15, hc⟩ : Fin 22)) = v214 (ix2 r (0 : Fin 1)) := by
  unfold k0_pay1
  refine (concatenate_apply_piece (1 : Fin S8x22.rank) _ _ (ix2 r (⟨15, hc⟩ : Fin 22)) 15 (by exact hc) S8x1 _ rfl rfl 15
    (by exact pre_closed ⟨15, by omega⟩) (ix2 r (0 : Fin 1)) (col_off_axis r ⟨15, hc⟩) rfl).trans ?_
  rfl

theorem pay1_col16 (v0 : Vec Ideal S8x1 .f32) (v42 v51 v60 v69 v78 v87 v96 v105 v114 v120 v126 v132 v138 v186 v193 v207 v214 v235 v242 v257 : FVec Ideal S8x1 .f32) (v261 : FVec Ideal S8 .f32) (r : Fin 8) (hc : 16 < 22) :
    k0_pay1 (F := Ideal) v0 v42 v51 v60 v69 v78 v87 v96 v105 v114 v120 v126 v132 v138 v186 v193 v207 v214 v235 v242 v257 v261 (ix2 r (⟨16, hc⟩ : Fin 22)) = v242 (ix2 r (0 : Fin 1)) := by
  unfold k0_pay1
  refine (concatenate_apply_piece (1 : Fin S8x22.rank) _ _ (ix2 r (⟨16, hc⟩ : Fin 22)) 16 (by exact hc) S8x1 _ rfl rfl 16
    (by exact pre_closed ⟨16, by omega⟩) (ix2 r (0 : Fin 1)) (col_off_axis r ⟨16, hc⟩) rfl).trans ?_
  rfl

theorem pay1_col17 (v0 : Vec Ideal S8x1 .f32) (v42 v51 v60 v69 v78 v87 v96 v105 v114 v120 v126 v132 v138 v186 v193 v207 v214 v235 v242 v257 : FVec Ideal S8x1 .f32) (v261 : FVec Ideal S8 .f32) (r : Fin 8) (hc : 17 < 22) :
    k0_pay1 (F := Ideal) v0 v42 v51 v60 v69 v78 v87 v96 v105 v114 v120 v126 v132 v138 v186 v193 v207 v214 v235 v242 v257 v261 (ix2 r (⟨17, hc⟩ : Fin 22)) = Ideal.ofBits .f32 0x3D800000#32 * v261 (ix1 r) := by
  unfold k0_pay1
  refine (concatenate_apply_piece (1 : Fin S8x22.rank) _ _ (ix2 r (⟨17, hc⟩ : Fin 22)) 17 (by exact hc) S8x1 _ rfl rfl 17
    (by exact pre_closed ⟨17, by omega⟩) (ix2 r (0 : Fin 1)) (col_off_axis r ⟨17, hc⟩) rfl).trans ?_
  exact congrArg (fun a : EReal => Ideal.ofBits .f32 0x3D800000#32 * a) (shapeCast_a_a1_apply v261 _ r 0)

theorem pay1_col18 (v0 : Vec Ideal S8x1 .f32) (v42 v51 v60 v69 v78 v87 v96 v105 v114 v120 v126 v132 v138 v186 v193 v207 v214 v235 v242 v257 : FVec Ideal S8x1 .f32) (v261 : FVec Ideal S8 .f32) (r : Fin 8) (hc : 18 < 22) :
    k0_pay1 (F := Ideal) v0 v42 v51 v60 v69 v78 v87 v96 v105 v114 v120 v126 v132 v138 v186 v193 v207 v214 v235 v242 v257 v261 (ix2 r (⟨18, hc⟩ : Fin 22)) = v186 (ix2 r (0 : Fin 1)) := by
  unfold k0_pay1
  refine (concatenate_apply_piece (1 : Fin S8x22.rank) _ _ (ix2 r (⟨18, hc⟩ : Fin 22)) 18 (by exact hc) S8x1 _ rfl rfl 18
    (by exact pre_closed ⟨18, by omega⟩) (ix2 r (0 : Fin 1)) (col_off_axis r ⟨18, hc⟩) rfl).trans ?_
  rfl

theorem pay1_col19 (v0 : Vec Ideal S8x1 .f32) (v42 v51 v60 v69 v78 v87 v96 v105 v114 v120 v126 v132 v138 v186 v193 v207 v214 v235 v242 v257 : FVec Ideal S8x1 .f32) (v261 : FVec Ideal S8 .f32) (r : Fin 8) (hc : 19 < 22) :
    k0_pay1 (F := Ideal) v0 v42 v51 v60 v69 v78 v87 v96 v105 v114 v120 v126 v132 v138 v186 v193 v207 v214 v235 v242 v257 v261 (ix2 r (⟨19, hc⟩ : Fin 22)) = v207 (ix2 r (0 : Fin 1)) := by
  unfold k0_pay1
  refine (concatenate_apply_piece (1 : Fin S8x22.rank) _ _ (ix2 r (⟨19, hc⟩ : Fin 22)) 19 (by exact hc) S8x1 _ rfl rfl 19
    (by exact pre_closed ⟨19, by omega⟩) (ix2 r (0 : Fin 1)) (col_off_axis r ⟨19, hc⟩) rfl).trans ?_
  rfl

theorem pay1_col20 (v0 : Vec Ideal S8x1 .f32) (v42 v51 v60 v69 v78 v87 v96 v105 v114 v120 v126 v132 v138 v186 v193 v207 v214 v235 v242 v257 : FVec Ideal S8x1 .f32) (v261 : FVec Ideal S8 .f32) (r : Fin 8) (hc : 20 < 22) :
    k0_pay1 (F := Ideal) v0 v42 v51 v60 v69 v78 v87 v96 v105 v114 v120 v126 v132 v138 v186 v193 v207 v214 v235 v242 v257 v261 (ix2 r (⟨20, hc⟩ : Fin 22)) = v235 (ix2 r (0 : Fin 1)) := by
  unfold k0_pay1
  refine (concatenate_apply_piece (1 : Fin S8x22.rank) _ _ (ix2 r (⟨20, hc⟩ : Fin 22)) 20 (by exact hc) S8x1 _ rfl rfl 20
    (by exact pre_closed ⟨20, by omega⟩) (ix2 r (0 : Fin 1)) (col_off_axis r ⟨20, hc⟩) rfl).trans ?_
  rfl

theorem pay1_col21 (v0 : Vec Ideal S8x1 .f32) (v42 v51 v60 v69 v78 v87 v96 v105 v114 v120 v126 v132 v138 v186 v193 v207 v214 v235 v242 v257 : FVec Ideal S8x1 .f32) (v261 : FVec Ideal S8 .f32) (r : Fin 8) (hc : 21 < 22) :
    k0_pay1 (F := Ideal) v0 v42 v51 v60 v69 v78 v87 v96 v105 v114 v120 v126 v132 v138 v186 v193 v207 v214 v235 v242 v257 v261 (ix2 r (⟨21, hc⟩ : Fin 22)) = v257 (ix2 r (0 : Fin 1)) := by
  unfold k0_pay1
  refine (concatenate_apply_piece (1 : Fin S8x22.rank) _ _ (ix2 r (⟨21, hc⟩ : Fin 22)) 21 (by exact hc) S8x1 _ rfl rfl 21
    (by exact pre_closed ⟨21, by omega⟩) (ix2 r (0 : Fin 1)) (col_off_axis r ⟨21, hc⟩) rfl).trans ?_
  rfl

end Cert.KernelIdeal.TileVal

end
-- ==== Proof.TileValRadial.lean ====
/-
  The tile's radial sums read at explicit coordinates, over the tile's distances v17 and cutoff weights v40 as
  variables: each radial feature of tile row r is the sum over the atoms j of a function of the distance (one,
  a Gaussian of the shifted distance, or a cosine of the scaled distance) times the cutoff weight.
-/
import proofs.«101160_j40054865002568_2_alg».proof.Proof.Gen.KernelIdeal.Skeleton
import proofs.«101160_j40054865002568_2_alg».proof.Proof.TileValLayout

noncomputable section

open scoped BigOperators

namespace Cert.KernelIdeal.TileVal

open Idealize.ShloMosaic Idealize.ShloMosaic.ValueIdx Cert.KernelIdeal Cert.KernelIdeal.Gen

/-- A row sum of an 8 × 320 vector, stored as a column: at row r, the sum over the 320 columns. -/
theorem colSum_apply (V : FVec Ideal S8x320 .f32) (h1 : S8x320.Reduces [1] S8) (hφ : FKind.Formats .f32)
    (hacc : (0x00000000#32 : BitVec 32) = FKind.add.neutral .f32 hφ) (h2 : S8.ShapeCasts S8x1) (r : Fin 8) (u : Fin 1) :
    shapeCast S8x1 (multiReduction .add [1] S8 V 0x00000000#32 h1 hφ hacc) h2 (ix2 r u) = ∑ j : Fin 320, V (ix2 r j) :=
  (shapeCast_a_a1_apply _ h2 r u).trans (sum_last2_apply V h1 hφ hacc r)

theorem pay6_apply (v40 : FVec Ideal S8x320 .f32) (r : Fin 8) (u : Fin 1) :
    k0_pay6 (F := Ideal) v40 (ix2 r u) = ∑ j : Fin 320, v40 (ix2 r j) := by
  unfold k0_pay6
  exact colSum_apply _ _ _ _ _ r u

theorem pay12_apply (v85 : FVec Ideal S8x320 .f32) (r : Fin 8) (u : Fin 1) :
    k0_pay12 (F := Ideal) v85 (ix2 r u) = ∑ j : Fin 320, v85 (ix2 r j) := by
  unfold k0_pay12
  exact colSum_apply _ _ _ _ _ r u

theorem pay19_apply (v130 : FVec Ideal S8x320 .f32) (r : Fin 8) (u : Fin 1) :
    k0_pay19 (F := Ideal) v130 (ix2 r u) = ∑ j : Fin 320, v130 (ix2 r j) := by
  unfold k0_pay19
  exact colSum_apply _ _ _ _ _ r u

theorem pay11_apply (v17 v40 : FVec Ideal S8x320 .f32) (r : Fin 8) (j : Fin 320) :
    k0_pay11 (F := Ideal) v17 v40 (ix2 r j)
      = Ideal.exp (Ideal.ofBits .f32 0xBF000000#32 * ((v17 (ix2 r j) - Ideal.ofBits .f32 0x40400000#32) * (v17 (ix2 r j) - Ideal.ofBits .f32 0x40400000#32))) * v40 (ix2 r j) := rfl

theorem pay18_apply (v17 v40 : FVec Ideal S8x320 .f32) (r : Fin 8) (j : Fin 320) :
    k0_pay18 (F := Ideal) v17 v40 (ix2 r j)
      = Ideal.cos (Ideal.ofBits .f32 0x3FC00000#32 * v17 (ix2 r j)) * v40 (ix2 r j) := rfl

theorem pay7_apply (v17 v40 : FVec Ideal S8x320 .f32) (r : Fin 8) (u : Fin 1) :
    k0_pay7 (F := Ideal) v17 v40 (ix2 r u)
      = ∑ j : Fin 320, Ideal.exp (Ideal.ofBits .f32 0xBF000000#32 * ((v17 (ix2 r j) - Ideal.ofBits .f32 0x00000000#32) * (v17 (ix2 r j) - Ideal.ofBits .f32 0x00000000#32))) * v40 (ix2 r j) := by
  unfold k0_pay7
  refine (colSum_apply _ _ _ _ _ r u).trans ?_
  rfl

theorem pay8_apply (v17 v40 : FVec Ideal S8x320 .f32) (r : Fin 8) (u : Fin 1) :
    k0_pay8 (F := Ideal) v17 v40 (ix2 r u)
      = ∑ j : Fin 320, Ideal.exp (Ideal.ofBits .f32 0xBF800000#32 * ((v17 (ix2 r j) - Ideal.ofBits .f32 0x00000000#32) * (v17 (ix2 r j) - Ideal.ofBits .f32 0x00000000#32))) * v40 (ix2 r j) := by
  unfold k0_pay8
  refine (colSum_apply _ _ _ _ _ r u).trans ?_
  rfl

theorem pay9_apply (v17 v40 : FVec Ideal S8x320 .f32) (r : Fin 8) (u : Fin 1) :
    k0_pay9 (F := Ideal) v17 v40 (ix2 r u)
      = ∑ j : Fin 320, Ideal.exp (Ideal.ofBits .f32 0xC0000000#32 * ((v17 (ix2 r j) - Ideal.ofBits .f32 0x00000000#32) * (v17 (ix2 r j) - Ideal.ofBits .f32 0x00000000#32))) * v40 (ix2 r j) := by
  unfold k0_pay9
  refine (colSum_apply _ _ _ _ _ r u).trans ?_
  rfl

theorem pay10_apply (v17 v40 : FVec Ideal S8x320 .f32) (r : Fin 8) (u : Fin 1) :
    k0_pay10 (F := Ideal) v17 v40 (ix2 r u)
      = ∑ j : Fin 320, Ideal.exp (Ideal.ofBits .f32 0xC0800000#32 * ((v17 (ix2 r j) - Ideal.ofBits .f32 0x00000000#32) * (v17 (ix2 r j) - Ideal.ofBits .f32 0x00000000#32))) * v40 (ix2 r j) := by
  unfold k0_pay10
  refine (colSum_apply _ _ _ _ _ r u).trans ?_
  rfl

theorem pay13_apply (v17 v40 : FVec Ideal S8x320 .f32) (r : Fin 8) (u : Fin 1) :
    k0_pay13 (F := Ideal) v17 v40 (ix2 r u)
      = ∑ j : Fin 320, Ideal.exp (Ideal.ofBits .f32 0xBF800000#32 * ((v17 (ix2 r j) - Ideal.ofBits .f32 0x40400000#32) * (v17 (ix2 r j) - Ideal.ofBits .f32 0x40400000#32))) * v40 (ix2 r j) := by
  unfold k0_pay13
  refine (colSum_apply _ _ _ _ _ r u).trans ?_
  rfl

theorem pay14_apply (v17 v40 : FVec Ideal S8x320 .f32) (r : Fin 8) (u : Fin 1) :
    k0_pay14 (F := Ideal) v17 v40 (ix2 r u)
      = ∑ j : Fin 320, Ideal.exp (Ideal.ofBits .f32 0xC0000000#32 * ((v17 (ix2 r j) - Ideal.ofBits .f32 0x40400000#32) * (v17 (ix2 r j) - Ideal.ofBits .f32 0x40400000#32))) * v40 (ix2 r j) := by
  unfold k0_pay14
  refine (colSum_apply _ _ _ _ _ r u).trans ?_
  rfl

theorem pay15_apply (v17 v40 : FVec Ideal S8x320 .f32) (r : Fin 8) (u : Fin 1) :
    k0_pay15 (F := Ideal) v17 v40 (ix2 r u)
      = ∑ j : Fin 320, Ideal.exp (Ideal.ofBits .f32 0xC0800000#32 * ((v17 (ix2 r j) - Ideal.ofBits .f32 0x40400000#32) * (v17 (ix2 r j) - Ideal.ofBits .f32 0x40400000#32))) * v40 (ix2 r j) := by
  unfold k0_pay15
  refine (colSum_apply _ _ _ _ _ r u).trans ?_
  rfl

theorem pay16_apply (v17 v40 : FVec Ideal S8x320 .f32) (r : Fin 8) (u : Fin 1) :
    k0_pay16 (F := Ideal) v17 v40 (ix2 r u)
      = ∑ j : Fin 320, Ideal.cos (Ideal.ofBits .f32 0x3F000000#32 * v17 (ix2 r j)) * v40 (ix2 r j) := by
  unfold k0_pay16
  refine (colSum_apply _ _ _ _ _ r u).trans ?_
  rfl

theorem pay17_apply (v17 v40 : FVec Ideal S8x320 .f32) (r : Fin 8) (u : Fin 1) :
    k0_pay17 (F := Ideal) v17 v40 (ix2 r u)
      = ∑ j : Fin 320, Ideal.cos (Ideal.ofBits .f32 0x3F800000#32 * v17 (ix2 r j)) * v40 (ix2 r j) := by
  unfold k0_pay17
  refine (colSum_apply _ _ _ _ _ r u).trans ?_
  rfl

theorem pay20_apply (v17 v40 : FVec Ideal S8x320 .f32) (r : Fin 8) (u : Fin 1) :
    k0_pay20 (F := Ideal) v17 v40 (ix2 r u)
      = ∑ j : Fin 320, Ideal.cos (Ideal.ofBits .f32 0x40000000#32 * v17 (ix2 r j)) * v40 (ix2 r j) := by
  unfold k0_pay20
  refine (colSum_apply _ _ _ _ _ r u).trans ?_
  rfl

end Cert.KernelIdeal.TileVal

end
-- ==== Proof.TileValDist.lean ====
/-
  The tile's pairwise geometry read at explicit coordinates, in the specification's vocabulary: for tile row r
  (whose coordinate row is rowT xt r) and atom j, the coordinate differences, the squared distance (the sum of
  the three squared differences; the specification's initial zero word adds nothing) and the guarded distance.
-/
import proofs.«101160_j40054865002568_2_alg».proof.Proof.Gen.KernelIdeal.Skeleton
import proofs.«101160_j40054865002568_2_alg».proof.Proof.TileValLayout
import proofs.«101160_j40054865002568_2_alg».proof.Proof.Spec

noncomputable section

open scoped BigOperators

namespace Cert.KernelIdeal.TileVal

open Idealize.ShloMosaic Idealize.ShloMosaic.ValueIdx Cert.KernelIdeal Cert.KernelIdeal.Gen

/-- The coordinate row of the atom in tile row r. -/
def rowT (xt : Vec Ideal S8x3 .f32) (r : Fin 8) : Fin 3 → EReal := fun d => xt (ix2 r d)

theorem pay2_apply (xt : Vec Ideal S8x3 .f32) (xf : Vec Ideal S320x3 .f32) (r : Fin 8) (j : Fin 320) (d : Fin 3) :
    k0_pay2 (F := Ideal) xt xf (ix3 r j d) = Cert.Spec.diff (rowT xt r) xf j d := by
  unfold k0_pay2 Cert.Spec.diff rowT
  refine congrArg₂ (fun a b : EReal => a - b) ?_ ?_
  · exact (broadcastTo_a1c_abc_apply (by decide) (by decide) _ _ r j d).trans (shapeCast_ac_a1c_apply xt _ r 0 d)
  · exact (broadcastTo_1bc_abc_apply (by decide) (by decide) _ _ r j d).trans (shapeCast_ab_1ab_apply xf _ 0 j d)

theorem pay3_apply (xt : Vec Ideal S8x3 .f32) (xf : Vec Ideal S320x3 .f32) (r : Fin 8) (j : Fin 320) :
    k0_pay3 (F := Ideal) xt xf (ix2 r j) = Cert.Spec.r2row (rowT xt r) xf j := by
  unfold k0_pay3 Cert.Spec.r2row
  rw [Ideal.ofBits_zero_f32, zero_add]
  refine (sum_last3_apply _ _ _ _ r j).trans ?_
  refine Finset.sum_congr rfl fun d _ => ?_
  exact congrArg₂ (fun a b : EReal => a * b) (pay2_apply xt xf r j d) (pay2_apply xt xf r j d)

theorem pay4_apply (xt : Vec Ideal S8x3 .f32) (xf : Vec Ideal S320x3 .f32) (r : Fin 8) (j : Fin 320) :
    k0_pay4 (F := Ideal) xt xf (ix2 r j) = Cert.Spec.rrow (rowT xt r) xf j := by
  unfold k0_pay4 Cert.Spec.rrow Cert.Spec.rOf
  rw [← pay3_apply xt xf r j]
  rfl

end Cert.KernelIdeal.TileVal

end
-- ==== Proof.TileValWords.lean ====
/-
  The integer masks of the tile as real numbers. The tile compares the global row number 8 m + r of tile row r
  in grid step m with the column number j, and a plane's row number with its column number; each one-bit answer,
  widened to 32 bits and converted to a float, is the real 1 or 0. At the sizes of this kernel (m below 40,
  r below 8, j below 320) no 32-bit word wraps.
-/
import Idealize.ShloMosaic.PureOps.Ideal
import Idealize.ShloMosaic.Lib.ValueIdx

noncomputable section

namespace Cert.KernelIdeal.TileVal

open Idealize.ShloMosaic

/-- A one-bit word widened to 32 bits and read as a signed integer is the real 1 or 0. -/
theorem bit_toReal (b : Bool) : ((((BitVec.ofBool b).setWidth 32).toInt : ℝ) : EReal) = if b then 1 else 0 := by
  cases b
  · have h : ((BitVec.ofBool false).setWidth 32).toInt = 0 := by decide
    rw [h]; simp
  · have h : ((BitVec.ofBool true).setWidth 32).toInt = 1 := by decide
    rw [h]; simp

/-- The global row number of tile row r in grid step m equals column j, as words. -/
theorem rowWord_eq_iff (m r j : Nat) (hm : m < 40) (hr : r < 8) (hj : j < 320) :
    IntOp.addi (Scalar.muli (BitVec.ofNat 32 m) 8#32) (BitVec.ofNat 32 r) = BitVec.ofNat 32 j ↔ 8 * m + r = j := by
  show BitVec.ofNat 32 m * 8#32 + BitVec.ofNat 32 r = BitVec.ofNat 32 j ↔ _
  rw [← BitVec.toNat_inj]
  simp only [BitVec.toNat_add, BitVec.toNat_mul, BitVec.toNat_ofNat]
  omega

/-- Two column numbers are equal as words exactly when they are equal. -/
theorem colWord_eq_iff (j k : Nat) (hj : j < 320) (hk : k < 320) :
    BitVec.ofNat 32 j = BitVec.ofNat 32 k ↔ j = k := by
  rw [← BitVec.toNat_inj]
  simp only [BitVec.toNat_ofNat]
  omega

/-- The diagonal mask of the tile as a real: 1 where the global row number is the column number. -/
theorem eyeWord_toReal (m r j : Nat) (hm : m < 40) (hr : r < 8) (hj : j < 320) :
    (((((IntOp.cmpi .eq (IntOp.addi (Scalar.muli (BitVec.ofNat 32 m) 8#32) (BitVec.ofNat 32 r)) (BitVec.ofNat 32 j)).setWidth 32).toInt : ℝ)) : EReal)
      = if 8 * m + r = j then 1 else 0 := by
  unfold IntOp.cmpi
  rw [bit_toReal]
  by_cases h : 8 * m + r = j
  · rw [if_pos h, if_pos (by simpa using (rowWord_eq_iff m r j hm hr hj).mpr h)]
  · rw [if_neg h, if_neg (by simpa using fun e => h ((rowWord_eq_iff m r j hm hr hj).mp e))]

/-- The off-diagonal mask of a plane as a real: 1 where row and column numbers differ. -/
theorem neWord_toReal (j k : Nat) (hj : j < 320) (hk : k < 320) :
    (((((IntOp.cmpi .ne (BitVec.ofNat 32 j) (BitVec.ofNat 32 k)).setWidth 32).toInt : ℝ)) : EReal)
      = if j = k then 0 else 1 := by
  unfold IntOp.cmpi
  rw [bit_toReal]
  by_cases h : j = k
  · rw [if_pos h, if_neg (by simpa using (colWord_eq_iff j k hj hk).mpr h)]
  · rw [if_neg h, if_pos (by simpa using fun e => h ((colWord_eq_iff j k hj hk).mp e))]

end Cert.KernelIdeal.TileVal

end
-- ==== Proof.TileValCut.lean ====
/-
  The tile's cutoff weights read at explicit coordinates: the cosine cutoff of the distance, times one minus the
  indicator that atom j is the row's own atom (tile row r of grid step m is atom 8 m + r).
-/
import proofs.«101160_j40054865002568_2_alg».proof.Proof.TileValDist
import proofs.«101160_j40054865002568_2_alg».proof.Proof.TileValWords

noncomputable section

open scoped BigOperators

namespace Cert.KernelIdeal.TileVal

open Idealize.ShloMosaic Idealize.ShloMosaic.ValueIdx Cert.KernelIdeal Cert.KernelIdeal.Gen

theorem pay5_apply (i : grid0.Coords) (xt : Vec Ideal S8x3 .f32) (xf : Vec Ideal S320x3 .f32) (r : Fin 8) (j : Fin 320)
    (n : Fin 320) (hn : n.val = 8 * (i 0).val + r.val) :
    k0_pay5 (F := Ideal) i xt xf (ix2 r j) = Cert.Spec.fcrow n (rowT xt r) xf j := by
  have hm : (i 0).val < 40 := (i 0).isLt
  unfold k0_pay5 Cert.Spec.fcrow
  refine congrArg₂ (fun a b : EReal => a * b) ?_ ?_
  · unfold Cert.Spec.cutoff
    rw [← pay4_apply xt xf r j]
    rfl
  · refine congrArg (fun e : EReal => Ideal.ofBits .f32 0x3F800000#32 - e) ?_
    show (((((IntOp.cmpi .eq (IntOp.addi (Scalar.muli (BitVec.ofNat 32 (i 0).val) 8#32)
        (iota .tc S8x320 32 [0] _ (ix2 r j))) (iota .tc S8x320 32 [1] _ (ix2 r j))).setWidth 32).toInt : ℝ)) : EReal) = _
    rw [iota_single_apply, iota_single_apply]
    refine (eyeWord_toReal (i 0).val r.val j.val hm r.isLt j.isLt).trans ?_
    unfold Cert.Spec.eye
    by_cases h : n = j
    · rw [if_pos h, if_pos (by rw [← h, hn])]
    · rw [if_neg h, if_neg (fun e => h (Fin.ext (by rw [hn]; exact e)))]

end Cert.KernelIdeal.TileVal

end
-- ==== Proof.TileValRadialSpec.lean ====
/-
  The first fourteen feature columns of the tile are the specification's: the atomic number, the plain radial
  sum, the eight Gaussian radial sums and the four cosine radial sums of the atom in tile row r. These are the
  same operations in the same order on both sides; only the specification's initial zero word is absorbed.
-/
import proofs.«101160_j40054865002568_2_alg».proof.Proof.KernelIdealVal
import proofs.«101160_j40054865002568_2_alg».proof.Proof.TileValCols
import proofs.«101160_j40054865002568_2_alg».proof.Proof.TileValRadial
import proofs.«101160_j40054865002568_2_alg».proof.Proof.TileValCut

noncomputable section

open scoped BigOperators

namespace Cert.KernelIdeal.TileVal

open Idealize.ShloMosaic Idealize.ShloMosaic.ValueIdx Cert.KernelIdeal Cert.KernelIdeal.Gen Cert.KernelIdeal.Body

variable (i : grid0.Coords) (z : Vec Ideal S8x1 .f32) (xt : Vec Ideal S8x3 .f32) (xf : Vec Ideal S320x3 .f32)
  (wa wb : Vec Ideal S1x320x320 .f32) (r : Fin 8) (n : Fin 320) (hn : n.val = 8 * (i 0).val + r.val)

include hn in
/-- The plain radial sum of the tile's cutoff weights is the specification's. -/
theorem g1_read : ∑ j : Fin 320, k0_pay5 (F := Ideal) i xt xf (ix2 r j) = Cert.Spec.g1 n (rowT xt r) xf := by
  unfold Cert.Spec.g1
  rw [Cert.Spec.rowSum_eq]
  exact Finset.sum_congr rfl fun j _ => pay5_apply i xt xf r j n hn

include hn in
/-- A Gaussian radial sum over the tile's distances and cutoff weights is the specification's. -/
theorem g2_read (η s : EReal) :
    ∑ j : Fin 320, Ideal.exp (η * ((k0_pay4 (F := Ideal) xt xf (ix2 r j) - s) * (k0_pay4 (F := Ideal) xt xf (ix2 r j) - s)))
        * k0_pay5 (F := Ideal) i xt xf (ix2 r j)
      = Cert.Spec.g2 η s n (rowT xt r) xf := by
  unfold Cert.Spec.g2
  rw [Cert.Spec.rowSum_eq]
  exact Finset.sum_congr rfl fun j _ =>
    congrArg₂ (fun a b : EReal => Ideal.exp (η * ((a - s) * (a - s))) * b) (pay4_apply xt xf r j) (pay5_apply i xt xf r j n hn)

include hn in
/-- A cosine radial sum over the tile's distances and cutoff weights is the specification's. -/
theorem g3_read (κ : EReal) :
    ∑ j : Fin 320, Ideal.cos (κ * k0_pay4 (F := Ideal) xt xf (ix2 r j)) * k0_pay5 (F := Ideal) i xt xf (ix2 r j)
      = Cert.Spec.g3 κ n (rowT xt r) xf := by
  unfold Cert.Spec.g3
  rw [Cert.Spec.rowSum_eq]
  exact Finset.sum_congr rfl fun j _ =>
    congrArg₂ (fun a b : EReal => Ideal.cos (κ * a) * b) (pay4_apply xt xf r j) (pay5_apply i xt xf r j n hn)

theorem tile_col0 (h : 0 < 22) : tileVal (F := Ideal) i z xt xf wa wb (ix2 r (⟨0, h⟩ : Fin 22)) = z (ix2 r (0 : Fin 1)) := by
  unfold tileVal
  exact pay1_col0 _ _ _ _ _ _ _ _ _ _ _ _ _ _ _ _ _ _ _ _ _ _ r h

include hn in
theorem tile_col1 (h : 1 < 22) :
    tileVal (F := Ideal) i z xt xf wa wb (ix2 r (⟨1, h⟩ : Fin 22)) = Cert.Spec.g1 n (rowT xt r) xf := by
  unfold tileVal
  exact (pay1_col1 _ _ _ _ _ _ _ _ _ _ _ _ _ _ _ _ _ _ _ _ _ _ r h).trans ((pay6_apply _ r 0).trans (g1_read i xt xf r n hn))

include hn in
theorem tile_col2 (h : 2 < 22) :
    tileVal (F := Ideal) i z xt xf wa wb (ix2 r (⟨2, h⟩ : Fin 22)) = Cert.Spec.g2 (Ideal.ofBits .f32 0xBF000000#32) (Ideal.ofBits .f32 0x00000000#32) n (rowT xt r) xf := by
  unfold tileVal
  exact (pay1_col2 _ _ _ _ _ _ _ _ _ _ _ _ _ _ _ _ _ _ _ _ _ _ r h).trans ((pay7_apply _ _ r 0).trans (g2_read i xt xf r n hn (Ideal.ofBits .f32 0xBF000000#32) (Ideal.ofBits .f32 0x00000000#32)))

include hn in
theorem tile_col3 (h : 3 < 22) :
    tileVal (F := Ideal) i z xt xf wa wb (ix2 r (⟨3, h⟩ : Fin 22)) = Cert.Spec.g2 (Ideal.ofBits .f32 0xBF800000#32) (Ideal.ofBits .f32 0x00000000#32) n (rowT xt r) xf := by
  unfold tileVal
  exact (pay1_col3 _ _ _ _ _ _ _ _ _ _ _ _ _ _ _ _ _ _ _ _ _ _ r h).trans ((pay8_apply _ _ r 0).trans (g2_read i xt xf r n hn (Ideal.ofBits .f32 0xBF800000#32) (Ideal.ofBits .f32 0x00000000#32)))

include hn in
theorem tile_col4 (h : 4 < 22) :
    tileVal (F := Ideal) i z xt xf wa wb (ix2 r (⟨4, h⟩ : Fin 22)) = Cert.Spec.g2 (Ideal.ofBits .f32 0xC0000000#32) (Ideal.ofBits .f32 0x00000000#32) n (rowT xt r) xf := by
  unfold tileVal
  exact (pay1_col4 _ _ _ _ _ _ _ _ _ _ _ _ _ _ _ _ _ _ _ _ _ _ r h).trans ((pay9_apply _ _ r 0).trans (g2_read i xt xf r n hn (Ideal.ofBits .f32 0xC0000000#32) (Ideal.ofBits .f32 0x00000000#32)))

include hn in
theorem tile_col5 (h : 5 < 22) :
    tileVal (F := Ideal) i z xt xf wa wb (ix2 r (⟨5, h⟩ : Fin 22)) = Cert.Spec.g2 (Ideal.ofBits .f32 0xC0800000#32) (Ideal.ofBits .f32 0x00000000#32) n (rowT xt r) xf := by
  unfold tileVal
  exact (pay1_col5 _ _ _ _ _ _ _ _ _ _ _ _ _ _ _ _ _ _ _ _ _ _ r h).trans ((pay10_apply _ _ r 0).trans (g2_read i xt xf r n hn (Ideal.ofBits .f32 0xC0800000#32) (Ideal.ofBits .f32 0x00000000#32)))

include hn in
theorem tile_col6 (h : 6 < 22) :
    tileVal (F := Ideal) i z xt xf wa wb (ix2 r (⟨6, h⟩ : Fin 22)) = Cert.Spec.g2 (Ideal.ofBits .f32 0xBF000000#32) (Ideal.ofBits .f32 0x40400000#32) n (rowT xt r) xf := by
  unfold tileVal
  exact (pay1_col6 _ _ _ _ _ _ _ _ _ _ _ _ _ _ _ _ _ _ _ _ _ _ r h).trans ((pay12_apply _ r 0).trans (g2_read i xt xf r n hn (Ideal.ofBits .f32 0xBF000000#32) (Ideal.ofBits .f32 0x40400000#32)))

include hn in
theorem tile_col7 (h : 7 < 22) :
    tileVal (F := Ideal) i z xt xf wa wb (ix2 r (⟨7, h⟩ : Fin 22)) = Cert.Spec.g2 (Ideal.ofBits .f32 0xBF800000#32) (Ideal.ofBits .f32 0x40400000#32) n (rowT xt r) xf := by
  unfold tileVal
  exact (pay1_col7 _ _ _ _ _ _ _ _ _ _ _ _ _ _ _ _ _ _ _ _ _ _ r h).trans ((pay13_apply _ _ r 0).trans (g2_read i xt xf r n hn (Ideal.ofBits .f32 0xBF800000#32) (Ideal.ofBits .f32 0x40400000#32)))

include hn in
theorem tile_col8 (h : 8 < 22) :
    tileVal (F := Ideal) i z xt xf wa wb (ix2 r (⟨8, h⟩ : Fin 22)) = Cert.Spec.g2 (Ideal.ofBits .f32 0xC0000000#32) (Ideal.ofBits .f32 0x40400000#32) n (rowT xt r) xf := by
  unfold tileVal
  exact (pay1_col8 _ _ _ _ _ _ _ _ _ _ _ _ _ _ _ _ _ _ _ _ _ _ r h).trans ((pay14_apply _ _ r 0).trans (g2_read i xt xf r n hn (Ideal.ofBits .f32 0xC0000000#32) (Ideal.ofBits .f32 0x40400000#32)))

include hn in
theorem tile_col9 (h : 9 < 22) :
    tileVal (F := Ideal) i z xt xf wa wb (ix2 r (⟨9, h⟩ : Fin 22)) = Cert.Spec.g2 (Ideal.ofBits .f32 0xC0800000#32) (Ideal.ofBits .f32 0x40400000#32) n (rowT xt r) xf := by
  unfold tileVal
  exact (pay1_col9 _ _ _ _ _ _ _ _ _ _ _ _ _ _ _ _ _ _ _ _ _ _ r h).trans ((pay15_apply _ _ r 0).trans (g2_read i xt xf r n hn (Ideal.ofBits .f32 0xC0800000#32) (Ideal.ofBits .f32 0x40400000#32)))

include hn in
theorem tile_col10 (h : 10 < 22) :
    tileVal (F := Ideal) i z xt xf wa wb (ix2 r (⟨10, h⟩ : Fin 22)) = Cert.Spec.g3 (Ideal.ofBits .f32 0x3F000000#32) n (rowT xt r) xf := by
  unfold tileVal
  exact (pay1_col10 _ _ _ _ _ _ _ _ _ _ _ _ _ _ _ _ _ _ _ _ _ _ r h).trans ((pay16_apply _ _ r 0).trans (g3_read i xt xf r n hn (Ideal.ofBits .f32 0x3F000000#32)))

include hn in
theorem tile_col11 (h : 11 < 22) :
    tileVal (F := Ideal) i z xt xf wa wb (ix2 r (⟨11, h⟩ : Fin 22)) = Cert.Spec.g3 (Ideal.ofBits .f32 0x3F800000#32) n (rowT xt r) xf := by
  unfold tileVal
  exact (pay1_col11 _ _ _ _ _ _ _ _ _ _ _ _ _ _ _ _ _ _ _ _ _ _ r h).trans ((pay17_apply _ _ r 0).trans (g3_read i xt xf r n hn (Ideal.ofBits .f32 0x3F800000#32)))

include hn in
theorem tile_col12 (h : 12 < 22) :
    tileVal (F := Ideal) i z xt xf wa wb (ix2 r (⟨12, h⟩ : Fin 22)) = Cert.Spec.g3 (Ideal.ofBits .f32 0x3FC00000#32) n (rowT xt r) xf := by
  unfold tileVal
  exact (pay1_col12 _ _ _ _ _ _ _ _ _ _ _ _ _ _ _ _ _ _ _ _ _ _ r h).trans ((pay19_apply _ r 0).trans (g3_read i xt xf r n hn (Ideal.ofBits .f32 0x3FC00000#32)))

include hn in
theorem tile_col13 (h : 13 < 22) :
    tileVal (F := Ideal) i z xt xf wa wb (ix2 r (⟨13, h⟩ : Fin 22)) = Cert.Spec.g3 (Ideal.ofBits .f32 0x40000000#32) n (rowT xt r) xf := by
  unfold tileVal
  exact (pay1_col13 _ _ _ _ _ _ _ _ _ _ _ _ _ _ _ _ _ _ _ _ _ _ r h).trans ((pay20_apply _ _ r 0).trans (g3_read i xt xf r n hn (Ideal.ofBits .f32 0x40000000#32)))

end Cert.KernelIdeal.TileVal

end
-- ==== Proof.TileValAngle.lean ====
/-
  The tile's three-atom quantities read at explicit coordinates, over the tile's earlier values as variables:
  the inner product of two difference vectors (the batched product of the differences with themselves,
  contracted over the coordinate), the cosine of the angle between them with its guarded denominator, the sum of
  two squared distances and its exponentials, the product of two cutoff weights off the diagonal, the pair-weight
  plane as loaded, the four angular summands, and the iterated sums over the two neighbours.
-/
import proofs.«101160_j40054865002568_2_alg».proof.Proof.Gen.KernelIdeal.Skeleton
import proofs.«101160_j40054865002568_2_alg».proof.Proof.TileValLayout
import proofs.«101160_j40054865002568_2_alg».proof.Proof.TileValWords

noncomputable section

open scoped BigOperators

namespace Cert.KernelIdeal.TileVal

open Idealize.ShloMosaic Idealize.ShloMosaic.ValueIdx Cert.KernelIdeal Cert.KernelIdeal.Gen

/-- Equal arguments give equal values, for a function of three arguments. -/
theorem congr3 {α β γ δ : Sort _} (f : α → β → γ → δ) {a a' : α} {b b' : β} {c c' : γ}
    (ha : a = a') (hb : b = b') (hc : c = c') : f a b c = f a' b' c' := by
  subst ha hb hc; rfl

/-! ## The batched inner product -/

theorem dot_lhs0 (i : S8x320x320.Idx) (q : dot_S8x320x3_S8x320x3_S8x320x320_2_2_1_1_0_0.contr.Idx) : (dot_S8x320x3_S8x320x3_S8x320x320_2_2_1_1_0_0.lhsIdx i q 0).val = (i 0).val := by
  unfold DotDims.lhsIdx
  rw [dif_pos (show (0 : Fin S8x320x3.rank) ∈ dot_S8x320x3_S8x320x3_S8x320x320_2_2_1_1_0_0.lhsBatch by decide)]
  rfl
theorem dot_lhs1 (i : S8x320x320.Idx) (q : dot_S8x320x3_S8x320x3_S8x320x320_2_2_1_1_0_0.contr.Idx) : (dot_S8x320x3_S8x320x3_S8x320x320_2_2_1_1_0_0.lhsIdx i q 1).val = (i 1).val := by
  unfold DotDims.lhsIdx
  rw [dif_neg (show ¬(1 : Fin S8x320x3.rank) ∈ dot_S8x320x3_S8x320x3_S8x320x320_2_2_1_1_0_0.lhsBatch by decide), dif_pos (show (1 : Fin S8x320x3.rank) ∈ dot_S8x320x3_S8x320x3_S8x320x320_2_2_1_1_0_0.lhsNonContracting by decide)]
  rfl
theorem dot_lhs2 (i : S8x320x320.Idx) (q : dot_S8x320x3_S8x320x3_S8x320x320_2_2_1_1_0_0.contr.Idx) : (dot_S8x320x3_S8x320x3_S8x320x320_2_2_1_1_0_0.lhsIdx i q 2).val = (q ⟨0, by decide⟩).val :=
  dot_S8x320x3_S8x320x3_S8x320x320_2_2_1_1_0_0.lhsIdx_val_of_single rfl i q
theorem dot_rhs0 (i : S8x320x320.Idx) (q : dot_S8x320x3_S8x320x3_S8x320x320_2_2_1_1_0_0.contr.Idx) : (dot_S8x320x3_S8x320x3_S8x320x320_2_2_1_1_0_0.rhsIdx i q 0).val = (i 0).val := by
  unfold DotDims.rhsIdx
  rw [dif_pos (show (0 : Fin S8x320x3.rank) ∈ dot_S8x320x3_S8x320x3_S8x320x320_2_2_1_1_0_0.rhsBatch by decide)]
  rfl
theorem dot_rhs1 (i : S8x320x320.Idx) (q : dot_S8x320x3_S8x320x3_S8x320x320_2_2_1_1_0_0.contr.Idx) : (dot_S8x320x3_S8x320x3_S8x320x320_2_2_1_1_0_0.rhsIdx i q 1).val = (i 2).val := by
  unfold DotDims.rhsIdx
  rw [dif_neg (show ¬(1 : Fin S8x320x3.rank) ∈ dot_S8x320x3_S8x320x3_S8x320x320_2_2_1_1_0_0.rhsBatch by decide), dif_pos (show (1 : Fin S8x320x3.rank) ∈ dot_S8x320x3_S8x320x3_S8x320x320_2_2_1_1_0_0.rhsNonContracting by decide)]
  rfl
theorem dot_rhs2 (i : S8x320x320.Idx) (q : dot_S8x320x3_S8x320x3_S8x320x320_2_2_1_1_0_0.contr.Idx) : (dot_S8x320x3_S8x320x3_S8x320x320_2_2_1_1_0_0.rhsIdx i q 2).val = (q ⟨0, by decide⟩).val :=
  dot_S8x320x3_S8x320x3_S8x320x320_2_2_1_1_0_0.rhsIdx_val_of_single rfl i q

/-- The batched product of the differences with themselves, at (r, j, k): the inner product over the coordinate. -/
theorem dot_apply (v8 : FVec Ideal S8x320x3 .f32) (r : Fin 8) (j k : Fin 320) :
    FloatOps.matmul dot_S8x320x3_S8x320x3_S8x320x320_2_2_1_1_0_0 none v8 v8 (constant S8x320x320 .f32 0x00000000#32) (ix3 r j k)
      = ∑ d : Fin 3, v8 (ix3 r j d) * v8 (ix3 r k d) := by
  rw [Ideal.matmul_constant_zero_apply, ← Equiv.sum_comp (contrEquiv1 dot_S8x320x3_S8x320x3_S8x320x320_2_2_1_1_0_0 3 rfl rfl).symm]
  refine Finset.sum_congr rfl fun d _ => ?_
  have hk := contrEquiv1_symm_val dot_S8x320x3_S8x320x3_S8x320x320_2_2_1_1_0_0 3 rfl rfl d
  have el : dot_S8x320x3_S8x320x3_S8x320x320_2_2_1_1_0_0.lhsIdx (ix3 r j k) ((contrEquiv1 dot_S8x320x3_S8x320x3_S8x320x320_2_2_1_1_0_0 3 rfl rfl).symm d) = ix3 r j d := funext fun a => Fin.ext (by
    match a with
    | ⟨0, _⟩ => exact dot_lhs0 _ _
    | ⟨1, _⟩ => exact dot_lhs1 _ _
    | ⟨2, _⟩ => exact (dot_lhs2 _ _).trans hk)
  have er : dot_S8x320x3_S8x320x3_S8x320x320_2_2_1_1_0_0.rhsIdx (ix3 r j k) ((contrEquiv1 dot_S8x320x3_S8x320x3_S8x320x320_2_2_1_1_0_0 3 rfl rfl).symm d) = ix3 r k d := funext fun a => Fin.ext (by
    match a with
    | ⟨0, _⟩ => exact dot_rhs0 _ _
    | ⟨1, _⟩ => exact dot_rhs1 _ _
    | ⟨2, _⟩ => exact (dot_rhs2 _ _).trans hk)
  rw [el, er]

/-! ## A row vector spread along either neighbour axis -/

/-- An 8 × 320 vector spread over the second neighbour: at (r, j, k) its entry (r, j). -/
theorem spreadJ_apply {α : Type} (v : S8x320.Idx → α) (h1 : S8x320.ShapeCasts S8x320x1) (h2 : S8x320x1.Broadcasts S8x320x320)
    (r : Fin 8) (j k : Fin 320) : broadcastTo S8x320x320 (shapeCast S8x320x1 v h1) h2 (ix3 r j k) = v (ix2 r j) :=
  (broadcastTo_ab1_abc_apply (by decide) (by decide) _ h2 r j k).trans (shapeCast_ab_ab1_apply v h1 r j 0)

/-- An 8 × 320 vector spread over the first neighbour: at (r, j, k) its entry (r, k). -/
theorem spreadK_apply {α : Type} (v : S8x320.Idx → α) (h1 : S8x320.ShapeCasts S8x1x320) (h2 : S8x1x320.Broadcasts S8x320x320)
    (r : Fin 8) (j k : Fin 320) : broadcastTo S8x320x320 (shapeCast S8x1x320 v h1) h2 (ix3 r j k) = v (ix2 r k) :=
  (broadcastTo_a1c_abc_apply (by decide) (by decide) _ h2 r j k).trans (shapeCast_ac_a1c_apply v h1 r 0 k)

/-- A 320 × 320 plane behind a unit axis, spread over the tile's rows: at (r, j, k) its entry (j, k). -/
theorem spreadPlane_apply {α : Type} (w : S1x320x320.Idx → α) (h : S1x320x320.Broadcasts S8x320x320)
    (r : Fin 8) (j k : Fin 320) : broadcastTo S8x320x320 w h (ix3 r j k) = w (ix3 (0 : Fin 1) j k) :=
  broadcastTo_1bc_abc_apply (by decide) (by decide) w h r j k

/-! ## The angle cosine, the pair sums, the pair cutoff, the plane -/

/-- The guarded quotient the angle cosine is made of. -/
def cosForm (dot a b : EReal) : EReal :=
  Ideal.div dot (Scalar.select (Ideal.cmp .ogt (a * b) (Ideal.ofBits .f32 0x00000000#32)) (a * b) (Ideal.ofBits .f32 0x3F800000#32))

theorem pay21_apply (v8 : FVec Ideal S8x320x3 .f32) (v17 : FVec Ideal S8x320 .f32) (r : Fin 8) (j k : Fin 320) :
    k0_pay21 (F := Ideal) v8 v17 (ix3 r j k)
      = cosForm (∑ d : Fin 3, v8 (ix3 r j d) * v8 (ix3 r k d)) (v17 (ix2 r j)) (v17 (ix2 r k)) := by
  unfold k0_pay21
  exact congr3 cosForm (dot_apply v8 r j k) (spreadJ_apply v17 _ _ r j k) (spreadK_apply v17 _ _ r j k)

theorem pay22_apply (v10 : FVec Ideal S8x320 .f32) (r : Fin 8) (j k : Fin 320) :
    k0_pay22 (F := Ideal) v10 (ix3 r j k) = v10 (ix2 r j) + v10 (ix2 r k) := by
  unfold k0_pay22
  exact congrArg₂ (fun a b : EReal => a + b) (spreadJ_apply v10 _ _ r j k) (spreadK_apply v10 _ _ r j k)

theorem pay24_apply (v10 : FVec Ideal S8x320 .f32) (r : Fin 8) (j k : Fin 320) :
    k0_pay24 (F := Ideal) v10 (ix3 r j k) = Ideal.exp (Ideal.ofBits .f32 0xBDCCCCCD#32 * (v10 (ix2 r j) + v10 (ix2 r k))) := by
  unfold k0_pay24
  exact congrArg (fun a : EReal => Ideal.exp (Ideal.ofBits .f32 0xBDCCCCCD#32 * a)) (pay22_apply v10 r j k)

/-- The off-diagonal indicator of a pair of neighbours. -/
def offDiag (j k : Fin 320) : EReal := if j = k then 0 else 1

theorem pay23_apply (v40 : FVec Ideal S8x320 .f32) (r : Fin 8) (j k : Fin 320) :
    k0_pay23 (F := Ideal) v40 (ix3 r j k) = (v40 (ix2 r j) * v40 (ix2 r k)) * offDiag j k := by
  unfold k0_pay23
  refine congr3 (fun a b c : EReal => (a * b) * c) (spreadJ_apply v40 _ _ r j k) (spreadK_apply v40 _ _ r j k) ?_
  refine (spreadPlane_apply _ _ r j k).trans ?_
  refine (shapeCast_ab_1ab_apply _ _ 0 j k).trans ?_
  show (((((IntOp.cmpi .ne (iota .tc S320x320 32 [0] _ (ix2 j k)) (iota .tc S320x320 32 [1] _ (ix2 j k))).setWidth 32).toInt : ℝ)) : EReal) = _
  rw [iota_single_apply, iota_single_apply]
  refine (neWord_toReal j.val k.val j.isLt k.isLt).trans ?_
  unfold offDiag
  by_cases h : j = k
  · rw [if_pos h, if_pos (congrArg Fin.val h)]
  · rw [if_neg h, if_neg (fun e => h (Fin.ext e))]

/-- The pair-weight plane as the body reshapes it (to a matrix and back): the loaded plane. -/
theorem pay25_apply (w : Vec Ideal S1x320x320 .f32) (u : Fin 1) (j k : Fin 320) :
    k0_pay25 (F := Ideal) w (ix3 u j k) = w (ix3 (0 : Fin 1) j k) := by
  unfold k0_pay25
  exact (shapeCast_ab_1ab_apply _ _ u j k).trans (shapeCast_1ab_ab_apply w _ j k)

theorem pay34_apply (w : Vec Ideal S1x320x320 .f32) (u : Fin 1) (j k : Fin 320) :
    k0_pay34 (F := Ideal) w (ix3 u j k) = w (ix3 (0 : Fin 1) j k) := by
  unfold k0_pay34
  exact (shapeCast_ab_1ab_apply _ _ u j k).trans (shapeCast_1ab_ab_apply w _ j k)

end Cert.KernelIdeal.TileVal

end
-- ==== Proof.TileValSums.lean ====
/-
  The tile's angular features read at explicit coordinates, over the angle cosines, pair cutoffs, pair
  exponentials and pair-weight planes as variables: each angular summand is (the angular factor as a repeated
  product) times (the pair exponential) times (the pair cutoff), with or without the plane's pair weight, and each
  feature is the scale times the sum over the first neighbour of the sum over the second.
-/
import proofs.«101160_j40054865002568_2_alg».proof.Proof.TileValRadial
import proofs.«101160_j40054865002568_2_alg».proof.Proof.TileValAngle

noncomputable section

open scoped BigOperators

namespace Cert.KernelIdeal.TileVal

open Idealize.ShloMosaic Idealize.ShloMosaic.ValueIdx Cert.KernelIdeal Cert.KernelIdeal.Gen

/-- The sum over the last axis, then over the middle axis, of an 8 × 320 × 320 vector, stored as a column. -/
theorem pairSum_apply (T : FVec Ideal S8x320x320 .f32) (h3 : S8x320x320.Reduces [2] S8x320) (hφ : FKind.Formats .f32)
    (hacc : (0x00000000#32 : BitVec 32) = FKind.add.neutral .f32 hφ) (h1 : S8x320.Reduces [1] S8) (hφ' : FKind.Formats .f32)
    (hacc' : (0x00000000#32 : BitVec 32) = FKind.add.neutral .f32 hφ') (h2 : S8.ShapeCasts S8x1) (r : Fin 8) (u : Fin 1) :
    shapeCast S8x1 (multiReduction .add [1] S8 (multiReduction .add [2] S8x320 T 0x00000000#32 h3 hφ hacc) 0x00000000#32 h1 hφ' hacc') h2 (ix2 r u)
      = ∑ j : Fin 320, ∑ k : Fin 320, T (ix3 r j k) :=
  (colSum_apply _ h1 hφ' hacc' h2 r u).trans (Finset.sum_congr rfl fun j _ => sum_last3_apply T h3 hφ hacc r j)

/-- The same two sums before the column reshape. -/
theorem pairSum_vec_apply (T : FVec Ideal S8x320x320 .f32) (h3 : S8x320x320.Reduces [2] S8x320) (hφ : FKind.Formats .f32)
    (hacc : (0x00000000#32 : BitVec 32) = FKind.add.neutral .f32 hφ) (h1 : S8x320.Reduces [1] S8) (hφ' : FKind.Formats .f32)
    (hacc' : (0x00000000#32 : BitVec 32) = FKind.add.neutral .f32 hφ') (r : Fin 8) :
    multiReduction .add [1] S8 (multiReduction .add [2] S8x320 T 0x00000000#32 h3 hφ hacc) 0x00000000#32 h1 hφ' hacc' (ix1 r)
      = ∑ j : Fin 320, ∑ k : Fin 320, T (ix3 r j k) :=
  (sum_last2_apply _ h1 hφ' hacc' r).trans (Finset.sum_congr rfl fun j _ => sum_last3_apply T h3 hφ hacc r j)

/-! ## The four angular summands -/

theorem pay27_apply (v167 v170 v177 : FVec Ideal S8x320x320 .f32) (c1 : EReal) (i : S8x320x320.Idx) :
    k0_pay27 (F := Ideal) v167 v170 v177 c1 i = ((c1 * v177 i) * v170 i) * v167 i := rfl

theorem pay30_apply (v149 v167 v170 : FVec Ideal S8x320x320 .f32) (i : S8x320x320.Idx) :
    k0_pay30 (F := Ideal) v149 v167 v170 i
      = ((Ideal.ofBits .f32 0x3F800000#32 *
          ((Ideal.ofBits .f32 0x3F800000#32 + Ideal.ofBits .f32 0xBF800000#32 * v149 i) *
           (Ideal.ofBits .f32 0x3F800000#32 + Ideal.ofBits .f32 0xBF800000#32 * v149 i))) * v170 i) * v167 i := rfl

theorem pay35_apply (v149 v167 v217 : FVec Ideal S8x320x320 .f32) (i : S8x320x320.Idx) :
    k0_pay35 (F := Ideal) v149 v167 v217 i
      = ((Ideal.ofBits .f32 0x3F800000#32 *
          (((Ideal.ofBits .f32 0x3F800000#32 + Ideal.ofBits .f32 0x3F800000#32 * v149 i) *
            (Ideal.ofBits .f32 0x3F800000#32 + Ideal.ofBits .f32 0x3F800000#32 * v149 i)) *
           ((Ideal.ofBits .f32 0x3F800000#32 + Ideal.ofBits .f32 0x3F800000#32 * v149 i) *
            (Ideal.ofBits .f32 0x3F800000#32 + Ideal.ofBits .f32 0x3F800000#32 * v149 i)))) * v217 i) * v167 i := rfl

theorem pay38_apply (v149 v167 v217 : FVec Ideal S8x320x320 .f32) (i : S8x320x320.Idx) :
    k0_pay38 (F := Ideal) v149 v167 v217 i
      = ((Ideal.ofBits .f32 0x3F800000#32 *
          (((Ideal.ofBits .f32 0x3F800000#32 + Ideal.ofBits .f32 0xBF800000#32 * v149 i) *
            (Ideal.ofBits .f32 0x3F800000#32 + Ideal.ofBits .f32 0xBF800000#32 * v149 i)) *
           ((Ideal.ofBits .f32 0x3F800000#32 + Ideal.ofBits .f32 0xBF800000#32 * v149 i) *
            (Ideal.ofBits .f32 0x3F800000#32 + Ideal.ofBits .f32 0xBF800000#32 * v149 i)))) * v217 i) * v167 i := rfl

theorem pay26_apply (v8 : FVec Ideal S8x320x3 .f32) (v17 : FVec Ideal S8x320 .f32) (i : S8x320x320.Idx) :
    k0_pay26 (F := Ideal) v8 v17 i
      = Ideal.ofBits .f32 0x3F800000#32 + Ideal.ofBits .f32 0x3F800000#32 * k0_pay21 (F := Ideal) v8 v17 i := rfl

theorem pay33_apply (v154 : FVec Ideal S8x320x320 .f32) (i : S8x320x320.Idx) :
    k0_pay33 (F := Ideal) v154 i = Ideal.exp (Ideal.ofBits .f32 0xBF000000#32 * v154 i) := rfl

/-! ## The eight angular features -/

theorem pay28_apply (v167 v170 v177 : FVec Ideal S8x320x320 .f32) (c1 : EReal) (r : Fin 8) (u : Fin 1) :
    k0_pay28 (F := Ideal) v167 v170 v177 c1 (ix2 r u)
      = Ideal.ofBits .f32 0x3F000000#32 * ∑ j : Fin 320, ∑ k : Fin 320, k0_pay27 (F := Ideal) v167 v170 v177 c1 (ix3 r j k) := by
  unfold k0_pay28
  exact congrArg (fun a : EReal => Ideal.ofBits .f32 0x3F000000#32 * a) (pairSum_apply _ _ _ _ _ _ _ _ r u)

theorem pay31_apply (v149 v167 v170 : FVec Ideal S8x320x320 .f32) (r : Fin 8) (u : Fin 1) :
    k0_pay31 (F := Ideal) v149 v167 v170 (ix2 r u)
      = Ideal.ofBits .f32 0x3E800000#32 * ∑ j : Fin 320, ∑ k : Fin 320, k0_pay30 (F := Ideal) v149 v167 v170 (ix3 r j k) := by
  unfold k0_pay31
  exact congrArg (fun a : EReal => Ideal.ofBits .f32 0x3E800000#32 * a) (pairSum_apply _ _ _ _ _ _ _ _ r u)

theorem pay36_apply (v149 v167 v217 : FVec Ideal S8x320x320 .f32) (r : Fin 8) (u : Fin 1) :
    k0_pay36 (F := Ideal) v149 v167 v217 (ix2 r u)
      = Ideal.ofBits .f32 0x3D800000#32 * ∑ j : Fin 320, ∑ k : Fin 320, k0_pay35 (F := Ideal) v149 v167 v217 (ix3 r j k) := by
  unfold k0_pay36
  exact congrArg (fun a : EReal => Ideal.ofBits .f32 0x3D800000#32 * a) (pairSum_apply _ _ _ _ _ _ _ _ r u)

theorem pay39_apply (v149 v167 v217 : FVec Ideal S8x320x320 .f32) (r : Fin 8) (u : Fin 1) :
    k0_pay39 (F := Ideal) v149 v167 v217 (ix2 r u)
      = Ideal.ofBits .f32 0x3D800000#32 * ∑ j : Fin 320, ∑ k : Fin 320, k0_pay38 (F := Ideal) v149 v167 v217 (ix3 r j k) := by
  unfold k0_pay39
  exact congrArg (fun a : EReal => Ideal.ofBits .f32 0x3D800000#32 * a) (pairSum_apply _ _ _ _ _ _ _ _ r u)

/-- A summand times the plane's pair weight, summed over both neighbours. -/
theorem weightedSum_apply (T : FVec Ideal S8x320x320 .f32) (w : FVec Ideal S1x320x320 .f32)
    (hb : S1x320x320.Broadcasts S8x320x320) (r : Fin 8) (j : Fin 320) :
    ∑ k : Fin 320, (mulf T (broadcastTo S8x320x320 w hb)) (ix3 r j k) = ∑ k : Fin 320, T (ix3 r j k) * w (ix3 (0 : Fin 1) j k) :=
  Finset.sum_congr rfl fun k _ => congrArg (fun a : EReal => T (ix3 r j k) * a) (spreadPlane_apply w hb r j k)

theorem pay29_apply (v167 v170 v177 : FVec Ideal S8x320x320 .f32) (v173 : FVec Ideal S1x320x320 .f32) (c1 : EReal) (r : Fin 8) (u : Fin 1) :
    k0_pay29 (F := Ideal) v167 v170 v173 v177 c1 (ix2 r u)
      = Ideal.ofBits .f32 0x3F000000#32 * ∑ j : Fin 320, ∑ k : Fin 320,
          k0_pay27 (F := Ideal) v167 v170 v177 c1 (ix3 r j k) * v173 (ix3 (0 : Fin 1) j k) := by
  unfold k0_pay29
  refine congrArg (fun a : EReal => Ideal.ofBits .f32 0x3F000000#32 * a) ?_
  refine (pairSum_apply _ _ _ _ _ _ _ _ r u).trans ?_
  exact Finset.sum_congr rfl fun j _ => weightedSum_apply _ v173 _ r j

theorem pay32_apply (v149 v167 v170 : FVec Ideal S8x320x320 .f32) (v173 : FVec Ideal S1x320x320 .f32) (r : Fin 8) (u : Fin 1) :
    k0_pay32 (F := Ideal) v149 v167 v170 v173 (ix2 r u)
      = Ideal.ofBits .f32 0x3E800000#32 * ∑ j : Fin 320, ∑ k : Fin 320,
          k0_pay30 (F := Ideal) v149 v167 v170 (ix3 r j k) * v173 (ix3 (0 : Fin 1) j k) := by
  unfold k0_pay32
  refine congrArg (fun a : EReal => Ideal.ofBits .f32 0x3E800000#32 * a) ?_
  refine (pairSum_apply _ _ _ _ _ _ _ _ r u).trans ?_
  exact Finset.sum_congr rfl fun j _ => weightedSum_apply _ v173 _ r j

theorem pay37_apply (v149 v167 v217 : FVec Ideal S8x320x320 .f32) (wb : Vec Ideal S1x320x320 .f32) (r : Fin 8) (u : Fin 1) :
    k0_pay37 (F := Ideal) v149 v167 v217 wb (ix2 r u)
      = Ideal.ofBits .f32 0x3D800000#32 * ∑ j : Fin 320, ∑ k : Fin 320,
          k0_pay35 (F := Ideal) v149 v167 v217 (ix3 r j k) * wb (ix3 (0 : Fin 1) j k) := by
  unfold k0_pay37
  refine congrArg (fun a : EReal => Ideal.ofBits .f32 0x3D800000#32 * a) ?_
  refine (pairSum_apply _ _ _ _ _ _ _ _ r u).trans ?_
  refine Finset.sum_congr rfl fun j _ => (weightedSum_apply _ (k0_pay34 (F := Ideal) wb) _ r j).trans ?_
  exact Finset.sum_congr rfl fun k _ => congrArg (fun a : EReal => k0_pay35 (F := Ideal) v149 v167 v217 (ix3 r j k) * a) (pay34_apply wb 0 j k)

theorem pay40_apply (v149 v167 v217 : FVec Ideal S8x320x320 .f32) (wb : Vec Ideal S1x320x320 .f32) (r : Fin 8) :
    k0_pay40 (F := Ideal) v149 v167 v217 wb (ix1 r)
      = ∑ j : Fin 320, ∑ k : Fin 320, k0_pay38 (F := Ideal) v149 v167 v217 (ix3 r j k) * wb (ix3 (0 : Fin 1) j k) := by
  unfold k0_pay40
  refine (pairSum_vec_apply _ _ _ _ _ _ _ r).trans ?_
  refine Finset.sum_congr rfl fun j _ => (weightedSum_apply _ (k0_pay34 (F := Ideal) wb) _ r j).trans ?_
  exact Finset.sum_congr rfl fun k _ => congrArg (fun a : EReal => k0_pay38 (F := Ideal) v149 v167 v217 (ix3 r j k) * a) (pay34_apply wb 0 j k)

end Cert.KernelIdeal.TileVal

end
-- ==== Proof.SpecLaw.lean ====
/-
  The algebraic law between two arrangements of the angular features.

  One arrangement (the specification's) takes the angular factor as a real power, puts all three squared distances
  in one exponential, masks the diagonal by `1 - eye`, and sums over ordered pairs from a zero word. The other
  multiplies the angular factor out (`b`, `b·b`, `(b·b)·(b·b)`), splits the exponential as
  `exp (c (a + b)) · exp (c d)` with the second factor inside a pair weight, masks by an indicator of `j ≠ k`,
  and sums without an initial value. On the extended reals products commute and associate freely; the split of
  the exponential and the reading of a real power as a product need every coordinate to be a real number.
-/
import Idealize.ShloMosaic.Lib.IdealHost
import proofs.«101160_j40054865002568_2_alg».proof.Proof.Spec

noncomputable section

open scoped BigOperators

namespace Cert.Spec

open Idealize.ShloMosaic Idealize.ShloMosaic.ValueIdx

/-! ## Real-valued extended reals -/

/-- An extended real that is a real number. -/
def IsReal (a : EReal) : Prop := ∃ r : ℝ, a = (r : EReal)

theorem IsReal.coe (r : ℝ) : IsReal (r : EReal) := ⟨r, rfl⟩
theorem IsReal.zero : IsReal 0 := ⟨0, rfl⟩
theorem IsReal.one : IsReal 1 := ⟨1, rfl⟩
theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.sub {a b : EReal} (ha : IsReal a) (hb : IsReal b) : IsReal (a - b) := by
  obtain ⟨r, rfl⟩ := ha; obtain ⟨s, rfl⟩ := hb; exact ⟨r - s, (EReal.coe_sub r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.sum {ι : Type} (s : Finset ι) (f : ι → EReal) (h : ∀ i, IsReal (f i)) : IsReal (∑ i ∈ s, f i) := by
  classical
  induction s using Finset.induction_on with
  | empty => simpa using IsReal.zero
  | insert a s ha ih => rw [Finset.sum_insert ha]; exact (h a).add ih

/-! ## The literal words whose values matter -/

theorem lit_zero : Ideal.ofBits .f32 0x00000000#32 = 0 := Ideal.ofBits_zero_f32
theorem lit_one : Ideal.ofBits .f32 0x3F800000#32 = 1 := Ideal.ofBits_one_f32
theorem lit_two : Ideal.ofBits .f32 0x40000000#32 = ((2 : ℝ) : EReal) := by
  simp [Ideal.ofBits, Ideal.ieee, -EReal.coe_mul]; norm_num
theorem lit_four : Ideal.ofBits .f32 0x40800000#32 = ((4 : ℝ) : EReal) := by
  simp [Ideal.ofBits, Ideal.ieee, -EReal.coe_mul]; norm_num
theorem lit_neg_one : Ideal.ofBits .f32 0xBF800000#32 = ((-1 : ℝ) : EReal) := by
  simp [Ideal.ofBits, Ideal.ieee, -EReal.coe_mul, -EReal.coe_neg]; norm_num
theorem lit_neg_half_real : IsReal (Ideal.ofBits .f32 0xBF000000#32) := by
  refine ⟨-(1 / 2), ?_⟩
  simp [Ideal.ofBits, Ideal.ieee, -EReal.coe_mul, -EReal.coe_neg]; norm_num
theorem lit_neg_tenth_real : IsReal (Ideal.ofBits .f32 0xBDCCCCCD#32) := by
  refine ⟨-(13421773 / 134217728), ?_⟩
  simp [Ideal.ofBits, Ideal.ieee, -EReal.coe_mul, -EReal.coe_neg]; norm_num
theorem lit_one_real : IsReal (Ideal.ofBits .f32 0x3F800000#32) := lit_one ▸ IsReal.one
theorem lit_neg_one_real : IsReal (Ideal.ofBits .f32 0xBF800000#32) := lit_neg_one ▸ IsReal.coe _

/-! ## Comparisons and selections on the order -/

/-- Selecting on "greater than" is the `if` on the strict order. -/
theorem select_cmp_ogt {α : Type} (a z : EReal) (u v : α) :
    Scalar.select (Ideal.cmp .ogt a z) u v = if z < a then u else v := by
  by_cases h : z < a <;> simp [Scalar.select, Ideal.cmp, h]

/-! ## From real coordinates, real distances and cosines -/

section Real
variable {p : Fin 3 → EReal} {x : X}

theorem row_real (hx : ∀ idx, IsReal (x idx)) (n : Fin 320) (d : Fin 3) : IsReal (row x n d) := hx _

theorem diff_real (hp : ∀ d, IsReal (p d)) (hx : ∀ idx, IsReal (x idx)) (j : Fin 320) (d : Fin 3) :
    IsReal (diff p x j d) := (hp d).sub (hx _)

theorem r2row_real (hp : ∀ d, IsReal (p d)) (hx : ∀ idx, IsReal (x idx)) (j : Fin 320) : IsReal (r2row p x j) := by
  unfold r2row
  rw [lit_zero, zero_add]
  exact IsReal.sum _ _ fun d => (diff_real hp hx j d).mul (diff_real hp hx j d)

theorem r2pair_real (hp : ∀ d, IsReal (p d)) (hx : ∀ idx, IsReal (x idx)) (j k : Fin 320) :
    IsReal (r2pair p x j k) := (r2row_real hp hx j).add (r2row_real hp hx k)

theorem r2pl_real (hx : ∀ idx, IsReal (x idx)) (j k : Fin 320) : IsReal (r2pl x j k) :=
  r2row_real (row_real hx j) hx k

/-- The guarded root of a real number is a real number. -/
theorem rOf_real {a : EReal} (ha : IsReal a) : IsReal (rOf a) := by
  obtain ⟨r, rfl⟩ := ha
  unfold rOf
  rw [lit_zero, lit_one, select_cmp_ogt, select_cmp_ogt]
  by_cases h : (0 : EReal) < (r : EReal)
  · rw [if_pos h, if_pos h, Ideal.sqrt_coe, if_neg (not_lt.2 (le_of_lt (EReal.coe_pos.1 h)))]
    exact IsReal.coe _
  · rw [if_neg h]; exact IsReal.zero

theorem rrow_real (hp : ∀ d, IsReal (p d)) (hx : ∀ idx, IsReal (x idx)) (j : Fin 320) : IsReal (rrow p x j) :=
  rOf_real (r2row_real hp hx j)

theorem dotrow_real (hp : ∀ d, IsReal (p d)) (hx : ∀ idx, IsReal (x idx)) (j k : Fin 320) :
    IsReal (dotrow p x j k) :=
  IsReal.sum _ _ fun d => (diff_real hp hx j d).mul (diff_real hp hx k d)

/-- The guarded cosine is a real number: its denominator is a positive real or one. -/
theorem cosT_real (hp : ∀ d, IsReal (p d)) (hx : ∀ idx, IsReal (x idx)) (j k : Fin 320) : IsReal (cosT p x j k) := by
  unfold cosT
  rw [lit_zero, lit_one, select_cmp_ogt]
  obtain ⟨dv, hd⟩ := dotrow_real hp hx j k
  obtain ⟨rv, hr⟩ := (rrow_real hp hx j).mul (rrow_real hp hx k)
  rw [hd, hr]
  by_cases h : (0 : EReal) < (rv : EReal)
  · rw [if_pos h, Ideal.div_coe (ne_of_gt (EReal.coe_pos.1 h))]
    exact (IsReal.coe _).mul (IsReal.coe _)
  · rw [if_neg h, show (1 : EReal) = ((1 : ℝ) : EReal) from rfl, Ideal.div_coe one_ne_zero]
    exact (IsReal.coe _).mul (IsReal.coe _)

/-- The base of the angular factor. -/
abbrev bK (lam : EReal) (p : Fin 3 → EReal) (x : X) (j k : Fin 320) : EReal :=
  Ideal.ofBits .f32 0x3F800000#32 + lam * cosT p x j k

theorem bK_real {lam : EReal} (hl : IsReal lam) (hp : ∀ d, IsReal (p d)) (hx : ∀ idx, IsReal (x idx)) (j k : Fin 320) :
    IsReal (bK lam p x j k) := lit_one_real.add (hl.mul (cosT_real hp hx j k))

end Real

/-! ## A real power at 1, 2, 4 is the product -/

theorem pow_one_eq {b : EReal} (hb : IsReal b) :
    Ideal.pow b (Ideal.ofBits .f32 0x3F800000#32) = Ideal.ofBits .f32 0x3F800000#32 * b := by
  obtain ⟨r, rfl⟩ := hb
  rw [lit_one, one_mul, show (1 : EReal) = ((1 : ℝ) : EReal) from rfl, Ideal.pow_coe_coe]
  exact congrArg _ (Real.rpow_one r)

theorem pow_two_eq {b : EReal} (hb : IsReal b) :
    Ideal.pow b (Ideal.ofBits .f32 0x40000000#32) = Ideal.ofBits .f32 0x3F800000#32 * (b * b) := by
  obtain ⟨r, rfl⟩ := hb
  rw [lit_one, one_mul, lit_two, Ideal.pow_coe_coe, ← EReal.coe_mul]
  exact congrArg _ ((Real.rpow_two r).trans (sq r))

theorem pow_four_eq {b : EReal} (hb : IsReal b) :
    Ideal.pow b (Ideal.ofBits .f32 0x40800000#32) = Ideal.ofBits .f32 0x3F800000#32 * ((b * b) * (b * b)) := by
  obtain ⟨r, rfl⟩ := hb
  rw [lit_one, one_mul, lit_four, Ideal.pow_coe_coe, ← EReal.coe_mul, ← EReal.coe_mul]
  refine congrArg _ ?_
  have h4 : (4 : ℝ) = ((4 : ℕ) : ℝ) := by norm_num
  show r ^ (4 : ℝ) = r * r * (r * r)
  rw [h4, Real.rpow_natCast]; ring

/-! ## The exponential of a sum of reals, the mask, and the summands -/

theorem exp_split {c P d : EReal} (hc : IsReal c) (hP : IsReal P) (hd : IsReal d) :
    Ideal.exp (c * (P + d)) = Ideal.exp (c * P) * Ideal.exp (c * d) := by
  obtain ⟨c, rfl⟩ := hc; obtain ⟨P, rfl⟩ := hP; obtain ⟨d, rfl⟩ := hd
  have e1 : (c : EReal) * ((P : EReal) + (d : EReal)) = ((c * P + c * d : ℝ) : EReal) := by
    rw [← EReal.coe_add, ← EReal.coe_mul, mul_add]
  have e2 : (c : EReal) * (P : EReal) = ((c * P : ℝ) : EReal) := (EReal.coe_mul c P).symm
  have e3 : (c : EReal) * (d : EReal) = ((c * d : ℝ) : EReal) := (EReal.coe_mul c d).symm
  rw [e1, e2, e3, Ideal.exp_coe, Ideal.exp_coe, Ideal.exp_coe, ← EReal.coe_mul, Real.exp_add]

/-- The indicator of two different atoms. -/
def ne01 (j k : Fin 320) : EReal := if j = k then 0 else 1

theorem mask_eq (j k : Fin 320) : Ideal.ofBits .f32 0x3F800000#32 - eye j k = ne01 j k := by
  unfold eye ne01
  rw [lit_one]
  by_cases h : j = k
  · rw [if_pos h, if_pos h]
    show ((1 : ℝ) : EReal) - ((1 : ℝ) : EReal) = 0
    rw [← EReal.coe_sub, sub_self, EReal.coe_zero]
  · rw [if_neg h, if_neg h, sub_zero]

/-- The product of the two cutoff weights under the indicator of `j ≠ k`. -/
abbrev fc2K (n : Fin 320) (p : Fin 3 → EReal) (x : X) (j k : Fin 320) : EReal :=
  (fcrow n p x j * fcrow n p x k) * ne01 j k

/-- The summand with the angular factor `a` given: `(a · exp (c (r²ⱼ + r²ₖ))) · fc2K`. -/
abbrev t5K (c a : EReal) (n : Fin 320) (p : Fin 3 → EReal) (x : X) (j k : Fin 320) : EReal :=
  (a * Ideal.exp (c * r2pair p x j k)) * fc2K n p x j k

theorem t5_eq (c lam ζ a : EReal) (n : Fin 320) (p : Fin 3 → EReal) (x : X) (j k : Fin 320)
    (hA : Ideal.pow (bK lam p x j k) ζ = a) : t5 c lam ζ n p x j k = t5K c a n p x j k := by
  unfold t5 ang fc2
  rw [mask_eq, hA]

theorem t4_eq {c : EReal} (hc : IsReal c) (lam ζ a : EReal) (n : Fin 320) {p : Fin 3 → EReal} {x : X}
    (hp : ∀ d, IsReal (p d)) (hx : ∀ idx, IsReal (x idx)) (j k : Fin 320)
    (hA : Ideal.pow (bK lam p x j k) ζ = a) :
    t4 c lam ζ n p x j k = t5K c a n p x j k * wplane c x j k := by
  unfold t4 ang fc2 wplane t5K fc2K
  rw [mask_eq, hA, exp_split hc (r2pair_real hp hx j k) (r2pl_real hx j k)]
  ac_rfl

/-! ## The features -/

theorem g5K_eq (sc c lam ζ : EReal) (n : Fin 320) (p : Fin 3 → EReal) (x : X) (aK : Fin 320 → Fin 320 → EReal)
    (hA : ∀ j k, Ideal.pow (bK lam p x j k) ζ = aK j k) :
    sc * (∑ j : Fin 320, ∑ k : Fin 320, t5K c (aK j k) n p x j k) = g5 sc c lam ζ n p x := by
  unfold g5
  rw [pairSum_eq_iter]
  exact congrArg (sc * ·) (Finset.sum_congr rfl fun j _ => Finset.sum_congr rfl fun k _ =>
    (t5_eq c lam ζ (aK j k) n p x j k (hA j k)).symm)

theorem g4K_eq (sc : EReal) {c : EReal} (hc : IsReal c) (lam ζ : EReal) (n : Fin 320) {p : Fin 3 → EReal} {x : X}
    (hp : ∀ d, IsReal (p d)) (hx : ∀ idx, IsReal (x idx)) (aK : Fin 320 → Fin 320 → EReal)
    (hA : ∀ j k, Ideal.pow (bK lam p x j k) ζ = aK j k) :
    sc * (∑ j : Fin 320, ∑ k : Fin 320, t5K c (aK j k) n p x j k * wplane c x j k) = g4 sc c lam ζ n p x := by
  unfold g4
  rw [pairSum_eq_iter]
  exact congrArg (sc * ·) (Finset.sum_congr rfl fun j _ => Finset.sum_congr rfl fun k _ =>
    (t4_eq hc lam ζ (aK j k) n hp hx j k (hA j k)).symm)

/-! ## The eight angular columns, at their literal words

`angK1`, `angK2`, `angK4` are the angular factor multiplied out from one. Each column's multiplied-out, factorised
feature is the specification's. -/

abbrev angK1 (lam : EReal) (p : Fin 3 → EReal) (x : X) (j k : Fin 320) : EReal :=
  Ideal.ofBits .f32 0x3F800000#32 * bK lam p x j k
abbrev angK2 (lam : EReal) (p : Fin 3 → EReal) (x : X) (j k : Fin 320) : EReal :=
  Ideal.ofBits .f32 0x3F800000#32 * (bK lam p x j k * bK lam p x j k)
abbrev angK4 (lam : EReal) (p : Fin 3 → EReal) (x : X) (j k : Fin 320) : EReal :=
  Ideal.ofBits .f32 0x3F800000#32 * ((bK lam p x j k * bK lam p x j k) * (bK lam p x j k * bK lam p x j k))

/-- Column 18. -/
theorem g5K_col18 (n : Fin 320) {p : Fin 3 → EReal} {x : X} (hp : ∀ d, IsReal (p d)) (hx : ∀ idx, IsReal (x idx)) :
    (Ideal.ofBits .f32 0x3F000000#32) * (∑ j : Fin 320, ∑ k : Fin 320, t5K (Ideal.ofBits .f32 0xBDCCCCCD#32) (angK1 (Ideal.ofBits .f32 0x3F800000#32) p x j k) n p x j k)
      = g5 (Ideal.ofBits .f32 0x3F000000#32) (Ideal.ofBits .f32 0xBDCCCCCD#32) (Ideal.ofBits .f32 0x3F800000#32) (Ideal.ofBits .f32 0x3F800000#32) n p x :=
  g5K_eq _ _ _ _ n p x _ fun j k => pow_one_eq (bK_real lit_one_real hp hx j k)

/-- Column 14. -/
theorem g4K_col14 (n : Fin 320) {p : Fin 3 → EReal} {x : X} (hp : ∀ d, IsReal (p d)) (hx : ∀ idx, IsReal (x idx)) :
    (Ideal.ofBits .f32 0x3F000000#32) * (∑ j : Fin 320, ∑ k : Fin 320, t5K (Ideal.ofBits .f32 0xBDCCCCCD#32) (angK1 (Ideal.ofBits .f32 0x3F800000#32) p x j k) n p x j k * wplane (Ideal.ofBits .f32 0xBDCCCCCD#32) x j k)
      = g4 (Ideal.ofBits .f32 0x3F000000#32) (Ideal.ofBits .f32 0xBDCCCCCD#32) (Ideal.ofBits .f32 0x3F800000#32) (Ideal.ofBits .f32 0x3F800000#32) n p x :=
  g4K_eq _ lit_neg_tenth_real _ _ n hp hx _ fun j k => pow_one_eq (bK_real lit_one_real hp hx j k)

/-- Column 19. -/
theorem g5K_col19 (n : Fin 320) {p : Fin 3 → EReal} {x : X} (hp : ∀ d, IsReal (p d)) (hx : ∀ idx, IsReal (x idx)) :
    (Ideal.ofBits .f32 0x3E800000#32) * (∑ j : Fin 320, ∑ k : Fin 320, t5K (Ideal.ofBits .f32 0xBDCCCCCD#32) (angK2 (Ideal.ofBits .f32 0xBF800000#32) p x j k) n p x j k)
      = g5 (Ideal.ofBits .f32 0x3E800000#32) (Ideal.ofBits .f32 0xBDCCCCCD#32) (Ideal.ofBits .f32 0xBF800000#32) (Ideal.ofBits .f32 0x40000000#32) n p x :=
  g5K_eq _ _ _ _ n p x _ fun j k => pow_two_eq (bK_real lit_neg_one_real hp hx j k)

/-- Column 15. -/
theorem g4K_col15 (n : Fin 320) {p : Fin 3 → EReal} {x : X} (hp : ∀ d, IsReal (p d)) (hx : ∀ idx, IsReal (x idx)) :
    (Ideal.ofBits .f32 0x3E800000#32) * (∑ j : Fin 320, ∑ k : Fin 320, t5K (Ideal.ofBits .f32 0xBDCCCCCD#32) (angK2 (Ideal.ofBits .f32 0xBF800000#32) p x j k) n p x j k * wplane (Ideal.ofBits .f32 0xBDCCCCCD#32) x j k)
      = g4 (Ideal.ofBits .f32 0x3E800000#32) (Ideal.ofBits .f32 0xBDCCCCCD#32) (Ideal.ofBits .f32 0xBF800000#32) (Ideal.ofBits .f32 0x40000000#32) n p x :=
  g4K_eq _ lit_neg_tenth_real _ _ n hp hx _ fun j k => pow_two_eq (bK_real lit_neg_one_real hp hx j k)

/-- Column 20. -/
theorem g5K_col20 (n : Fin 320) {p : Fin 3 → EReal} {x : X} (hp : ∀ d, IsReal (p d)) (hx : ∀ idx, IsReal (x idx)) :
    (Ideal.ofBits .f32 0x3D800000#32) * (∑ j : Fin 320, ∑ k : Fin 320, t5K (Ideal.ofBits .f32 0xBF000000#32) (angK4 (Ideal.ofBits .f32 0x3F800000#32) p x j k) n p x j k)
      = g5 (Ideal.ofBits .f32 0x3D800000#32) (Ideal.ofBits .f32 0xBF000000#32) (Ideal.ofBits .f32 0x3F800000#32) (Ideal.ofBits .f32 0x40800000#32) n p x :=
  g5K_eq _ _ _ _ n p x _ fun j k => pow_four_eq (bK_real lit_one_real hp hx j k)

/-- Column 16. -/
theorem g4K_col16 (n : Fin 320) {p : Fin 3 → EReal} {x : X} (hp : ∀ d, IsReal (p d)) (hx : ∀ idx, IsReal (x idx)) :
    (Ideal.ofBits .f32 0x3D800000#32) * (∑ j : Fin 320, ∑ k : Fin 320, t5K (Ideal.ofBits .f32 0xBF000000#32) (angK4 (Ideal.ofBits .f32 0x3F800000#32) p x j k) n p x j k * wplane (Ideal.ofBits .f32 0xBF000000#32) x j k)
      = g4 (Ideal.ofBits .f32 0x3D800000#32) (Ideal.ofBits .f32 0xBF000000#32) (Ideal.ofBits .f32 0x3F800000#32) (Ideal.ofBits .f32 0x40800000#32) n p x :=
  g4K_eq _ lit_neg_half_real _ _ n hp hx _ fun j k => pow_four_eq (bK_real lit_one_real hp hx j k)

/-- Column 21. -/
theorem g5K_col21 (n : Fin 320) {p : Fin 3 → EReal} {x : X} (hp : ∀ d, IsReal (p d)) (hx : ∀ idx, IsReal (x idx)) :
    (Ideal.ofBits .f32 0x3D800000#32) * (∑ j : Fin 320, ∑ k : Fin 320, t5K (Ideal.ofBits .f32 0xBF000000#32) (angK4 (Ideal.ofBits .f32 0xBF800000#32) p x j k) n p x j k)
      = g5 (Ideal.ofBits .f32 0x3D800000#32) (Ideal.ofBits .f32 0xBF000000#32) (Ideal.ofBits .f32 0xBF800000#32) (Ideal.ofBits .f32 0x40800000#32) n p x :=
  g5K_eq _ _ _ _ n p x _ fun j k => pow_four_eq (bK_real lit_neg_one_real hp hx j k)

/-- Column 17. -/
theorem g4K_col17 (n : Fin 320) {p : Fin 3 → EReal} {x : X} (hp : ∀ d, IsReal (p d)) (hx : ∀ idx, IsReal (x idx)) :
    (Ideal.ofBits .f32 0x3D800000#32) * (∑ j : Fin 320, ∑ k : Fin 320, t5K (Ideal.ofBits .f32 0xBF000000#32) (angK4 (Ideal.ofBits .f32 0xBF800000#32) p x j k) n p x j k * wplane (Ideal.ofBits .f32 0xBF000000#32) x j k)
      = g4 (Ideal.ofBits .f32 0x3D800000#32) (Ideal.ofBits .f32 0xBF000000#32) (Ideal.ofBits .f32 0xBF800000#32) (Ideal.ofBits .f32 0x40800000#32) n p x :=
  g4K_eq _ lit_neg_half_real _ _ n hp hx _ fun j k => pow_four_eq (bK_real lit_neg_one_real hp hx j k)

end Cert.Spec
-- ==== Proof.TileValTriple.lean ====
/-
  The tile's three-atom quantities in the specification's vocabulary. For tile row r, whose atom is n and whose
  coordinate row is p = rowT xt r, and neighbours j, k: the angle cosine, the sum of the two squared distances
  and its two exponentials, the pair cutoff with the off-diagonal indicator, the base of the angular factor, and
  the four angular summands as the specification's multiplied-out forms.
-/
import proofs.«101160_j40054865002568_2_alg».proof.Proof.TileValCut
import proofs.«101160_j40054865002568_2_alg».proof.Proof.TileValSums
import proofs.«101160_j40054865002568_2_alg».proof.Proof.SpecLaw

noncomputable section

open scoped BigOperators

namespace Cert.KernelIdeal.TileVal

open Idealize.ShloMosaic Idealize.ShloMosaic.ValueIdx Cert.KernelIdeal Cert.KernelIdeal.Gen

variable (i : grid0.Coords) (xt : Vec Ideal S8x3 .f32) (xf : Vec Ideal S320x3 .f32) (r : Fin 8) (j k : Fin 320)

theorem cos_spec :
    k0_pay21 (F := Ideal) (k0_pay2 xt xf) (k0_pay4 xt xf) (ix3 r j k) = Cert.Spec.cosT (rowT xt r) xf j k :=
  (pay21_apply _ _ r j k).trans
    (congr3 cosForm
      (Finset.sum_congr rfl fun d _ => congrArg₂ (fun a b : EReal => a * b) (pay2_apply xt xf r j d) (pay2_apply xt xf r k d))
      (pay4_apply xt xf r j) (pay4_apply xt xf r k))

theorem pair_spec :
    k0_pay22 (F := Ideal) (k0_pay3 xt xf) (ix3 r j k) = Cert.Spec.r2pair (rowT xt r) xf j k :=
  (pay22_apply _ r j k).trans (congrArg₂ (fun a b : EReal => a + b) (pay3_apply xt xf r j) (pay3_apply xt xf r k))

theorem e1_spec :
    k0_pay24 (F := Ideal) (k0_pay3 xt xf) (ix3 r j k) = Ideal.exp (Ideal.ofBits .f32 0xBDCCCCCD#32 * Cert.Spec.r2pair (rowT xt r) xf j k) :=
  (pay24_apply _ r j k).trans
    (congrArg (fun a : EReal => Ideal.exp (Ideal.ofBits .f32 0xBDCCCCCD#32 * a))
      (congrArg₂ (fun a b : EReal => a + b) (pay3_apply xt xf r j) (pay3_apply xt xf r k)))

theorem e2_spec :
    k0_pay33 (F := Ideal) (k0_pay22 (k0_pay3 xt xf)) (ix3 r j k) = Ideal.exp (Ideal.ofBits .f32 0xBF000000#32 * Cert.Spec.r2pair (rowT xt r) xf j k) :=
  (pay33_apply _ _).trans (congrArg (fun a : EReal => Ideal.exp (Ideal.ofBits .f32 0xBF000000#32 * a)) (pair_spec xt xf r j k))

theorem fc2_spec (n : Fin 320) (hn : n.val = 8 * (i 0).val + r.val) :
    k0_pay23 (F := Ideal) (k0_pay5 i xt xf) (ix3 r j k) = Cert.Spec.fc2K n (rowT xt r) xf j k :=
  (pay23_apply _ r j k).trans
    (congr3 (fun a b c : EReal => (a * b) * c) (pay5_apply i xt xf r j n hn) (pay5_apply i xt xf r k n hn) rfl)

theorem b1_spec :
    k0_pay26 (F := Ideal) (k0_pay2 xt xf) (k0_pay4 xt xf) (ix3 r j k) = Cert.Spec.bK (Ideal.ofBits .f32 0x3F800000#32) (rowT xt r) xf j k :=
  (pay26_apply _ _ _).trans (congrArg (fun a : EReal => Ideal.ofBits .f32 0x3F800000#32 + Ideal.ofBits .f32 0x3F800000#32 * a) (cos_spec xt xf r j k))

/-! ## The four summands -/

theorem summand1_spec (n : Fin 320) (hn : n.val = 8 * (i 0).val + r.val) :
    k0_pay27 (F := Ideal) (k0_pay23 (k0_pay5 i xt xf)) (k0_pay24 (k0_pay3 xt xf)) (k0_pay26 (k0_pay2 xt xf) (k0_pay4 xt xf))
        (Scalar.ofBits .f32 0x3F800000#32) (ix3 r j k)
      = Cert.Spec.t5K (Ideal.ofBits .f32 0xBDCCCCCD#32) (Cert.Spec.angK1 (Ideal.ofBits .f32 0x3F800000#32) (rowT xt r) xf j k) n (rowT xt r) xf j k :=
  (pay27_apply _ _ _ _ _).trans
    (congr3 (fun b e f : EReal => ((Ideal.ofBits .f32 0x3F800000#32 * b) * e) * f) (b1_spec xt xf r j k) (e1_spec xt xf r j k) (fc2_spec i xt xf r j k n hn))

theorem summand2_spec (n : Fin 320) (hn : n.val = 8 * (i 0).val + r.val) :
    k0_pay30 (F := Ideal) (k0_pay21 (k0_pay2 xt xf) (k0_pay4 xt xf)) (k0_pay23 (k0_pay5 i xt xf)) (k0_pay24 (k0_pay3 xt xf)) (ix3 r j k)
      = Cert.Spec.t5K (Ideal.ofBits .f32 0xBDCCCCCD#32) (Cert.Spec.angK2 (Ideal.ofBits .f32 0xBF800000#32) (rowT xt r) xf j k) n (rowT xt r) xf j k :=
  (pay30_apply _ _ _ _).trans
    (congr3 (fun c e f : EReal => ((Ideal.ofBits .f32 0x3F800000#32 * ((Ideal.ofBits .f32 0x3F800000#32 + Ideal.ofBits .f32 0xBF800000#32 * c) * (Ideal.ofBits .f32 0x3F800000#32 + Ideal.ofBits .f32 0xBF800000#32 * c))) * e) * f)
      (cos_spec xt xf r j k) (e1_spec xt xf r j k) (fc2_spec i xt xf r j k n hn))

theorem summand3_spec (n : Fin 320) (hn : n.val = 8 * (i 0).val + r.val) :
    k0_pay35 (F := Ideal) (k0_pay21 (k0_pay2 xt xf) (k0_pay4 xt xf)) (k0_pay23 (k0_pay5 i xt xf)) (k0_pay33 (k0_pay22 (k0_pay3 xt xf))) (ix3 r j k)
      = Cert.Spec.t5K (Ideal.ofBits .f32 0xBF000000#32) (Cert.Spec.angK4 (Ideal.ofBits .f32 0x3F800000#32) (rowT xt r) xf j k) n (rowT xt r) xf j k :=
  (pay35_apply _ _ _ _).trans
    (congr3 (fun c e f : EReal => ((Ideal.ofBits .f32 0x3F800000#32 * (((Ideal.ofBits .f32 0x3F800000#32 + Ideal.ofBits .f32 0x3F800000#32 * c) * (Ideal.ofBits .f32 0x3F800000#32 + Ideal.ofBits .f32 0x3F800000#32 * c)) * ((Ideal.ofBits .f32 0x3F800000#32 + Ideal.ofBits .f32 0x3F800000#32 * c) * (Ideal.ofBits .f32 0x3F800000#32 + Ideal.ofBits .f32 0x3F800000#32 * c)))) * e) * f)
      (cos_spec xt xf r j k) (e2_spec xt xf r j k) (fc2_spec i xt xf r j k n hn))

theorem summand4_spec (n : Fin 320) (hn : n.val = 8 * (i 0).val + r.val) :
    k0_pay38 (F := Ideal) (k0_pay21 (k0_pay2 xt xf) (k0_pay4 xt xf)) (k0_pay23 (k0_pay5 i xt xf)) (k0_pay33 (k0_pay22 (k0_pay3 xt xf))) (ix3 r j k)
      = Cert.Spec.t5K (Ideal.ofBits .f32 0xBF000000#32) (Cert.Spec.angK4 (Ideal.ofBits .f32 0xBF800000#32) (rowT xt r) xf j k) n (rowT xt r) xf j k :=
  (pay38_apply _ _ _ _).trans
    (congr3 (fun c e f : EReal => ((Ideal.ofBits .f32 0x3F800000#32 * (((Ideal.ofBits .f32 0x3F800000#32 + Ideal.ofBits .f32 0xBF800000#32 * c) * (Ideal.ofBits .f32 0x3F800000#32 + Ideal.ofBits .f32 0xBF800000#32 * c)) * ((Ideal.ofBits .f32 0x3F800000#32 + Ideal.ofBits .f32 0xBF800000#32 * c) * (Ideal.ofBits .f32 0x3F800000#32 + Ideal.ofBits .f32 0xBF800000#32 * c)))) * e) * f)
      (cos_spec xt xf r j k) (e2_spec xt xf r j k) (fc2_spec i xt xf r j k n hn))

end Cert.KernelIdeal.TileVal

end
-- ==== Proof.TileValAngularSpec.lean ====
/-
  The last eight feature columns of the tile are the specification's angular features. The tile sums, over the
  first neighbour, the sums over the second neighbour of the multiplied-out summands (with the loaded pair weight
  for the four features over the whole triangle), and scales; the specification's law module says each such
  multiplied-out, factorised feature is the specification's, the coordinates being finite.
-/
import proofs.«101160_j40054865002568_2_alg».proof.Proof.KernelIdealVal
import proofs.«101160_j40054865002568_2_alg».proof.Proof.TileValCols
import proofs.«101160_j40054865002568_2_alg».proof.Proof.TileValTriple

noncomputable section

open scoped BigOperators

namespace Cert.KernelIdeal.TileVal

open Idealize.ShloMosaic Idealize.ShloMosaic.ValueIdx Cert.KernelIdeal Cert.KernelIdeal.Gen Cert.KernelIdeal.Body

variable (i : grid0.Coords) (z : Vec Ideal S8x1 .f32) (xt : Vec Ideal S8x3 .f32) (xf : Vec Ideal S320x3 .f32)
  (wa wb : Vec Ideal S1x320x320 .f32) (r : Fin 8) (n : Fin 320) (hn : n.val = 8 * (i 0).val + r.val)
  (hp : ∀ d, Cert.Spec.IsReal (rowT xt r d)) (hx : ∀ idx, Cert.Spec.IsReal (xf idx))
  (hwa : ∀ j k : Fin 320, wa (ix3 (0 : Fin 1) j k) = Cert.Spec.wplane (Ideal.ofBits .f32 0xBDCCCCCD#32) xf j k)
  (hwb : ∀ j k : Fin 320, wb (ix3 (0 : Fin 1) j k) = Cert.Spec.wplane (Ideal.ofBits .f32 0xBF000000#32) xf j k)

/-- Equal summands give equal scaled pair sums. -/
theorem scaled_pairSum_congr (sc : EReal) {A B : Fin 320 → Fin 320 → EReal} (h : ∀ j k, A j k = B j k) :
    sc * ∑ j : Fin 320, ∑ k : Fin 320, A j k = sc * ∑ j : Fin 320, ∑ k : Fin 320, B j k :=
  congrArg (fun a : EReal => sc * a) (Finset.sum_congr rfl fun j _ => Finset.sum_congr rfl fun k _ => h j k)

include hn hp hx in
theorem tile_col18 (h : 18 < 22) :
    tileVal (F := Ideal) i z xt xf wa wb (ix2 r (⟨18, h⟩ : Fin 22))
      = Cert.Spec.g5 (Ideal.ofBits .f32 0x3F000000#32) (Ideal.ofBits .f32 0xBDCCCCCD#32) (Ideal.ofBits .f32 0x3F800000#32) (Ideal.ofBits .f32 0x3F800000#32) n (rowT xt r) xf := by
  unfold tileVal
  refine (pay1_col18 _ _ _ _ _ _ _ _ _ _ _ _ _ _ _ _ _ _ _ _ _ _ r h).trans ((pay28_apply _ _ _ _ r 0).trans ?_)
  exact (scaled_pairSum_congr _ fun j k => summand1_spec i xt xf r j k n hn).trans (Cert.Spec.g5K_col18 n hp hx)

include hn hp hx in
theorem tile_col19 (h : 19 < 22) :
    tileVal (F := Ideal) i z xt xf wa wb (ix2 r (⟨19, h⟩ : Fin 22))
      = Cert.Spec.g5 (Ideal.ofBits .f32 0x3E800000#32) (Ideal.ofBits .f32 0xBDCCCCCD#32) (Ideal.ofBits .f32 0xBF800000#32) (Ideal.ofBits .f32 0x40000000#32) n (rowT xt r) xf := by
  unfold tileVal
  refine (pay1_col19 _ _ _ _ _ _ _ _ _ _ _ _ _ _ _ _ _ _ _ _ _ _ r h).trans ((pay31_apply _ _ _ r 0).trans ?_)
  exact (scaled_pairSum_congr _ fun j k => summand2_spec i xt xf r j k n hn).trans (Cert.Spec.g5K_col19 n hp hx)

include hn hp hx in
theorem tile_col20 (h : 20 < 22) :
    tileVal (F := Ideal) i z xt xf wa wb (ix2 r (⟨20, h⟩ : Fin 22))
      = Cert.Spec.g5 (Ideal.ofBits .f32 0x3D800000#32) (Ideal.ofBits .f32 0xBF000000#32) (Ideal.ofBits .f32 0x3F800000#32) (Ideal.ofBits .f32 0x40800000#32) n (rowT xt r) xf := by
  unfold tileVal
  refine (pay1_col20 _ _ _ _ _ _ _ _ _ _ _ _ _ _ _ _ _ _ _ _ _ _ r h).trans ((pay36_apply _ _ _ r 0).trans ?_)
  exact (scaled_pairSum_congr _ fun j k => summand3_spec i xt xf r j k n hn).trans (Cert.Spec.g5K_col20 n hp hx)

include hn hp hx in
theorem tile_col21 (h : 21 < 22) :
    tileVal (F := Ideal) i z xt xf wa wb (ix2 r (⟨21, h⟩ : Fin 22))
      = Cert.Spec.g5 (Ideal.ofBits .f32 0x3D800000#32) (Ideal.ofBits .f32 0xBF000000#32) (Ideal.ofBits .f32 0xBF800000#32) (Ideal.ofBits .f32 0x40800000#32) n (rowT xt r) xf := by
  unfold tileVal
  refine (pay1_col21 _ _ _ _ _ _ _ _ _ _ _ _ _ _ _ _ _ _ _ _ _ _ r h).trans ((pay39_apply _ _ _ r 0).trans ?_)
  exact (scaled_pairSum_congr _ fun j k => summand4_spec i xt xf r j k n hn).trans (Cert.Spec.g5K_col21 n hp hx)

include hn hp hx hwa in
theorem tile_col14 (h : 14 < 22) :
    tileVal (F := Ideal) i z xt xf wa wb (ix2 r (⟨14, h⟩ : Fin 22))
      = Cert.Spec.g4 (Ideal.ofBits .f32 0x3F000000#32) (Ideal.ofBits .f32 0xBDCCCCCD#32) (Ideal.ofBits .f32 0x3F800000#32) (Ideal.ofBits .f32 0x3F800000#32) n (rowT xt r) xf := by
  unfold tileVal
  refine (pay1_col14 _ _ _ _ _ _ _ _ _ _ _ _ _ _ _ _ _ _ _ _ _ _ r h).trans ((pay29_apply _ _ _ _ _ r 0).trans ?_)
  exact (scaled_pairSum_congr _ fun j k => congrArg₂ (fun a b : EReal => a * b)
    (summand1_spec i xt xf r j k n hn) ((pay25_apply wa 0 j k).trans (hwa j k))).trans (Cert.Spec.g4K_col14 n hp hx)

include hn hp hx hwa in
theorem tile_col15 (h : 15 < 22) :
    tileVal (F := Ideal) i z xt xf wa wb (ix2 r (⟨15, h⟩ : Fin 22))
      = Cert.Spec.g4 (Ideal.ofBits .f32 0x3E800000#32) (Ideal.ofBits .f32 0xBDCCCCCD#32) (Ideal.ofBits .f32 0xBF800000#32) (Ideal.ofBits .f32 0x40000000#32) n (rowT xt r) xf := by
  unfold tileVal
  refine (pay1_col15 _ _ _ _ _ _ _ _ _ _ _ _ _ _ _ _ _ _ _ _ _ _ r h).trans ((pay32_apply _ _ _ _ r 0).trans ?_)
  exact (scaled_pairSum_congr _ fun j k => congrArg₂ (fun a b : EReal => a * b)
    (summand2_spec i xt xf r j k n hn) ((pay25_apply wa 0 j k).trans (hwa j k))).trans (Cert.Spec.g4K_col15 n hp hx)

include hn hp hx hwb in
theorem tile_col16 (h : 16 < 22) :
    tileVal (F := Ideal) i z xt xf wa wb (ix2 r (⟨16, h⟩ : Fin 22))
      = Cert.Spec.g4 (Ideal.ofBits .f32 0x3D800000#32) (Ideal.ofBits .f32 0xBF000000#32) (Ideal.ofBits .f32 0x3F800000#32) (Ideal.ofBits .f32 0x40800000#32) n (rowT xt r) xf := by
  unfold tileVal
  refine (pay1_col16 _ _ _ _ _ _ _ _ _ _ _ _ _ _ _ _ _ _ _ _ _ _ r h).trans ((pay37_apply _ _ _ _ r 0).trans ?_)
  exact (scaled_pairSum_congr _ fun j k => congrArg₂ (fun a b : EReal => a * b)
    (summand3_spec i xt xf r j k n hn) (hwb j k)).trans (Cert.Spec.g4K_col16 n hp hx)

include hn hp hx hwb in
theorem tile_col17 (h : 17 < 22) :
    tileVal (F := Ideal) i z xt xf wa wb (ix2 r (⟨17, h⟩ : Fin 22))
      = Cert.Spec.g4 (Ideal.ofBits .f32 0x3D800000#32) (Ideal.ofBits .f32 0xBF000000#32) (Ideal.ofBits .f32 0xBF800000#32) (Ideal.ofBits .f32 0x40800000#32) n (rowT xt r) xf := by
  unfold tileVal
  refine (pay1_col17 _ _ _ _ _ _ _ _ _ _ _ _ _ _ _ _ _ _ _ _ _ _ r h).trans ?_
  refine (congrArg (fun a : EReal => Ideal.ofBits .f32 0x3D800000#32 * a) (pay40_apply _ _ _ _ r)).trans ?_
  exact (scaled_pairSum_congr _ fun j k => congrArg₂ (fun a b : EReal => a * b)
    (summand4_spec i xt xf r j k n hn) (hwb j k)).trans (Cert.Spec.g4K_col17 n hp hx)

end Cert.KernelIdeal.TileVal

end
-- ==== Proof.TileValSpec.lean ====
/-
  What one grid step of the kernel stores is the specification's block. For grid step t and tile row r the atom
  is n = 8 t + r; the step loads the atomic numbers and coordinate rows of its 8 atoms, all coordinates, and the
  two pair-weight planes. Under those readings, and the coordinates being finite, entry (r, f) of the stored
  8 × 22 block is feature f of atom n as the specification states it.
-/
import proofs.«101160_j40054865002568_2_alg».proof.Proof.TileValRadialSpec
import proofs.«101160_j40054865002568_2_alg».proof.Proof.TileValAngularSpec

noncomputable section

open scoped BigOperators

namespace Cert.KernelIdeal.TileVal

open Idealize.ShloMosaic Idealize.ShloMosaic.ValueIdx Cert.KernelIdeal Cert.KernelIdeal.Gen Cert.KernelIdeal.Body

/-- Entry (r, f) of the block a grid step stores is feature f of the atom in tile row r, over the loaded vectors. -/
theorem tileVal_feat (i : grid0.Coords) (z : Vec Ideal S8x1 .f32) (xt : Vec Ideal S8x3 .f32) (xf : Vec Ideal S320x3 .f32)
    (wa wb : Vec Ideal S1x320x320 .f32) (r : Fin 8) (n : Fin 320) (hn : n.val = 8 * (i 0).val + r.val)
    (hp : ∀ d, Cert.Spec.IsReal (rowT xt r d)) (hx : ∀ idx, Cert.Spec.IsReal (xf idx))
    (hwa : ∀ j k : Fin 320, wa (ix3 (0 : Fin 1) j k) = Cert.Spec.wplane (Ideal.ofBits .f32 0xBDCCCCCD#32) xf j k)
    (hwb : ∀ j k : Fin 320, wb (ix3 (0 : Fin 1) j k) = Cert.Spec.wplane (Ideal.ofBits .f32 0xBF000000#32) xf j k) (f : Fin 22) :
    tileVal (F := Ideal) i z xt xf wa wb (ix2 r f) = Cert.Spec.feat (z (ix2 r (0 : Fin 1))) n (rowT xt r) xf f := by
  match f with
  | ⟨0, h⟩ => exact tile_col0 i z xt xf wa wb r h
  | ⟨1, h⟩ => exact tile_col1 i z xt xf wa wb r n hn h
  | ⟨2, h⟩ => exact tile_col2 i z xt xf wa wb r n hn h
  | ⟨3, h⟩ => exact tile_col3 i z xt xf wa wb r n hn h
  | ⟨4, h⟩ => exact tile_col4 i z xt xf wa wb r n hn h
  | ⟨5, h⟩ => exact tile_col5 i z xt xf wa wb r n hn h
  | ⟨6, h⟩ => exact tile_col6 i z xt xf wa wb r n hn h
  | ⟨7, h⟩ => exact tile_col7 i z xt xf wa wb r n hn h
  | ⟨8, h⟩ => exact tile_col8 i z xt xf wa wb r n hn h
  | ⟨9, h⟩ => exact tile_col9 i z xt xf wa wb r n hn h
  | ⟨10, h⟩ => exact tile_col10 i z xt xf wa wb r n hn h
  | ⟨11, h⟩ => exact tile_col11 i z xt xf wa wb r n hn h
  | ⟨12, h⟩ => exact tile_col12 i z xt xf wa wb r n hn h
  | ⟨13, h⟩ => exact tile_col13 i z xt xf wa wb r n hn h
  | ⟨14, h⟩ => exact tile_col14 i z xt xf wa wb r n hn hp hx hwa h
  | ⟨15, h⟩ => exact tile_col15 i z xt xf wa wb r n hn hp hx hwa h
  | ⟨16, h⟩ => exact tile_col16 i z xt xf wa wb r n hn hp hx hwb h
  | ⟨17, h⟩ => exact tile_col17 i z xt xf wa wb r n hn hp hx hwb h
  | ⟨18, h⟩ => exact tile_col18 i z xt xf wa wb r n hn hp hx h
  | ⟨19, h⟩ => exact tile_col19 i z xt xf wa wb r n hn hp hx h
  | ⟨20, h⟩ => exact tile_col20 i z xt xf wa wb r n hn hp hx h
  | ⟨21, h⟩ => exact tile_col21 i z xt xf wa wb r n hn hp hx h
  | ⟨k + 22, h⟩ => exact absurd h (by omega)

/-- The grid has 40 steps, and step t has the one coordinate t. -/
theorem coords_val (t : Fin grid0.N) : ((grid0.coords t) 0).val = t.val := by
  have hN : grid0.N = 40 := by decide
  have ht : t.val < 40 := hN ▸ t.isLt
  have hs : grid0.stride 0 = 1 := by decide
  show t.val / grid0.stride 0 % 40 = t.val
  rw [hs, Nat.div_one, Nat.mod_eq_of_lt ht]

/-- THE TILE IS THE SPECIFICATION'S BLOCK: grid step t stores, at (r, f), the specification's entry (n, f) for the atom
    n = 8 t + r, given what the step loaded: its atoms' numbers and coordinate rows out of the arguments, all the
    coordinates, and the two pair-weight planes; the coordinates finite. -/
theorem tileVal_eq_G (t : Fin grid0.N) (r : Fin 8) (f : Fin 22) (a0 : Cert.Spec.Z) (a1 : Cert.Spec.X)
    (hfin : ∀ idx, ∃ v : ℝ, a1 idx = (v : EReal))
    (z : Vec Ideal S8x1 .f32) (xt : Vec Ideal S8x3 .f32) (xf : Vec Ideal S320x3 .f32) (wa wb : Vec Ideal S1x320x320 .f32)
    (n : Fin 320) (hn : n.val = 8 * t.val + r.val)
    (hz : z (ix2 r (0 : Fin 1)) = a0 (ix2 n (0 : Fin 1))) (hxt : ∀ d : Fin 3, xt (ix2 r d) = a1 (ix2 n d)) (hxf : xf = a1)
    (hwa : ∀ j k : Fin 320, wa (ix3 (0 : Fin 1) j k) = Cert.Spec.wplane (Ideal.ofBits .f32 0xBDCCCCCD#32) a1 j k)
    (hwb : ∀ j k : Fin 320, wb (ix3 (0 : Fin 1) j k) = Cert.Spec.wplane (Ideal.ofBits .f32 0xBF000000#32) a1 j k) :
    tileVal (F := Ideal) (grid0.coords t) z xt xf wa wb (ix2 r f) = Cert.Spec.G a0 a1 (ix2 n f) := by
  subst hxf
  have hrow : rowT xt r = Cert.Spec.row xf n := funext hxt
  rw [Cert.Spec.G_ix2, ← hz, ← hrow]
  exact tileVal_feat (grid0.coords t) z xt xf wa wb r n (by rw [coords_val t]; exact hn)
    (fun d => by show Cert.Spec.IsReal (xt (ix2 r d)); rw [hxt d]; exact hfin _) hfin hwa hwb f

/-- The same with the atom written out: n = 8 t + r, below 320 because t is below 40 and r below 8. -/
theorem tileVal_eq_G' (t : Fin grid0.N) (r : Fin 8) (f : Fin 22) (a0 : Cert.Spec.Z) (a1 : Cert.Spec.X)
    (hfin : ∀ idx, ∃ v : ℝ, a1 idx = (v : EReal))
    (z : Vec Ideal S8x1 .f32) (xt : Vec Ideal S8x3 .f32) (xf : Vec Ideal S320x3 .f32) (wa wb : Vec Ideal S1x320x320 .f32)
    (hlt : 8 * t.val + r.val < 320)
    (hz : z (ix2 r (0 : Fin 1)) = a0 (ix2 (⟨8 * t.val + r.val, hlt⟩ : Fin 320) (0 : Fin 1)))
    (hxt : ∀ d : Fin 3, xt (ix2 r d) = a1 (ix2 (⟨8 * t.val + r.val, hlt⟩ : Fin 320) d)) (hxf : xf = a1)
    (hwa : ∀ j k : Fin 320, wa (ix3 (0 : Fin 1) j k) = Cert.Spec.wplane (Ideal.ofBits .f32 0xBDCCCCCD#32) a1 j k)
    (hwb : ∀ j k : Fin 320, wb (ix3 (0 : Fin 1) j k) = Cert.Spec.wplane (Ideal.ofBits .f32 0xBF000000#32) a1 j k) :
    tileVal (F := Ideal) (grid0.coords t) z xt xf wa wb (ix2 r f)
      = Cert.Spec.G a0 a1 (ix2 (⟨8 * t.val + r.val, hlt⟩ : Fin 320) f) :=
  tileVal_eq_G t r f a0 a1 hfin z xt xf wa wb ⟨8 * t.val + r.val, hlt⟩ rfl hz hxt hxf hwa hwb

end Cert.KernelIdeal.TileVal

end
-- ==== Proof.Finite.lean ====
/-
  The precondition read: a float input array "holds finite numbers" means that, read as extended reals,
  every entry is a real number. The printed predicate tests |x| < +∞ entry by entry and takes the
  conjunction of all the tests; on the extended reals |x| = max x (−x), and max x (−x) < +∞ excludes both
  infinities.
-/
import proofs.«101160_j40054865002568_2_alg».proof.Pre_finite_inputs
import proofs.«101160_j40054865002568_2_alg».proof.Proof.Gen.Pre_finite_inputs
import proofs.«101160_j40054865002568_2_alg».proof.Proof.SpecLaw
import Idealize.ShloMosaic.Lib.ReduceAll
import Idealize.ShloMosaic.Lib.ValueIdx
import Idealize.ShloMosaic.Lib.Affine
import Idealize.ShloMosaic.PureOps.Ideal

noncomputable section

namespace Cert.Finite

open Idealize.ShloMosaic Cert.Pre_finite_inputs Cert.Pre_finite_inputs.Gen

instance : Subsingleton S_.Idx := ⟨fun a b => funext fun d => d.elim0⟩

/-- An extended real whose absolute value is below +∞ is a real. -/
theorem real_of_abs_lt_top (x : EReal) (h : Ideal.cmp .olt (max x (-x)) (Ideal.ofBits .f32 0x7F800000#32) = 1#1) :
    Cert.Spec.IsReal x := by
  have htop : Ideal.ofBits .f32 0x7F800000#32 = (⊤ : EReal) := by simp [Ideal.ofBits, Ideal.ieee]
  rw [htop] at h
  induction x using EReal.rec with
  | bot => exact absurd h (by simp [Ideal.cmp])
  | coe r => exact ⟨r, rfl⟩
  | top => exact absurd h (by simp [Ideal.cmp])

/-- Where the printed precondition is all ones, every entry of both input arrays is a real. -/
theorem real_of_pre (a0 : FVec Ideal S320x1 .f32) (a1 : FVec Ideal S320x3 .f32)
    (h : fn (F := Ideal) a0 a1 = fun _ => 1#1) :
    (∀ i, Cert.Spec.IsReal (a0 i)) ∧ (∀ i, Cert.Spec.IsReal (a1 i)) := by
  have h0 := congrFun h ValueIdx.ix0
  dsimp only [fn] at h0
  obtain ⟨hA, hB⟩ := IntOp.andi_eq_one.mp h0
  constructor
  · intro i
    exact real_of_abs_lt_top (a0 i) (Host.reduce_andi_all _ _ _ _ ValueIdx.ix0 hA i)
  · intro i
    exact real_of_abs_lt_top (a1 i) (Host.reduce_andi_all _ _ _ _ ValueIdx.ix0 hB i)

end Cert.Finite

end
-- ==== Proof.KernelIdealValue.lean ====
/-
  The idealized kernel's result array after its run, as one function of the two argument arrays.

  Grid step t writes back the block of rows 8t … 8t+7 of the result. What it writes is the step's 8×22
  features computed from the blocks the step was handed: rows 8t … 8t+7 of the atomic numbers and of the
  coordinates, all the coordinates, and the two pair-weight planes the host computed from the coordinates.
  For finite coordinates those features are the specification's, atom by atom (the tile theorem); the 40
  blocks cover the array; so the array ends as the specification `Spec.G` of the arguments.
-/
import proofs.«101160_j40054865002568_2_alg».proof.Defs
import proofs.«101160_j40054865002568_2_alg».proof.Proof.KernelIdealBlocks
import proofs.«101160_j40054865002568_2_alg».proof.Proof.KernelIdealPlanes
import proofs.«101160_j40054865002568_2_alg».proof.Proof.PlanesAt
import proofs.«101160_j40054865002568_2_alg».proof.Proof.TileValSpec
import proofs.«101160_j40054865002568_2_alg».proof.Proof.Finite

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body Cert.KernelIdeal.Fr

variable (m : (ℓ : Loc nD τ sig) → Buf (Elt Ideal) ℓ) (ρ : Dev nD → PrngReg)

/-- What step `t` writes back is block `t` of the specification of the launch arguments, when the launch
    coordinates are all real. -/
theorem flushed4_eq (c : Dev nD) (hfin : ∀ idx, ∃ v : ℝ, m ((c.tc : Thread nD τ).loc main_arg1) idx = (v : EReal)) (t : Fin cfg0.N) :
    (dats m 0 c).flushed 4 t = ((cfg0.win 4).blk t).view.read (Elt Ideal)
      (Cert.Spec.G (m ((c.tc : Thread nD τ).loc main_arg0)) (m ((c.tc : Thread nD τ).loc main_arg1))) := by
  show (cfg0.win 4).cut (grid0.coords t) ((dats m 0 c).after 4 t) = _
  rw [after0_4]
  unfold out0_4
  rw [View.canon_unit_zero hz2]
  funext y
  obtain ⟨r, f, rfl⟩ : ∃ (r : Fin 8) (f : Fin 22), y = ix2 r f := ⟨y 0, y 1, eq_ix2 y⟩
  have hlt : 8 * t.val + r.val < 320 := by have ht : t.val < 40 := lt_of_lt_of_eq t.isLt N_0; have := r.isLt; omega
  rw [blk4_read t _ r f hlt]
  show tileVal (F := Ideal) (grid0.coords t) (View.ld (iblk m c 0 t) r0_0) (View.ld (iblk m c 1 t) r0_1) (View.ld (iblk m c 2 t) r0_2)
      (View.ld (iblk m c 3 t) r0_3a) (View.ld (iblk m c 3 t) r0_3b) (ix2 r f) = _
  refine Cert.KernelIdeal.TileVal.tileVal_eq_G' t r f _ _ hfin _ _ _ _ _ hlt ?_ ?_ ?_ ?_ ?_
  · rw [ld0_eq, iblk0_at m c t r hlt, V_main_arg0]
  · intro d; rw [ld1_eq, iblk1_at m c t r d hlt, V_main_arg1]
  · rw [ld2_eq, iblk2_eq m c t, V_main_arg1]
  · intro j k; rw [plane0_at m c t j k, Cert.KernelIdeal.Planes.V_planes, Cert.KernelIdeal.Planes.planes_at0]
  · intro j k; rw [plane1_at m c t j k, Cert.KernelIdeal.Planes.V_planes, Cert.KernelIdeal.Planes.planes_at1]

/-- The run, read: every weakly fair execution ends with the result array at the specification of the launch
    arguments and both arguments as launched — under the precondition that the inputs are finite. -/
theorem run (hpre : Cert.Pre_KernelIdeal m) :
    θ_run defs (onTc (τ := τ) (main (F := Ideal))) ⟨m, fun _ => 0, ρ⟩ fun r => ∀ c : Dev nD,
      r.2.mem ((c.tc : Thread nD τ).loc main_v44) = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).1 4).trans (final4 m c _ (flushed4_eq m c (Cert.Finite.real_of_pre _ _ (hpre c)).2)),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Val

end
-- ==== Proof.RefRunH.lean ====
/-
  The reference program's run, read back. The program is a straight line of 389 host operations; every weakly
  fair execution performs them in order, so a buffer ends at the fold of the operations' results over the launch
  contents. That fold is computed here forty operations at a time: after each stretch, every buffer that a later
  operation still reads holds the value of its stage as a function of the two argument arrays (the stages are
  the definitions `val_…` of the read-at-an-index module, one per operation). A buffer written inside the
  stretch is computed from the buffers the stretch reads, which hold their stages by the previous step; a
  buffer written earlier and not touched by the stretch keeps what it held. After the last stretch the result
  buffer holds the last stage and the two argument buffers what they held at launch.
-/
import proofs.«101160_j40054865002568_2_alg».proof.Proof.Gen.ReferenceIdeal
import proofs.«101160_j40054865002568_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The fold over two stretches is the fold over the second from the fold over the first. -/
theorem after_app : ∀ (l₁ l₂ : List (HloOp τ sig (Elt F))) (V : Valuation τ sig (Elt F)), after (l₁ ++ l₂) V = after l₂ (after l₁ V)
  | [], _, _ => rfl
  | op :: l, l₂, V => by rw [List.cons_append, after_cons, after_cons, after_app l l₂]

set_option maxHeartbeats 4000000 in
/-- Operations 1–40 of the program, in order. -/
abbrev chunk1 : List (HloOp τ sig (Elt F)) :=
  [ unary main_arg1 main_v0 (broadcastInDim S320x1x3 ![0, 2] bcast_S320x3_S320x1x3_0_2 : (⟨S320x3, .f32⟩ : BufTy).Contents (Elt F) → (⟨S320x1x3, .f32⟩ : BufTy).Contents (Elt F)),
    unary main_arg1 main_v1 (broadcastInDim S1x320x3 ![1, 2] bcast_S320x3_S1x320x3_1_2 : (⟨S320x3, .f32⟩ : BufTy).Contents (Elt F) → (⟨S1x320x3, .f32⟩ : BufTy).Contents (Elt F)),
    unary main_v0 main_v2 (broadcastInDim S320x320x3 ![0, 1, 2] bcast_S320x1x3_S320x320x3_0_1_2 : (⟨S320x1x3, .f32⟩ : BufTy).Contents (Elt F) → (⟨S320x320x3, .f32⟩ : BufTy).Contents (Elt F)),
    unary main_v1 main_v3 (broadcastInDim S320x320x3 ![0, 1, 2] bcast_S1x320x3_S320x320x3_0_1_2 : (⟨S1x320x3, .f32⟩ : BufTy).Contents (Elt F) → (⟨S320x320x3, .f32⟩ : BufTy).Contents (Elt F)),
    binary main_v2 main_v3 main_v4 (subf : (⟨S320x320x3, .f32⟩ : BufTy).Contents (Elt F) → (⟨S320x320x3, .f32⟩ : BufTy).Contents (Elt F) → (⟨S320x320x3, .f32⟩ : BufTy).Contents (Elt F)),
    binary main_v4 main_v4 main_v5 (mulf : (⟨S320x320x3, .f32⟩ : BufTy).Contents (Elt F) → (⟨S320x320x3, .f32⟩ : BufTy).Contents (Elt F) → (⟨S320x320x3, .f32⟩ : BufTy).Contents (Elt F)),
    nullary main_cst (constant S_ .f32 0x00000000#32),
    binary main_v5 main_cst main_v6 ((fun x v => Host.reduceAdd x v reducesTo_S320x320x3_S320x320_d2 h_S_) : (⟨S320x320x3, .f32⟩ : BufTy).Contents (Elt F) → (⟨S_, .f32⟩ : BufTy).Contents (Elt F) → (⟨S320x320, .f32⟩ : BufTy).Contents (Elt F)),
    nullary main_cst_0 (constant S_ .f32 0x00000000#32),
    unary main_cst_0 main_v7 (broadcastInDim S320x320 ![] bcast_S_S320x320 : (⟨S_, .f32⟩ : BufTy).Contents (Elt F) → (⟨S320x320, .f32⟩ : BufTy).Contents (Elt F)),
    binary main_v6 main_v7 main_v8 (cmpf .ogt : (⟨S320x320, .f32⟩ : BufTy).Contents (Elt F) → (⟨S320x320, .f32⟩ : BufTy).Contents (Elt F) → (⟨S320x320, .i1⟩ : BufTy).Contents (Elt F)),
    nullary main_cst_1 (constant S_ .f32 0x3F800000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S320x320, .f32⟩) main_call0_v1) (broadcastInDim S320x320 ![] bcast_S_S320x320),
    TRef.ternary (TRef.of (T := ⟨S320x320, .i1⟩) main_v8) (TRef.of (T := ⟨S320x320, .f32⟩) main_v6) (TRef.of (T := ⟨S320x320, .f32⟩) main_call0_v1) (TRef.of (T := ⟨S320x320, .f32⟩) main_v9) select,
    unary main_v9 main_v10 (Host.sqrt : (⟨S320x320, .f32⟩ : BufTy).Contents (Elt F) → (⟨S320x320, .f32⟩ : BufTy).Contents (Elt F)),
    nullary main_cst_2 (constant S_ .f32 0x00000000#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S320x320, .f32⟩) main_call1_v1) (broadcastInDim S320x320 ![] bcast_S_S320x320),
    TRef.ternary (TRef.of (T := ⟨S320x320, .i1⟩) main_v8) (TRef.of (T := ⟨S320x320, .f32⟩) main_v10) (TRef.of (T := ⟨S320x320, .f32⟩) main_call1_v1) (TRef.of (T := ⟨S320x320, .f32⟩) main_v11) select,
    nullary main_v12 (iotaInDim S320x320 32 0),
    nullary main_v13 (iotaInDim S320x320 32 1),
    nullary main_c (constantI S_ 32 0#32),
    unary main_c main_v14 (broadcastInDim S320x320 ![] bcast_S_S320x320 : (⟨S_, .i32⟩ : BufTy).Contents (Elt F) → (⟨S320x320, .i32⟩ : BufTy).Contents (Elt F)),
    binary main_v12 main_v14 main_v15 (addi : (⟨S320x320, .i32⟩ : BufTy).Contents (Elt F) → (⟨S320x320, .i32⟩ : BufTy).Contents (Elt F) → (⟨S320x320, .i32⟩ : BufTy).Contents (Elt F)),
    binary main_v15 main_v13 main_v16 (cmpi .eq : (⟨S320x320, .i32⟩ : BufTy).Contents (Elt F) → (⟨S320x320, .i32⟩ : BufTy).Contents (Elt F) → (⟨S320x320, .i1⟩ : BufTy).Contents (Elt F)),
    unary main_v16 main_v17 (uitofp .f32 : (⟨S320x320, .i1⟩ : BufTy).Contents (Elt F) → (⟨S320x320, .f32⟩ : BufTy).Contents (Elt F)),
    nullary main_cst_3 (constant S_ .f32 0x40C00000#32),
    unary main_cst_3 main_v18 (broadcastInDim S320x320 ![] bcast_S_S320x320 : (⟨S_, .f32⟩ : BufTy).Contents (Elt F) → (⟨S320x320, .f32⟩ : BufTy).Contents (Elt F)),
    binary main_v11 main_v18 main_v19 (cmpf .olt : (⟨S320x320, .f32⟩ : BufTy).Contents (Elt F) → (⟨S320x320, .f32⟩ : BufTy).Contents (Elt F) → (⟨S320x320, .i1⟩ : BufTy).Contents (Elt F)),
    nullary main_cst_4 (constant S_ .f32 0x40490FDB#32),
    unary main_cst_4 main_v20 (broadcastInDim S320x320 ![] bcast_S_S320x320 : (⟨S_, .f32⟩ : BufTy).Contents (Elt F) → (⟨S320x320, .f32⟩ : BufTy).Contents (Elt F)),
    binary main_v20 main_v11 main_v21 (mulf : (⟨S320x320, .f32⟩ : BufTy).Contents (Elt F) → (⟨S320x320, .f32⟩ : BufTy).Contents (Elt F) → (⟨S320x320, .f32⟩ : BufTy).Contents (Elt F)),
    nullary main_cst_5 (constant S_ .f32 0x40C00000#32),
    unary main_cst_5 main_v22 (broadcastInDim S320x320 ![] bcast_S_S320x320 : (⟨S_, .f32⟩ : BufTy).Contents (Elt F) → (⟨S320x320, .f32⟩ : BufTy).Contents (Elt F)),
    binary main_v21 main_v22 main_v23 (Host.divf : (⟨S320x320, .f32⟩ : BufTy).Contents (Elt F) → (⟨S320x320, .f32⟩ : BufTy).Contents (Elt F) → (⟨S320x320, .f32⟩ : BufTy).Contents (Elt F)),
    unary main_v23 main_v24 (Host.cos : (⟨S320x320, .f32⟩ : BufTy).Contents (Elt F) → (⟨S320x320, .f32⟩ : BufTy).Contents (Elt F)),
    nullary main_cst_6 (constant S_ .f32 0x3F800000#32),
    unary main_cst_6 main_v25 (broadcastInDim S320x320 ![] bcast_S_S320x320 : (⟨S_, .f32⟩ : BufTy).Contents (Elt F) → (⟨S320x320, .f32⟩ : BufTy).Contents (Elt F)),
    binary main_v24 main_v25 main_v26 (addf : (⟨S320x320, .f32⟩ : BufTy).Contents (Elt F) → (⟨S320x320, .f32⟩ : BufTy).Contents (Elt F) → (⟨S320x320, .f32⟩ : BufTy).Contents (Elt F)) ]

/-- The program's first 40 operations. -/
abbrev pre1 : List (HloOp τ sig (Elt F)) := chunk1

set_option maxHeartbeats 4000000 in
/-- Operations 41–80 of the program, in order. -/
abbrev chunk2 : List (HloOp τ sig (Elt F)) :=
  [ nullary main_cst_7 (constant S_ .f32 0x3F000000#32),
    unary main_cst_7 main_v27 (broadcastInDim S320x320 ![] bcast_S_S320x320 : (⟨S_, .f32⟩ : BufTy).Contents (Elt F) → (⟨S320x320, .f32⟩ : BufTy).Contents (Elt F)),
    binary main_v27 main_v26 main_v28 (mulf : (⟨S320x320, .f32⟩ : BufTy).Contents (Elt F) → (⟨S320x320, .f32⟩ : BufTy).Contents (Elt F) → (⟨S320x320, .f32⟩ : BufTy).Contents (Elt F)),
    nullary main_cst_8 (constant S_ .f32 0x00000000#32),
    TRef.unary (TRef.of (T := ⟨S_, .f32⟩) main_cst_8) (TRef.of (T := ⟨S_, .f32⟩) main_call2_v0) id,
    TRef.unary (TRef.of (T := ⟨S_, .f32⟩) main_call2_v0) (TRef.of (T := ⟨S320x320, .f32⟩) main_call2_v1) (broadcastInDim S320x320 ![] bcast_S_S320x320),
    TRef.ternary (TRef.of (T := ⟨S320x320, .i1⟩) main_v19) (TRef.of (T := ⟨S320x320, .f32⟩) main_v28) (TRef.of (T := ⟨S320x320, .f32⟩) main_call2_v1) (TRef.of (T := ⟨S320x320, .f32⟩) main_v29) select,
    nullary main_cst_9 (constant S_ .f32 0x3F800000#32),
    unary main_cst_9 main_v30 (broadcastInDim S320x320 ![] bcast_S_S320x320 : (⟨S_, .f32⟩ : BufTy).Contents (Elt F) → (⟨S320x320, .f32⟩ : BufTy).Contents (Elt F)),
    binary main_v30 main_v17 main_v31 (subf : (⟨S320x320, .f32⟩ : BufTy).Contents (Elt F) → (⟨S320x320, .f32⟩ : BufTy).Contents (Elt F) → (⟨S320x320, .f32⟩ : BufTy).Contents (Elt F)),
    binary main_v29 main_v31 main_v32 (mulf : (⟨S320x320, .f32⟩ : BufTy).Contents (Elt F) → (⟨S320x320, .f32⟩ : BufTy).Contents (Elt F) → (⟨S320x320, .f32⟩ : BufTy).Contents (Elt F)),
    nullary main_cst_10 (constant S_ .f32 0x00000000#32),
    binary main_v32 main_cst_10 main_v33 ((fun x v => Host.reduceAdd x v reducesTo_S320x320_S320_d1 h_S_) : (⟨S320x320, .f32⟩ : BufTy).Contents (Elt F) → (⟨S_, .f32⟩ : BufTy).Contents (Elt F) → (⟨S320, .f32⟩ : BufTy).Contents (Elt F)),
    unary main_v33 main_v34 (broadcastInDim S320x1 ![0] bcast_S320_S320x1_0 : (⟨S320, .f32⟩ : BufTy).Contents (Elt F) → (⟨S320x1, .f32⟩ : BufTy).Contents (Elt F)),
    nullary main_cst_11 (constant S_ .f32 0x00000000#32),
    unary main_cst_11 main_v35 (broadcastInDim S320x320 ![] bcast_S_S320x320 : (⟨S_, .f32⟩ : BufTy).Contents (Elt F) → (⟨S320x320, .f32⟩ : BufTy).Contents (Elt F)),
    binary main_v11 main_v35 main_v36 (subf : (⟨S320x320, .f32⟩ : BufTy).Contents (Elt F) → (⟨S320x320, .f32⟩ : BufTy).Contents (Elt F) → (⟨S320x320, .f32⟩ : BufTy).Contents (Elt F)),
    binary main_v36 main_v36 main_v37 (mulf : (⟨S320x320, .f32⟩ : BufTy).Contents (Elt F) → (⟨S320x320, .f32⟩ : BufTy).Contents (Elt F) → (⟨S320x320, .f32⟩ : BufTy).Contents (Elt F)),
    nullary main_cst_12 (constant S_ .f32 0xBF000000#32),
    unary main_cst_12 main_v38 (broadcastInDim S320x320 ![] bcast_S_S320x320 : (⟨S_, .f32⟩ : BufTy).Contents (Elt F) → (⟨S320x320, .f32⟩ : BufTy).Contents (Elt F)),
    binary main_v38 main_v37 main_v39 (mulf : (⟨S320x320, .f32⟩ : BufTy).Contents (Elt F) → (⟨S320x320, .f32⟩ : BufTy).Contents (Elt F) → (⟨S320x320, .f32⟩ : BufTy).Contents (Elt F)),
    unary main_v39 main_v40 (Host.exp : (⟨S320x320, .f32⟩ : BufTy).Contents (Elt F) → (⟨S320x320, .f32⟩ : BufTy).Contents (Elt F)),
    binary main_v40 main_v32 main_v41 (mulf : (⟨S320x320, .f32⟩ : BufTy).Contents (Elt F) → (⟨S320x320, .f32⟩ : BufTy).Contents (Elt F) → (⟨S320x320, .f32⟩ : BufTy).Contents (Elt F)),
    nullary main_cst_13 (constant S_ .f32 0x00000000#32),
    binary main_v41 main_cst_13 main_v42 ((fun x v => Host.reduceAdd x v reducesTo_S320x320_S320_d1 h_S_) : (⟨S320x320, .f32⟩ : BufTy).Contents (Elt F) → (⟨S_, .f32⟩ : BufTy).Contents (Elt F) → (⟨S320, .f32⟩ : BufTy).Contents (Elt F)),
    unary main_v42 main_v43 (broadcastInDim S320x1 ![0] bcast_S320_S320x1_0 : (⟨S320, .f32⟩ : BufTy).Contents (Elt F) → (⟨S320x1, .f32⟩ : BufTy).Contents (Elt F)),
    nullary main_cst_14 (constant S_ .f32 0x00000000#32),
    unary main_cst_14 main_v44 (broadcastInDim S320x320 ![] bcast_S_S320x320 : (⟨S_, .f32⟩ : BufTy).Contents (Elt F) → (⟨S320x320, .f32⟩ : BufTy).Contents (Elt F)),
    binary main_v11 main_v44 main_v45 (subf : (⟨S320x320, .f32⟩ : BufTy).Contents (Elt F) → (⟨S320x320, .f32⟩ : BufTy).Contents (Elt F) → (⟨S320x320, .f32⟩ : BufTy).Contents (Elt F)),
    binary main_v45 main_v45 main_v46 (mulf : (⟨S320x320, .f32⟩ : BufTy).Contents (Elt F) → (⟨S320x320, .f32⟩ : BufTy).Contents (Elt F) → (⟨S320x320, .f32⟩ : BufTy).Contents (Elt F)),
    nullary main_cst_15 (constant S_ .f32 0xBF800000#32),
    unary main_cst_15 main_v47 (broadcastInDim S320x320 ![] bcast_S_S320x320 : (⟨S_, .f32⟩ : BufTy).Contents (Elt F) → (⟨S320x320, .f32⟩ : BufTy).Contents (Elt F)),
    binary main_v47 main_v46 main_v48 (mulf : (⟨S320x320, .f32⟩ : BufTy).Contents (Elt F) → (⟨S320x320, .f32⟩ : BufTy).Contents (Elt F) → (⟨S320x320, .f32⟩ : BufTy).Contents (Elt F)),
    unary main_v48 main_v49 (Host.exp : (⟨S320x320, .f32⟩ : BufTy).Contents (Elt F) → (⟨S320x320, .f32⟩ : BufTy).Contents (Elt F)),
    binary main_v49 main_v32 main_v50 (mulf : (⟨S320x320, .f32⟩ : BufTy).Contents (Elt F) → (⟨S320x320, .f32⟩ : BufTy).Contents (Elt F) → (⟨S320x320, .f32⟩ : BufTy).Contents (Elt F)),
    nullary main_cst_16 (constant S_ .f32 0x00000000#32),
    binary main_v50 main_cst_16 main_v51 ((fun x v => Host.reduceAdd x v reducesTo_S320x320_S320_d1 h_S_) : (⟨S320x320, .f32⟩ : BufTy).Contents (Elt F) → (⟨S_, .f32⟩ : BufTy).Contents (Elt F) → (⟨S320, .f32⟩ : BufTy).Contents (Elt F)),
    unary main_v51 main_v52 (broadcastInDim S320x1 ![0] bcast_S320_S320x1_0 : (⟨S320, .f32⟩ : BufTy).Contents (Elt F) → (⟨S320x1, .f32⟩ : BufTy).Contents (Elt F)),
    nullary main_cst_17 (constant S_ .f32 0x00000000#32),
    unary main_cst_17 main_v53 (broadcastInDim S320x320 ![] bcast_S_S320x320 : (⟨S_, .f32⟩ : BufTy).Contents (Elt F) → (⟨S320x320, .f32⟩ : BufTy).Contents (Elt F)) ]

/-- The program's first 80 operations. -/
abbrev pre2 : List (HloOp τ sig (Elt F)) := pre1 ++ chunk2

set_option maxHeartbeats 4000000 in
/-- Operations 81–120 of the program, in order. -/
abbrev chunk3 : List (HloOp τ sig (Elt F)) :=
  [ binary main_v11 main_v53 main_v54 (subf : (⟨S320x320, .f32⟩ : BufTy).Contents (Elt F) → (⟨S320x320, .f32⟩ : BufTy).Contents (Elt F) → (⟨S320x320, .f32⟩ : BufTy).Contents (Elt F)),
    binary main_v54 main_v54 main_v55 (mulf : (⟨S320x320, .f32⟩ : BufTy).Contents (Elt F) → (⟨S320x320, .f32⟩ : BufTy).Contents (Elt F) → (⟨S320x320, .f32⟩ : BufTy).Contents (Elt F)),
    nullary main_cst_18 (constant S_ .f32 0xC0000000#32),
    unary main_cst_18 main_v56 (broadcastInDim S320x320 ![] bcast_S_S320x320 : (⟨S_, .f32⟩ : BufTy).Contents (Elt F) → (⟨S320x320, .f32⟩ : BufTy).Contents (Elt F)),
    binary main_v56 main_v55 main_v57 (mulf : (⟨S320x320, .f32⟩ : BufTy).Contents (Elt F) → (⟨S320x320, .f32⟩ : BufTy).Contents (Elt F) → (⟨S320x320, .f32⟩ : BufTy).Contents (Elt F)),
    unary main_v57 main_v58 (Host.exp : (⟨S320x320, .f32⟩ : BufTy).Contents (Elt F) → (⟨S320x320, .f32⟩ : BufTy).Contents (Elt F)),
    binary main_v58 main_v32 main_v59 (mulf : (⟨S320x320, .f32⟩ : BufTy).Contents (Elt F) → (⟨S320x320, .f32⟩ : BufTy).Contents (Elt F) → (⟨S320x320, .f32⟩ : BufTy).Contents (Elt F)),
    nullary main_cst_19 (constant S_ .f32 0x00000000#32),
    binary main_v59 main_cst_19 main_v60 ((fun x v => Host.reduceAdd x v reducesTo_S320x320_S320_d1 h_S_) : (⟨S320x320, .f32⟩ : BufTy).Contents (Elt F) → (⟨S_, .f32⟩ : BufTy).Contents (Elt F) → (⟨S320, .f32⟩ : BufTy).Contents (Elt F)),
    unary main_v60 main_v61 (broadcastInDim S320x1 ![0] bcast_S320_S320x1_0 : (⟨S320, .f32⟩ : BufTy).Contents (Elt F) → (⟨S320x1, .f32⟩ : BufTy).Contents (Elt F)),
    nullary main_cst_20 (constant S_ .f32 0x00000000#32),
    unary main_cst_20 main_v62 (broadcastInDim S320x320 ![] bcast_S_S320x320 : (⟨S_, .f32⟩ : BufTy).Contents (Elt F) → (⟨S320x320, .f32⟩ : BufTy).Contents (Elt F)),
    binary main_v11 main_v62 main_v63 (subf : (⟨S320x320, .f32⟩ : BufTy).Contents (Elt F) → (⟨S320x320, .f32⟩ : BufTy).Contents (Elt F) → (⟨S320x320, .f32⟩ : BufTy).Contents (Elt F)),
    binary main_v63 main_v63 main_v64 (mulf : (⟨S320x320, .f32⟩ : BufTy).Contents (Elt F) → (⟨S320x320, .f32⟩ : BufTy).Contents (Elt F) → (⟨S320x320, .f32⟩ : BufTy).Contents (Elt F)),
    nullary main_cst_21 (constant S_ .f32 0xC0800000#32),
    unary main_cst_21 main_v65 (broadcastInDim S320x320 ![] bcast_S_S320x320 : (⟨S_, .f32⟩ : BufTy).Contents (Elt F) → (⟨S320x320, .f32⟩ : BufTy).Contents (Elt F)),
    binary main_v65 main_v64 main_v66 (mulf : (⟨S320x320, .f32⟩ : BufTy).Contents (Elt F) → (⟨S320x320, .f32⟩ : BufTy).Contents (Elt F) → (⟨S320x320, .f32⟩ : BufTy).Contents (Elt F)),
    unary main_v66 main_v67 (Host.exp : (⟨S320x320, .f32⟩ : BufTy).Contents (Elt F) → (⟨S320x320, .f32⟩ : BufTy).Contents (Elt F)),
    binary main_v67 main_v32 main_v68 (mulf : (⟨S320x320, .f32⟩ : BufTy).Contents (Elt F) → (⟨S320x320, .f32⟩ : BufTy).Contents (Elt F) → (⟨S320x320, .f32⟩ : BufTy).Contents (Elt F)),
    nullary main_cst_22 (constant S_ .f32 0x00000000#32),
    binary main_v68 main_cst_22 main_v69 ((fun x v => Host.reduceAdd x v reducesTo_S320x320_S320_d1 h_S_) : (⟨S320x320, .f32⟩ : BufTy).Contents (Elt F) → (⟨S_, .f32⟩ : BufTy).Contents (Elt F) → (⟨S320, .f32⟩ : BufTy).Contents (Elt F)),
    unary main_v69 main_v70 (broadcastInDim S320x1 ![0] bcast_S320_S320x1_0 : (⟨S320, .f32⟩ : BufTy).Contents (Elt F) → (⟨S320x1, .f32⟩ : BufTy).Contents (Elt F)),
    nullary main_cst_23 (constant S_ .f32 0x40400000#32),
    unary main_cst_23 main_v71 (broadcastInDim S320x320 ![] bcast_S_S320x320 : (⟨S_, .f32⟩ : BufTy).Contents (Elt F) → (⟨S320x320, .f32⟩ : BufTy).Contents (Elt F)),
    binary main_v11 main_v71 main_v72 (subf : (⟨S320x320, .f32⟩ : BufTy).Contents (Elt F) → (⟨S320x320, .f32⟩ : BufTy).Contents (Elt F) → (⟨S320x320, .f32⟩ : BufTy).Contents (Elt F)),
    binary main_v72 main_v72 main_v73 (mulf : (⟨S320x320, .f32⟩ : BufTy).Contents (Elt F) → (⟨S320x320, .f32⟩ : BufTy).Contents (Elt F) → (⟨S320x320, .f32⟩ : BufTy).Contents (Elt F)),
    nullary main_cst_24 (constant S_ .f32 0xBF000000#32),
    unary main_cst_24 main_v74 (broadcastInDim S320x320 ![] bcast_S_S320x320 : (⟨S_, .f32⟩ : BufTy).Contents (Elt F) → (⟨S320x320, .f32⟩ : BufTy).Contents (Elt F)),
    binary main_v74 main_v73 main_v75 (mulf : (⟨S320x320, .f32⟩ : BufTy).Contents (Elt F) → (⟨S320x320, .f32⟩ : BufTy).Contents (Elt F) → (⟨S320x320, .f32⟩ : BufTy).Contents (Elt F)),
    unary main_v75 main_v76 (Host.exp : (⟨S320x320, .f32⟩ : BufTy).Contents (Elt F) → (⟨S320x320, .f32⟩ : BufTy).Contents (Elt F)),
    binary main_v76 main_v32 main_v77 (mulf : (⟨S320x320, .f32⟩ : BufTy).Contents (Elt F) → (⟨S320x320, .f32⟩ : BufTy).Contents (Elt F) → (⟨S320x320, .f32⟩ : BufTy).Contents (Elt F)),
    nullary main_cst_25 (constant S_ .f32 0x00000000#32),
    binary main_v77 main_cst_25 main_v78 ((fun x v => Host.reduceAdd x v reducesTo_S320x320_S320_d1 h_S_) : (⟨S320x320, .f32⟩ : BufTy).Contents (Elt F) → (⟨S_, .f32⟩ : BufTy).Contents (Elt F) → (⟨S320, .f32⟩ : BufTy).Contents (Elt F)),
    unary main_v78 main_v79 (broadcastInDim S320x1 ![0] bcast_S320_S320x1_0 : (⟨S320, .f32⟩ : BufTy).Contents (Elt F) → (⟨S320x1, .f32⟩ : BufTy).Contents (Elt F)),
    nullary main_cst_26 (constant S_ .f32 0x40400000#32),
    unary main_cst_26 main_v80 (broadcastInDim S320x320 ![] bcast_S_S320x320 : (⟨S_, .f32⟩ : BufTy).Contents (Elt F) → (⟨S320x320, .f32⟩ : BufTy).Contents (Elt F)),
    binary main_v11 main_v80 main_v81 (subf : (⟨S320x320, .f32⟩ : BufTy).Contents (Elt F) → (⟨S320x320, .f32⟩ : BufTy).Contents (Elt F) → (⟨S320x320, .f32⟩ : BufTy).Contents (Elt F)),
    binary main_v81 main_v81 main_v82 (mulf : (⟨S320x320, .f32⟩ : BufTy).Contents (Elt F) → (⟨S320x320, .f32⟩ : BufTy).Contents (Elt F) → (⟨S320x320, .f32⟩ : BufTy).Contents (Elt F)),
    nullary main_cst_27 (constant S_ .f32 0xBF800000#32),
    unary main_cst_27 main_v83 (broadcastInDim S320x320 ![] bcast_S_S320x320 : (⟨S_, .f32⟩ : BufTy).Contents (Elt F) → (⟨S320x320, .f32⟩ : BufTy).Contents (Elt F)) ]

/-- The program's first 120 operations. -/
abbrev pre3 : List (HloOp τ sig (Elt F)) := pre2 ++ chunk3

set_option maxHeartbeats 4000000 in
/-- Operations 121–160 of the program, in order. -/
abbrev chunk4 : List (HloOp τ sig (Elt F)) :=
  [ binary main_v83 main_v82 main_v84 (mulf : (⟨S320x320, .f32⟩ : BufTy).Contents (Elt F) → (⟨S320x320, .f32⟩ : BufTy).Contents (Elt F) → (⟨S320x320, .f32⟩ : BufTy).Contents (Elt F)),
    unary main_v84 main_v85 (Host.exp : (⟨S320x320, .f32⟩ : BufTy).Contents (Elt F) → (⟨S320x320, .f32⟩ : BufTy).Contents (Elt F)),
    binary main_v85 main_v32 main_v86 (mulf : (⟨S320x320, .f32⟩ : BufTy).Contents (Elt F) → (⟨S320x320, .f32⟩ : BufTy).Contents (Elt F) → (⟨S320x320, .f32⟩ : BufTy).Contents (Elt F)),
    nullary main_cst_28 (constant S_ .f32 0x00000000#32),
    binary main_v86 main_cst_28 main_v87 ((fun x v => Host.reduceAdd x v reducesTo_S320x320_S320_d1 h_S_) : (⟨S320x320, .f32⟩ : BufTy).Contents (Elt F) → (⟨S_, .f32⟩ : BufTy).Contents (Elt F) → (⟨S320, .f32⟩ : BufTy).Contents (Elt F)),
    unary main_v87 main_v88 (broadcastInDim S320x1 ![0] bcast_S320_S320x1_0 : (⟨S320, .f32⟩ : BufTy).Contents (Elt F) → (⟨S320x1, .f32⟩ : BufTy).Contents (Elt F)),
    nullary main_cst_29 (constant S_ .f32 0x40400000#32),
    unary main_cst_29 main_v89 (broadcastInDim S320x320 ![] bcast_S_S320x320 : (⟨S_, .f32⟩ : BufTy).Contents (Elt F) → (⟨S320x320, .f32⟩ : BufTy).Contents (Elt F)),
    binary main_v11 main_v89 main_v90 (subf : (⟨S320x320, .f32⟩ : BufTy).Contents (Elt F) → (⟨S320x320, .f32⟩ : BufTy).Contents (Elt F) → (⟨S320x320, .f32⟩ : BufTy).Contents (Elt F)),
    binary main_v90 main_v90 main_v91 (mulf : (⟨S320x320, .f32⟩ : BufTy).Contents (Elt F) → (⟨S320x320, .f32⟩ : BufTy).Contents (Elt F) → (⟨S320x320, .f32⟩ : BufTy).Contents (Elt F)),
    nullary main_cst_30 (constant S_ .f32 0xC0000000#32),
    unary main_cst_30 main_v92 (broadcastInDim S320x320 ![] bcast_S_S320x320 : (⟨S_, .f32⟩ : BufTy).Contents (Elt F) → (⟨S320x320, .f32⟩ : BufTy).Contents (Elt F)),
    binary main_v92 main_v91 main_v93 (mulf : (⟨S320x320, .f32⟩ : BufTy).Contents (Elt F) → (⟨S320x320, .f32⟩ : BufTy).Contents (Elt F) → (⟨S320x320, .f32⟩ : BufTy).Contents (Elt F)),
    unary main_v93 main_v94 (Host.exp : (⟨S320x320, .f32⟩ : BufTy).Contents (Elt F) → (⟨S320x320, .f32⟩ : BufTy).Contents (Elt F)),
    binary main_v94 main_v32 main_v95 (mulf : (⟨S320x320, .f32⟩ : BufTy).Contents (Elt F) → (⟨S320x320, .f32⟩ : BufTy).Contents (Elt F) → (⟨S320x320, .f32⟩ : BufTy).Contents (Elt F)),
    nullary main_cst_31 (constant S_ .f32 0x00000000#32),
    binary main_v95 main_cst_31 main_v96 ((fun x v => Host.reduceAdd x v reducesTo_S320x320_S320_d1 h_S_) : (⟨S320x320, .f32⟩ : BufTy).Contents (Elt F) → (⟨S_, .f32⟩ : BufTy).Contents (Elt F) → (⟨S320, .f32⟩ : BufTy).Contents (Elt F)),
    unary main_v96 main_v97 (broadcastInDim S320x1 ![0] bcast_S320_S320x1_0 : (⟨S320, .f32⟩ : BufTy).Contents (Elt F) → (⟨S320x1, .f32⟩ : BufTy).Contents (Elt F)),
    nullary main_cst_32 (constant S_ .f32 0x40400000#32),
    unary main_cst_32 main_v98 (broadcastInDim S320x320 ![] bcast_S_S320x320 : (⟨S_, .f32⟩ : BufTy).Contents (Elt F) → (⟨S320x320, .f32⟩ : BufTy).Contents (Elt F)),
    binary main_v11 main_v98 main_v99 (subf : (⟨S320x320, .f32⟩ : BufTy).Contents (Elt F) → (⟨S320x320, .f32⟩ : BufTy).Contents (Elt F) → (⟨S320x320, .f32⟩ : BufTy).Contents (Elt F)),
    binary main_v99 main_v99 main_v100 (mulf : (⟨S320x320, .f32⟩ : BufTy).Contents (Elt F) → (⟨S320x320, .f32⟩ : BufTy).Contents (Elt F) → (⟨S320x320, .f32⟩ : BufTy).Contents (Elt F)),
    nullary main_cst_33 (constant S_ .f32 0xC0800000#32),
    unary main_cst_33 main_v101 (broadcastInDim S320x320 ![] bcast_S_S320x320 : (⟨S_, .f32⟩ : BufTy).Contents (Elt F) → (⟨S320x320, .f32⟩ : BufTy).Contents (Elt F)),
    binary main_v101 main_v100 main_v102 (mulf : (⟨S320x320, .f32⟩ : BufTy).Contents (Elt F) → (⟨S320x320, .f32⟩ : BufTy).Contents (Elt F) → (⟨S320x320, .f32⟩ : BufTy).Contents (Elt F)),
    unary main_v102 main_v103 (Host.exp : (⟨S320x320, .f32⟩ : BufTy).Contents (Elt F) → (⟨S320x320, .f32⟩ : BufTy).Contents (Elt F)),
    binary main_v103 main_v32 main_v104 (mulf : (⟨S320x320, .f32⟩ : BufTy).Contents (Elt F) → (⟨S320x320, .f32⟩ : BufTy).Contents (Elt F) → (⟨S320x320, .f32⟩ : BufTy).Contents (Elt F)),
    nullary main_cst_34 (constant S_ .f32 0x00000000#32),
    binary main_v104 main_cst_34 main_v105 ((fun x v => Host.reduceAdd x v reducesTo_S320x320_S320_d1 h_S_) : (⟨S320x320, .f32⟩ : BufTy).Contents (Elt F) → (⟨S_, .f32⟩ : BufTy).Contents (Elt F) → (⟨S320, .f32⟩ : BufTy).Contents (Elt F)),
    unary main_v105 main_v106 (broadcastInDim S320x1 ![0] bcast_S320_S320x1_0 : (⟨S320, .f32⟩ : BufTy).Contents (Elt F) → (⟨S320x1, .f32⟩ : BufTy).Contents (Elt F)),
    nullary main_cst_35 (constant S_ .f32 0x3F000000#32),
    unary main_cst_35 main_v107 (broadcastInDim S320x320 ![] bcast_S_S320x320 : (⟨S_, .f32⟩ : BufTy).Contents (Elt F) → (⟨S320x320, .f32⟩ : BufTy).Contents (Elt F)),
    binary main_v107 main_v11 main_v108 (mulf : (⟨S320x320, .f32⟩ : BufTy).Contents (Elt F) → (⟨S320x320, .f32⟩ : BufTy).Contents (Elt F) → (⟨S320x320, .f32⟩ : BufTy).Contents (Elt F)),
    unary main_v108 main_v109 (Host.cos : (⟨S320x320, .f32⟩ : BufTy).Contents (Elt F) → (⟨S320x320, .f32⟩ : BufTy).Contents (Elt F)),
    binary main_v109 main_v32 main_v110 (mulf : (⟨S320x320, .f32⟩ : BufTy).Contents (Elt F) → (⟨S320x320, .f32⟩ : BufTy).Contents (Elt F) → (⟨S320x320, .f32⟩ : BufTy).Contents (Elt F)),
    nullary main_cst_36 (constant S_ .f32 0x00000000#32),
    binary main_v110 main_cst_36 main_v111 ((fun x v => Host.reduceAdd x v reducesTo_S320x320_S320_d1 h_S_) : (⟨S320x320, .f32⟩ : BufTy).Contents (Elt F) → (⟨S_, .f32⟩ : BufTy).Contents (Elt F) → (⟨S320, .f32⟩ : BufTy).Contents (Elt F)),
    unary main_v111 main_v112 (broadcastInDim S320x1 ![0] bcast_S320_S320x1_0 : (⟨S320, .f32⟩ : BufTy).Contents (Elt F) → (⟨S320x1, .f32⟩ : BufTy).Contents (Elt F)),
    nullary main_cst_37 (constant S_ .f32 0x3F800000#32),
    unary main_cst_37 main_v113 (broadcastInDim S320x320 ![] bcast_S_S320x320 : (⟨S_, .f32⟩ : BufTy).Contents (Elt F) → (⟨S320x320, .f32⟩ : BufTy).Contents (Elt F)) ]

/-- The program's first 160 operations. -/
abbrev pre4 : List (HloOp τ sig (Elt F)) := pre3 ++ chunk4

set_option maxHeartbeats 4000000 in
/-- Operations 161–200 of the program, in order. -/
abbrev chunk5 : List (HloOp τ sig (Elt F)) :=
  [ binary main_v113 main_v11 main_v114 (mulf : (⟨S320x320, .f32⟩ : BufTy).Contents (Elt F) → (⟨S320x320, .f32⟩ : BufTy).Contents (Elt F) → (⟨S320x320, .f32⟩ : BufTy).Contents (Elt F)),
    unary main_v114 main_v115 (Host.cos : (⟨S320x320, .f32⟩ : BufTy).Contents (Elt F) → (⟨S320x320, .f32⟩ : BufTy).Contents (Elt F)),
    binary main_v115 main_v32 main_v116 (mulf : (⟨S320x320, .f32⟩ : BufTy).Contents (Elt F) → (⟨S320x320, .f32⟩ : BufTy).Contents (Elt F) → (⟨S320x320, .f32⟩ : BufTy).Contents (Elt F)),
    nullary main_cst_38 (constant S_ .f32 0x00000000#32),
    binary main_v116 main_cst_38 main_v117 ((fun x v => Host.reduceAdd x v reducesTo_S320x320_S320_d1 h_S_) : (⟨S320x320, .f32⟩ : BufTy).Contents (Elt F) → (⟨S_, .f32⟩ : BufTy).Contents (Elt F) → (⟨S320, .f32⟩ : BufTy).Contents (Elt F)),
    unary main_v117 main_v118 (broadcastInDim S320x1 ![0] bcast_S320_S320x1_0 : (⟨S320, .f32⟩ : BufTy).Contents (Elt F) → (⟨S320x1, .f32⟩ : BufTy).Contents (Elt F)),
    nullary main_cst_39 (constant S_ .f32 0x3FC00000#32),
    unary main_cst_39 main_v119 (broadcastInDim S320x320 ![] bcast_S_S320x320 : (⟨S_, .f32⟩ : BufTy).Contents (Elt F) → (⟨S320x320, .f32⟩ : BufTy).Contents (Elt F)),
    binary main_v119 main_v11 main_v120 (mulf : (⟨S320x320, .f32⟩ : BufTy).Contents (Elt F) → (⟨S320x320, .f32⟩ : BufTy).Contents (Elt F) → (⟨S320x320, .f32⟩ : BufTy).Contents (Elt F)),
    unary main_v120 main_v121 (Host.cos : (⟨S320x320, .f32⟩ : BufTy).Contents (Elt F) → (⟨S320x320, .f32⟩ : BufTy).Contents (Elt F)),
    binary main_v121 main_v32 main_v122 (mulf : (⟨S320x320, .f32⟩ : BufTy).Contents (Elt F) → (⟨S320x320, .f32⟩ : BufTy).Contents (Elt F) → (⟨S320x320, .f32⟩ : BufTy).Contents (Elt F)),
    nullary main_cst_40 (constant S_ .f32 0x00000000#32),
    binary main_v122 main_cst_40 main_v123 ((fun x v => Host.reduceAdd x v reducesTo_S320x320_S320_d1 h_S_) : (⟨S320x320, .f32⟩ : BufTy).Contents (Elt F) → (⟨S_, .f32⟩ : BufTy).Contents (Elt F) → (⟨S320, .f32⟩ : BufTy).Contents (Elt F)),
    unary main_v123 main_v124 (broadcastInDim S320x1 ![0] bcast_S320_S320x1_0 : (⟨S320, .f32⟩ : BufTy).Contents (Elt F) → (⟨S320x1, .f32⟩ : BufTy).Contents (Elt F)),
    nullary main_cst_41 (constant S_ .f32 0x40000000#32),
    unary main_cst_41 main_v125 (broadcastInDim S320x320 ![] bcast_S_S320x320 : (⟨S_, .f32⟩ : BufTy).Contents (Elt F) → (⟨S320x320, .f32⟩ : BufTy).Contents (Elt F)),
    binary main_v125 main_v11 main_v126 (mulf : (⟨S320x320, .f32⟩ : BufTy).Contents (Elt F) → (⟨S320x320, .f32⟩ : BufTy).Contents (Elt F) → (⟨S320x320, .f32⟩ : BufTy).Contents (Elt F)),
    unary main_v126 main_v127 (Host.cos : (⟨S320x320, .f32⟩ : BufTy).Contents (Elt F) → (⟨S320x320, .f32⟩ : BufTy).Contents (Elt F)),
    binary main_v127 main_v32 main_v128 (mulf : (⟨S320x320, .f32⟩ : BufTy).Contents (Elt F) → (⟨S320x320, .f32⟩ : BufTy).Contents (Elt F) → (⟨S320x320, .f32⟩ : BufTy).Contents (Elt F)),
    nullary main_cst_42 (constant S_ .f32 0x00000000#32),
    binary main_v128 main_cst_42 main_v129 ((fun x v => Host.reduceAdd x v reducesTo_S320x320_S320_d1 h_S_) : (⟨S320x320, .f32⟩ : BufTy).Contents (Elt F) → (⟨S_, .f32⟩ : BufTy).Contents (Elt F) → (⟨S320, .f32⟩ : BufTy).Contents (Elt F)),
    unary main_v129 main_v130 (broadcastInDim S320x1 ![0] bcast_S320_S320x1_0 : (⟨S320, .f32⟩ : BufTy).Contents (Elt F) → (⟨S320x1, .f32⟩ : BufTy).Contents (Elt F)),
    binary main_v4 main_v4 main_v131 ((fun l r => Host.dotGeneral dot_S320x320x3_S320x320x3_S320x320x320_2_2_1_1_0_0 none l r) : (⟨S320x320x3, .f32⟩ : BufTy).Contents (Elt F) → (⟨S320x320x3, .f32⟩ : BufTy).Contents (Elt F) → (⟨S320x320x320, .f32⟩ : BufTy).Contents (Elt F)),
    unary main_v11 main_v132 (broadcastInDim S320x320x1 ![0, 1] bcast_S320x320_S320x320x1_0_1 : (⟨S320x320, .f32⟩ : BufTy).Contents (Elt F) → (⟨S320x320x1, .f32⟩ : BufTy).Contents (Elt F)),
    unary main_v11 main_v133 (broadcastInDim S320x1x320 ![0, 2] bcast_S320x320_S320x1x320_0_2 : (⟨S320x320, .f32⟩ : BufTy).Contents (Elt F) → (⟨S320x1x320, .f32⟩ : BufTy).Contents (Elt F)),
    unary main_v132 main_v134 (broadcastInDim S320x320x320 ![0, 1, 2] bcast_S320x320x1_S320x320x320_0_1_2 : (⟨S320x320x1, .f32⟩ : BufTy).Contents (Elt F) → (⟨S320x320x320, .f32⟩ : BufTy).Contents (Elt F)),
    unary main_v133 main_v135 (broadcastInDim S320x320x320 ![0, 1, 2] bcast_S320x1x320_S320x320x320_0_1_2 : (⟨S320x1x320, .f32⟩ : BufTy).Contents (Elt F) → (⟨S320x320x320, .f32⟩ : BufTy).Contents (Elt F)),
    binary main_v134 main_v135 main_v136 (mulf : (⟨S320x320x320, .f32⟩ : BufTy).Contents (Elt F) → (⟨S320x320x320, .f32⟩ : BufTy).Contents (Elt F) → (⟨S320x320x320, .f32⟩ : BufTy).Contents (Elt F)),
    nullary main_cst_43 (constant S_ .f32 0x00000000#32),
    unary main_cst_43 main_v137 (broadcastInDim S320x320x320 ![] bcast_S_S320x320x320 : (⟨S_, .f32⟩ : BufTy).Contents (Elt F) → (⟨S320x320x320, .f32⟩ : BufTy).Contents (Elt F)),
    binary main_v136 main_v137 main_v138 (cmpf .ogt : (⟨S320x320x320, .f32⟩ : BufTy).Contents (Elt F) → (⟨S320x320x320, .f32⟩ : BufTy).Contents (Elt F) → (⟨S320x320x320, .i1⟩ : BufTy).Contents (Elt F)),
    nullary main_cst_44 (constant S_ .f32 0x3F800000#32),
    TRef.unary (TRef.of (T := ⟨S_, .f32⟩) main_cst_44) (TRef.of (T := ⟨S_, .f32⟩) main_call3_v0) id,
    TRef.unary (TRef.of (T := ⟨S_, .f32⟩) main_call3_v0) (TRef.of (T := ⟨S320x320x320, .f32⟩) main_call3_v1) (broadcastInDim S320x320x320 ![] bcast_S_S320x320x320),
    TRef.ternary (TRef.of (T := ⟨S320x320x320, .i1⟩) main_v138) (TRef.of (T := ⟨S320x320x320, .f32⟩) main_v136) (TRef.of (T := ⟨S320x320x320, .f32⟩) main_call3_v1) (TRef.of (T := ⟨S320x320x320, .f32⟩) main_v139) select,
    binary main_v131 main_v139 main_v140 (Host.divf : (⟨S320x320x320, .f32⟩ : BufTy).Contents (Elt F) → (⟨S320x320x320, .f32⟩ : BufTy).Contents (Elt F) → (⟨S320x320x320, .f32⟩ : BufTy).Contents (Elt F)),
    unary main_v6 main_v141 (broadcastInDim S320x320x1 ![0, 1] bcast_S320x320_S320x320x1_0_1 : (⟨S320x320, .f32⟩ : BufTy).Contents (Elt F) → (⟨S320x320x1, .f32⟩ : BufTy).Contents (Elt F)),
    unary main_v6 main_v142 (broadcastInDim S320x1x320 ![0, 2] bcast_S320x320_S320x1x320_0_2 : (⟨S320x320, .f32⟩ : BufTy).Contents (Elt F) → (⟨S320x1x320, .f32⟩ : BufTy).Contents (Elt F)),
    unary main_v141 main_v143 (broadcastInDim S320x320x320 ![0, 1, 2] bcast_S320x320x1_S320x320x320_0_1_2 : (⟨S320x320x1, .f32⟩ : BufTy).Contents (Elt F) → (⟨S320x320x320, .f32⟩ : BufTy).Contents (Elt F)),
    unary main_v142 main_v144 (broadcastInDim S320x320x320 ![0, 1, 2] bcast_S320x1x320_S320x320x320_0_1_2 : (⟨S320x1x320, .f32⟩ : BufTy).Contents (Elt F) → (⟨S320x320x320, .f32⟩ : BufTy).Contents (Elt F)) ]

/-- The program's first 200 operations. -/
abbrev pre5 : List (HloOp τ sig (Elt F)) := pre4 ++ chunk5

set_option maxHeartbeats 4000000 in
/-- Operations 201–240 of the program, in order. -/
abbrev chunk6 : List (HloOp τ sig (Elt F)) :=
  [ binary main_v143 main_v144 main_v145 (addf : (⟨S320x320x320, .f32⟩ : BufTy).Contents (Elt F) → (⟨S320x320x320, .f32⟩ : BufTy).Contents (Elt F) → (⟨S320x320x320, .f32⟩ : BufTy).Contents (Elt F)),
    unary main_v6 main_v146 (broadcastInDim S1x320x320 ![1, 2] bcast_S320x320_S1x320x320_1_2 : (⟨S320x320, .f32⟩ : BufTy).Contents (Elt F) → (⟨S1x320x320, .f32⟩ : BufTy).Contents (Elt F)),
    unary main_v146 main_v147 (broadcastInDim S320x320x320 ![0, 1, 2] bcast_S1x320x320_S320x320x320_0_1_2 : (⟨S1x320x320, .f32⟩ : BufTy).Contents (Elt F) → (⟨S320x320x320, .f32⟩ : BufTy).Contents (Elt F)),
    binary main_v145 main_v147 main_v148 (addf : (⟨S320x320x320, .f32⟩ : BufTy).Contents (Elt F) → (⟨S320x320x320, .f32⟩ : BufTy).Contents (Elt F) → (⟨S320x320x320, .f32⟩ : BufTy).Contents (Elt F)),
    nullary main_cst_45 (constant S_ .f32 0x3F800000#32),
    unary main_cst_45 main_v149 (broadcastInDim S320x320 ![] bcast_S_S320x320 : (⟨S_, .f32⟩ : BufTy).Contents (Elt F) → (⟨S320x320, .f32⟩ : BufTy).Contents (Elt F)),
    binary main_v149 main_v17 main_v150 (subf : (⟨S320x320, .f32⟩ : BufTy).Contents (Elt F) → (⟨S320x320, .f32⟩ : BufTy).Contents (Elt F) → (⟨S320x320, .f32⟩ : BufTy).Contents (Elt F)),
    unary main_v150 main_v151 (broadcastInDim S1x320x320 ![1, 2] bcast_S320x320_S1x320x320_1_2 : (⟨S320x320, .f32⟩ : BufTy).Contents (Elt F) → (⟨S1x320x320, .f32⟩ : BufTy).Contents (Elt F)),
    unary main_v32 main_v152 (broadcastInDim S320x320x1 ![0, 1] bcast_S320x320_S320x320x1_0_1 : (⟨S320x320, .f32⟩ : BufTy).Contents (Elt F) → (⟨S320x320x1, .f32⟩ : BufTy).Contents (Elt F)),
    unary main_v32 main_v153 (broadcastInDim S320x1x320 ![0, 2] bcast_S320x320_S320x1x320_0_2 : (⟨S320x320, .f32⟩ : BufTy).Contents (Elt F) → (⟨S320x1x320, .f32⟩ : BufTy).Contents (Elt F)),
    unary main_v152 main_v154 (broadcastInDim S320x320x320 ![0, 1, 2] bcast_S320x320x1_S320x320x320_0_1_2 : (⟨S320x320x1, .f32⟩ : BufTy).Contents (Elt F) → (⟨S320x320x320, .f32⟩ : BufTy).Contents (Elt F)),
    unary main_v153 main_v155 (broadcastInDim S320x320x320 ![0, 1, 2] bcast_S320x1x320_S320x320x320_0_1_2 : (⟨S320x1x320, .f32⟩ : BufTy).Contents (Elt F) → (⟨S320x320x320, .f32⟩ : BufTy).Contents (Elt F)),
    binary main_v154 main_v155 main_v156 (mulf : (⟨S320x320x320, .f32⟩ : BufTy).Contents (Elt F) → (⟨S320x320x320, .f32⟩ : BufTy).Contents (Elt F) → (⟨S320x320x320, .f32⟩ : BufTy).Contents (Elt F)),
    unary main_v151 main_v157 (broadcastInDim S320x320x320 ![0, 1, 2] bcast_S1x320x320_S320x320x320_0_1_2 : (⟨S1x320x320, .f32⟩ : BufTy).Contents (Elt F) → (⟨S320x320x320, .f32⟩ : BufTy).Contents (Elt F)),
    binary main_v156 main_v157 main_v158 (mulf : (⟨S320x320x320, .f32⟩ : BufTy).Contents (Elt F) → (⟨S320x320x320, .f32⟩ : BufTy).Contents (Elt F) → (⟨S320x320x320, .f32⟩ : BufTy).Contents (Elt F)),
    unary main_v32 main_v159 (broadcastInDim S1x320x320 ![1, 2] bcast_S320x320_S1x320x320_1_2 : (⟨S320x320, .f32⟩ : BufTy).Contents (Elt F) → (⟨S1x320x320, .f32⟩ : BufTy).Contents (Elt F)),
    unary main_v159 main_v160 (broadcastInDim S320x320x320 ![0, 1, 2] bcast_S1x320x320_S320x320x320_0_1_2 : (⟨S1x320x320, .f32⟩ : BufTy).Contents (Elt F) → (⟨S320x320x320, .f32⟩ : BufTy).Contents (Elt F)),
    binary main_v158 main_v160 main_v161 (mulf : (⟨S320x320x320, .f32⟩ : BufTy).Contents (Elt F) → (⟨S320x320x320, .f32⟩ : BufTy).Contents (Elt F) → (⟨S320x320x320, .f32⟩ : BufTy).Contents (Elt F)),
    nullary main_cst_46 (constant S_ .f32 0x3F800000#32),
    unary main_cst_46 main_v162 (broadcastInDim S320x320x320 ![] bcast_S_S320x320x320 : (⟨S_, .f32⟩ : BufTy).Contents (Elt F) → (⟨S320x320x320, .f32⟩ : BufTy).Contents (Elt F)),
    binary main_v162 main_v140 main_v163 (mulf : (⟨S320x320x320, .f32⟩ : BufTy).Contents (Elt F) → (⟨S320x320x320, .f32⟩ : BufTy).Contents (Elt F) → (⟨S320x320x320, .f32⟩ : BufTy).Contents (Elt F)),
    nullary main_cst_47 (constant S_ .f32 0x3F800000#32),
    unary main_cst_47 main_v164 (broadcastInDim S320x320x320 ![] bcast_S_S320x320x320 : (⟨S_, .f32⟩ : BufTy).Contents (Elt F) → (⟨S320x320x320, .f32⟩ : BufTy).Contents (Elt F)),
    binary main_v164 main_v163 main_v165 (addf : (⟨S320x320x320, .f32⟩ : BufTy).Contents (Elt F) → (⟨S320x320x320, .f32⟩ : BufTy).Contents (Elt F) → (⟨S320x320x320, .f32⟩ : BufTy).Contents (Elt F)),
    nullary main_cst_48 (constant S_ .f32 0x3F800000#32),
    unary main_cst_48 main_v166 (broadcastInDim S320x320x320 ![] bcast_S_S320x320x320 : (⟨S_, .f32⟩ : BufTy).Contents (Elt F) → (⟨S320x320x320, .f32⟩ : BufTy).Contents (Elt F)),
    binary main_v165 main_v166 main_v167 (Host.powf : (⟨S320x320x320, .f32⟩ : BufTy).Contents (Elt F) → (⟨S320x320x320, .f32⟩ : BufTy).Contents (Elt F) → (⟨S320x320x320, .f32⟩ : BufTy).Contents (Elt F)),
    nullary main_cst_49 (constant S_ .f32 0xBDCCCCCD#32),
    unary main_cst_49 main_v168 (broadcastInDim S320x320x320 ![] bcast_S_S320x320x320 : (⟨S_, .f32⟩ : BufTy).Contents (Elt F) → (⟨S320x320x320, .f32⟩ : BufTy).Contents (Elt F)),
    binary main_v168 main_v148 main_v169 (mulf : (⟨S320x320x320, .f32⟩ : BufTy).Contents (Elt F) → (⟨S320x320x320, .f32⟩ : BufTy).Contents (Elt F) → (⟨S320x320x320, .f32⟩ : BufTy).Contents (Elt F)),
    unary main_v169 main_v170 (Host.exp : (⟨S320x320x320, .f32⟩ : BufTy).Contents (Elt F) → (⟨S320x320x320, .f32⟩ : BufTy).Contents (Elt F)),
    binary main_v167 main_v170 main_v171 (mulf : (⟨S320x320x320, .f32⟩ : BufTy).Contents (Elt F) → (⟨S320x320x320, .f32⟩ : BufTy).Contents (Elt F) → (⟨S320x320x320, .f32⟩ : BufTy).Contents (Elt F)),
    binary main_v171 main_v161 main_v172 (mulf : (⟨S320x320x320, .f32⟩ : BufTy).Contents (Elt F) → (⟨S320x320x320, .f32⟩ : BufTy).Contents (Elt F) → (⟨S320x320x320, .f32⟩ : BufTy).Contents (Elt F)),
    nullary main_cst_50 (constant S_ .f32 0x00000000#32),
    binary main_v172 main_cst_50 main_v173 ((fun x v => Host.reduceAdd x v reducesTo_S320x320x320_S320_d1_2 h_S_) : (⟨S320x320x320, .f32⟩ : BufTy).Contents (Elt F) → (⟨S_, .f32⟩ : BufTy).Contents (Elt F) → (⟨S320, .f32⟩ : BufTy).Contents (Elt F)),
    nullary main_cst_51 (constant S_ .f32 0x3F000000#32),
    unary main_cst_51 main_v174 (broadcastInDim S320 ![] bcast_S_S320 : (⟨S_, .f32⟩ : BufTy).Contents (Elt F) → (⟨S320, .f32⟩ : BufTy).Contents (Elt F)),
    binary main_v174 main_v173 main_v175 (mulf : (⟨S320, .f32⟩ : BufTy).Contents (Elt F) → (⟨S320, .f32⟩ : BufTy).Contents (Elt F) → (⟨S320, .f32⟩ : BufTy).Contents (Elt F)),
    unary main_v175 main_v176 (broadcastInDim S320x1 ![0] bcast_S320_S320x1_0 : (⟨S320, .f32⟩ : BufTy).Contents (Elt F) → (⟨S320x1, .f32⟩ : BufTy).Contents (Elt F)),
    nullary main_cst_52 (constant S_ .f32 0xBF800000#32) ]

/-- The program's first 240 operations. -/
abbrev pre6 : List (HloOp τ sig (Elt F)) := pre5 ++ chunk6

set_option maxHeartbeats 4000000 in
/-- Operations 241–280 of the program, in order. -/
abbrev chunk7 : List (HloOp τ sig (Elt F)) :=
  [ unary main_cst_52 main_v177 (broadcastInDim S320x320x320 ![] bcast_S_S320x320x320 : (⟨S_, .f32⟩ : BufTy).Contents (Elt F) → (⟨S320x320x320, .f32⟩ : BufTy).Contents (Elt F)),
    binary main_v177 main_v140 main_v178 (mulf : (⟨S320x320x320, .f32⟩ : BufTy).Contents (Elt F) → (⟨S320x320x320, .f32⟩ : BufTy).Contents (Elt F) → (⟨S320x320x320, .f32⟩ : BufTy).Contents (Elt F)),
    nullary main_cst_53 (constant S_ .f32 0x3F800000#32),
    unary main_cst_53 main_v179 (broadcastInDim S320x320x320 ![] bcast_S_S320x320x320 : (⟨S_, .f32⟩ : BufTy).Contents (Elt F) → (⟨S320x320x320, .f32⟩ : BufTy).Contents (Elt F)),
    binary main_v179 main_v178 main_v180 (addf : (⟨S320x320x320, .f32⟩ : BufTy).Contents (Elt F) → (⟨S320x320x320, .f32⟩ : BufTy).Contents (Elt F) → (⟨S320x320x320, .f32⟩ : BufTy).Contents (Elt F)),
    nullary main_cst_54 (constant S_ .f32 0x40000000#32),
    unary main_cst_54 main_v181 (broadcastInDim S320x320x320 ![] bcast_S_S320x320x320 : (⟨S_, .f32⟩ : BufTy).Contents (Elt F) → (⟨S320x320x320, .f32⟩ : BufTy).Contents (Elt F)),
    binary main_v180 main_v181 main_v182 (Host.powf : (⟨S320x320x320, .f32⟩ : BufTy).Contents (Elt F) → (⟨S320x320x320, .f32⟩ : BufTy).Contents (Elt F) → (⟨S320x320x320, .f32⟩ : BufTy).Contents (Elt F)),
    nullary main_cst_55 (constant S_ .f32 0xBDCCCCCD#32),
    unary main_cst_55 main_v183 (broadcastInDim S320x320x320 ![] bcast_S_S320x320x320 : (⟨S_, .f32⟩ : BufTy).Contents (Elt F) → (⟨S320x320x320, .f32⟩ : BufTy).Contents (Elt F)),
    binary main_v183 main_v148 main_v184 (mulf : (⟨S320x320x320, .f32⟩ : BufTy).Contents (Elt F) → (⟨S320x320x320, .f32⟩ : BufTy).Contents (Elt F) → (⟨S320x320x320, .f32⟩ : BufTy).Contents (Elt F)),
    unary main_v184 main_v185 (Host.exp : (⟨S320x320x320, .f32⟩ : BufTy).Contents (Elt F) → (⟨S320x320x320, .f32⟩ : BufTy).Contents (Elt F)),
    binary main_v182 main_v185 main_v186 (mulf : (⟨S320x320x320, .f32⟩ : BufTy).Contents (Elt F) → (⟨S320x320x320, .f32⟩ : BufTy).Contents (Elt F) → (⟨S320x320x320, .f32⟩ : BufTy).Contents (Elt F)),
    binary main_v186 main_v161 main_v187 (mulf : (⟨S320x320x320, .f32⟩ : BufTy).Contents (Elt F) → (⟨S320x320x320, .f32⟩ : BufTy).Contents (Elt F) → (⟨S320x320x320, .f32⟩ : BufTy).Contents (Elt F)),
    nullary main_cst_56 (constant S_ .f32 0x00000000#32),
    binary main_v187 main_cst_56 main_v188 ((fun x v => Host.reduceAdd x v reducesTo_S320x320x320_S320_d1_2 h_S_) : (⟨S320x320x320, .f32⟩ : BufTy).Contents (Elt F) → (⟨S_, .f32⟩ : BufTy).Contents (Elt F) → (⟨S320, .f32⟩ : BufTy).Contents (Elt F)),
    nullary main_cst_57 (constant S_ .f32 0x3E800000#32),
    unary main_cst_57 main_v189 (broadcastInDim S320 ![] bcast_S_S320 : (⟨S_, .f32⟩ : BufTy).Contents (Elt F) → (⟨S320, .f32⟩ : BufTy).Contents (Elt F)),
    binary main_v189 main_v188 main_v190 (mulf : (⟨S320, .f32⟩ : BufTy).Contents (Elt F) → (⟨S320, .f32⟩ : BufTy).Contents (Elt F) → (⟨S320, .f32⟩ : BufTy).Contents (Elt F)),
    unary main_v190 main_v191 (broadcastInDim S320x1 ![0] bcast_S320_S320x1_0 : (⟨S320, .f32⟩ : BufTy).Contents (Elt F) → (⟨S320x1, .f32⟩ : BufTy).Contents (Elt F)),
    nullary main_cst_58 (constant S_ .f32 0x3F800000#32),
    unary main_cst_58 main_v192 (broadcastInDim S320x320x320 ![] bcast_S_S320x320x320 : (⟨S_, .f32⟩ : BufTy).Contents (Elt F) → (⟨S320x320x320, .f32⟩ : BufTy).Contents (Elt F)),
    binary main_v192 main_v140 main_v193 (mulf : (⟨S320x320x320, .f32⟩ : BufTy).Contents (Elt F) → (⟨S320x320x320, .f32⟩ : BufTy).Contents (Elt F) → (⟨S320x320x320, .f32⟩ : BufTy).Contents (Elt F)),
    nullary main_cst_59 (constant S_ .f32 0x3F800000#32),
    unary main_cst_59 main_v194 (broadcastInDim S320x320x320 ![] bcast_S_S320x320x320 : (⟨S_, .f32⟩ : BufTy).Contents (Elt F) → (⟨S320x320x320, .f32⟩ : BufTy).Contents (Elt F)),
    binary main_v194 main_v193 main_v195 (addf : (⟨S320x320x320, .f32⟩ : BufTy).Contents (Elt F) → (⟨S320x320x320, .f32⟩ : BufTy).Contents (Elt F) → (⟨S320x320x320, .f32⟩ : BufTy).Contents (Elt F)),
    nullary main_cst_60 (constant S_ .f32 0x40800000#32),
    unary main_cst_60 main_v196 (broadcastInDim S320x320x320 ![] bcast_S_S320x320x320 : (⟨S_, .f32⟩ : BufTy).Contents (Elt F) → (⟨S320x320x320, .f32⟩ : BufTy).Contents (Elt F)),
    binary main_v195 main_v196 main_v197 (Host.powf : (⟨S320x320x320, .f32⟩ : BufTy).Contents (Elt F) → (⟨S320x320x320, .f32⟩ : BufTy).Contents (Elt F) → (⟨S320x320x320, .f32⟩ : BufTy).Contents (Elt F)),
    nullary main_cst_61 (constant S_ .f32 0xBF000000#32),
    unary main_cst_61 main_v198 (broadcastInDim S320x320x320 ![] bcast_S_S320x320x320 : (⟨S_, .f32⟩ : BufTy).Contents (Elt F) → (⟨S320x320x320, .f32⟩ : BufTy).Contents (Elt F)),
    binary main_v198 main_v148 main_v199 (mulf : (⟨S320x320x320, .f32⟩ : BufTy).Contents (Elt F) → (⟨S320x320x320, .f32⟩ : BufTy).Contents (Elt F) → (⟨S320x320x320, .f32⟩ : BufTy).Contents (Elt F)),
    unary main_v199 main_v200 (Host.exp : (⟨S320x320x320, .f32⟩ : BufTy).Contents (Elt F) → (⟨S320x320x320, .f32⟩ : BufTy).Contents (Elt F)),
    binary main_v197 main_v200 main_v201 (mulf : (⟨S320x320x320, .f32⟩ : BufTy).Contents (Elt F) → (⟨S320x320x320, .f32⟩ : BufTy).Contents (Elt F) → (⟨S320x320x320, .f32⟩ : BufTy).Contents (Elt F)),
    binary main_v201 main_v161 main_v202 (mulf : (⟨S320x320x320, .f32⟩ : BufTy).Contents (Elt F) → (⟨S320x320x320, .f32⟩ : BufTy).Contents (Elt F) → (⟨S320x320x320, .f32⟩ : BufTy).Contents (Elt F)),
    nullary main_cst_62 (constant S_ .f32 0x00000000#32),
    binary main_v202 main_cst_62 main_v203 ((fun x v => Host.reduceAdd x v reducesTo_S320x320x320_S320_d1_2 h_S_) : (⟨S320x320x320, .f32⟩ : BufTy).Contents (Elt F) → (⟨S_, .f32⟩ : BufTy).Contents (Elt F) → (⟨S320, .f32⟩ : BufTy).Contents (Elt F)),
    nullary main_cst_63 (constant S_ .f32 0x3D800000#32),
    unary main_cst_63 main_v204 (broadcastInDim S320 ![] bcast_S_S320 : (⟨S_, .f32⟩ : BufTy).Contents (Elt F) → (⟨S320, .f32⟩ : BufTy).Contents (Elt F)),
    binary main_v204 main_v203 main_v205 (mulf : (⟨S320, .f32⟩ : BufTy).Contents (Elt F) → (⟨S320, .f32⟩ : BufTy).Contents (Elt F) → (⟨S320, .f32⟩ : BufTy).Contents (Elt F)) ]

/-- The program's first 280 operations. -/
abbrev pre7 : List (HloOp τ sig (Elt F)) := pre6 ++ chunk7

set_option maxHeartbeats 4000000 in
/-- Operations 281–320 of the program, in order. -/
abbrev chunk8 : List (HloOp τ sig (Elt F)) :=
  [ unary main_v205 main_v206 (broadcastInDim S320x1 ![0] bcast_S320_S320x1_0 : (⟨S320, .f32⟩ : BufTy).Contents (Elt F) → (⟨S320x1, .f32⟩ : BufTy).Contents (Elt F)),
    nullary main_cst_64 (constant S_ .f32 0xBF800000#32),
    unary main_cst_64 main_v207 (broadcastInDim S320x320x320 ![] bcast_S_S320x320x320 : (⟨S_, .f32⟩ : BufTy).Contents (Elt F) → (⟨S320x320x320, .f32⟩ : BufTy).Contents (Elt F)),
    binary main_v207 main_v140 main_v208 (mulf : (⟨S320x320x320, .f32⟩ : BufTy).Contents (Elt F) → (⟨S320x320x320, .f32⟩ : BufTy).Contents (Elt F) → (⟨S320x320x320, .f32⟩ : BufTy).Contents (Elt F)),
    nullary main_cst_65 (constant S_ .f32 0x3F800000#32),
    unary main_cst_65 main_v209 (broadcastInDim S320x320x320 ![] bcast_S_S320x320x320 : (⟨S_, .f32⟩ : BufTy).Contents (Elt F) → (⟨S320x320x320, .f32⟩ : BufTy).Contents (Elt F)),
    binary main_v209 main_v208 main_v210 (addf : (⟨S320x320x320, .f32⟩ : BufTy).Contents (Elt F) → (⟨S320x320x320, .f32⟩ : BufTy).Contents (Elt F) → (⟨S320x320x320, .f32⟩ : BufTy).Contents (Elt F)),
    nullary main_cst_66 (constant S_ .f32 0x40800000#32),
    unary main_cst_66 main_v211 (broadcastInDim S320x320x320 ![] bcast_S_S320x320x320 : (⟨S_, .f32⟩ : BufTy).Contents (Elt F) → (⟨S320x320x320, .f32⟩ : BufTy).Contents (Elt F)),
    binary main_v210 main_v211 main_v212 (Host.powf : (⟨S320x320x320, .f32⟩ : BufTy).Contents (Elt F) → (⟨S320x320x320, .f32⟩ : BufTy).Contents (Elt F) → (⟨S320x320x320, .f32⟩ : BufTy).Contents (Elt F)),
    nullary main_cst_67 (constant S_ .f32 0xBF000000#32),
    unary main_cst_67 main_v213 (broadcastInDim S320x320x320 ![] bcast_S_S320x320x320 : (⟨S_, .f32⟩ : BufTy).Contents (Elt F) → (⟨S320x320x320, .f32⟩ : BufTy).Contents (Elt F)),
    binary main_v213 main_v148 main_v214 (mulf : (⟨S320x320x320, .f32⟩ : BufTy).Contents (Elt F) → (⟨S320x320x320, .f32⟩ : BufTy).Contents (Elt F) → (⟨S320x320x320, .f32⟩ : BufTy).Contents (Elt F)),
    unary main_v214 main_v215 (Host.exp : (⟨S320x320x320, .f32⟩ : BufTy).Contents (Elt F) → (⟨S320x320x320, .f32⟩ : BufTy).Contents (Elt F)),
    binary main_v212 main_v215 main_v216 (mulf : (⟨S320x320x320, .f32⟩ : BufTy).Contents (Elt F) → (⟨S320x320x320, .f32⟩ : BufTy).Contents (Elt F) → (⟨S320x320x320, .f32⟩ : BufTy).Contents (Elt F)),
    binary main_v216 main_v161 main_v217 (mulf : (⟨S320x320x320, .f32⟩ : BufTy).Contents (Elt F) → (⟨S320x320x320, .f32⟩ : BufTy).Contents (Elt F) → (⟨S320x320x320, .f32⟩ : BufTy).Contents (Elt F)),
    nullary main_cst_68 (constant S_ .f32 0x00000000#32),
    binary main_v217 main_cst_68 main_v218 ((fun x v => Host.reduceAdd x v reducesTo_S320x320x320_S320_d1_2 h_S_) : (⟨S320x320x320, .f32⟩ : BufTy).Contents (Elt F) → (⟨S_, .f32⟩ : BufTy).Contents (Elt F) → (⟨S320, .f32⟩ : BufTy).Contents (Elt F)),
    nullary main_cst_69 (constant S_ .f32 0x3D800000#32),
    unary main_cst_69 main_v219 (broadcastInDim S320 ![] bcast_S_S320 : (⟨S_, .f32⟩ : BufTy).Contents (Elt F) → (⟨S320, .f32⟩ : BufTy).Contents (Elt F)),
    binary main_v219 main_v218 main_v220 (mulf : (⟨S320, .f32⟩ : BufTy).Contents (Elt F) → (⟨S320, .f32⟩ : BufTy).Contents (Elt F) → (⟨S320, .f32⟩ : BufTy).Contents (Elt F)),
    unary main_v220 main_v221 (broadcastInDim S320x1 ![0] bcast_S320_S320x1_0 : (⟨S320, .f32⟩ : BufTy).Contents (Elt F) → (⟨S320x1, .f32⟩ : BufTy).Contents (Elt F)),
    nullary main_cst_70 (constant S_ .f32 0x3F800000#32),
    unary main_cst_70 main_v222 (broadcastInDim S320x320x320 ![] bcast_S_S320x320x320 : (⟨S_, .f32⟩ : BufTy).Contents (Elt F) → (⟨S320x320x320, .f32⟩ : BufTy).Contents (Elt F)),
    binary main_v222 main_v140 main_v223 (mulf : (⟨S320x320x320, .f32⟩ : BufTy).Contents (Elt F) → (⟨S320x320x320, .f32⟩ : BufTy).Contents (Elt F) → (⟨S320x320x320, .f32⟩ : BufTy).Contents (Elt F)),
    nullary main_cst_71 (constant S_ .f32 0x3F800000#32),
    unary main_cst_71 main_v224 (broadcastInDim S320x320x320 ![] bcast_S_S320x320x320 : (⟨S_, .f32⟩ : BufTy).Contents (Elt F) → (⟨S320x320x320, .f32⟩ : BufTy).Contents (Elt F)),
    binary main_v224 main_v223 main_v225 (addf : (⟨S320x320x320, .f32⟩ : BufTy).Contents (Elt F) → (⟨S320x320x320, .f32⟩ : BufTy).Contents (Elt F) → (⟨S320x320x320, .f32⟩ : BufTy).Contents (Elt F)),
    nullary main_cst_72 (constant S_ .f32 0x3F800000#32),
    unary main_cst_72 main_v226 (broadcastInDim S320x320x320 ![] bcast_S_S320x320x320 : (⟨S_, .f32⟩ : BufTy).Contents (Elt F) → (⟨S320x320x320, .f32⟩ : BufTy).Contents (Elt F)),
    binary main_v225 main_v226 main_v227 (Host.powf : (⟨S320x320x320, .f32⟩ : BufTy).Contents (Elt F) → (⟨S320x320x320, .f32⟩ : BufTy).Contents (Elt F) → (⟨S320x320x320, .f32⟩ : BufTy).Contents (Elt F)),
    nullary main_cst_73 (constant S_ .f32 0xBDCCCCCD#32),
    unary main_cst_73 main_v228 (broadcastInDim S320x320x320 ![] bcast_S_S320x320x320 : (⟨S_, .f32⟩ : BufTy).Contents (Elt F) → (⟨S320x320x320, .f32⟩ : BufTy).Contents (Elt F)),
    binary main_v228 main_v145 main_v229 (mulf : (⟨S320x320x320, .f32⟩ : BufTy).Contents (Elt F) → (⟨S320x320x320, .f32⟩ : BufTy).Contents (Elt F) → (⟨S320x320x320, .f32⟩ : BufTy).Contents (Elt F)),
    unary main_v229 main_v230 (Host.exp : (⟨S320x320x320, .f32⟩ : BufTy).Contents (Elt F) → (⟨S320x320x320, .f32⟩ : BufTy).Contents (Elt F)),
    binary main_v227 main_v230 main_v231 (mulf : (⟨S320x320x320, .f32⟩ : BufTy).Contents (Elt F) → (⟨S320x320x320, .f32⟩ : BufTy).Contents (Elt F) → (⟨S320x320x320, .f32⟩ : BufTy).Contents (Elt F)),
    binary main_v231 main_v158 main_v232 (mulf : (⟨S320x320x320, .f32⟩ : BufTy).Contents (Elt F) → (⟨S320x320x320, .f32⟩ : BufTy).Contents (Elt F) → (⟨S320x320x320, .f32⟩ : BufTy).Contents (Elt F)),
    nullary main_cst_74 (constant S_ .f32 0x00000000#32),
    binary main_v232 main_cst_74 main_v233 ((fun x v => Host.reduceAdd x v reducesTo_S320x320x320_S320_d1_2 h_S_) : (⟨S320x320x320, .f32⟩ : BufTy).Contents (Elt F) → (⟨S_, .f32⟩ : BufTy).Contents (Elt F) → (⟨S320, .f32⟩ : BufTy).Contents (Elt F)),
    nullary main_cst_75 (constant S_ .f32 0x3F000000#32) ]

/-- The program's first 320 operations. -/
abbrev pre8 : List (HloOp τ sig (Elt F)) := pre7 ++ chunk8

set_option maxHeartbeats 4000000 in
/-- Operations 321–360 of the program, in order. -/
abbrev chunk9 : List (HloOp τ sig (Elt F)) :=
  [ unary main_cst_75 main_v234 (broadcastInDim S320 ![] bcast_S_S320 : (⟨S_, .f32⟩ : BufTy).Contents (Elt F) → (⟨S320, .f32⟩ : BufTy).Contents (Elt F)),
    binary main_v234 main_v233 main_v235 (mulf : (⟨S320, .f32⟩ : BufTy).Contents (Elt F) → (⟨S320, .f32⟩ : BufTy).Contents (Elt F) → (⟨S320, .f32⟩ : BufTy).Contents (Elt F)),
    unary main_v235 main_v236 (broadcastInDim S320x1 ![0] bcast_S320_S320x1_0 : (⟨S320, .f32⟩ : BufTy).Contents (Elt F) → (⟨S320x1, .f32⟩ : BufTy).Contents (Elt F)),
    nullary main_cst_76 (constant S_ .f32 0xBF800000#32),
    unary main_cst_76 main_v237 (broadcastInDim S320x320x320 ![] bcast_S_S320x320x320 : (⟨S_, .f32⟩ : BufTy).Contents (Elt F) → (⟨S320x320x320, .f32⟩ : BufTy).Contents (Elt F)),
    binary main_v237 main_v140 main_v238 (mulf : (⟨S320x320x320, .f32⟩ : BufTy).Contents (Elt F) → (⟨S320x320x320, .f32⟩ : BufTy).Contents (Elt F) → (⟨S320x320x320, .f32⟩ : BufTy).Contents (Elt F)),
    nullary main_cst_77 (constant S_ .f32 0x3F800000#32),
    unary main_cst_77 main_v239 (broadcastInDim S320x320x320 ![] bcast_S_S320x320x320 : (⟨S_, .f32⟩ : BufTy).Contents (Elt F) → (⟨S320x320x320, .f32⟩ : BufTy).Contents (Elt F)),
    binary main_v239 main_v238 main_v240 (addf : (⟨S320x320x320, .f32⟩ : BufTy).Contents (Elt F) → (⟨S320x320x320, .f32⟩ : BufTy).Contents (Elt F) → (⟨S320x320x320, .f32⟩ : BufTy).Contents (Elt F)),
    nullary main_cst_78 (constant S_ .f32 0x40000000#32),
    unary main_cst_78 main_v241 (broadcastInDim S320x320x320 ![] bcast_S_S320x320x320 : (⟨S_, .f32⟩ : BufTy).Contents (Elt F) → (⟨S320x320x320, .f32⟩ : BufTy).Contents (Elt F)),
    binary main_v240 main_v241 main_v242 (Host.powf : (⟨S320x320x320, .f32⟩ : BufTy).Contents (Elt F) → (⟨S320x320x320, .f32⟩ : BufTy).Contents (Elt F) → (⟨S320x320x320, .f32⟩ : BufTy).Contents (Elt F)),
    nullary main_cst_79 (constant S_ .f32 0xBDCCCCCD#32),
    unary main_cst_79 main_v243 (broadcastInDim S320x320x320 ![] bcast_S_S320x320x320 : (⟨S_, .f32⟩ : BufTy).Contents (Elt F) → (⟨S320x320x320, .f32⟩ : BufTy).Contents (Elt F)),
    binary main_v243 main_v145 main_v244 (mulf : (⟨S320x320x320, .f32⟩ : BufTy).Contents (Elt F) → (⟨S320x320x320, .f32⟩ : BufTy).Contents (Elt F) → (⟨S320x320x320, .f32⟩ : BufTy).Contents (Elt F)),
    unary main_v244 main_v245 (Host.exp : (⟨S320x320x320, .f32⟩ : BufTy).Contents (Elt F) → (⟨S320x320x320, .f32⟩ : BufTy).Contents (Elt F)),
    binary main_v242 main_v245 main_v246 (mulf : (⟨S320x320x320, .f32⟩ : BufTy).Contents (Elt F) → (⟨S320x320x320, .f32⟩ : BufTy).Contents (Elt F) → (⟨S320x320x320, .f32⟩ : BufTy).Contents (Elt F)),
    binary main_v246 main_v158 main_v247 (mulf : (⟨S320x320x320, .f32⟩ : BufTy).Contents (Elt F) → (⟨S320x320x320, .f32⟩ : BufTy).Contents (Elt F) → (⟨S320x320x320, .f32⟩ : BufTy).Contents (Elt F)),
    nullary main_cst_80 (constant S_ .f32 0x00000000#32),
    binary main_v247 main_cst_80 main_v248 ((fun x v => Host.reduceAdd x v reducesTo_S320x320x320_S320_d1_2 h_S_) : (⟨S320x320x320, .f32⟩ : BufTy).Contents (Elt F) → (⟨S_, .f32⟩ : BufTy).Contents (Elt F) → (⟨S320, .f32⟩ : BufTy).Contents (Elt F)),
    nullary main_cst_81 (constant S_ .f32 0x3E800000#32),
    unary main_cst_81 main_v249 (broadcastInDim S320 ![] bcast_S_S320 : (⟨S_, .f32⟩ : BufTy).Contents (Elt F) → (⟨S320, .f32⟩ : BufTy).Contents (Elt F)),
    binary main_v249 main_v248 main_v250 (mulf : (⟨S320, .f32⟩ : BufTy).Contents (Elt F) → (⟨S320, .f32⟩ : BufTy).Contents (Elt F) → (⟨S320, .f32⟩ : BufTy).Contents (Elt F)),
    unary main_v250 main_v251 (broadcastInDim S320x1 ![0] bcast_S320_S320x1_0 : (⟨S320, .f32⟩ : BufTy).Contents (Elt F) → (⟨S320x1, .f32⟩ : BufTy).Contents (Elt F)),
    nullary main_cst_82 (constant S_ .f32 0x3F800000#32),
    unary main_cst_82 main_v252 (broadcastInDim S320x320x320 ![] bcast_S_S320x320x320 : (⟨S_, .f32⟩ : BufTy).Contents (Elt F) → (⟨S320x320x320, .f32⟩ : BufTy).Contents (Elt F)),
    binary main_v252 main_v140 main_v253 (mulf : (⟨S320x320x320, .f32⟩ : BufTy).Contents (Elt F) → (⟨S320x320x320, .f32⟩ : BufTy).Contents (Elt F) → (⟨S320x320x320, .f32⟩ : BufTy).Contents (Elt F)),
    nullary main_cst_83 (constant S_ .f32 0x3F800000#32),
    unary main_cst_83 main_v254 (broadcastInDim S320x320x320 ![] bcast_S_S320x320x320 : (⟨S_, .f32⟩ : BufTy).Contents (Elt F) → (⟨S320x320x320, .f32⟩ : BufTy).Contents (Elt F)),
    binary main_v254 main_v253 main_v255 (addf : (⟨S320x320x320, .f32⟩ : BufTy).Contents (Elt F) → (⟨S320x320x320, .f32⟩ : BufTy).Contents (Elt F) → (⟨S320x320x320, .f32⟩ : BufTy).Contents (Elt F)),
    nullary main_cst_84 (constant S_ .f32 0x40800000#32),
    unary main_cst_84 main_v256 (broadcastInDim S320x320x320 ![] bcast_S_S320x320x320 : (⟨S_, .f32⟩ : BufTy).Contents (Elt F) → (⟨S320x320x320, .f32⟩ : BufTy).Contents (Elt F)),
    binary main_v255 main_v256 main_v257 (Host.powf : (⟨S320x320x320, .f32⟩ : BufTy).Contents (Elt F) → (⟨S320x320x320, .f32⟩ : BufTy).Contents (Elt F) → (⟨S320x320x320, .f32⟩ : BufTy).Contents (Elt F)),
    nullary main_cst_85 (constant S_ .f32 0xBF000000#32),
    unary main_cst_85 main_v258 (broadcastInDim S320x320x320 ![] bcast_S_S320x320x320 : (⟨S_, .f32⟩ : BufTy).Contents (Elt F) → (⟨S320x320x320, .f32⟩ : BufTy).Contents (Elt F)),
    binary main_v258 main_v145 main_v259 (mulf : (⟨S320x320x320, .f32⟩ : BufTy).Contents (Elt F) → (⟨S320x320x320, .f32⟩ : BufTy).Contents (Elt F) → (⟨S320x320x320, .f32⟩ : BufTy).Contents (Elt F)),
    unary main_v259 main_v260 (Host.exp : (⟨S320x320x320, .f32⟩ : BufTy).Contents (Elt F) → (⟨S320x320x320, .f32⟩ : BufTy).Contents (Elt F)),
    binary main_v257 main_v260 main_v261 (mulf : (⟨S320x320x320, .f32⟩ : BufTy).Contents (Elt F) → (⟨S320x320x320, .f32⟩ : BufTy).Contents (Elt F) → (⟨S320x320x320, .f32⟩ : BufTy).Contents (Elt F)),
    binary main_v261 main_v158 main_v262 (mulf : (⟨S320x320x320, .f32⟩ : BufTy).Contents (Elt F) → (⟨S320x320x320, .f32⟩ : BufTy).Contents (Elt F) → (⟨S320x320x320, .f32⟩ : BufTy).Contents (Elt F)),
    nullary main_cst_86 (constant S_ .f32 0x00000000#32) ]

/-- The program's first 360 operations. -/
abbrev pre9 : List (HloOp τ sig (Elt F)) := pre8 ++ chunk9

set_option maxHeartbeats 4000000 in
/-- Operations 361–386 of the program, in order. -/
abbrev chunk10 : List (HloOp τ sig (Elt F)) :=
  [ binary main_v262 main_cst_86 main_v263 ((fun x v => Host.reduceAdd x v reducesTo_S320x320x320_S320_d1_2 h_S_) : (⟨S320x320x320, .f32⟩ : BufTy).Contents (Elt F) → (⟨S_, .f32⟩ : BufTy).Contents (Elt F) → (⟨S320, .f32⟩ : BufTy).Contents (Elt F)),
    nullary main_cst_87 (constant S_ .f32 0x3D800000#32),
    unary main_cst_87 main_v264 (broadcastInDim S320 ![] bcast_S_S320 : (⟨S_, .f32⟩ : BufTy).Contents (Elt F) → (⟨S320, .f32⟩ : BufTy).Contents (Elt F)),
    binary main_v264 main_v263 main_v265 (mulf : (⟨S320, .f32⟩ : BufTy).Contents (Elt F) → (⟨S320, .f32⟩ : BufTy).Contents (Elt F) → (⟨S320, .f32⟩ : BufTy).Contents (Elt F)),
    unary main_v265 main_v266 (broadcastInDim S320x1 ![0] bcast_S320_S320x1_0 : (⟨S320, .f32⟩ : BufTy).Contents (Elt F) → (⟨S320x1, .f32⟩ : BufTy).Contents (Elt F)),
    nullary main_cst_88 (constant S_ .f32 0xBF800000#32),
    unary main_cst_88 main_v267 (broadcastInDim S320x320x320 ![] bcast_S_S320x320x320 : (⟨S_, .f32⟩ : BufTy).Contents (Elt F) → (⟨S320x320x320, .f32⟩ : BufTy).Contents (Elt F)),
    binary main_v267 main_v140 main_v268 (mulf : (⟨S320x320x320, .f32⟩ : BufTy).Contents (Elt F) → (⟨S320x320x320, .f32⟩ : BufTy).Contents (Elt F) → (⟨S320x320x320, .f32⟩ : BufTy).Contents (Elt F)),
    nullary main_cst_89 (constant S_ .f32 0x3F800000#32),
    unary main_cst_89 main_v269 (broadcastInDim S320x320x320 ![] bcast_S_S320x320x320 : (⟨S_, .f32⟩ : BufTy).Contents (Elt F) → (⟨S320x320x320, .f32⟩ : BufTy).Contents (Elt F)),
    binary main_v269 main_v268 main_v270 (addf : (⟨S320x320x320, .f32⟩ : BufTy).Contents (Elt F) → (⟨S320x320x320, .f32⟩ : BufTy).Contents (Elt F) → (⟨S320x320x320, .f32⟩ : BufTy).Contents (Elt F)),
    nullary main_cst_90 (constant S_ .f32 0x40800000#32),
    unary main_cst_90 main_v271 (broadcastInDim S320x320x320 ![] bcast_S_S320x320x320 : (⟨S_, .f32⟩ : BufTy).Contents (Elt F) → (⟨S320x320x320, .f32⟩ : BufTy).Contents (Elt F)),
    binary main_v270 main_v271 main_v272 (Host.powf : (⟨S320x320x320, .f32⟩ : BufTy).Contents (Elt F) → (⟨S320x320x320, .f32⟩ : BufTy).Contents (Elt F) → (⟨S320x320x320, .f32⟩ : BufTy).Contents (Elt F)),
    nullary main_cst_91 (constant S_ .f32 0xBF000000#32),
    unary main_cst_91 main_v273 (broadcastInDim S320x320x320 ![] bcast_S_S320x320x320 : (⟨S_, .f32⟩ : BufTy).Contents (Elt F) → (⟨S320x320x320, .f32⟩ : BufTy).Contents (Elt F)),
    binary main_v273 main_v145 main_v274 (mulf : (⟨S320x320x320, .f32⟩ : BufTy).Contents (Elt F) → (⟨S320x320x320, .f32⟩ : BufTy).Contents (Elt F) → (⟨S320x320x320, .f32⟩ : BufTy).Contents (Elt F)),
    unary main_v274 main_v275 (Host.exp : (⟨S320x320x320, .f32⟩ : BufTy).Contents (Elt F) → (⟨S320x320x320, .f32⟩ : BufTy).Contents (Elt F)),
    binary main_v272 main_v275 main_v276 (mulf : (⟨S320x320x320, .f32⟩ : BufTy).Contents (Elt F) → (⟨S320x320x320, .f32⟩ : BufTy).Contents (Elt F) → (⟨S320x320x320, .f32⟩ : BufTy).Contents (Elt F)),
    binary main_v276 main_v158 main_v277 (mulf : (⟨S320x320x320, .f32⟩ : BufTy).Contents (Elt F) → (⟨S320x320x320, .f32⟩ : BufTy).Contents (Elt F) → (⟨S320x320x320, .f32⟩ : BufTy).Contents (Elt F)),
    nullary main_cst_92 (constant S_ .f32 0x00000000#32),
    binary main_v277 main_cst_92 main_v278 ((fun x v => Host.reduceAdd x v reducesTo_S320x320x320_S320_d1_2 h_S_) : (⟨S320x320x320, .f32⟩ : BufTy).Contents (Elt F) → (⟨S_, .f32⟩ : BufTy).Contents (Elt F) → (⟨S320, .f32⟩ : BufTy).Contents (Elt F)),
    nullary main_cst_93 (constant S_ .f32 0x3D800000#32),
    unary main_cst_93 main_v279 (broadcastInDim S320 ![] bcast_S_S320 : (⟨S_, .f32⟩ : BufTy).Contents (Elt F) → (⟨S320, .f32⟩ : BufTy).Contents (Elt F)),
    binary main_v279 main_v278 main_v280 (mulf : (⟨S320, .f32⟩ : BufTy).Contents (Elt F) → (⟨S320, .f32⟩ : BufTy).Contents (Elt F) → (⟨S320, .f32⟩ : BufTy).Contents (Elt F)),
    unary main_v280 main_v281 (broadcastInDim S320x1 ![0] bcast_S320_S320x1_0 : (⟨S320, .f32⟩ : BufTy).Contents (Elt F) → (⟨S320x1, .f32⟩ : BufTy).Contents (Elt F)) ]

/-- The program's first 386 operations. -/
abbrev pre10 : List (HloOp τ sig (Elt F)) := pre9 ++ chunk10

set_option maxHeartbeats 4000000 in
/-- Operations 387–389 of the program, in order. -/
abbrev chunk11 : List (HloOp τ sig (Elt F)) :=
  [ nary ![main_arg0, main_v34, main_v43, main_v52, main_v61, main_v70, main_v79, main_v88, main_v97, main_v106, main_v112, main_v118, main_v124, main_v130, main_v176, main_v191] main_v282 (fun u => concatenate S320x16 1 [⟨S320x1, u 0⟩, ⟨S320x1, u 1⟩, ⟨S320x1, u 2⟩, ⟨S320x1, u 3⟩, ⟨S320x1, u 4⟩, ⟨S320x1, u 5⟩, ⟨S320x1, u 6⟩, ⟨S320x1, u 7⟩, ⟨S320x1, u 8⟩, ⟨S320x1, u 9⟩, ⟨S320x1, u 10⟩, ⟨S320x1, u 11⟩, ⟨S320x1, u 12⟩, ⟨S320x1, u 13⟩, ⟨S320x1, u 14⟩, ⟨S320x1, u 15⟩] concatenates_S320x1_S320x1_S320x1_S320x1_S320x1_S320x1_S320x1_S320x1_S320x1_S320x1_S320x1_S320x1_S320x1_S320x1_S320x1_S320x1_S320x16_d1),
    nary ![main_v206, main_v221, main_v236, main_v251, main_v266, main_v281] main_v283 (fun u => concatenate S320x6 1 [⟨S320x1, u 0⟩, ⟨S320x1, u 1⟩, ⟨S320x1, u 2⟩, ⟨S320x1, u 3⟩, ⟨S320x1, u 4⟩, ⟨S320x1, u 5⟩] concatenates_S320x1_S320x1_S320x1_S320x1_S320x1_S320x1_S320x6_d1),
    binary main_v282 main_v283 main_v284 ((fun a b => concatenate S320x22 1 [⟨S320x16, a⟩, ⟨S320x6, b⟩] concatenates_S320x16_S320x6_S320x22_d1) : (⟨S320x16, .f32⟩ : BufTy).Contents (Elt F) → (⟨S320x6, .f32⟩ : BufTy).Contents (Elt F) → (⟨S320x22, .f32⟩ : BufTy).Contents (Elt F)) ]

/-- The program's first 389 operations. -/
abbrev pre11 : List (HloOp τ sig (Elt F)) := pre10 ++ chunk11

/-! ## After the first 40 operations -/

set_option maxHeartbeats 4000000 in
theorem f1_main_v26 (V : Valuation τ sig (Elt F)) :
    after pre1 V (Proc.devRef .tc main_v26) = Cert.ReferenceIdeal.ReadP.val_main_v26 (F := F) (V (Proc.devRef .tc main_arg1)) := by
  after_results_simp <;> rfl

set_option maxHeartbeats 4000000 in
theorem f1_main_v19 (V : Valuation τ sig (Elt F)) :
    after pre1 V (Proc.devRef .tc main_v19) = Cert.ReferenceIdeal.ReadP.val_main_v19 (F := F) (V (Proc.devRef .tc main_arg1)) := by
  after_results_simp <;> rfl

set_option maxHeartbeats 4000000 in
theorem f1_main_v17 (V : Valuation τ sig (Elt F)) :
    after pre1 V (Proc.devRef .tc main_v17) = Cert.ReferenceIdeal.ReadP.val_main_v17 (F := F) := by
  after_results_simp <;> rfl

set_option maxHeartbeats 4000000 in
theorem f1_main_v11 (V : Valuation τ sig (Elt F)) :
    after pre1 V (Proc.devRef .tc main_v11) = Cert.ReferenceIdeal.ReadP.val_main_v11 (F := F) (V (Proc.devRef .tc main_arg1)) := by
  after_results_simp <;> rfl

set_option maxHeartbeats 4000000 in
theorem f1_main_v4 (V : Valuation τ sig (Elt F)) :
    after pre1 V (Proc.devRef .tc main_v4) = Cert.ReferenceIdeal.ReadP.val_main_v4 (F := F) (V (Proc.devRef .tc main_arg1)) := by
  after_results_simp <;> rfl

set_option maxHeartbeats 4000000 in
theorem f1_main_v6 (V : Valuation τ sig (Elt F)) :
    after pre1 V (Proc.devRef .tc main_v6) = Cert.ReferenceIdeal.ReadP.val_main_v6 (F := F) (V (Proc.devRef .tc main_arg1)) := by
  after_results_simp <;> rfl

set_option maxHeartbeats 4000000 in
theorem f1_main_arg0 (V : Valuation τ sig (Elt F)) :
    after pre1 V (Proc.devRef .tc main_arg0) = V (Proc.devRef .tc main_arg0) := by
  exact after_of_forall_not_mem chunk1 V (List.forall_iff_forall_mem.mp (by
    simp only [chunk1, List.Forall, nullary_writes, unary_writes, binary_writes, ternary_writes, nary_writes, Finset.mem_singleton]
    repeat' apply And.intro
    all_goals exact devRef_ne_of_ne (by decide)))

set_option maxHeartbeats 4000000 in
theorem f1_main_arg1 (V : Valuation τ sig (Elt F)) :
    after pre1 V (Proc.devRef .tc main_arg1) = V (Proc.devRef .tc main_arg1) := by
  exact after_of_forall_not_mem chunk1 V (List.forall_iff_forall_mem.mp (by
    simp only [chunk1, List.Forall, nullary_writes, unary_writes, binary_writes, ternary_writes, nary_writes, Finset.mem_singleton]
    repeat' apply And.intro
    all_goals exact devRef_ne_of_ne (by decide)))

/-! ## After the first 80 operations -/

set_option maxHeartbeats 4000000 in
theorem f2_main_v11 (V : Valuation τ sig (Elt F)) :
    after pre2 V (Proc.devRef .tc main_v11) = Cert.ReferenceIdeal.ReadP.val_main_v11 (F := F) (V (Proc.devRef .tc main_arg1)) := by
  show after (pre1 ++ chunk2) V _ = _
  rw [after_app, after_of_forall_not_mem chunk2 _ (List.forall_iff_forall_mem.mp (by
    simp only [chunk2, List.Forall, nullary_writes, unary_writes, binary_writes, ternary_writes, nary_writes, Finset.mem_singleton]
    repeat' apply And.intro
    all_goals exact devRef_ne_of_ne (by decide)))]
  exact f1_main_v11 V

set_option maxHeartbeats 4000000 in
theorem f2_main_v53 (V : Valuation τ sig (Elt F)) :
    after pre2 V (Proc.devRef .tc main_v53) = Cert.ReferenceIdeal.ReadP.val_main_v53 (F := F) := by
  show after (pre1 ++ chunk2) V _ = _
  rw [after_app]
  have h0 := f1_main_v26 V
  have h1 := f1_main_v19 V
  have h2 := f1_main_v17 V
  have h3 := f1_main_v11 V
  generalize after pre1 V = W at h0 h1 h2 h3 ⊢
  after_results_simp <;> (try simp only [h0, h1, h2, h3]) <;> rfl

set_option maxHeartbeats 4000000 in
theorem f2_main_v32 (V : Valuation τ sig (Elt F)) :
    after pre2 V (Proc.devRef .tc main_v32) = Cert.ReferenceIdeal.ReadP.val_main_v32 (F := F) (V (Proc.devRef .tc main_arg1)) := by
  show after (pre1 ++ chunk2) V _ = _
  rw [after_app]
  have h0 := f1_main_v26 V
  have h1 := f1_main_v19 V
  have h2 := f1_main_v17 V
  have h3 := f1_main_v11 V
  generalize after pre1 V = W at h0 h1 h2 h3 ⊢
  after_results_simp <;> (try simp only [h0, h1, h2, h3]) <;> rfl

set_option maxHeartbeats 4000000 in
theorem f2_main_v4 (V : Valuation τ sig (Elt F)) :
    after pre2 V (Proc.devRef .tc main_v4) = Cert.ReferenceIdeal.ReadP.val_main_v4 (F := F) (V (Proc.devRef .tc main_arg1)) := by
  show after (pre1 ++ chunk2) V _ = _
  rw [after_app, after_of_forall_not_mem chunk2 _ (List.forall_iff_forall_mem.mp (by
    simp only [chunk2, List.Forall, nullary_writes, unary_writes, binary_writes, ternary_writes, nary_writes, Finset.mem_singleton]
    repeat' apply And.intro
    all_goals exact devRef_ne_of_ne (by decide)))]
  exact f1_main_v4 V

set_option maxHeartbeats 4000000 in
theorem f2_main_v6 (V : Valuation τ sig (Elt F)) :
    after pre2 V (Proc.devRef .tc main_v6) = Cert.ReferenceIdeal.ReadP.val_main_v6 (F := F) (V (Proc.devRef .tc main_arg1)) := by
  show after (pre1 ++ chunk2) V _ = _
  rw [after_app, after_of_forall_not_mem chunk2 _ (List.forall_iff_forall_mem.mp (by
    simp only [chunk2, List.Forall, nullary_writes, unary_writes, binary_writes, ternary_writes, nary_writes, Finset.mem_singleton]
    repeat' apply And.intro
    all_goals exact devRef_ne_of_ne (by decide)))]
  exact f1_main_v6 V

set_option maxHeartbeats 4000000 in
theorem f2_main_v17 (V : Valuation τ sig (Elt F)) :
    after pre2 V (Proc.devRef .tc main_v17) = Cert.ReferenceIdeal.ReadP.val_main_v17 (F := F) := by
  show after (pre1 ++ chunk2) V _ = _
  rw [after_app, after_of_forall_not_mem chunk2 _ (List.forall_iff_forall_mem.mp (by
    simp only [chunk2, List.Forall, nullary_writes, unary_writes, binary_writes, ternary_writes, nary_writes, Finset.mem_singleton]
    repeat' apply And.intro
    all_goals exact devRef_ne_of_ne (by decide)))]
  exact f1_main_v17 V

set_option maxHeartbeats 4000000 in
theorem f2_main_arg0 (V : Valuation τ sig (Elt F)) :
    after pre2 V (Proc.devRef .tc main_arg0) = V (Proc.devRef .tc main_arg0) := by
  show after (pre1 ++ chunk2) V _ = _
  rw [after_app, after_of_forall_not_mem chunk2 _ (List.forall_iff_forall_mem.mp (by
    simp only [chunk2, List.Forall, nullary_writes, unary_writes, binary_writes, ternary_writes, nary_writes, Finset.mem_singleton]
    repeat' apply And.intro
    all_goals exact devRef_ne_of_ne (by decide)))]
  exact f1_main_arg0 V

set_option maxHeartbeats 4000000 in
theorem f2_main_v34 (V : Valuation τ sig (Elt F)) :
    after pre2 V (Proc.devRef .tc main_v34) = Cert.ReferenceIdeal.ReadP.val_main_v34 (F := F) (V (Proc.devRef .tc main_arg1)) := by
  show after (pre1 ++ chunk2) V _ = _
  rw [after_app]
  have h0 := f1_main_v26 V
  have h1 := f1_main_v19 V
  have h2 := f1_main_v17 V
  have h3 := f1_main_v11 V
  generalize after pre1 V = W at h0 h1 h2 h3 ⊢
  after_results_simp <;> (try simp only [h0, h1, h2, h3]) <;> rfl

set_option maxHeartbeats 4000000 in
theorem f2_main_v43 (V : Valuation τ sig (Elt F)) :
    after pre2 V (Proc.devRef .tc main_v43) = Cert.ReferenceIdeal.ReadP.val_main_v43 (F := F) (V (Proc.devRef .tc main_arg1)) := by
  show after (pre1 ++ chunk2) V _ = _
  rw [after_app]
  have h0 := f1_main_v26 V
  have h1 := f1_main_v19 V
  have h2 := f1_main_v17 V
  have h3 := f1_main_v11 V
  generalize after pre1 V = W at h0 h1 h2 h3 ⊢
  after_results_simp <;> (try simp only [h0, h1, h2, h3]) <;> rfl

set_option maxHeartbeats 4000000 in
theorem f2_main_v52 (V : Valuation τ sig (Elt F)) :
    after pre2 V (Proc.devRef .tc main_v52) = Cert.ReferenceIdeal.ReadP.val_main_v52 (F := F) (V (Proc.devRef .tc main_arg1)) := by
  show after (pre1 ++ chunk2) V _ = _
  rw [after_app]
  have h0 := f1_main_v26 V
  have h1 := f1_main_v19 V
  have h2 := f1_main_v17 V
  have h3 := f1_main_v11 V
  generalize after pre1 V = W at h0 h1 h2 h3 ⊢
  after_results_simp <;> (try simp only [h0, h1, h2, h3]) <;> rfl

set_option maxHeartbeats 4000000 in
theorem f2_main_arg1 (V : Valuation τ sig (Elt F)) :
    after pre2 V (Proc.devRef .tc main_arg1) = V (Proc.devRef .tc main_arg1) := by
  show after (pre1 ++ chunk2) V _ = _
  rw [after_app, after_of_forall_not_mem chunk2 _ (List.forall_iff_forall_mem.mp (by
    simp only [chunk2, List.Forall, nullary_writes, unary_writes, binary_writes, ternary_writes, nary_writes, Finset.mem_singleton]
    repeat' apply And.intro
    all_goals exact devRef_ne_of_ne (by decide)))]
  exact f1_main_arg1 V

/-! ## After the first 120 operations -/

set_option maxHeartbeats 4000000 in
theorem f3_main_v83 (V : Valuation τ sig (Elt F)) :
    after pre3 V (Proc.devRef .tc main_v83) = Cert.ReferenceIdeal.ReadP.val_main_v83 (F := F) := by
  show after (pre2 ++ chunk3) V _ = _
  rw [after_app]
  have h0 := f2_main_v11 V
  have h1 := f2_main_v53 V
  have h2 := f2_main_v32 V
  generalize after pre2 V = W at h0 h1 h2 ⊢
  after_results_simp <;> (try simp only [h0, h1, h2]) <;> rfl

set_option maxHeartbeats 4000000 in
theorem f3_main_v82 (V : Valuation τ sig (Elt F)) :
    after pre3 V (Proc.devRef .tc main_v82) = Cert.ReferenceIdeal.ReadP.val_main_v82 (F := F) (V (Proc.devRef .tc main_arg1)) := by
  show after (pre2 ++ chunk3) V _ = _
  rw [after_app]
  have h0 := f2_main_v11 V
  have h1 := f2_main_v53 V
  have h2 := f2_main_v32 V
  generalize after pre2 V = W at h0 h1 h2 ⊢
  after_results_simp <;> (try simp only [h0, h1, h2]) <;> rfl

set_option maxHeartbeats 4000000 in
theorem f3_main_v32 (V : Valuation τ sig (Elt F)) :
    after pre3 V (Proc.devRef .tc main_v32) = Cert.ReferenceIdeal.ReadP.val_main_v32 (F := F) (V (Proc.devRef .tc main_arg1)) := by
  show after (pre2 ++ chunk3) V _ = _
  rw [after_app, after_of_forall_not_mem chunk3 _ (List.forall_iff_forall_mem.mp (by
    simp only [chunk3, List.Forall, nullary_writes, unary_writes, binary_writes, ternary_writes, nary_writes, Finset.mem_singleton]
    repeat' apply And.intro
    all_goals exact devRef_ne_of_ne (by decide)))]
  exact f2_main_v32 V

set_option maxHeartbeats 4000000 in
theorem f3_main_v11 (V : Valuation τ sig (Elt F)) :
    after pre3 V (Proc.devRef .tc main_v11) = Cert.ReferenceIdeal.ReadP.val_main_v11 (F := F) (V (Proc.devRef .tc main_arg1)) := by
  show after (pre2 ++ chunk3) V _ = _
  rw [after_app, after_of_forall_not_mem chunk3 _ (List.forall_iff_forall_mem.mp (by
    simp only [chunk3, List.Forall, nullary_writes, unary_writes, binary_writes, ternary_writes, nary_writes, Finset.mem_singleton]
    repeat' apply And.intro
    all_goals exact devRef_ne_of_ne (by decide)))]
  exact f2_main_v11 V

set_option maxHeartbeats 4000000 in
theorem f3_main_v4 (V : Valuation τ sig (Elt F)) :
    after pre3 V (Proc.devRef .tc main_v4) = Cert.ReferenceIdeal.ReadP.val_main_v4 (F := F) (V (Proc.devRef .tc main_arg1)) := by
  show after (pre2 ++ chunk3) V _ = _
  rw [after_app, after_of_forall_not_mem chunk3 _ (List.forall_iff_forall_mem.mp (by
    simp only [chunk3, List.Forall, nullary_writes, unary_writes, binary_writes, ternary_writes, nary_writes, Finset.mem_singleton]
    repeat' apply And.intro
    all_goals exact devRef_ne_of_ne (by decide)))]
  exact f2_main_v4 V

set_option maxHeartbeats 4000000 in
theorem f3_main_v6 (V : Valuation τ sig (Elt F)) :
    after pre3 V (Proc.devRef .tc main_v6) = Cert.ReferenceIdeal.ReadP.val_main_v6 (F := F) (V (Proc.devRef .tc main_arg1)) := by
  show after (pre2 ++ chunk3) V _ = _
  rw [after_app, after_of_forall_not_mem chunk3 _ (List.forall_iff_forall_mem.mp (by
    simp only [chunk3, List.Forall, nullary_writes, unary_writes, binary_writes, ternary_writes, nary_writes, Finset.mem_singleton]
    repeat' apply And.intro
    all_goals exact devRef_ne_of_ne (by decide)))]
  exact f2_main_v6 V

set_option maxHeartbeats 4000000 in
theorem f3_main_v17 (V : Valuation τ sig (Elt F)) :
    after pre3 V (Proc.devRef .tc main_v17) = Cert.ReferenceIdeal.ReadP.val_main_v17 (F := F) := by
  show after (pre2 ++ chunk3) V _ = _
  rw [after_app, after_of_forall_not_mem chunk3 _ (List.forall_iff_forall_mem.mp (by
    simp only [chunk3, List.Forall, nullary_writes, unary_writes, binary_writes, ternary_writes, nary_writes, Finset.mem_singleton]
    repeat' apply And.intro
    all_goals exact devRef_ne_of_ne (by decide)))]
  exact f2_main_v17 V

set_option maxHeartbeats 4000000 in
theorem f3_main_arg0 (V : Valuation τ sig (Elt F)) :
    after pre3 V (Proc.devRef .tc main_arg0) = V (Proc.devRef .tc main_arg0) := by
  show after (pre2 ++ chunk3) V _ = _
  rw [after_app, after_of_forall_not_mem chunk3 _ (List.forall_iff_forall_mem.mp (by
    simp only [chunk3, List.Forall, nullary_writes, unary_writes, binary_writes, ternary_writes, nary_writes, Finset.mem_singleton]
    repeat' apply And.intro
    all_goals exact devRef_ne_of_ne (by decide)))]
  exact f2_main_arg0 V

set_option maxHeartbeats 4000000 in
theorem f3_main_v34 (V : Valuation τ sig (Elt F)) :
    after pre3 V (Proc.devRef .tc main_v34) = Cert.ReferenceIdeal.ReadP.val_main_v34 (F := F) (V (Proc.devRef .tc main_arg1)) := by
  show after (pre2 ++ chunk3) V _ = _
  rw [after_app, after_of_forall_not_mem chunk3 _ (List.forall_iff_forall_mem.mp (by
    simp only [chunk3, List.Forall, nullary_writes, unary_writes, binary_writes, ternary_writes, nary_writes, Finset.mem_singleton]
    repeat' apply And.intro
    all_goals exact devRef_ne_of_ne (by decide)))]
  exact f2_main_v34 V

set_option maxHeartbeats 4000000 in
theorem f3_main_v43 (V : Valuation τ sig (Elt F)) :
    after pre3 V (Proc.devRef .tc main_v43) = Cert.ReferenceIdeal.ReadP.val_main_v43 (F := F) (V (Proc.devRef .tc main_arg1)) := by
  show after (pre2 ++ chunk3) V _ = _
  rw [after_app, after_of_forall_not_mem chunk3 _ (List.forall_iff_forall_mem.mp (by
    simp only [chunk3, List.Forall, nullary_writes, unary_writes, binary_writes, ternary_writes, nary_writes, Finset.mem_singleton]
    repeat' apply And.intro
    all_goals exact devRef_ne_of_ne (by decide)))]
  exact f2_main_v43 V

set_option maxHeartbeats 4000000 in
theorem f3_main_v52 (V : Valuation τ sig (Elt F)) :
    after pre3 V (Proc.devRef .tc main_v52) = Cert.ReferenceIdeal.ReadP.val_main_v52 (F := F) (V (Proc.devRef .tc main_arg1)) := by
  show after (pre2 ++ chunk3) V _ = _
  rw [after_app, after_of_forall_not_mem chunk3 _ (List.forall_iff_forall_mem.mp (by
    simp only [chunk3, List.Forall, nullary_writes, unary_writes, binary_writes, ternary_writes, nary_writes, Finset.mem_singleton]
    repeat' apply And.intro
    all_goals exact devRef_ne_of_ne (by decide)))]
  exact f2_main_v52 V

set_option maxHeartbeats 4000000 in
theorem f3_main_v61 (V : Valuation τ sig (Elt F)) :
    after pre3 V (Proc.devRef .tc main_v61) = Cert.ReferenceIdeal.ReadP.val_main_v61 (F := F) (V (Proc.devRef .tc main_arg1)) := by
  show after (pre2 ++ chunk3) V _ = _
  rw [after_app]
  have h0 := f2_main_v11 V
  have h1 := f2_main_v53 V
  have h2 := f2_main_v32 V
  generalize after pre2 V = W at h0 h1 h2 ⊢
  after_results_simp <;> (try simp only [h0, h1, h2]) <;> rfl

set_option maxHeartbeats 4000000 in
theorem f3_main_v70 (V : Valuation τ sig (Elt F)) :
    after pre3 V (Proc.devRef .tc main_v70) = Cert.ReferenceIdeal.ReadP.val_main_v70 (F := F) (V (Proc.devRef .tc main_arg1)) := by
  show after (pre2 ++ chunk3) V _ = _
  rw [after_app]
  have h0 := f2_main_v11 V
  have h1 := f2_main_v53 V
  have h2 := f2_main_v32 V
  generalize after pre2 V = W at h0 h1 h2 ⊢
  after_results_simp <;> (try simp only [h0, h1, h2]) <;> rfl

set_option maxHeartbeats 4000000 in
theorem f3_main_v79 (V : Valuation τ sig (Elt F)) :
    after pre3 V (Proc.devRef .tc main_v79) = Cert.ReferenceIdeal.ReadP.val_main_v79 (F := F) (V (Proc.devRef .tc main_arg1)) := by
  show after (pre2 ++ chunk3) V _ = _
  rw [after_app]
  have h0 := f2_main_v11 V
  have h1 := f2_main_v53 V
  have h2 := f2_main_v32 V
  generalize after pre2 V = W at h0 h1 h2 ⊢
  after_results_simp <;> (try simp only [h0, h1, h2]) <;> rfl

set_option maxHeartbeats 4000000 in
theorem f3_main_arg1 (V : Valuation τ sig (Elt F)) :
    after pre3 V (Proc.devRef .tc main_arg1) = V (Proc.devRef .tc main_arg1) := by
  show after (pre2 ++ chunk3) V _ = _
  rw [after_app, after_of_forall_not_mem chunk3 _ (List.forall_iff_forall_mem.mp (by
    simp only [chunk3, List.Forall, nullary_writes, unary_writes, binary_writes, ternary_writes, nary_writes, Finset.mem_singleton]
    repeat' apply And.intro
    all_goals exact devRef_ne_of_ne (by decide)))]
  exact f2_main_arg1 V

/-! ## After the first 160 operations -/

set_option maxHeartbeats 4000000 in
theorem f4_main_v113 (V : Valuation τ sig (Elt F)) :
    after pre4 V (Proc.devRef .tc main_v113) = Cert.ReferenceIdeal.ReadP.val_main_v113 (F := F) := by
  show after (pre3 ++ chunk4) V _ = _
  rw [after_app]
  have h0 := f3_main_v83 V
  have h1 := f3_main_v82 V
  have h2 := f3_main_v32 V
  have h3 := f3_main_v11 V
  generalize after pre3 V = W at h0 h1 h2 h3 ⊢
  after_results_simp <;> (try simp only [h0, h1, h2, h3]) <;> rfl

set_option maxHeartbeats 4000000 in
theorem f4_main_v11 (V : Valuation τ sig (Elt F)) :
    after pre4 V (Proc.devRef .tc main_v11) = Cert.ReferenceIdeal.ReadP.val_main_v11 (F := F) (V (Proc.devRef .tc main_arg1)) := by
  show after (pre3 ++ chunk4) V _ = _
  rw [after_app, after_of_forall_not_mem chunk4 _ (List.forall_iff_forall_mem.mp (by
    simp only [chunk4, List.Forall, nullary_writes, unary_writes, binary_writes, ternary_writes, nary_writes, Finset.mem_singleton]
    repeat' apply And.intro
    all_goals exact devRef_ne_of_ne (by decide)))]
  exact f3_main_v11 V

set_option maxHeartbeats 4000000 in
theorem f4_main_v32 (V : Valuation τ sig (Elt F)) :
    after pre4 V (Proc.devRef .tc main_v32) = Cert.ReferenceIdeal.ReadP.val_main_v32 (F := F) (V (Proc.devRef .tc main_arg1)) := by
  show after (pre3 ++ chunk4) V _ = _
  rw [after_app, after_of_forall_not_mem chunk4 _ (List.forall_iff_forall_mem.mp (by
    simp only [chunk4, List.Forall, nullary_writes, unary_writes, binary_writes, ternary_writes, nary_writes, Finset.mem_singleton]
    repeat' apply And.intro
    all_goals exact devRef_ne_of_ne (by decide)))]
  exact f3_main_v32 V

set_option maxHeartbeats 4000000 in
theorem f4_main_v4 (V : Valuation τ sig (Elt F)) :
    after pre4 V (Proc.devRef .tc main_v4) = Cert.ReferenceIdeal.ReadP.val_main_v4 (F := F) (V (Proc.devRef .tc main_arg1)) := by
  show after (pre3 ++ chunk4) V _ = _
  rw [after_app, after_of_forall_not_mem chunk4 _ (List.forall_iff_forall_mem.mp (by
    simp only [chunk4, List.Forall, nullary_writes, unary_writes, binary_writes, ternary_writes, nary_writes, Finset.mem_singleton]
    repeat' apply And.intro
    all_goals exact devRef_ne_of_ne (by decide)))]
  exact f3_main_v4 V

set_option maxHeartbeats 4000000 in
theorem f4_main_v6 (V : Valuation τ sig (Elt F)) :
    after pre4 V (Proc.devRef .tc main_v6) = Cert.ReferenceIdeal.ReadP.val_main_v6 (F := F) (V (Proc.devRef .tc main_arg1)) := by
  show after (pre3 ++ chunk4) V _ = _
  rw [after_app, after_of_forall_not_mem chunk4 _ (List.forall_iff_forall_mem.mp (by
    simp only [chunk4, List.Forall, nullary_writes, unary_writes, binary_writes, ternary_writes, nary_writes, Finset.mem_singleton]
    repeat' apply And.intro
    all_goals exact devRef_ne_of_ne (by decide)))]
  exact f3_main_v6 V

set_option maxHeartbeats 4000000 in
theorem f4_main_v17 (V : Valuation τ sig (Elt F)) :
    after pre4 V (Proc.devRef .tc main_v17) = Cert.ReferenceIdeal.ReadP.val_main_v17 (F := F) := by
  show after (pre3 ++ chunk4) V _ = _
  rw [after_app, after_of_forall_not_mem chunk4 _ (List.forall_iff_forall_mem.mp (by
    simp only [chunk4, List.Forall, nullary_writes, unary_writes, binary_writes, ternary_writes, nary_writes, Finset.mem_singleton]
    repeat' apply And.intro
    all_goals exact devRef_ne_of_ne (by decide)))]
  exact f3_main_v17 V

set_option maxHeartbeats 4000000 in
theorem f4_main_arg0 (V : Valuation τ sig (Elt F)) :
    after pre4 V (Proc.devRef .tc main_arg0) = V (Proc.devRef .tc main_arg0) := by
  show after (pre3 ++ chunk4) V _ = _
  rw [after_app, after_of_forall_not_mem chunk4 _ (List.forall_iff_forall_mem.mp (by
    simp only [chunk4, List.Forall, nullary_writes, unary_writes, binary_writes, ternary_writes, nary_writes, Finset.mem_singleton]
    repeat' apply And.intro
    all_goals exact devRef_ne_of_ne (by decide)))]
  exact f3_main_arg0 V

set_option maxHeartbeats 4000000 in
theorem f4_main_v34 (V : Valuation τ sig (Elt F)) :
    after pre4 V (Proc.devRef .tc main_v34) = Cert.ReferenceIdeal.ReadP.val_main_v34 (F := F) (V (Proc.devRef .tc main_arg1)) := by
  show after (pre3 ++ chunk4) V _ = _
  rw [after_app, after_of_forall_not_mem chunk4 _ (List.forall_iff_forall_mem.mp (by
    simp only [chunk4, List.Forall, nullary_writes, unary_writes, binary_writes, ternary_writes, nary_writes, Finset.mem_singleton]
    repeat' apply And.intro
    all_goals exact devRef_ne_of_ne (by decide)))]
  exact f3_main_v34 V

set_option maxHeartbeats 4000000 in
theorem f4_main_v43 (V : Valuation τ sig (Elt F)) :
    after pre4 V (Proc.devRef .tc main_v43) = Cert.ReferenceIdeal.ReadP.val_main_v43 (F := F) (V (Proc.devRef .tc main_arg1)) := by
  show after (pre3 ++ chunk4) V _ = _
  rw [after_app, after_of_forall_not_mem chunk4 _ (List.forall_iff_forall_mem.mp (by
    simp only [chunk4, List.Forall, nullary_writes, unary_writes, binary_writes, ternary_writes, nary_writes, Finset.mem_singleton]
    repeat' apply And.intro
    all_goals exact devRef_ne_of_ne (by decide)))]
  exact f3_main_v43 V

set_option maxHeartbeats 4000000 in
theorem f4_main_v52 (V : Valuation τ sig (Elt F)) :
    after pre4 V (Proc.devRef .tc main_v52) = Cert.ReferenceIdeal.ReadP.val_main_v52 (F := F) (V (Proc.devRef .tc main_arg1)) := by
  show after (pre3 ++ chunk4) V _ = _
  rw [after_app, after_of_forall_not_mem chunk4 _ (List.forall_iff_forall_mem.mp (by
    simp only [chunk4, List.Forall, nullary_writes, unary_writes, binary_writes, ternary_writes, nary_writes, Finset.mem_singleton]
    repeat' apply And.intro
    all_goals exact devRef_ne_of_ne (by decide)))]
  exact f3_main_v52 V

set_option maxHeartbeats 4000000 in
theorem f4_main_v61 (V : Valuation τ sig (Elt F)) :
    after pre4 V (Proc.devRef .tc main_v61) = Cert.ReferenceIdeal.ReadP.val_main_v61 (F := F) (V (Proc.devRef .tc main_arg1)) := by
  show after (pre3 ++ chunk4) V _ = _
  rw [after_app, after_of_forall_not_mem chunk4 _ (List.forall_iff_forall_mem.mp (by
    simp only [chunk4, List.Forall, nullary_writes, unary_writes, binary_writes, ternary_writes, nary_writes, Finset.mem_singleton]
    repeat' apply And.intro
    all_goals exact devRef_ne_of_ne (by decide)))]
  exact f3_main_v61 V

set_option maxHeartbeats 4000000 in
theorem f4_main_v70 (V : Valuation τ sig (Elt F)) :
    after pre4 V (Proc.devRef .tc main_v70) = Cert.ReferenceIdeal.ReadP.val_main_v70 (F := F) (V (Proc.devRef .tc main_arg1)) := by
  show after (pre3 ++ chunk4) V _ = _
  rw [after_app, after_of_forall_not_mem chunk4 _ (List.forall_iff_forall_mem.mp (by
    simp only [chunk4, List.Forall, nullary_writes, unary_writes, binary_writes, ternary_writes, nary_writes, Finset.mem_singleton]
    repeat' apply And.intro
    all_goals exact devRef_ne_of_ne (by decide)))]
  exact f3_main_v70 V

set_option maxHeartbeats 4000000 in
theorem f4_main_v79 (V : Valuation τ sig (Elt F)) :
    after pre4 V (Proc.devRef .tc main_v79) = Cert.ReferenceIdeal.ReadP.val_main_v79 (F := F) (V (Proc.devRef .tc main_arg1)) := by
  show after (pre3 ++ chunk4) V _ = _
  rw [after_app, after_of_forall_not_mem chunk4 _ (List.forall_iff_forall_mem.mp (by
    simp only [chunk4, List.Forall, nullary_writes, unary_writes, binary_writes, ternary_writes, nary_writes, Finset.mem_singleton]
    repeat' apply And.intro
    all_goals exact devRef_ne_of_ne (by decide)))]
  exact f3_main_v79 V

set_option maxHeartbeats 4000000 in
theorem f4_main_v88 (V : Valuation τ sig (Elt F)) :
    after pre4 V (Proc.devRef .tc main_v88) = Cert.ReferenceIdeal.ReadP.val_main_v88 (F := F) (V (Proc.devRef .tc main_arg1)) := by
  show after (pre3 ++ chunk4) V _ = _
  rw [after_app]
  have h0 := f3_main_v83 V
  have h1 := f3_main_v82 V
  have h2 := f3_main_v32 V
  have h3 := f3_main_v11 V
  generalize after pre3 V = W at h0 h1 h2 h3 ⊢
  after_results_simp <;> (try simp only [h0, h1, h2, h3]) <;> rfl

set_option maxHeartbeats 4000000 in
theorem f4_main_v97 (V : Valuation τ sig (Elt F)) :
    after pre4 V (Proc.devRef .tc main_v97) = Cert.ReferenceIdeal.ReadP.val_main_v97 (F := F) (V (Proc.devRef .tc main_arg1)) := by
  show after (pre3 ++ chunk4) V _ = _
  rw [after_app]
  have h0 := f3_main_v83 V
  have h1 := f3_main_v82 V
  have h2 := f3_main_v32 V
  have h3 := f3_main_v11 V
  generalize after pre3 V = W at h0 h1 h2 h3 ⊢
  after_results_simp <;> (try simp only [h0, h1, h2, h3]) <;> rfl

set_option maxHeartbeats 4000000 in
theorem f4_main_v106 (V : Valuation τ sig (Elt F)) :
    after pre4 V (Proc.devRef .tc main_v106) = Cert.ReferenceIdeal.ReadP.val_main_v106 (F := F) (V (Proc.devRef .tc main_arg1)) := by
  show after (pre3 ++ chunk4) V _ = _
  rw [after_app]
  have h0 := f3_main_v83 V
  have h1 := f3_main_v82 V
  have h2 := f3_main_v32 V
  have h3 := f3_main_v11 V
  generalize after pre3 V = W at h0 h1 h2 h3 ⊢
  after_results_simp <;> (try simp only [h0, h1, h2, h3]) <;> rfl

set_option maxHeartbeats 4000000 in
theorem f4_main_v112 (V : Valuation τ sig (Elt F)) :
    after pre4 V (Proc.devRef .tc main_v112) = Cert.ReferenceIdeal.ReadP.val_main_v112 (F := F) (V (Proc.devRef .tc main_arg1)) := by
  show after (pre3 ++ chunk4) V _ = _
  rw [after_app]
  have h0 := f3_main_v83 V
  have h1 := f3_main_v82 V
  have h2 := f3_main_v32 V
  have h3 := f3_main_v11 V
  generalize after pre3 V = W at h0 h1 h2 h3 ⊢
  after_results_simp <;> (try simp only [h0, h1, h2, h3]) <;> rfl

set_option maxHeartbeats 4000000 in
theorem f4_main_arg1 (V : Valuation τ sig (Elt F)) :
    after pre4 V (Proc.devRef .tc main_arg1) = V (Proc.devRef .tc main_arg1) := by
  show after (pre3 ++ chunk4) V _ = _
  rw [after_app, after_of_forall_not_mem chunk4 _ (List.forall_iff_forall_mem.mp (by
    simp only [chunk4, List.Forall, nullary_writes, unary_writes, binary_writes, ternary_writes, nary_writes, Finset.mem_singleton]
    repeat' apply And.intro
    all_goals exact devRef_ne_of_ne (by decide)))]
  exact f3_main_arg1 V

/-! ## After the first 200 operations -/

set_option maxHeartbeats 4000000 in
theorem f5_main_v143 (V : Valuation τ sig (Elt F)) :
    after pre5 V (Proc.devRef .tc main_v143) = Cert.ReferenceIdeal.ReadP.val_main_v143 (F := F) (V (Proc.devRef .tc main_arg1)) := by
  show after (pre4 ++ chunk5) V _ = _
  rw [after_app]
  have h0 := f4_main_v113 V
  have h1 := f4_main_v11 V
  have h2 := f4_main_v32 V
  have h3 := f4_main_v4 V
  have h4 := f4_main_v6 V
  generalize after pre4 V = W at h0 h1 h2 h3 h4 ⊢
  after_results_simp <;> (try simp only [h0, h1, h2, h3, h4]) <;> rfl

set_option maxHeartbeats 4000000 in
theorem f5_main_v144 (V : Valuation τ sig (Elt F)) :
    after pre5 V (Proc.devRef .tc main_v144) = Cert.ReferenceIdeal.ReadP.val_main_v144 (F := F) (V (Proc.devRef .tc main_arg1)) := by
  show after (pre4 ++ chunk5) V _ = _
  rw [after_app]
  have h0 := f4_main_v113 V
  have h1 := f4_main_v11 V
  have h2 := f4_main_v32 V
  have h3 := f4_main_v4 V
  have h4 := f4_main_v6 V
  generalize after pre4 V = W at h0 h1 h2 h3 h4 ⊢
  after_results_simp <;> (try simp only [h0, h1, h2, h3, h4]) <;> rfl

set_option maxHeartbeats 4000000 in
theorem f5_main_v6 (V : Valuation τ sig (Elt F)) :
    after pre5 V (Proc.devRef .tc main_v6) = Cert.ReferenceIdeal.ReadP.val_main_v6 (F := F) (V (Proc.devRef .tc main_arg1)) := by
  show after (pre4 ++ chunk5) V _ = _
  rw [after_app, after_of_forall_not_mem chunk5 _ (List.forall_iff_forall_mem.mp (by
    simp only [chunk5, List.Forall, nullary_writes, unary_writes, binary_writes, ternary_writes, nary_writes, Finset.mem_singleton]
    repeat' apply And.intro
    all_goals exact devRef_ne_of_ne (by decide)))]
  exact f4_main_v6 V

set_option maxHeartbeats 4000000 in
theorem f5_main_v17 (V : Valuation τ sig (Elt F)) :
    after pre5 V (Proc.devRef .tc main_v17) = Cert.ReferenceIdeal.ReadP.val_main_v17 (F := F) := by
  show after (pre4 ++ chunk5) V _ = _
  rw [after_app, after_of_forall_not_mem chunk5 _ (List.forall_iff_forall_mem.mp (by
    simp only [chunk5, List.Forall, nullary_writes, unary_writes, binary_writes, ternary_writes, nary_writes, Finset.mem_singleton]
    repeat' apply And.intro
    all_goals exact devRef_ne_of_ne (by decide)))]
  exact f4_main_v17 V

set_option maxHeartbeats 4000000 in
theorem f5_main_v32 (V : Valuation τ sig (Elt F)) :
    after pre5 V (Proc.devRef .tc main_v32) = Cert.ReferenceIdeal.ReadP.val_main_v32 (F := F) (V (Proc.devRef .tc main_arg1)) := by
  show after (pre4 ++ chunk5) V _ = _
  rw [after_app, after_of_forall_not_mem chunk5 _ (List.forall_iff_forall_mem.mp (by
    simp only [chunk5, List.Forall, nullary_writes, unary_writes, binary_writes, ternary_writes, nary_writes, Finset.mem_singleton]
    repeat' apply And.intro
    all_goals exact devRef_ne_of_ne (by decide)))]
  exact f4_main_v32 V

set_option maxHeartbeats 4000000 in
theorem f5_main_v140 (V : Valuation τ sig (Elt F)) :
    after pre5 V (Proc.devRef .tc main_v140) = Cert.ReferenceIdeal.ReadP.val_main_v140 (F := F) (V (Proc.devRef .tc main_arg1)) := by
  show after (pre4 ++ chunk5) V _ = _
  rw [after_app]
  have h0 := f4_main_v113 V
  have h1 := f4_main_v11 V
  have h2 := f4_main_v32 V
  have h3 := f4_main_v4 V
  have h4 := f4_main_v6 V
  generalize after pre4 V = W at h0 h1 h2 h3 h4 ⊢
  after_results_simp <;> (try simp only [h0, h1, h2, h3, h4]) <;> rfl

set_option maxHeartbeats 4000000 in
theorem f5_main_arg0 (V : Valuation τ sig (Elt F)) :
    after pre5 V (Proc.devRef .tc main_arg0) = V (Proc.devRef .tc main_arg0) := by
  show after (pre4 ++ chunk5) V _ = _
  rw [after_app, after_of_forall_not_mem chunk5 _ (List.forall_iff_forall_mem.mp (by
    simp only [chunk5, List.Forall, nullary_writes, unary_writes, binary_writes, ternary_writes, nary_writes, Finset.mem_singleton]
    repeat' apply And.intro
    all_goals exact devRef_ne_of_ne (by decide)))]
  exact f4_main_arg0 V

set_option maxHeartbeats 4000000 in
theorem f5_main_v34 (V : Valuation τ sig (Elt F)) :
    after pre5 V (Proc.devRef .tc main_v34) = Cert.ReferenceIdeal.ReadP.val_main_v34 (F := F) (V (Proc.devRef .tc main_arg1)) := by
  show after (pre4 ++ chunk5) V _ = _
  rw [after_app, after_of_forall_not_mem chunk5 _ (List.forall_iff_forall_mem.mp (by
    simp only [chunk5, List.Forall, nullary_writes, unary_writes, binary_writes, ternary_writes, nary_writes, Finset.mem_singleton]
    repeat' apply And.intro
    all_goals exact devRef_ne_of_ne (by decide)))]
  exact f4_main_v34 V

set_option maxHeartbeats 4000000 in
theorem f5_main_v43 (V : Valuation τ sig (Elt F)) :
    after pre5 V (Proc.devRef .tc main_v43) = Cert.ReferenceIdeal.ReadP.val_main_v43 (F := F) (V (Proc.devRef .tc main_arg1)) := by
  show after (pre4 ++ chunk5) V _ = _
  rw [after_app, after_of_forall_not_mem chunk5 _ (List.forall_iff_forall_mem.mp (by
    simp only [chunk5, List.Forall, nullary_writes, unary_writes, binary_writes, ternary_writes, nary_writes, Finset.mem_singleton]
    repeat' apply And.intro
    all_goals exact devRef_ne_of_ne (by decide)))]
  exact f4_main_v43 V

set_option maxHeartbeats 4000000 in
theorem f5_main_v52 (V : Valuation τ sig (Elt F)) :
    after pre5 V (Proc.devRef .tc main_v52) = Cert.ReferenceIdeal.ReadP.val_main_v52 (F := F) (V (Proc.devRef .tc main_arg1)) := by
  show after (pre4 ++ chunk5) V _ = _
  rw [after_app, after_of_forall_not_mem chunk5 _ (List.forall_iff_forall_mem.mp (by
    simp only [chunk5, List.Forall, nullary_writes, unary_writes, binary_writes, ternary_writes, nary_writes, Finset.mem_singleton]
    repeat' apply And.intro
    all_goals exact devRef_ne_of_ne (by decide)))]
  exact f4_main_v52 V

set_option maxHeartbeats 4000000 in
theorem f5_main_v61 (V : Valuation τ sig (Elt F)) :
    after pre5 V (Proc.devRef .tc main_v61) = Cert.ReferenceIdeal.ReadP.val_main_v61 (F := F) (V (Proc.devRef .tc main_arg1)) := by
  show after (pre4 ++ chunk5) V _ = _
  rw [after_app, after_of_forall_not_mem chunk5 _ (List.forall_iff_forall_mem.mp (by
    simp only [chunk5, List.Forall, nullary_writes, unary_writes, binary_writes, ternary_writes, nary_writes, Finset.mem_singleton]
    repeat' apply And.intro
    all_goals exact devRef_ne_of_ne (by decide)))]
  exact f4_main_v61 V

set_option maxHeartbeats 4000000 in
theorem f5_main_v70 (V : Valuation τ sig (Elt F)) :
    after pre5 V (Proc.devRef .tc main_v70) = Cert.ReferenceIdeal.ReadP.val_main_v70 (F := F) (V (Proc.devRef .tc main_arg1)) := by
  show after (pre4 ++ chunk5) V _ = _
  rw [after_app, after_of_forall_not_mem chunk5 _ (List.forall_iff_forall_mem.mp (by
    simp only [chunk5, List.Forall, nullary_writes, unary_writes, binary_writes, ternary_writes, nary_writes, Finset.mem_singleton]
    repeat' apply And.intro
    all_goals exact devRef_ne_of_ne (by decide)))]
  exact f4_main_v70 V

set_option maxHeartbeats 4000000 in
theorem f5_main_v79 (V : Valuation τ sig (Elt F)) :
    after pre5 V (Proc.devRef .tc main_v79) = Cert.ReferenceIdeal.ReadP.val_main_v79 (F := F) (V (Proc.devRef .tc main_arg1)) := by
  show after (pre4 ++ chunk5) V _ = _
  rw [after_app, after_of_forall_not_mem chunk5 _ (List.forall_iff_forall_mem.mp (by
    simp only [chunk5, List.Forall, nullary_writes, unary_writes, binary_writes, ternary_writes, nary_writes, Finset.mem_singleton]
    repeat' apply And.intro
    all_goals exact devRef_ne_of_ne (by decide)))]
  exact f4_main_v79 V

set_option maxHeartbeats 4000000 in
theorem f5_main_v88 (V : Valuation τ sig (Elt F)) :
    after pre5 V (Proc.devRef .tc main_v88) = Cert.ReferenceIdeal.ReadP.val_main_v88 (F := F) (V (Proc.devRef .tc main_arg1)) := by
  show after (pre4 ++ chunk5) V _ = _
  rw [after_app, after_of_forall_not_mem chunk5 _ (List.forall_iff_forall_mem.mp (by
    simp only [chunk5, List.Forall, nullary_writes, unary_writes, binary_writes, ternary_writes, nary_writes, Finset.mem_singleton]
    repeat' apply And.intro
    all_goals exact devRef_ne_of_ne (by decide)))]
  exact f4_main_v88 V

set_option maxHeartbeats 4000000 in
theorem f5_main_v97 (V : Valuation τ sig (Elt F)) :
    after pre5 V (Proc.devRef .tc main_v97) = Cert.ReferenceIdeal.ReadP.val_main_v97 (F := F) (V (Proc.devRef .tc main_arg1)) := by
  show after (pre4 ++ chunk5) V _ = _
  rw [after_app, after_of_forall_not_mem chunk5 _ (List.forall_iff_forall_mem.mp (by
    simp only [chunk5, List.Forall, nullary_writes, unary_writes, binary_writes, ternary_writes, nary_writes, Finset.mem_singleton]
    repeat' apply And.intro
    all_goals exact devRef_ne_of_ne (by decide)))]
  exact f4_main_v97 V

set_option maxHeartbeats 4000000 in
theorem f5_main_v106 (V : Valuation τ sig (Elt F)) :
    after pre5 V (Proc.devRef .tc main_v106) = Cert.ReferenceIdeal.ReadP.val_main_v106 (F := F) (V (Proc.devRef .tc main_arg1)) := by
  show after (pre4 ++ chunk5) V _ = _
  rw [after_app, after_of_forall_not_mem chunk5 _ (List.forall_iff_forall_mem.mp (by
    simp only [chunk5, List.Forall, nullary_writes, unary_writes, binary_writes, ternary_writes, nary_writes, Finset.mem_singleton]
    repeat' apply And.intro
    all_goals exact devRef_ne_of_ne (by decide)))]
  exact f4_main_v106 V

set_option maxHeartbeats 4000000 in
theorem f5_main_v112 (V : Valuation τ sig (Elt F)) :
    after pre5 V (Proc.devRef .tc main_v112) = Cert.ReferenceIdeal.ReadP.val_main_v112 (F := F) (V (Proc.devRef .tc main_arg1)) := by
  show after (pre4 ++ chunk5) V _ = _
  rw [after_app, after_of_forall_not_mem chunk5 _ (List.forall_iff_forall_mem.mp (by
    simp only [chunk5, List.Forall, nullary_writes, unary_writes, binary_writes, ternary_writes, nary_writes, Finset.mem_singleton]
    repeat' apply And.intro
    all_goals exact devRef_ne_of_ne (by decide)))]
  exact f4_main_v112 V

set_option maxHeartbeats 4000000 in
theorem f5_main_v118 (V : Valuation τ sig (Elt F)) :
    after pre5 V (Proc.devRef .tc main_v118) = Cert.ReferenceIdeal.ReadP.val_main_v118 (F := F) (V (Proc.devRef .tc main_arg1)) := by
  show after (pre4 ++ chunk5) V _ = _
  rw [after_app]
  have h0 := f4_main_v113 V
  have h1 := f4_main_v11 V
  have h2 := f4_main_v32 V
  have h3 := f4_main_v4 V
  have h4 := f4_main_v6 V
  generalize after pre4 V = W at h0 h1 h2 h3 h4 ⊢
  after_results_simp <;> (try simp only [h0, h1, h2, h3, h4]) <;> rfl

set_option maxHeartbeats 4000000 in
theorem f5_main_v124 (V : Valuation τ sig (Elt F)) :
    after pre5 V (Proc.devRef .tc main_v124) = Cert.ReferenceIdeal.ReadP.val_main_v124 (F := F) (V (Proc.devRef .tc main_arg1)) := by
  show after (pre4 ++ chunk5) V _ = _
  rw [after_app]
  have h0 := f4_main_v113 V
  have h1 := f4_main_v11 V
  have h2 := f4_main_v32 V
  have h3 := f4_main_v4 V
  have h4 := f4_main_v6 V
  generalize after pre4 V = W at h0 h1 h2 h3 h4 ⊢
  after_results_simp <;> (try simp only [h0, h1, h2, h3, h4]) <;> rfl

set_option maxHeartbeats 4000000 in
theorem f5_main_v130 (V : Valuation τ sig (Elt F)) :
    after pre5 V (Proc.devRef .tc main_v130) = Cert.ReferenceIdeal.ReadP.val_main_v130 (F := F) (V (Proc.devRef .tc main_arg1)) := by
  show after (pre4 ++ chunk5) V _ = _
  rw [after_app]
  have h0 := f4_main_v113 V
  have h1 := f4_main_v11 V
  have h2 := f4_main_v32 V
  have h3 := f4_main_v4 V
  have h4 := f4_main_v6 V
  generalize after pre4 V = W at h0 h1 h2 h3 h4 ⊢
  after_results_simp <;> (try simp only [h0, h1, h2, h3, h4]) <;> rfl

set_option maxHeartbeats 4000000 in
theorem f5_main_arg1 (V : Valuation τ sig (Elt F)) :
    after pre5 V (Proc.devRef .tc main_arg1) = V (Proc.devRef .tc main_arg1) := by
  show after (pre4 ++ chunk5) V _ = _
  rw [after_app, after_of_forall_not_mem chunk5 _ (List.forall_iff_forall_mem.mp (by
    simp only [chunk5, List.Forall, nullary_writes, unary_writes, binary_writes, ternary_writes, nary_writes, Finset.mem_singleton]
    repeat' apply And.intro
    all_goals exact devRef_ne_of_ne (by decide)))]
  exact f4_main_arg1 V

/-! ## After the first 240 operations -/

set_option maxHeartbeats 4000000 in
theorem f6_main_cst_52 (V : Valuation τ sig (Elt F)) :
    after pre6 V (Proc.devRef .tc main_cst_52) = Cert.ReferenceIdeal.ReadP.val_main_cst_52 (F := F) := by
  show after (pre5 ++ chunk6) V _ = _
  rw [after_app]
  have h0 := f5_main_v143 V
  have h1 := f5_main_v144 V
  have h2 := f5_main_v6 V
  have h3 := f5_main_v17 V
  have h4 := f5_main_v32 V
  have h5 := f5_main_v140 V
  generalize after pre5 V = W at h0 h1 h2 h3 h4 h5 ⊢
  after_results_simp <;> (try simp only [h0, h1, h2, h3, h4, h5]) <;> rfl

set_option maxHeartbeats 4000000 in
theorem f6_main_v140 (V : Valuation τ sig (Elt F)) :
    after pre6 V (Proc.devRef .tc main_v140) = Cert.ReferenceIdeal.ReadP.val_main_v140 (F := F) (V (Proc.devRef .tc main_arg1)) := by
  show after (pre5 ++ chunk6) V _ = _
  rw [after_app, after_of_forall_not_mem chunk6 _ (List.forall_iff_forall_mem.mp (by
    simp only [chunk6, List.Forall, nullary_writes, unary_writes, binary_writes, ternary_writes, nary_writes, Finset.mem_singleton]
    repeat' apply And.intro
    all_goals exact devRef_ne_of_ne (by decide)))]
  exact f5_main_v140 V

set_option maxHeartbeats 4000000 in
theorem f6_main_v148 (V : Valuation τ sig (Elt F)) :
    after pre6 V (Proc.devRef .tc main_v148) = Cert.ReferenceIdeal.ReadP.val_main_v148 (F := F) (V (Proc.devRef .tc main_arg1)) := by
  show after (pre5 ++ chunk6) V _ = _
  rw [after_app]
  have h0 := f5_main_v143 V
  have h1 := f5_main_v144 V
  have h2 := f5_main_v6 V
  have h3 := f5_main_v17 V
  have h4 := f5_main_v32 V
  have h5 := f5_main_v140 V
  generalize after pre5 V = W at h0 h1 h2 h3 h4 h5 ⊢
  after_results_simp <;> (try simp only [h0, h1, h2, h3, h4, h5]) <;> rfl

set_option maxHeartbeats 4000000 in
theorem f6_main_v161 (V : Valuation τ sig (Elt F)) :
    after pre6 V (Proc.devRef .tc main_v161) = Cert.ReferenceIdeal.ReadP.val_main_v161 (F := F) (V (Proc.devRef .tc main_arg1)) := by
  show after (pre5 ++ chunk6) V _ = _
  rw [after_app]
  have h0 := f5_main_v143 V
  have h1 := f5_main_v144 V
  have h2 := f5_main_v6 V
  have h3 := f5_main_v17 V
  have h4 := f5_main_v32 V
  have h5 := f5_main_v140 V
  generalize after pre5 V = W at h0 h1 h2 h3 h4 h5 ⊢
  after_results_simp <;> (try simp only [h0, h1, h2, h3, h4, h5]) <;> rfl

set_option maxHeartbeats 4000000 in
theorem f6_main_v145 (V : Valuation τ sig (Elt F)) :
    after pre6 V (Proc.devRef .tc main_v145) = Cert.ReferenceIdeal.ReadP.val_main_v145 (F := F) (V (Proc.devRef .tc main_arg1)) := by
  show after (pre5 ++ chunk6) V _ = _
  rw [after_app]
  have h0 := f5_main_v143 V
  have h1 := f5_main_v144 V
  have h2 := f5_main_v6 V
  have h3 := f5_main_v17 V
  have h4 := f5_main_v32 V
  have h5 := f5_main_v140 V
  generalize after pre5 V = W at h0 h1 h2 h3 h4 h5 ⊢
  after_results_simp <;> (try simp only [h0, h1, h2, h3, h4, h5]) <;> rfl

set_option maxHeartbeats 4000000 in
theorem f6_main_v158 (V : Valuation τ sig (Elt F)) :
    after pre6 V (Proc.devRef .tc main_v158) = Cert.ReferenceIdeal.ReadP.val_main_v158 (F := F) (V (Proc.devRef .tc main_arg1)) := by
  show after (pre5 ++ chunk6) V _ = _
  rw [after_app]
  have h0 := f5_main_v143 V
  have h1 := f5_main_v144 V
  have h2 := f5_main_v6 V
  have h3 := f5_main_v17 V
  have h4 := f5_main_v32 V
  have h5 := f5_main_v140 V
  generalize after pre5 V = W at h0 h1 h2 h3 h4 h5 ⊢
  after_results_simp <;> (try simp only [h0, h1, h2, h3, h4, h5]) <;> rfl

set_option maxHeartbeats 4000000 in
theorem f6_main_arg0 (V : Valuation τ sig (Elt F)) :
    after pre6 V (Proc.devRef .tc main_arg0) = V (Proc.devRef .tc main_arg0) := by
  show after (pre5 ++ chunk6) V _ = _
  rw [after_app, after_of_forall_not_mem chunk6 _ (List.forall_iff_forall_mem.mp (by
    simp only [chunk6, List.Forall, nullary_writes, unary_writes, binary_writes, ternary_writes, nary_writes, Finset.mem_singleton]
    repeat' apply And.intro
    all_goals exact devRef_ne_of_ne (by decide)))]
  exact f5_main_arg0 V

set_option maxHeartbeats 4000000 in
theorem f6_main_v34 (V : Valuation τ sig (Elt F)) :
    after pre6 V (Proc.devRef .tc main_v34) = Cert.ReferenceIdeal.ReadP.val_main_v34 (F := F) (V (Proc.devRef .tc main_arg1)) := by
  show after (pre5 ++ chunk6) V _ = _
  rw [after_app, after_of_forall_not_mem chunk6 _ (List.forall_iff_forall_mem.mp (by
    simp only [chunk6, List.Forall, nullary_writes, unary_writes, binary_writes, ternary_writes, nary_writes, Finset.mem_singleton]
    repeat' apply And.intro
    all_goals exact devRef_ne_of_ne (by decide)))]
  exact f5_main_v34 V

set_option maxHeartbeats 4000000 in
theorem f6_main_v43 (V : Valuation τ sig (Elt F)) :
    after pre6 V (Proc.devRef .tc main_v43) = Cert.ReferenceIdeal.ReadP.val_main_v43 (F := F) (V (Proc.devRef .tc main_arg1)) := by
  show after (pre5 ++ chunk6) V _ = _
  rw [after_app, after_of_forall_not_mem chunk6 _ (List.forall_iff_forall_mem.mp (by
    simp only [chunk6, List.Forall, nullary_writes, unary_writes, binary_writes, ternary_writes, nary_writes, Finset.mem_singleton]
    repeat' apply And.intro
    all_goals exact devRef_ne_of_ne (by decide)))]
  exact f5_main_v43 V

set_option maxHeartbeats 4000000 in
theorem f6_main_v52 (V : Valuation τ sig (Elt F)) :
    after pre6 V (Proc.devRef .tc main_v52) = Cert.ReferenceIdeal.ReadP.val_main_v52 (F := F) (V (Proc.devRef .tc main_arg1)) := by
  show after (pre5 ++ chunk6) V _ = _
  rw [after_app, after_of_forall_not_mem chunk6 _ (List.forall_iff_forall_mem.mp (by
    simp only [chunk6, List.Forall, nullary_writes, unary_writes, binary_writes, ternary_writes, nary_writes, Finset.mem_singleton]
    repeat' apply And.intro
    all_goals exact devRef_ne_of_ne (by decide)))]
  exact f5_main_v52 V

set_option maxHeartbeats 4000000 in
theorem f6_main_v61 (V : Valuation τ sig (Elt F)) :
    after pre6 V (Proc.devRef .tc main_v61) = Cert.ReferenceIdeal.ReadP.val_main_v61 (F := F) (V (Proc.devRef .tc main_arg1)) := by
  show after (pre5 ++ chunk6) V _ = _
  rw [after_app, after_of_forall_not_mem chunk6 _ (List.forall_iff_forall_mem.mp (by
    simp only [chunk6, List.Forall, nullary_writes, unary_writes, binary_writes, ternary_writes, nary_writes, Finset.mem_singleton]
    repeat' apply And.intro
    all_goals exact devRef_ne_of_ne (by decide)))]
  exact f5_main_v61 V

set_option maxHeartbeats 4000000 in
theorem f6_main_v70 (V : Valuation τ sig (Elt F)) :
    after pre6 V (Proc.devRef .tc main_v70) = Cert.ReferenceIdeal.ReadP.val_main_v70 (F := F) (V (Proc.devRef .tc main_arg1)) := by
  show after (pre5 ++ chunk6) V _ = _
  rw [after_app, after_of_forall_not_mem chunk6 _ (List.forall_iff_forall_mem.mp (by
    simp only [chunk6, List.Forall, nullary_writes, unary_writes, binary_writes, ternary_writes, nary_writes, Finset.mem_singleton]
    repeat' apply And.intro
    all_goals exact devRef_ne_of_ne (by decide)))]
  exact f5_main_v70 V

set_option maxHeartbeats 4000000 in
theorem f6_main_v79 (V : Valuation τ sig (Elt F)) :
    after pre6 V (Proc.devRef .tc main_v79) = Cert.ReferenceIdeal.ReadP.val_main_v79 (F := F) (V (Proc.devRef .tc main_arg1)) := by
  show after (pre5 ++ chunk6) V _ = _
  rw [after_app, after_of_forall_not_mem chunk6 _ (List.forall_iff_forall_mem.mp (by
    simp only [chunk6, List.Forall, nullary_writes, unary_writes, binary_writes, ternary_writes, nary_writes, Finset.mem_singleton]
    repeat' apply And.intro
    all_goals exact devRef_ne_of_ne (by decide)))]
  exact f5_main_v79 V

set_option maxHeartbeats 4000000 in
theorem f6_main_v88 (V : Valuation τ sig (Elt F)) :
    after pre6 V (Proc.devRef .tc main_v88) = Cert.ReferenceIdeal.ReadP.val_main_v88 (F := F) (V (Proc.devRef .tc main_arg1)) := by
  show after (pre5 ++ chunk6) V _ = _
  rw [after_app, after_of_forall_not_mem chunk6 _ (List.forall_iff_forall_mem.mp (by
    simp only [chunk6, List.Forall, nullary_writes, unary_writes, binary_writes, ternary_writes, nary_writes, Finset.mem_singleton]
    repeat' apply And.intro
    all_goals exact devRef_ne_of_ne (by decide)))]
  exact f5_main_v88 V

set_option maxHeartbeats 4000000 in
theorem f6_main_v97 (V : Valuation τ sig (Elt F)) :
    after pre6 V (Proc.devRef .tc main_v97) = Cert.ReferenceIdeal.ReadP.val_main_v97 (F := F) (V (Proc.devRef .tc main_arg1)) := by
  show after (pre5 ++ chunk6) V _ = _
  rw [after_app, after_of_forall_not_mem chunk6 _ (List.forall_iff_forall_mem.mp (by
    simp only [chunk6, List.Forall, nullary_writes, unary_writes, binary_writes, ternary_writes, nary_writes, Finset.mem_singleton]
    repeat' apply And.intro
    all_goals exact devRef_ne_of_ne (by decide)))]
  exact f5_main_v97 V

set_option maxHeartbeats 4000000 in
theorem f6_main_v106 (V : Valuation τ sig (Elt F)) :
    after pre6 V (Proc.devRef .tc main_v106) = Cert.ReferenceIdeal.ReadP.val_main_v106 (F := F) (V (Proc.devRef .tc main_arg1)) := by
  show after (pre5 ++ chunk6) V _ = _
  rw [after_app, after_of_forall_not_mem chunk6 _ (List.forall_iff_forall_mem.mp (by
    simp only [chunk6, List.Forall, nullary_writes, unary_writes, binary_writes, ternary_writes, nary_writes, Finset.mem_singleton]
    repeat' apply And.intro
    all_goals exact devRef_ne_of_ne (by decide)))]
  exact f5_main_v106 V

set_option maxHeartbeats 4000000 in
theorem f6_main_v112 (V : Valuation τ sig (Elt F)) :
    after pre6 V (Proc.devRef .tc main_v112) = Cert.ReferenceIdeal.ReadP.val_main_v112 (F := F) (V (Proc.devRef .tc main_arg1)) := by
  show after (pre5 ++ chunk6) V _ = _
  rw [after_app, after_of_forall_not_mem chunk6 _ (List.forall_iff_forall_mem.mp (by
    simp only [chunk6, List.Forall, nullary_writes, unary_writes, binary_writes, ternary_writes, nary_writes, Finset.mem_singleton]
    repeat' apply And.intro
    all_goals exact devRef_ne_of_ne (by decide)))]
  exact f5_main_v112 V

set_option maxHeartbeats 4000000 in
theorem f6_main_v118 (V : Valuation τ sig (Elt F)) :
    after pre6 V (Proc.devRef .tc main_v118) = Cert.ReferenceIdeal.ReadP.val_main_v118 (F := F) (V (Proc.devRef .tc main_arg1)) := by
  show after (pre5 ++ chunk6) V _ = _
  rw [after_app, after_of_forall_not_mem chunk6 _ (List.forall_iff_forall_mem.mp (by
    simp only [chunk6, List.Forall, nullary_writes, unary_writes, binary_writes, ternary_writes, nary_writes, Finset.mem_singleton]
    repeat' apply And.intro
    all_goals exact devRef_ne_of_ne (by decide)))]
  exact f5_main_v118 V

set_option maxHeartbeats 4000000 in
theorem f6_main_v124 (V : Valuation τ sig (Elt F)) :
    after pre6 V (Proc.devRef .tc main_v124) = Cert.ReferenceIdeal.ReadP.val_main_v124 (F := F) (V (Proc.devRef .tc main_arg1)) := by
  show after (pre5 ++ chunk6) V _ = _
  rw [after_app, after_of_forall_not_mem chunk6 _ (List.forall_iff_forall_mem.mp (by
    simp only [chunk6, List.Forall, nullary_writes, unary_writes, binary_writes, ternary_writes, nary_writes, Finset.mem_singleton]
    repeat' apply And.intro
    all_goals exact devRef_ne_of_ne (by decide)))]
  exact f5_main_v124 V

set_option maxHeartbeats 4000000 in
theorem f6_main_v130 (V : Valuation τ sig (Elt F)) :
    after pre6 V (Proc.devRef .tc main_v130) = Cert.ReferenceIdeal.ReadP.val_main_v130 (F := F) (V (Proc.devRef .tc main_arg1)) := by
  show after (pre5 ++ chunk6) V _ = _
  rw [after_app, after_of_forall_not_mem chunk6 _ (List.forall_iff_forall_mem.mp (by
    simp only [chunk6, List.Forall, nullary_writes, unary_writes, binary_writes, ternary_writes, nary_writes, Finset.mem_singleton]
    repeat' apply And.intro
    all_goals exact devRef_ne_of_ne (by decide)))]
  exact f5_main_v130 V

set_option maxHeartbeats 4000000 in
theorem f6_main_v176 (V : Valuation τ sig (Elt F)) :
    after pre6 V (Proc.devRef .tc main_v176) = Cert.ReferenceIdeal.ReadP.val_main_v176 (F := F) (V (Proc.devRef .tc main_arg1)) := by
  show after (pre5 ++ chunk6) V _ = _
  rw [after_app]
  have h0 := f5_main_v143 V
  have h1 := f5_main_v144 V
  have h2 := f5_main_v6 V
  have h3 := f5_main_v17 V
  have h4 := f5_main_v32 V
  have h5 := f5_main_v140 V
  generalize after pre5 V = W at h0 h1 h2 h3 h4 h5 ⊢
  after_results_simp <;> (try simp only [h0, h1, h2, h3, h4, h5]) <;> rfl

set_option maxHeartbeats 4000000 in
theorem f6_main_arg1 (V : Valuation τ sig (Elt F)) :
    after pre6 V (Proc.devRef .tc main_arg1) = V (Proc.devRef .tc main_arg1) := by
  show after (pre5 ++ chunk6) V _ = _
  rw [after_app, after_of_forall_not_mem chunk6 _ (List.forall_iff_forall_mem.mp (by
    simp only [chunk6, List.Forall, nullary_writes, unary_writes, binary_writes, ternary_writes, nary_writes, Finset.mem_singleton]
    repeat' apply And.intro
    all_goals exact devRef_ne_of_ne (by decide)))]
  exact f5_main_arg1 V

/-! ## After the first 280 operations -/

set_option maxHeartbeats 4000000 in
theorem f7_main_v205 (V : Valuation τ sig (Elt F)) :
    after pre7 V (Proc.devRef .tc main_v205) = Cert.ReferenceIdeal.ReadP.val_main_v205 (F := F) (V (Proc.devRef .tc main_arg1)) := by
  show after (pre6 ++ chunk7) V _ = _
  rw [after_app]
  have h0 := f6_main_cst_52 V
  have h1 := f6_main_v140 V
  have h2 := f6_main_v148 V
  have h3 := f6_main_v161 V
  generalize after pre6 V = W at h0 h1 h2 h3 ⊢
  after_results_simp <;> (try simp only [h0, h1, h2, h3]) <;> rfl

set_option maxHeartbeats 4000000 in
theorem f7_main_v140 (V : Valuation τ sig (Elt F)) :
    after pre7 V (Proc.devRef .tc main_v140) = Cert.ReferenceIdeal.ReadP.val_main_v140 (F := F) (V (Proc.devRef .tc main_arg1)) := by
  show after (pre6 ++ chunk7) V _ = _
  rw [after_app, after_of_forall_not_mem chunk7 _ (List.forall_iff_forall_mem.mp (by
    simp only [chunk7, List.Forall, nullary_writes, unary_writes, binary_writes, ternary_writes, nary_writes, Finset.mem_singleton]
    repeat' apply And.intro
    all_goals exact devRef_ne_of_ne (by decide)))]
  exact f6_main_v140 V

set_option maxHeartbeats 4000000 in
theorem f7_main_v148 (V : Valuation τ sig (Elt F)) :
    after pre7 V (Proc.devRef .tc main_v148) = Cert.ReferenceIdeal.ReadP.val_main_v148 (F := F) (V (Proc.devRef .tc main_arg1)) := by
  show after (pre6 ++ chunk7) V _ = _
  rw [after_app, after_of_forall_not_mem chunk7 _ (List.forall_iff_forall_mem.mp (by
    simp only [chunk7, List.Forall, nullary_writes, unary_writes, binary_writes, ternary_writes, nary_writes, Finset.mem_singleton]
    repeat' apply And.intro
    all_goals exact devRef_ne_of_ne (by decide)))]
  exact f6_main_v148 V

set_option maxHeartbeats 4000000 in
theorem f7_main_v161 (V : Valuation τ sig (Elt F)) :
    after pre7 V (Proc.devRef .tc main_v161) = Cert.ReferenceIdeal.ReadP.val_main_v161 (F := F) (V (Proc.devRef .tc main_arg1)) := by
  show after (pre6 ++ chunk7) V _ = _
  rw [after_app, after_of_forall_not_mem chunk7 _ (List.forall_iff_forall_mem.mp (by
    simp only [chunk7, List.Forall, nullary_writes, unary_writes, binary_writes, ternary_writes, nary_writes, Finset.mem_singleton]
    repeat' apply And.intro
    all_goals exact devRef_ne_of_ne (by decide)))]
  exact f6_main_v161 V

set_option maxHeartbeats 4000000 in
theorem f7_main_v145 (V : Valuation τ sig (Elt F)) :
    after pre7 V (Proc.devRef .tc main_v145) = Cert.ReferenceIdeal.ReadP.val_main_v145 (F := F) (V (Proc.devRef .tc main_arg1)) := by
  show after (pre6 ++ chunk7) V _ = _
  rw [after_app, after_of_forall_not_mem chunk7 _ (List.forall_iff_forall_mem.mp (by
    simp only [chunk7, List.Forall, nullary_writes, unary_writes, binary_writes, ternary_writes, nary_writes, Finset.mem_singleton]
    repeat' apply And.intro
    all_goals exact devRef_ne_of_ne (by decide)))]
  exact f6_main_v145 V

set_option maxHeartbeats 4000000 in
theorem f7_main_v158 (V : Valuation τ sig (Elt F)) :
    after pre7 V (Proc.devRef .tc main_v158) = Cert.ReferenceIdeal.ReadP.val_main_v158 (F := F) (V (Proc.devRef .tc main_arg1)) := by
  show after (pre6 ++ chunk7) V _ = _
  rw [after_app, after_of_forall_not_mem chunk7 _ (List.forall_iff_forall_mem.mp (by
    simp only [chunk7, List.Forall, nullary_writes, unary_writes, binary_writes, ternary_writes, nary_writes, Finset.mem_singleton]
    repeat' apply And.intro
    all_goals exact devRef_ne_of_ne (by decide)))]
  exact f6_main_v158 V

set_option maxHeartbeats 4000000 in
theorem f7_main_arg0 (V : Valuation τ sig (Elt F)) :
    after pre7 V (Proc.devRef .tc main_arg0) = V (Proc.devRef .tc main_arg0) := by
  show after (pre6 ++ chunk7) V _ = _
  rw [after_app, after_of_forall_not_mem chunk7 _ (List.forall_iff_forall_mem.mp (by
    simp only [chunk7, List.Forall, nullary_writes, unary_writes, binary_writes, ternary_writes, nary_writes, Finset.mem_singleton]
    repeat' apply And.intro
    all_goals exact devRef_ne_of_ne (by decide)))]
  exact f6_main_arg0 V

set_option maxHeartbeats 4000000 in
theorem f7_main_v34 (V : Valuation τ sig (Elt F)) :
    after pre7 V (Proc.devRef .tc main_v34) = Cert.ReferenceIdeal.ReadP.val_main_v34 (F := F) (V (Proc.devRef .tc main_arg1)) := by
  show after (pre6 ++ chunk7) V _ = _
  rw [after_app, after_of_forall_not_mem chunk7 _ (List.forall_iff_forall_mem.mp (by
    simp only [chunk7, List.Forall, nullary_writes, unary_writes, binary_writes, ternary_writes, nary_writes, Finset.mem_singleton]
    repeat' apply And.intro
    all_goals exact devRef_ne_of_ne (by decide)))]
  exact f6_main_v34 V

set_option maxHeartbeats 4000000 in
theorem f7_main_v43 (V : Valuation τ sig (Elt F)) :
    after pre7 V (Proc.devRef .tc main_v43) = Cert.ReferenceIdeal.ReadP.val_main_v43 (F := F) (V (Proc.devRef .tc main_arg1)) := by
  show after (pre6 ++ chunk7) V _ = _
  rw [after_app, after_of_forall_not_mem chunk7 _ (List.forall_iff_forall_mem.mp (by
    simp only [chunk7, List.Forall, nullary_writes, unary_writes, binary_writes, ternary_writes, nary_writes, Finset.mem_singleton]
    repeat' apply And.intro
    all_goals exact devRef_ne_of_ne (by decide)))]
  exact f6_main_v43 V

set_option maxHeartbeats 4000000 in
theorem f7_main_v52 (V : Valuation τ sig (Elt F)) :
    after pre7 V (Proc.devRef .tc main_v52) = Cert.ReferenceIdeal.ReadP.val_main_v52 (F := F) (V (Proc.devRef .tc main_arg1)) := by
  show after (pre6 ++ chunk7) V _ = _
  rw [after_app, after_of_forall_not_mem chunk7 _ (List.forall_iff_forall_mem.mp (by
    simp only [chunk7, List.Forall, nullary_writes, unary_writes, binary_writes, ternary_writes, nary_writes, Finset.mem_singleton]
    repeat' apply And.intro
    all_goals exact devRef_ne_of_ne (by decide)))]
  exact f6_main_v52 V

set_option maxHeartbeats 4000000 in
theorem f7_main_v61 (V : Valuation τ sig (Elt F)) :
    after pre7 V (Proc.devRef .tc main_v61) = Cert.ReferenceIdeal.ReadP.val_main_v61 (F := F) (V (Proc.devRef .tc main_arg1)) := by
  show after (pre6 ++ chunk7) V _ = _
  rw [after_app, after_of_forall_not_mem chunk7 _ (List.forall_iff_forall_mem.mp (by
    simp only [chunk7, List.Forall, nullary_writes, unary_writes, binary_writes, ternary_writes, nary_writes, Finset.mem_singleton]
    repeat' apply And.intro
    all_goals exact devRef_ne_of_ne (by decide)))]
  exact f6_main_v61 V

set_option maxHeartbeats 4000000 in
theorem f7_main_v70 (V : Valuation τ sig (Elt F)) :
    after pre7 V (Proc.devRef .tc main_v70) = Cert.ReferenceIdeal.ReadP.val_main_v70 (F := F) (V (Proc.devRef .tc main_arg1)) := by
  show after (pre6 ++ chunk7) V _ = _
  rw [after_app, after_of_forall_not_mem chunk7 _ (List.forall_iff_forall_mem.mp (by
    simp only [chunk7, List.Forall, nullary_writes, unary_writes, binary_writes, ternary_writes, nary_writes, Finset.mem_singleton]
    repeat' apply And.intro
    all_goals exact devRef_ne_of_ne (by decide)))]
  exact f6_main_v70 V

set_option maxHeartbeats 4000000 in
theorem f7_main_v79 (V : Valuation τ sig (Elt F)) :
    after pre7 V (Proc.devRef .tc main_v79) = Cert.ReferenceIdeal.ReadP.val_main_v79 (F := F) (V (Proc.devRef .tc main_arg1)) := by
  show after (pre6 ++ chunk7) V _ = _
  rw [after_app, after_of_forall_not_mem chunk7 _ (List.forall_iff_forall_mem.mp (by
    simp only [chunk7, List.Forall, nullary_writes, unary_writes, binary_writes, ternary_writes, nary_writes, Finset.mem_singleton]
    repeat' apply And.intro
    all_goals exact devRef_ne_of_ne (by decide)))]
  exact f6_main_v79 V

set_option maxHeartbeats 4000000 in
theorem f7_main_v88 (V : Valuation τ sig (Elt F)) :
    after pre7 V (Proc.devRef .tc main_v88) = Cert.ReferenceIdeal.ReadP.val_main_v88 (F := F) (V (Proc.devRef .tc main_arg1)) := by
  show after (pre6 ++ chunk7) V _ = _
  rw [after_app, after_of_forall_not_mem chunk7 _ (List.forall_iff_forall_mem.mp (by
    simp only [chunk7, List.Forall, nullary_writes, unary_writes, binary_writes, ternary_writes, nary_writes, Finset.mem_singleton]
    repeat' apply And.intro
    all_goals exact devRef_ne_of_ne (by decide)))]
  exact f6_main_v88 V

set_option maxHeartbeats 4000000 in
theorem f7_main_v97 (V : Valuation τ sig (Elt F)) :
    after pre7 V (Proc.devRef .tc main_v97) = Cert.ReferenceIdeal.ReadP.val_main_v97 (F := F) (V (Proc.devRef .tc main_arg1)) := by
  show after (pre6 ++ chunk7) V _ = _
  rw [after_app, after_of_forall_not_mem chunk7 _ (List.forall_iff_forall_mem.mp (by
    simp only [chunk7, List.Forall, nullary_writes, unary_writes, binary_writes, ternary_writes, nary_writes, Finset.mem_singleton]
    repeat' apply And.intro
    all_goals exact devRef_ne_of_ne (by decide)))]
  exact f6_main_v97 V

set_option maxHeartbeats 4000000 in
theorem f7_main_v106 (V : Valuation τ sig (Elt F)) :
    after pre7 V (Proc.devRef .tc main_v106) = Cert.ReferenceIdeal.ReadP.val_main_v106 (F := F) (V (Proc.devRef .tc main_arg1)) := by
  show after (pre6 ++ chunk7) V _ = _
  rw [after_app, after_of_forall_not_mem chunk7 _ (List.forall_iff_forall_mem.mp (by
    simp only [chunk7, List.Forall, nullary_writes, unary_writes, binary_writes, ternary_writes, nary_writes, Finset.mem_singleton]
    repeat' apply And.intro
    all_goals exact devRef_ne_of_ne (by decide)))]
  exact f6_main_v106 V

set_option maxHeartbeats 4000000 in
theorem f7_main_v112 (V : Valuation τ sig (Elt F)) :
    after pre7 V (Proc.devRef .tc main_v112) = Cert.ReferenceIdeal.ReadP.val_main_v112 (F := F) (V (Proc.devRef .tc main_arg1)) := by
  show after (pre6 ++ chunk7) V _ = _
  rw [after_app, after_of_forall_not_mem chunk7 _ (List.forall_iff_forall_mem.mp (by
    simp only [chunk7, List.Forall, nullary_writes, unary_writes, binary_writes, ternary_writes, nary_writes, Finset.mem_singleton]
    repeat' apply And.intro
    all_goals exact devRef_ne_of_ne (by decide)))]
  exact f6_main_v112 V

set_option maxHeartbeats 4000000 in
theorem f7_main_v118 (V : Valuation τ sig (Elt F)) :
    after pre7 V (Proc.devRef .tc main_v118) = Cert.ReferenceIdeal.ReadP.val_main_v118 (F := F) (V (Proc.devRef .tc main_arg1)) := by
  show after (pre6 ++ chunk7) V _ = _
  rw [after_app, after_of_forall_not_mem chunk7 _ (List.forall_iff_forall_mem.mp (by
    simp only [chunk7, List.Forall, nullary_writes, unary_writes, binary_writes, ternary_writes, nary_writes, Finset.mem_singleton]
    repeat' apply And.intro
    all_goals exact devRef_ne_of_ne (by decide)))]
  exact f6_main_v118 V

set_option maxHeartbeats 4000000 in
theorem f7_main_v124 (V : Valuation τ sig (Elt F)) :
    after pre7 V (Proc.devRef .tc main_v124) = Cert.ReferenceIdeal.ReadP.val_main_v124 (F := F) (V (Proc.devRef .tc main_arg1)) := by
  show after (pre6 ++ chunk7) V _ = _
  rw [after_app, after_of_forall_not_mem chunk7 _ (List.forall_iff_forall_mem.mp (by
    simp only [chunk7, List.Forall, nullary_writes, unary_writes, binary_writes, ternary_writes, nary_writes, Finset.mem_singleton]
    repeat' apply And.intro
    all_goals exact devRef_ne_of_ne (by decide)))]
  exact f6_main_v124 V

set_option maxHeartbeats 4000000 in
theorem f7_main_v130 (V : Valuation τ sig (Elt F)) :
    after pre7 V (Proc.devRef .tc main_v130) = Cert.ReferenceIdeal.ReadP.val_main_v130 (F := F) (V (Proc.devRef .tc main_arg1)) := by
  show after (pre6 ++ chunk7) V _ = _
  rw [after_app, after_of_forall_not_mem chunk7 _ (List.forall_iff_forall_mem.mp (by
    simp only [chunk7, List.Forall, nullary_writes, unary_writes, binary_writes, ternary_writes, nary_writes, Finset.mem_singleton]
    repeat' apply And.intro
    all_goals exact devRef_ne_of_ne (by decide)))]
  exact f6_main_v130 V

set_option maxHeartbeats 4000000 in
theorem f7_main_v176 (V : Valuation τ sig (Elt F)) :
    after pre7 V (Proc.devRef .tc main_v176) = Cert.ReferenceIdeal.ReadP.val_main_v176 (F := F) (V (Proc.devRef .tc main_arg1)) := by
  show after (pre6 ++ chunk7) V _ = _
  rw [after_app, after_of_forall_not_mem chunk7 _ (List.forall_iff_forall_mem.mp (by
    simp only [chunk7, List.Forall, nullary_writes, unary_writes, binary_writes, ternary_writes, nary_writes, Finset.mem_singleton]
    repeat' apply And.intro
    all_goals exact devRef_ne_of_ne (by decide)))]
  exact f6_main_v176 V

set_option maxHeartbeats 4000000 in
theorem f7_main_v191 (V : Valuation τ sig (Elt F)) :
    after pre7 V (Proc.devRef .tc main_v191) = Cert.ReferenceIdeal.ReadP.val_main_v191 (F := F) (V (Proc.devRef .tc main_arg1)) := by
  show after (pre6 ++ chunk7) V _ = _
  rw [after_app]
  have h0 := f6_main_cst_52 V
  have h1 := f6_main_v140 V
  have h2 := f6_main_v148 V
  have h3 := f6_main_v161 V
  generalize after pre6 V = W at h0 h1 h2 h3 ⊢
  after_results_simp <;> (try simp only [h0, h1, h2, h3]) <;> rfl

set_option maxHeartbeats 4000000 in
theorem f7_main_arg1 (V : Valuation τ sig (Elt F)) :
    after pre7 V (Proc.devRef .tc main_arg1) = V (Proc.devRef .tc main_arg1) := by
  show after (pre6 ++ chunk7) V _ = _
  rw [after_app, after_of_forall_not_mem chunk7 _ (List.forall_iff_forall_mem.mp (by
    simp only [chunk7, List.Forall, nullary_writes, unary_writes, binary_writes, ternary_writes, nary_writes, Finset.mem_singleton]
    repeat' apply And.intro
    all_goals exact devRef_ne_of_ne (by decide)))]
  exact f6_main_arg1 V

/-! ## After the first 320 operations -/

set_option maxHeartbeats 4000000 in
theorem f8_main_cst_75 (V : Valuation τ sig (Elt F)) :
    after pre8 V (Proc.devRef .tc main_cst_75) = Cert.ReferenceIdeal.ReadP.val_main_cst_75 (F := F) := by
  show after (pre7 ++ chunk8) V _ = _
  rw [after_app]
  have h0 := f7_main_v205 V
  have h1 := f7_main_v140 V
  have h2 := f7_main_v148 V
  have h3 := f7_main_v161 V
  have h4 := f7_main_v145 V
  have h5 := f7_main_v158 V
  generalize after pre7 V = W at h0 h1 h2 h3 h4 h5 ⊢
  after_results_simp <;> (try simp only [h0, h1, h2, h3, h4, h5]) <;> rfl

set_option maxHeartbeats 4000000 in
theorem f8_main_v233 (V : Valuation τ sig (Elt F)) :
    after pre8 V (Proc.devRef .tc main_v233) = Cert.ReferenceIdeal.ReadP.val_main_v233 (F := F) (V (Proc.devRef .tc main_arg1)) := by
  show after (pre7 ++ chunk8) V _ = _
  rw [after_app]
  have h0 := f7_main_v205 V
  have h1 := f7_main_v140 V
  have h2 := f7_main_v148 V
  have h3 := f7_main_v161 V
  have h4 := f7_main_v145 V
  have h5 := f7_main_v158 V
  generalize after pre7 V = W at h0 h1 h2 h3 h4 h5 ⊢
  after_results_simp <;> (try simp only [h0, h1, h2, h3, h4, h5]) <;> rfl

set_option maxHeartbeats 4000000 in
theorem f8_main_v140 (V : Valuation τ sig (Elt F)) :
    after pre8 V (Proc.devRef .tc main_v140) = Cert.ReferenceIdeal.ReadP.val_main_v140 (F := F) (V (Proc.devRef .tc main_arg1)) := by
  show after (pre7 ++ chunk8) V _ = _
  rw [after_app, after_of_forall_not_mem chunk8 _ (List.forall_iff_forall_mem.mp (by
    simp only [chunk8, List.Forall, nullary_writes, unary_writes, binary_writes, ternary_writes, nary_writes, Finset.mem_singleton]
    repeat' apply And.intro
    all_goals exact devRef_ne_of_ne (by decide)))]
  exact f7_main_v140 V

set_option maxHeartbeats 4000000 in
theorem f8_main_v145 (V : Valuation τ sig (Elt F)) :
    after pre8 V (Proc.devRef .tc main_v145) = Cert.ReferenceIdeal.ReadP.val_main_v145 (F := F) (V (Proc.devRef .tc main_arg1)) := by
  show after (pre7 ++ chunk8) V _ = _
  rw [after_app, after_of_forall_not_mem chunk8 _ (List.forall_iff_forall_mem.mp (by
    simp only [chunk8, List.Forall, nullary_writes, unary_writes, binary_writes, ternary_writes, nary_writes, Finset.mem_singleton]
    repeat' apply And.intro
    all_goals exact devRef_ne_of_ne (by decide)))]
  exact f7_main_v145 V

set_option maxHeartbeats 4000000 in
theorem f8_main_v158 (V : Valuation τ sig (Elt F)) :
    after pre8 V (Proc.devRef .tc main_v158) = Cert.ReferenceIdeal.ReadP.val_main_v158 (F := F) (V (Proc.devRef .tc main_arg1)) := by
  show after (pre7 ++ chunk8) V _ = _
  rw [after_app, after_of_forall_not_mem chunk8 _ (List.forall_iff_forall_mem.mp (by
    simp only [chunk8, List.Forall, nullary_writes, unary_writes, binary_writes, ternary_writes, nary_writes, Finset.mem_singleton]
    repeat' apply And.intro
    all_goals exact devRef_ne_of_ne (by decide)))]
  exact f7_main_v158 V

set_option maxHeartbeats 4000000 in
theorem f8_main_arg0 (V : Valuation τ sig (Elt F)) :
    after pre8 V (Proc.devRef .tc main_arg0) = V (Proc.devRef .tc main_arg0) := by
  show after (pre7 ++ chunk8) V _ = _
  rw [after_app, after_of_forall_not_mem chunk8 _ (List.forall_iff_forall_mem.mp (by
    simp only [chunk8, List.Forall, nullary_writes, unary_writes, binary_writes, ternary_writes, nary_writes, Finset.mem_singleton]
    repeat' apply And.intro
    all_goals exact devRef_ne_of_ne (by decide)))]
  exact f7_main_arg0 V

set_option maxHeartbeats 4000000 in
theorem f8_main_v34 (V : Valuation τ sig (Elt F)) :
    after pre8 V (Proc.devRef .tc main_v34) = Cert.ReferenceIdeal.ReadP.val_main_v34 (F := F) (V (Proc.devRef .tc main_arg1)) := by
  show after (pre7 ++ chunk8) V _ = _
  rw [after_app, after_of_forall_not_mem chunk8 _ (List.forall_iff_forall_mem.mp (by
    simp only [chunk8, List.Forall, nullary_writes, unary_writes, binary_writes, ternary_writes, nary_writes, Finset.mem_singleton]
    repeat' apply And.intro
    all_goals exact devRef_ne_of_ne (by decide)))]
  exact f7_main_v34 V

set_option maxHeartbeats 4000000 in
theorem f8_main_v43 (V : Valuation τ sig (Elt F)) :
    after pre8 V (Proc.devRef .tc main_v43) = Cert.ReferenceIdeal.ReadP.val_main_v43 (F := F) (V (Proc.devRef .tc main_arg1)) := by
  show after (pre7 ++ chunk8) V _ = _
  rw [after_app, after_of_forall_not_mem chunk8 _ (List.forall_iff_forall_mem.mp (by
    simp only [chunk8, List.Forall, nullary_writes, unary_writes, binary_writes, ternary_writes, nary_writes, Finset.mem_singleton]
    repeat' apply And.intro
    all_goals exact devRef_ne_of_ne (by decide)))]
  exact f7_main_v43 V

set_option maxHeartbeats 4000000 in
theorem f8_main_v52 (V : Valuation τ sig (Elt F)) :
    after pre8 V (Proc.devRef .tc main_v52) = Cert.ReferenceIdeal.ReadP.val_main_v52 (F := F) (V (Proc.devRef .tc main_arg1)) := by
  show after (pre7 ++ chunk8) V _ = _
  rw [after_app, after_of_forall_not_mem chunk8 _ (List.forall_iff_forall_mem.mp (by
    simp only [chunk8, List.Forall, nullary_writes, unary_writes, binary_writes, ternary_writes, nary_writes, Finset.mem_singleton]
    repeat' apply And.intro
    all_goals exact devRef_ne_of_ne (by decide)))]
  exact f7_main_v52 V

set_option maxHeartbeats 4000000 in
theorem f8_main_v61 (V : Valuation τ sig (Elt F)) :
    after pre8 V (Proc.devRef .tc main_v61) = Cert.ReferenceIdeal.ReadP.val_main_v61 (F := F) (V (Proc.devRef .tc main_arg1)) := by
  show after (pre7 ++ chunk8) V _ = _
  rw [after_app, after_of_forall_not_mem chunk8 _ (List.forall_iff_forall_mem.mp (by
    simp only [chunk8, List.Forall, nullary_writes, unary_writes, binary_writes, ternary_writes, nary_writes, Finset.mem_singleton]
    repeat' apply And.intro
    all_goals exact devRef_ne_of_ne (by decide)))]
  exact f7_main_v61 V

set_option maxHeartbeats 4000000 in
theorem f8_main_v70 (V : Valuation τ sig (Elt F)) :
    after pre8 V (Proc.devRef .tc main_v70) = Cert.ReferenceIdeal.ReadP.val_main_v70 (F := F) (V (Proc.devRef .tc main_arg1)) := by
  show after (pre7 ++ chunk8) V _ = _
  rw [after_app, after_of_forall_not_mem chunk8 _ (List.forall_iff_forall_mem.mp (by
    simp only [chunk8, List.Forall, nullary_writes, unary_writes, binary_writes, ternary_writes, nary_writes, Finset.mem_singleton]
    repeat' apply And.intro
    all_goals exact devRef_ne_of_ne (by decide)))]
  exact f7_main_v70 V

set_option maxHeartbeats 4000000 in
theorem f8_main_v79 (V : Valuation τ sig (Elt F)) :
    after pre8 V (Proc.devRef .tc main_v79) = Cert.ReferenceIdeal.ReadP.val_main_v79 (F := F) (V (Proc.devRef .tc main_arg1)) := by
  show after (pre7 ++ chunk8) V _ = _
  rw [after_app, after_of_forall_not_mem chunk8 _ (List.forall_iff_forall_mem.mp (by
    simp only [chunk8, List.Forall, nullary_writes, unary_writes, binary_writes, ternary_writes, nary_writes, Finset.mem_singleton]
    repeat' apply And.intro
    all_goals exact devRef_ne_of_ne (by decide)))]
  exact f7_main_v79 V

set_option maxHeartbeats 4000000 in
theorem f8_main_v88 (V : Valuation τ sig (Elt F)) :
    after pre8 V (Proc.devRef .tc main_v88) = Cert.ReferenceIdeal.ReadP.val_main_v88 (F := F) (V (Proc.devRef .tc main_arg1)) := by
  show after (pre7 ++ chunk8) V _ = _
  rw [after_app, after_of_forall_not_mem chunk8 _ (List.forall_iff_forall_mem.mp (by
    simp only [chunk8, List.Forall, nullary_writes, unary_writes, binary_writes, ternary_writes, nary_writes, Finset.mem_singleton]
    repeat' apply And.intro
    all_goals exact devRef_ne_of_ne (by decide)))]
  exact f7_main_v88 V

set_option maxHeartbeats 4000000 in
theorem f8_main_v97 (V : Valuation τ sig (Elt F)) :
    after pre8 V (Proc.devRef .tc main_v97) = Cert.ReferenceIdeal.ReadP.val_main_v97 (F := F) (V (Proc.devRef .tc main_arg1)) := by
  show after (pre7 ++ chunk8) V _ = _
  rw [after_app, after_of_forall_not_mem chunk8 _ (List.forall_iff_forall_mem.mp (by
    simp only [chunk8, List.Forall, nullary_writes, unary_writes, binary_writes, ternary_writes, nary_writes, Finset.mem_singleton]
    repeat' apply And.intro
    all_goals exact devRef_ne_of_ne (by decide)))]
  exact f7_main_v97 V

set_option maxHeartbeats 4000000 in
theorem f8_main_v106 (V : Valuation τ sig (Elt F)) :
    after pre8 V (Proc.devRef .tc main_v106) = Cert.ReferenceIdeal.ReadP.val_main_v106 (F := F) (V (Proc.devRef .tc main_arg1)) := by
  show after (pre7 ++ chunk8) V _ = _
  rw [after_app, after_of_forall_not_mem chunk8 _ (List.forall_iff_forall_mem.mp (by
    simp only [chunk8, List.Forall, nullary_writes, unary_writes, binary_writes, ternary_writes, nary_writes, Finset.mem_singleton]
    repeat' apply And.intro
    all_goals exact devRef_ne_of_ne (by decide)))]
  exact f7_main_v106 V

set_option maxHeartbeats 4000000 in
theorem f8_main_v112 (V : Valuation τ sig (Elt F)) :
    after pre8 V (Proc.devRef .tc main_v112) = Cert.ReferenceIdeal.ReadP.val_main_v112 (F := F) (V (Proc.devRef .tc main_arg1)) := by
  show after (pre7 ++ chunk8) V _ = _
  rw [after_app, after_of_forall_not_mem chunk8 _ (List.forall_iff_forall_mem.mp (by
    simp only [chunk8, List.Forall, nullary_writes, unary_writes, binary_writes, ternary_writes, nary_writes, Finset.mem_singleton]
    repeat' apply And.intro
    all_goals exact devRef_ne_of_ne (by decide)))]
  exact f7_main_v112 V

set_option maxHeartbeats 4000000 in
theorem f8_main_v118 (V : Valuation τ sig (Elt F)) :
    after pre8 V (Proc.devRef .tc main_v118) = Cert.ReferenceIdeal.ReadP.val_main_v118 (F := F) (V (Proc.devRef .tc main_arg1)) := by
  show after (pre7 ++ chunk8) V _ = _
  rw [after_app, after_of_forall_not_mem chunk8 _ (List.forall_iff_forall_mem.mp (by
    simp only [chunk8, List.Forall, nullary_writes, unary_writes, binary_writes, ternary_writes, nary_writes, Finset.mem_singleton]
    repeat' apply And.intro
    all_goals exact devRef_ne_of_ne (by decide)))]
  exact f7_main_v118 V

set_option maxHeartbeats 4000000 in
theorem f8_main_v124 (V : Valuation τ sig (Elt F)) :
    after pre8 V (Proc.devRef .tc main_v124) = Cert.ReferenceIdeal.ReadP.val_main_v124 (F := F) (V (Proc.devRef .tc main_arg1)) := by
  show after (pre7 ++ chunk8) V _ = _
  rw [after_app, after_of_forall_not_mem chunk8 _ (List.forall_iff_forall_mem.mp (by
    simp only [chunk8, List.Forall, nullary_writes, unary_writes, binary_writes, ternary_writes, nary_writes, Finset.mem_singleton]
    repeat' apply And.intro
    all_goals exact devRef_ne_of_ne (by decide)))]
  exact f7_main_v124 V

set_option maxHeartbeats 4000000 in
theorem f8_main_v130 (V : Valuation τ sig (Elt F)) :
    after pre8 V (Proc.devRef .tc main_v130) = Cert.ReferenceIdeal.ReadP.val_main_v130 (F := F) (V (Proc.devRef .tc main_arg1)) := by
  show after (pre7 ++ chunk8) V _ = _
  rw [after_app, after_of_forall_not_mem chunk8 _ (List.forall_iff_forall_mem.mp (by
    simp only [chunk8, List.Forall, nullary_writes, unary_writes, binary_writes, ternary_writes, nary_writes, Finset.mem_singleton]
    repeat' apply And.intro
    all_goals exact devRef_ne_of_ne (by decide)))]
  exact f7_main_v130 V

set_option maxHeartbeats 4000000 in
theorem f8_main_v176 (V : Valuation τ sig (Elt F)) :
    after pre8 V (Proc.devRef .tc main_v176) = Cert.ReferenceIdeal.ReadP.val_main_v176 (F := F) (V (Proc.devRef .tc main_arg1)) := by
  show after (pre7 ++ chunk8) V _ = _
  rw [after_app, after_of_forall_not_mem chunk8 _ (List.forall_iff_forall_mem.mp (by
    simp only [chunk8, List.Forall, nullary_writes, unary_writes, binary_writes, ternary_writes, nary_writes, Finset.mem_singleton]
    repeat' apply And.intro
    all_goals exact devRef_ne_of_ne (by decide)))]
  exact f7_main_v176 V

set_option maxHeartbeats 4000000 in
theorem f8_main_v191 (V : Valuation τ sig (Elt F)) :
    after pre8 V (Proc.devRef .tc main_v191) = Cert.ReferenceIdeal.ReadP.val_main_v191 (F := F) (V (Proc.devRef .tc main_arg1)) := by
  show after (pre7 ++ chunk8) V _ = _
  rw [after_app, after_of_forall_not_mem chunk8 _ (List.forall_iff_forall_mem.mp (by
    simp only [chunk8, List.Forall, nullary_writes, unary_writes, binary_writes, ternary_writes, nary_writes, Finset.mem_singleton]
    repeat' apply And.intro
    all_goals exact devRef_ne_of_ne (by decide)))]
  exact f7_main_v191 V

set_option maxHeartbeats 4000000 in
theorem f8_main_v206 (V : Valuation τ sig (Elt F)) :
    after pre8 V (Proc.devRef .tc main_v206) = Cert.ReferenceIdeal.ReadP.val_main_v206 (F := F) (V (Proc.devRef .tc main_arg1)) := by
  show after (pre7 ++ chunk8) V _ = _
  rw [after_app]
  have h0 := f7_main_v205 V
  have h1 := f7_main_v140 V
  have h2 := f7_main_v148 V
  have h3 := f7_main_v161 V
  have h4 := f7_main_v145 V
  have h5 := f7_main_v158 V
  generalize after pre7 V = W at h0 h1 h2 h3 h4 h5 ⊢
  after_results_simp <;> (try simp only [h0, h1, h2, h3, h4, h5]) <;> rfl

set_option maxHeartbeats 4000000 in
theorem f8_main_v221 (V : Valuation τ sig (Elt F)) :
    after pre8 V (Proc.devRef .tc main_v221) = Cert.ReferenceIdeal.ReadP.val_main_v221 (F := F) (V (Proc.devRef .tc main_arg1)) := by
  show after (pre7 ++ chunk8) V _ = _
  rw [after_app]
  have h0 := f7_main_v205 V
  have h1 := f7_main_v140 V
  have h2 := f7_main_v148 V
  have h3 := f7_main_v161 V
  have h4 := f7_main_v145 V
  have h5 := f7_main_v158 V
  generalize after pre7 V = W at h0 h1 h2 h3 h4 h5 ⊢
  after_results_simp <;> (try simp only [h0, h1, h2, h3, h4, h5]) <;> rfl

set_option maxHeartbeats 4000000 in
theorem f8_main_arg1 (V : Valuation τ sig (Elt F)) :
    after pre8 V (Proc.devRef .tc main_arg1) = V (Proc.devRef .tc main_arg1) := by
  show after (pre7 ++ chunk8) V _ = _
  rw [after_app, after_of_forall_not_mem chunk8 _ (List.forall_iff_forall_mem.mp (by
    simp only [chunk8, List.Forall, nullary_writes, unary_writes, binary_writes, ternary_writes, nary_writes, Finset.mem_singleton]
    repeat' apply And.intro
    all_goals exact devRef_ne_of_ne (by decide)))]
  exact f7_main_arg1 V

/-! ## After the first 360 operations -/

set_option maxHeartbeats 4000000 in
theorem f9_main_v262 (V : Valuation τ sig (Elt F)) :
    after pre9 V (Proc.devRef .tc main_v262) = Cert.ReferenceIdeal.ReadP.val_main_v262 (F := F) (V (Proc.devRef .tc main_arg1)) := by
  show after (pre8 ++ chunk9) V _ = _
  rw [after_app]
  have h0 := f8_main_cst_75 V
  have h1 := f8_main_v233 V
  have h2 := f8_main_v140 V
  have h3 := f8_main_v145 V
  have h4 := f8_main_v158 V
  generalize after pre8 V = W at h0 h1 h2 h3 h4 ⊢
  after_results_simp <;> (try simp only [h0, h1, h2, h3, h4]) <;> rfl

set_option maxHeartbeats 4000000 in
theorem f9_main_cst_86 (V : Valuation τ sig (Elt F)) :
    after pre9 V (Proc.devRef .tc main_cst_86) = Cert.ReferenceIdeal.ReadP.val_main_cst_86 (F := F) := by
  show after (pre8 ++ chunk9) V _ = _
  rw [after_app]
  have h0 := f8_main_cst_75 V
  have h1 := f8_main_v233 V
  have h2 := f8_main_v140 V
  have h3 := f8_main_v145 V
  have h4 := f8_main_v158 V
  generalize after pre8 V = W at h0 h1 h2 h3 h4 ⊢
  after_results_simp <;> (try simp only [h0, h1, h2, h3, h4]) <;> rfl

set_option maxHeartbeats 4000000 in
theorem f9_main_v140 (V : Valuation τ sig (Elt F)) :
    after pre9 V (Proc.devRef .tc main_v140) = Cert.ReferenceIdeal.ReadP.val_main_v140 (F := F) (V (Proc.devRef .tc main_arg1)) := by
  show after (pre8 ++ chunk9) V _ = _
  rw [after_app, after_of_forall_not_mem chunk9 _ (List.forall_iff_forall_mem.mp (by
    simp only [chunk9, List.Forall, nullary_writes, unary_writes, binary_writes, ternary_writes, nary_writes, Finset.mem_singleton]
    repeat' apply And.intro
    all_goals exact devRef_ne_of_ne (by decide)))]
  exact f8_main_v140 V

set_option maxHeartbeats 4000000 in
theorem f9_main_v145 (V : Valuation τ sig (Elt F)) :
    after pre9 V (Proc.devRef .tc main_v145) = Cert.ReferenceIdeal.ReadP.val_main_v145 (F := F) (V (Proc.devRef .tc main_arg1)) := by
  show after (pre8 ++ chunk9) V _ = _
  rw [after_app, after_of_forall_not_mem chunk9 _ (List.forall_iff_forall_mem.mp (by
    simp only [chunk9, List.Forall, nullary_writes, unary_writes, binary_writes, ternary_writes, nary_writes, Finset.mem_singleton]
    repeat' apply And.intro
    all_goals exact devRef_ne_of_ne (by decide)))]
  exact f8_main_v145 V

set_option maxHeartbeats 4000000 in
theorem f9_main_v158 (V : Valuation τ sig (Elt F)) :
    after pre9 V (Proc.devRef .tc main_v158) = Cert.ReferenceIdeal.ReadP.val_main_v158 (F := F) (V (Proc.devRef .tc main_arg1)) := by
  show after (pre8 ++ chunk9) V _ = _
  rw [after_app, after_of_forall_not_mem chunk9 _ (List.forall_iff_forall_mem.mp (by
    simp only [chunk9, List.Forall, nullary_writes, unary_writes, binary_writes, ternary_writes, nary_writes, Finset.mem_singleton]
    repeat' apply And.intro
    all_goals exact devRef_ne_of_ne (by decide)))]
  exact f8_main_v158 V

set_option maxHeartbeats 4000000 in
theorem f9_main_arg0 (V : Valuation τ sig (Elt F)) :
    after pre9 V (Proc.devRef .tc main_arg0) = V (Proc.devRef .tc main_arg0) := by
  show after (pre8 ++ chunk9) V _ = _
  rw [after_app, after_of_forall_not_mem chunk9 _ (List.forall_iff_forall_mem.mp (by
    simp only [chunk9, List.Forall, nullary_writes, unary_writes, binary_writes, ternary_writes, nary_writes, Finset.mem_singleton]
    repeat' apply And.intro
    all_goals exact devRef_ne_of_ne (by decide)))]
  exact f8_main_arg0 V

set_option maxHeartbeats 4000000 in
theorem f9_main_v34 (V : Valuation τ sig (Elt F)) :
    after pre9 V (Proc.devRef .tc main_v34) = Cert.ReferenceIdeal.ReadP.val_main_v34 (F := F) (V (Proc.devRef .tc main_arg1)) := by
  show after (pre8 ++ chunk9) V _ = _
  rw [after_app, after_of_forall_not_mem chunk9 _ (List.forall_iff_forall_mem.mp (by
    simp only [chunk9, List.Forall, nullary_writes, unary_writes, binary_writes, ternary_writes, nary_writes, Finset.mem_singleton]
    repeat' apply And.intro
    all_goals exact devRef_ne_of_ne (by decide)))]
  exact f8_main_v34 V

set_option maxHeartbeats 4000000 in
theorem f9_main_v43 (V : Valuation τ sig (Elt F)) :
    after pre9 V (Proc.devRef .tc main_v43) = Cert.ReferenceIdeal.ReadP.val_main_v43 (F := F) (V (Proc.devRef .tc main_arg1)) := by
  show after (pre8 ++ chunk9) V _ = _
  rw [after_app, after_of_forall_not_mem chunk9 _ (List.forall_iff_forall_mem.mp (by
    simp only [chunk9, List.Forall, nullary_writes, unary_writes, binary_writes, ternary_writes, nary_writes, Finset.mem_singleton]
    repeat' apply And.intro
    all_goals exact devRef_ne_of_ne (by decide)))]
  exact f8_main_v43 V

set_option maxHeartbeats 4000000 in
theorem f9_main_v52 (V : Valuation τ sig (Elt F)) :
    after pre9 V (Proc.devRef .tc main_v52) = Cert.ReferenceIdeal.ReadP.val_main_v52 (F := F) (V (Proc.devRef .tc main_arg1)) := by
  show after (pre8 ++ chunk9) V _ = _
  rw [after_app, after_of_forall_not_mem chunk9 _ (List.forall_iff_forall_mem.mp (by
    simp only [chunk9, List.Forall, nullary_writes, unary_writes, binary_writes, ternary_writes, nary_writes, Finset.mem_singleton]
    repeat' apply And.intro
    all_goals exact devRef_ne_of_ne (by decide)))]
  exact f8_main_v52 V

set_option maxHeartbeats 4000000 in
theorem f9_main_v61 (V : Valuation τ sig (Elt F)) :
    after pre9 V (Proc.devRef .tc main_v61) = Cert.ReferenceIdeal.ReadP.val_main_v61 (F := F) (V (Proc.devRef .tc main_arg1)) := by
  show after (pre8 ++ chunk9) V _ = _
  rw [after_app, after_of_forall_not_mem chunk9 _ (List.forall_iff_forall_mem.mp (by
    simp only [chunk9, List.Forall, nullary_writes, unary_writes, binary_writes, ternary_writes, nary_writes, Finset.mem_singleton]
    repeat' apply And.intro
    all_goals exact devRef_ne_of_ne (by decide)))]
  exact f8_main_v61 V

set_option maxHeartbeats 4000000 in
theorem f9_main_v70 (V : Valuation τ sig (Elt F)) :
    after pre9 V (Proc.devRef .tc main_v70) = Cert.ReferenceIdeal.ReadP.val_main_v70 (F := F) (V (Proc.devRef .tc main_arg1)) := by
  show after (pre8 ++ chunk9) V _ = _
  rw [after_app, after_of_forall_not_mem chunk9 _ (List.forall_iff_forall_mem.mp (by
    simp only [chunk9, List.Forall, nullary_writes, unary_writes, binary_writes, ternary_writes, nary_writes, Finset.mem_singleton]
    repeat' apply And.intro
    all_goals exact devRef_ne_of_ne (by decide)))]
  exact f8_main_v70 V

set_option maxHeartbeats 4000000 in
theorem f9_main_v79 (V : Valuation τ sig (Elt F)) :
    after pre9 V (Proc.devRef .tc main_v79) = Cert.ReferenceIdeal.ReadP.val_main_v79 (F := F) (V (Proc.devRef .tc main_arg1)) := by
  show after (pre8 ++ chunk9) V _ = _
  rw [after_app, after_of_forall_not_mem chunk9 _ (List.forall_iff_forall_mem.mp (by
    simp only [chunk9, List.Forall, nullary_writes, unary_writes, binary_writes, ternary_writes, nary_writes, Finset.mem_singleton]
    repeat' apply And.intro
    all_goals exact devRef_ne_of_ne (by decide)))]
  exact f8_main_v79 V

set_option maxHeartbeats 4000000 in
theorem f9_main_v88 (V : Valuation τ sig (Elt F)) :
    after pre9 V (Proc.devRef .tc main_v88) = Cert.ReferenceIdeal.ReadP.val_main_v88 (F := F) (V (Proc.devRef .tc main_arg1)) := by
  show after (pre8 ++ chunk9) V _ = _
  rw [after_app, after_of_forall_not_mem chunk9 _ (List.forall_iff_forall_mem.mp (by
    simp only [chunk9, List.Forall, nullary_writes, unary_writes, binary_writes, ternary_writes, nary_writes, Finset.mem_singleton]
    repeat' apply And.intro
    all_goals exact devRef_ne_of_ne (by decide)))]
  exact f8_main_v88 V

set_option maxHeartbeats 4000000 in
theorem f9_main_v97 (V : Valuation τ sig (Elt F)) :
    after pre9 V (Proc.devRef .tc main_v97) = Cert.ReferenceIdeal.ReadP.val_main_v97 (F := F) (V (Proc.devRef .tc main_arg1)) := by
  show after (pre8 ++ chunk9) V _ = _
  rw [after_app, after_of_forall_not_mem chunk9 _ (List.forall_iff_forall_mem.mp (by
    simp only [chunk9, List.Forall, nullary_writes, unary_writes, binary_writes, ternary_writes, nary_writes, Finset.mem_singleton]
    repeat' apply And.intro
    all_goals exact devRef_ne_of_ne (by decide)))]
  exact f8_main_v97 V

set_option maxHeartbeats 4000000 in
theorem f9_main_v106 (V : Valuation τ sig (Elt F)) :
    after pre9 V (Proc.devRef .tc main_v106) = Cert.ReferenceIdeal.ReadP.val_main_v106 (F := F) (V (Proc.devRef .tc main_arg1)) := by
  show after (pre8 ++ chunk9) V _ = _
  rw [after_app, after_of_forall_not_mem chunk9 _ (List.forall_iff_forall_mem.mp (by
    simp only [chunk9, List.Forall, nullary_writes, unary_writes, binary_writes, ternary_writes, nary_writes, Finset.mem_singleton]
    repeat' apply And.intro
    all_goals exact devRef_ne_of_ne (by decide)))]
  exact f8_main_v106 V

set_option maxHeartbeats 4000000 in
theorem f9_main_v112 (V : Valuation τ sig (Elt F)) :
    after pre9 V (Proc.devRef .tc main_v112) = Cert.ReferenceIdeal.ReadP.val_main_v112 (F := F) (V (Proc.devRef .tc main_arg1)) := by
  show after (pre8 ++ chunk9) V _ = _
  rw [after_app, after_of_forall_not_mem chunk9 _ (List.forall_iff_forall_mem.mp (by
    simp only [chunk9, List.Forall, nullary_writes, unary_writes, binary_writes, ternary_writes, nary_writes, Finset.mem_singleton]
    repeat' apply And.intro
    all_goals exact devRef_ne_of_ne (by decide)))]
  exact f8_main_v112 V

set_option maxHeartbeats 4000000 in
theorem f9_main_v118 (V : Valuation τ sig (Elt F)) :
    after pre9 V (Proc.devRef .tc main_v118) = Cert.ReferenceIdeal.ReadP.val_main_v118 (F := F) (V (Proc.devRef .tc main_arg1)) := by
  show after (pre8 ++ chunk9) V _ = _
  rw [after_app, after_of_forall_not_mem chunk9 _ (List.forall_iff_forall_mem.mp (by
    simp only [chunk9, List.Forall, nullary_writes, unary_writes, binary_writes, ternary_writes, nary_writes, Finset.mem_singleton]
    repeat' apply And.intro
    all_goals exact devRef_ne_of_ne (by decide)))]
  exact f8_main_v118 V

set_option maxHeartbeats 4000000 in
theorem f9_main_v124 (V : Valuation τ sig (Elt F)) :
    after pre9 V (Proc.devRef .tc main_v124) = Cert.ReferenceIdeal.ReadP.val_main_v124 (F := F) (V (Proc.devRef .tc main_arg1)) := by
  show after (pre8 ++ chunk9) V _ = _
  rw [after_app, after_of_forall_not_mem chunk9 _ (List.forall_iff_forall_mem.mp (by
    simp only [chunk9, List.Forall, nullary_writes, unary_writes, binary_writes, ternary_writes, nary_writes, Finset.mem_singleton]
    repeat' apply And.intro
    all_goals exact devRef_ne_of_ne (by decide)))]
  exact f8_main_v124 V

set_option maxHeartbeats 4000000 in
theorem f9_main_v130 (V : Valuation τ sig (Elt F)) :
    after pre9 V (Proc.devRef .tc main_v130) = Cert.ReferenceIdeal.ReadP.val_main_v130 (F := F) (V (Proc.devRef .tc main_arg1)) := by
  show after (pre8 ++ chunk9) V _ = _
  rw [after_app, after_of_forall_not_mem chunk9 _ (List.forall_iff_forall_mem.mp (by
    simp only [chunk9, List.Forall, nullary_writes, unary_writes, binary_writes, ternary_writes, nary_writes, Finset.mem_singleton]
    repeat' apply And.intro
    all_goals exact devRef_ne_of_ne (by decide)))]
  exact f8_main_v130 V

set_option maxHeartbeats 4000000 in
theorem f9_main_v176 (V : Valuation τ sig (Elt F)) :
    after pre9 V (Proc.devRef .tc main_v176) = Cert.ReferenceIdeal.ReadP.val_main_v176 (F := F) (V (Proc.devRef .tc main_arg1)) := by
  show after (pre8 ++ chunk9) V _ = _
  rw [after_app, after_of_forall_not_mem chunk9 _ (List.forall_iff_forall_mem.mp (by
    simp only [chunk9, List.Forall, nullary_writes, unary_writes, binary_writes, ternary_writes, nary_writes, Finset.mem_singleton]
    repeat' apply And.intro
    all_goals exact devRef_ne_of_ne (by decide)))]
  exact f8_main_v176 V

set_option maxHeartbeats 4000000 in
theorem f9_main_v191 (V : Valuation τ sig (Elt F)) :
    after pre9 V (Proc.devRef .tc main_v191) = Cert.ReferenceIdeal.ReadP.val_main_v191 (F := F) (V (Proc.devRef .tc main_arg1)) := by
  show after (pre8 ++ chunk9) V _ = _
  rw [after_app, after_of_forall_not_mem chunk9 _ (List.forall_iff_forall_mem.mp (by
    simp only [chunk9, List.Forall, nullary_writes, unary_writes, binary_writes, ternary_writes, nary_writes, Finset.mem_singleton]
    repeat' apply And.intro
    all_goals exact devRef_ne_of_ne (by decide)))]
  exact f8_main_v191 V

set_option maxHeartbeats 4000000 in
theorem f9_main_v206 (V : Valuation τ sig (Elt F)) :
    after pre9 V (Proc.devRef .tc main_v206) = Cert.ReferenceIdeal.ReadP.val_main_v206 (F := F) (V (Proc.devRef .tc main_arg1)) := by
  show after (pre8 ++ chunk9) V _ = _
  rw [after_app, after_of_forall_not_mem chunk9 _ (List.forall_iff_forall_mem.mp (by
    simp only [chunk9, List.Forall, nullary_writes, unary_writes, binary_writes, ternary_writes, nary_writes, Finset.mem_singleton]
    repeat' apply And.intro
    all_goals exact devRef_ne_of_ne (by decide)))]
  exact f8_main_v206 V

set_option maxHeartbeats 4000000 in
theorem f9_main_v221 (V : Valuation τ sig (Elt F)) :
    after pre9 V (Proc.devRef .tc main_v221) = Cert.ReferenceIdeal.ReadP.val_main_v221 (F := F) (V (Proc.devRef .tc main_arg1)) := by
  show after (pre8 ++ chunk9) V _ = _
  rw [after_app, after_of_forall_not_mem chunk9 _ (List.forall_iff_forall_mem.mp (by
    simp only [chunk9, List.Forall, nullary_writes, unary_writes, binary_writes, ternary_writes, nary_writes, Finset.mem_singleton]
    repeat' apply And.intro
    all_goals exact devRef_ne_of_ne (by decide)))]
  exact f8_main_v221 V

set_option maxHeartbeats 4000000 in
theorem f9_main_v236 (V : Valuation τ sig (Elt F)) :
    after pre9 V (Proc.devRef .tc main_v236) = Cert.ReferenceIdeal.ReadP.val_main_v236 (F := F) (V (Proc.devRef .tc main_arg1)) := by
  show after (pre8 ++ chunk9) V _ = _
  rw [after_app]
  have h0 := f8_main_cst_75 V
  have h1 := f8_main_v233 V
  have h2 := f8_main_v140 V
  have h3 := f8_main_v145 V
  have h4 := f8_main_v158 V
  generalize after pre8 V = W at h0 h1 h2 h3 h4 ⊢
  after_results_simp <;> (try simp only [h0, h1, h2, h3, h4]) <;> rfl

set_option maxHeartbeats 4000000 in
theorem f9_main_v251 (V : Valuation τ sig (Elt F)) :
    after pre9 V (Proc.devRef .tc main_v251) = Cert.ReferenceIdeal.ReadP.val_main_v251 (F := F) (V (Proc.devRef .tc main_arg1)) := by
  show after (pre8 ++ chunk9) V _ = _
  rw [after_app]
  have h0 := f8_main_cst_75 V
  have h1 := f8_main_v233 V
  have h2 := f8_main_v140 V
  have h3 := f8_main_v145 V
  have h4 := f8_main_v158 V
  generalize after pre8 V = W at h0 h1 h2 h3 h4 ⊢
  after_results_simp <;> (try simp only [h0, h1, h2, h3, h4]) <;> rfl

set_option maxHeartbeats 4000000 in
theorem f9_main_arg1 (V : Valuation τ sig (Elt F)) :
    after pre9 V (Proc.devRef .tc main_arg1) = V (Proc.devRef .tc main_arg1) := by
  show after (pre8 ++ chunk9) V _ = _
  rw [after_app, after_of_forall_not_mem chunk9 _ (List.forall_iff_forall_mem.mp (by
    simp only [chunk9, List.Forall, nullary_writes, unary_writes, binary_writes, ternary_writes, nary_writes, Finset.mem_singleton]
    repeat' apply And.intro
    all_goals exact devRef_ne_of_ne (by decide)))]
  exact f8_main_arg1 V

/-! ## After the first 386 operations -/

set_option maxHeartbeats 4000000 in
theorem f10_main_arg0 (V : Valuation τ sig (Elt F)) :
    after pre10 V (Proc.devRef .tc main_arg0) = V (Proc.devRef .tc main_arg0) := by
  show after (pre9 ++ chunk10) V _ = _
  rw [after_app, after_of_forall_not_mem chunk10 _ (List.forall_iff_forall_mem.mp (by
    simp only [chunk10, List.Forall, nullary_writes, unary_writes, binary_writes, ternary_writes, nary_writes, Finset.mem_singleton]
    repeat' apply And.intro
    all_goals exact devRef_ne_of_ne (by decide)))]
  exact f9_main_arg0 V

set_option maxHeartbeats 4000000 in
theorem f10_main_v34 (V : Valuation τ sig (Elt F)) :
    after pre10 V (Proc.devRef .tc main_v34) = Cert.ReferenceIdeal.ReadP.val_main_v34 (F := F) (V (Proc.devRef .tc main_arg1)) := by
  show after (pre9 ++ chunk10) V _ = _
  rw [after_app, after_of_forall_not_mem chunk10 _ (List.forall_iff_forall_mem.mp (by
    simp only [chunk10, List.Forall, nullary_writes, unary_writes, binary_writes, ternary_writes, nary_writes, Finset.mem_singleton]
    repeat' apply And.intro
    all_goals exact devRef_ne_of_ne (by decide)))]
  exact f9_main_v34 V

set_option maxHeartbeats 4000000 in
theorem f10_main_v43 (V : Valuation τ sig (Elt F)) :
    after pre10 V (Proc.devRef .tc main_v43) = Cert.ReferenceIdeal.ReadP.val_main_v43 (F := F) (V (Proc.devRef .tc main_arg1)) := by
  show after (pre9 ++ chunk10) V _ = _
  rw [after_app, after_of_forall_not_mem chunk10 _ (List.forall_iff_forall_mem.mp (by
    simp only [chunk10, List.Forall, nullary_writes, unary_writes, binary_writes, ternary_writes, nary_writes, Finset.mem_singleton]
    repeat' apply And.intro
    all_goals exact devRef_ne_of_ne (by decide)))]
  exact f9_main_v43 V

set_option maxHeartbeats 4000000 in
theorem f10_main_v52 (V : Valuation τ sig (Elt F)) :
    after pre10 V (Proc.devRef .tc main_v52) = Cert.ReferenceIdeal.ReadP.val_main_v52 (F := F) (V (Proc.devRef .tc main_arg1)) := by
  show after (pre9 ++ chunk10) V _ = _
  rw [after_app, after_of_forall_not_mem chunk10 _ (List.forall_iff_forall_mem.mp (by
    simp only [chunk10, List.Forall, nullary_writes, unary_writes, binary_writes, ternary_writes, nary_writes, Finset.mem_singleton]
    repeat' apply And.intro
    all_goals exact devRef_ne_of_ne (by decide)))]
  exact f9_main_v52 V

set_option maxHeartbeats 4000000 in
theorem f10_main_v61 (V : Valuation τ sig (Elt F)) :
    after pre10 V (Proc.devRef .tc main_v61) = Cert.ReferenceIdeal.ReadP.val_main_v61 (F := F) (V (Proc.devRef .tc main_arg1)) := by
  show after (pre9 ++ chunk10) V _ = _
  rw [after_app, after_of_forall_not_mem chunk10 _ (List.forall_iff_forall_mem.mp (by
    simp only [chunk10, List.Forall, nullary_writes, unary_writes, binary_writes, ternary_writes, nary_writes, Finset.mem_singleton]
    repeat' apply And.intro
    all_goals exact devRef_ne_of_ne (by decide)))]
  exact f9_main_v61 V

set_option maxHeartbeats 4000000 in
theorem f10_main_v70 (V : Valuation τ sig (Elt F)) :
    after pre10 V (Proc.devRef .tc main_v70) = Cert.ReferenceIdeal.ReadP.val_main_v70 (F := F) (V (Proc.devRef .tc main_arg1)) := by
  show after (pre9 ++ chunk10) V _ = _
  rw [after_app, after_of_forall_not_mem chunk10 _ (List.forall_iff_forall_mem.mp (by
    simp only [chunk10, List.Forall, nullary_writes, unary_writes, binary_writes, ternary_writes, nary_writes, Finset.mem_singleton]
    repeat' apply And.intro
    all_goals exact devRef_ne_of_ne (by decide)))]
  exact f9_main_v70 V

set_option maxHeartbeats 4000000 in
theorem f10_main_v79 (V : Valuation τ sig (Elt F)) :
    after pre10 V (Proc.devRef .tc main_v79) = Cert.ReferenceIdeal.ReadP.val_main_v79 (F := F) (V (Proc.devRef .tc main_arg1)) := by
  show after (pre9 ++ chunk10) V _ = _
  rw [after_app, after_of_forall_not_mem chunk10 _ (List.forall_iff_forall_mem.mp (by
    simp only [chunk10, List.Forall, nullary_writes, unary_writes, binary_writes, ternary_writes, nary_writes, Finset.mem_singleton]
    repeat' apply And.intro
    all_goals exact devRef_ne_of_ne (by decide)))]
  exact f9_main_v79 V

set_option maxHeartbeats 4000000 in
theorem f10_main_v88 (V : Valuation τ sig (Elt F)) :
    after pre10 V (Proc.devRef .tc main_v88) = Cert.ReferenceIdeal.ReadP.val_main_v88 (F := F) (V (Proc.devRef .tc main_arg1)) := by
  show after (pre9 ++ chunk10) V _ = _
  rw [after_app, after_of_forall_not_mem chunk10 _ (List.forall_iff_forall_mem.mp (by
    simp only [chunk10, List.Forall, nullary_writes, unary_writes, binary_writes, ternary_writes, nary_writes, Finset.mem_singleton]
    repeat' apply And.intro
    all_goals exact devRef_ne_of_ne (by decide)))]
  exact f9_main_v88 V

set_option maxHeartbeats 4000000 in
theorem f10_main_v97 (V : Valuation τ sig (Elt F)) :
    after pre10 V (Proc.devRef .tc main_v97) = Cert.ReferenceIdeal.ReadP.val_main_v97 (F := F) (V (Proc.devRef .tc main_arg1)) := by
  show after (pre9 ++ chunk10) V _ = _
  rw [after_app, after_of_forall_not_mem chunk10 _ (List.forall_iff_forall_mem.mp (by
    simp only [chunk10, List.Forall, nullary_writes, unary_writes, binary_writes, ternary_writes, nary_writes, Finset.mem_singleton]
    repeat' apply And.intro
    all_goals exact devRef_ne_of_ne (by decide)))]
  exact f9_main_v97 V

set_option maxHeartbeats 4000000 in
theorem f10_main_v106 (V : Valuation τ sig (Elt F)) :
    after pre10 V (Proc.devRef .tc main_v106) = Cert.ReferenceIdeal.ReadP.val_main_v106 (F := F) (V (Proc.devRef .tc main_arg1)) := by
  show after (pre9 ++ chunk10) V _ = _
  rw [after_app, after_of_forall_not_mem chunk10 _ (List.forall_iff_forall_mem.mp (by
    simp only [chunk10, List.Forall, nullary_writes, unary_writes, binary_writes, ternary_writes, nary_writes, Finset.mem_singleton]
    repeat' apply And.intro
    all_goals exact devRef_ne_of_ne (by decide)))]
  exact f9_main_v106 V

set_option maxHeartbeats 4000000 in
theorem f10_main_v112 (V : Valuation τ sig (Elt F)) :
    after pre10 V (Proc.devRef .tc main_v112) = Cert.ReferenceIdeal.ReadP.val_main_v112 (F := F) (V (Proc.devRef .tc main_arg1)) := by
  show after (pre9 ++ chunk10) V _ = _
  rw [after_app, after_of_forall_not_mem chunk10 _ (List.forall_iff_forall_mem.mp (by
    simp only [chunk10, List.Forall, nullary_writes, unary_writes, binary_writes, ternary_writes, nary_writes, Finset.mem_singleton]
    repeat' apply And.intro
    all_goals exact devRef_ne_of_ne (by decide)))]
  exact f9_main_v112 V

set_option maxHeartbeats 4000000 in
theorem f10_main_v118 (V : Valuation τ sig (Elt F)) :
    after pre10 V (Proc.devRef .tc main_v118) = Cert.ReferenceIdeal.ReadP.val_main_v118 (F := F) (V (Proc.devRef .tc main_arg1)) := by
  show after (pre9 ++ chunk10) V _ = _
  rw [after_app, after_of_forall_not_mem chunk10 _ (List.forall_iff_forall_mem.mp (by
    simp only [chunk10, List.Forall, nullary_writes, unary_writes, binary_writes, ternary_writes, nary_writes, Finset.mem_singleton]
    repeat' apply And.intro
    all_goals exact devRef_ne_of_ne (by decide)))]
  exact f9_main_v118 V

set_option maxHeartbeats 4000000 in
theorem f10_main_v124 (V : Valuation τ sig (Elt F)) :
    after pre10 V (Proc.devRef .tc main_v124) = Cert.ReferenceIdeal.ReadP.val_main_v124 (F := F) (V (Proc.devRef .tc main_arg1)) := by
  show after (pre9 ++ chunk10) V _ = _
  rw [after_app, after_of_forall_not_mem chunk10 _ (List.forall_iff_forall_mem.mp (by
    simp only [chunk10, List.Forall, nullary_writes, unary_writes, binary_writes, ternary_writes, nary_writes, Finset.mem_singleton]
    repeat' apply And.intro
    all_goals exact devRef_ne_of_ne (by decide)))]
  exact f9_main_v124 V

set_option maxHeartbeats 4000000 in
theorem f10_main_v130 (V : Valuation τ sig (Elt F)) :
    after pre10 V (Proc.devRef .tc main_v130) = Cert.ReferenceIdeal.ReadP.val_main_v130 (F := F) (V (Proc.devRef .tc main_arg1)) := by
  show after (pre9 ++ chunk10) V _ = _
  rw [after_app, after_of_forall_not_mem chunk10 _ (List.forall_iff_forall_mem.mp (by
    simp only [chunk10, List.Forall, nullary_writes, unary_writes, binary_writes, ternary_writes, nary_writes, Finset.mem_singleton]
    repeat' apply And.intro
    all_goals exact devRef_ne_of_ne (by decide)))]
  exact f9_main_v130 V

set_option maxHeartbeats 4000000 in
theorem f10_main_v176 (V : Valuation τ sig (Elt F)) :
    after pre10 V (Proc.devRef .tc main_v176) = Cert.ReferenceIdeal.ReadP.val_main_v176 (F := F) (V (Proc.devRef .tc main_arg1)) := by
  show after (pre9 ++ chunk10) V _ = _
  rw [after_app, after_of_forall_not_mem chunk10 _ (List.forall_iff_forall_mem.mp (by
    simp only [chunk10, List.Forall, nullary_writes, unary_writes, binary_writes, ternary_writes, nary_writes, Finset.mem_singleton]
    repeat' apply And.intro
    all_goals exact devRef_ne_of_ne (by decide)))]
  exact f9_main_v176 V

set_option maxHeartbeats 4000000 in
theorem f10_main_v191 (V : Valuation τ sig (Elt F)) :
    after pre10 V (Proc.devRef .tc main_v191) = Cert.ReferenceIdeal.ReadP.val_main_v191 (F := F) (V (Proc.devRef .tc main_arg1)) := by
  show after (pre9 ++ chunk10) V _ = _
  rw [after_app, after_of_forall_not_mem chunk10 _ (List.forall_iff_forall_mem.mp (by
    simp only [chunk10, List.Forall, nullary_writes, unary_writes, binary_writes, ternary_writes, nary_writes, Finset.mem_singleton]
    repeat' apply And.intro
    all_goals exact devRef_ne_of_ne (by decide)))]
  exact f9_main_v191 V

set_option maxHeartbeats 4000000 in
theorem f10_main_v206 (V : Valuation τ sig (Elt F)) :
    after pre10 V (Proc.devRef .tc main_v206) = Cert.ReferenceIdeal.ReadP.val_main_v206 (F := F) (V (Proc.devRef .tc main_arg1)) := by
  show after (pre9 ++ chunk10) V _ = _
  rw [after_app, after_of_forall_not_mem chunk10 _ (List.forall_iff_forall_mem.mp (by
    simp only [chunk10, List.Forall, nullary_writes, unary_writes, binary_writes, ternary_writes, nary_writes, Finset.mem_singleton]
    repeat' apply And.intro
    all_goals exact devRef_ne_of_ne (by decide)))]
  exact f9_main_v206 V

set_option maxHeartbeats 4000000 in
theorem f10_main_v221 (V : Valuation τ sig (Elt F)) :
    after pre10 V (Proc.devRef .tc main_v221) = Cert.ReferenceIdeal.ReadP.val_main_v221 (F := F) (V (Proc.devRef .tc main_arg1)) := by
  show after (pre9 ++ chunk10) V _ = _
  rw [after_app, after_of_forall_not_mem chunk10 _ (List.forall_iff_forall_mem.mp (by
    simp only [chunk10, List.Forall, nullary_writes, unary_writes, binary_writes, ternary_writes, nary_writes, Finset.mem_singleton]
    repeat' apply And.intro
    all_goals exact devRef_ne_of_ne (by decide)))]
  exact f9_main_v221 V

set_option maxHeartbeats 4000000 in
theorem f10_main_v236 (V : Valuation τ sig (Elt F)) :
    after pre10 V (Proc.devRef .tc main_v236) = Cert.ReferenceIdeal.ReadP.val_main_v236 (F := F) (V (Proc.devRef .tc main_arg1)) := by
  show after (pre9 ++ chunk10) V _ = _
  rw [after_app, after_of_forall_not_mem chunk10 _ (List.forall_iff_forall_mem.mp (by
    simp only [chunk10, List.Forall, nullary_writes, unary_writes, binary_writes, ternary_writes, nary_writes, Finset.mem_singleton]
    repeat' apply And.intro
    all_goals exact devRef_ne_of_ne (by decide)))]
  exact f9_main_v236 V

set_option maxHeartbeats 4000000 in
theorem f10_main_v251 (V : Valuation τ sig (Elt F)) :
    after pre10 V (Proc.devRef .tc main_v251) = Cert.ReferenceIdeal.ReadP.val_main_v251 (F := F) (V (Proc.devRef .tc main_arg1)) := by
  show after (pre9 ++ chunk10) V _ = _
  rw [after_app, after_of_forall_not_mem chunk10 _ (List.forall_iff_forall_mem.mp (by
    simp only [chunk10, List.Forall, nullary_writes, unary_writes, binary_writes, ternary_writes, nary_writes, Finset.mem_singleton]
    repeat' apply And.intro
    all_goals exact devRef_ne_of_ne (by decide)))]
  exact f9_main_v251 V

set_option maxHeartbeats 4000000 in
theorem f10_main_v266 (V : Valuation τ sig (Elt F)) :
    after pre10 V (Proc.devRef .tc main_v266) = Cert.ReferenceIdeal.ReadP.val_main_v266 (F := F) (V (Proc.devRef .tc main_arg1)) := by
  show after (pre9 ++ chunk10) V _ = _
  rw [after_app]
  have h0 := f9_main_v262 V
  have h1 := f9_main_cst_86 V
  have h2 := f9_main_v140 V
  have h3 := f9_main_v145 V
  have h4 := f9_main_v158 V
  generalize after pre9 V = W at h0 h1 h2 h3 h4 ⊢
  after_results_simp <;> (try simp only [h0, h1, h2, h3, h4]) <;> rfl

set_option maxHeartbeats 4000000 in
theorem f10_main_v281 (V : Valuation τ sig (Elt F)) :
    after pre10 V (Proc.devRef .tc main_v281) = Cert.ReferenceIdeal.ReadP.val_main_v281 (F := F) (V (Proc.devRef .tc main_arg1)) := by
  show after (pre9 ++ chunk10) V _ = _
  rw [after_app]
  have h0 := f9_main_v262 V
  have h1 := f9_main_cst_86 V
  have h2 := f9_main_v140 V
  have h3 := f9_main_v145 V
  have h4 := f9_main_v158 V
  generalize after pre9 V = W at h0 h1 h2 h3 h4 ⊢
  after_results_simp <;> (try simp only [h0, h1, h2, h3, h4]) <;> rfl

set_option maxHeartbeats 4000000 in
theorem f10_main_arg1 (V : Valuation τ sig (Elt F)) :
    after pre10 V (Proc.devRef .tc main_arg1) = V (Proc.devRef .tc main_arg1) := by
  show after (pre9 ++ chunk10) V _ = _
  rw [after_app, after_of_forall_not_mem chunk10 _ (List.forall_iff_forall_mem.mp (by
    simp only [chunk10, List.Forall, nullary_writes, unary_writes, binary_writes, ternary_writes, nary_writes, Finset.mem_singleton]
    repeat' apply And.intro
    all_goals exact devRef_ne_of_ne (by decide)))]
  exact f9_main_arg1 V

/-! ## After the first 389 operations -/

set_option maxHeartbeats 4000000 in
theorem f11_main_arg0 (V : Valuation τ sig (Elt F)) :
    after pre11 V (Proc.devRef .tc main_arg0) = V (Proc.devRef .tc main_arg0) := by
  show after (pre10 ++ chunk11) V _ = _
  rw [after_app, after_of_forall_not_mem chunk11 _ (List.forall_iff_forall_mem.mp (by
    simp only [chunk11, List.Forall, nullary_writes, unary_writes, binary_writes, ternary_writes, nary_writes, Finset.mem_singleton]
    repeat' apply And.intro
    all_goals exact devRef_ne_of_ne (by decide)))]
  exact f10_main_arg0 V

set_option maxHeartbeats 4000000 in
theorem f11_main_arg1 (V : Valuation τ sig (Elt F)) :
    after pre11 V (Proc.devRef .tc main_arg1) = V (Proc.devRef .tc main_arg1) := by
  show after (pre10 ++ chunk11) V _ = _
  rw [after_app, after_of_forall_not_mem chunk11 _ (List.forall_iff_forall_mem.mp (by
    simp only [chunk11, List.Forall, nullary_writes, unary_writes, binary_writes, ternary_writes, nary_writes, Finset.mem_singleton]
    repeat' apply And.intro
    all_goals exact devRef_ne_of_ne (by decide)))]
  exact f10_main_arg1 V

set_option maxHeartbeats 4000000 in
theorem f11_main_v284 (V : Valuation τ sig (Elt F)) :
    after pre11 V (Proc.devRef .tc main_v284) = Cert.ReferenceIdeal.ReadP.val_main_v284 (F := F) (V (Proc.devRef .tc main_arg0)) (V (Proc.devRef .tc main_arg1)) := by
  show after (pre10 ++ chunk11) V _ = _
  rw [after_app]
  have e : ∀ W : Valuation τ sig (Elt F), after chunk11 W (Proc.devRef .tc main_v284) =
      concatenate S320x22 1 [⟨S320x16, concatenate S320x16 1 [⟨S320x1, (W (Proc.devRef .tc main_arg0))⟩, ⟨S320x1, (W (Proc.devRef .tc main_v34))⟩, ⟨S320x1, (W (Proc.devRef .tc main_v43))⟩, ⟨S320x1, (W (Proc.devRef .tc main_v52))⟩, ⟨S320x1, (W (Proc.devRef .tc main_v61))⟩, ⟨S320x1, (W (Proc.devRef .tc main_v70))⟩, ⟨S320x1, (W (Proc.devRef .tc main_v79))⟩, ⟨S320x1, (W (Proc.devRef .tc main_v88))⟩, ⟨S320x1, (W (Proc.devRef .tc main_v97))⟩, ⟨S320x1, (W (Proc.devRef .tc main_v106))⟩, ⟨S320x1, (W (Proc.devRef .tc main_v112))⟩, ⟨S320x1, (W (Proc.devRef .tc main_v118))⟩, ⟨S320x1, (W (Proc.devRef .tc main_v124))⟩, ⟨S320x1, (W (Proc.devRef .tc main_v130))⟩, ⟨S320x1, (W (Proc.devRef .tc main_v176))⟩, ⟨S320x1, (W (Proc.devRef .tc main_v191))⟩] concatenates_S320x1_S320x1_S320x1_S320x1_S320x1_S320x1_S320x1_S320x1_S320x1_S320x1_S320x1_S320x1_S320x1_S320x1_S320x1_S320x1_S320x16_d1⟩, ⟨S320x6, concatenate S320x6 1 [⟨S320x1, (W (Proc.devRef .tc main_v206))⟩, ⟨S320x1, (W (Proc.devRef .tc main_v221))⟩, ⟨S320x1, (W (Proc.devRef .tc main_v236))⟩, ⟨S320x1, (W (Proc.devRef .tc main_v251))⟩, ⟨S320x1, (W (Proc.devRef .tc main_v266))⟩, ⟨S320x1, (W (Proc.devRef .tc main_v281))⟩] concatenates_S320x1_S320x1_S320x1_S320x1_S320x1_S320x1_S320x6_d1⟩] concatenates_S320x16_S320x6_S320x22_d1 := fun W => rfl
  rw [e, f10_main_arg0 V, f10_main_v34 V, f10_main_v43 V, f10_main_v52 V, f10_main_v61 V, f10_main_v70 V, f10_main_v79 V, f10_main_v88 V, f10_main_v97 V, f10_main_v106 V, f10_main_v112 V, f10_main_v118 V, f10_main_v124 V, f10_main_v130 V, f10_main_v176 V, f10_main_v191 V, f10_main_v206 V, f10_main_v221 V, f10_main_v236 V, f10_main_v251 V, f10_main_v266 V, f10_main_v281 V]
  rfl

/-! ## The whole program -/

set_option maxHeartbeats 40000000 in
/-- The program's 389 operations, in order. -/
abbrev ops : List (HloOp τ sig (Elt F)) :=
  [ unary main_arg1 main_v0 (broadcastInDim S320x1x3 ![0, 2] bcast_S320x3_S320x1x3_0_2 : (⟨S320x3, .f32⟩ : BufTy).Contents (Elt F) → (⟨S320x1x3, .f32⟩ : BufTy).Contents (Elt F)),
    unary main_arg1 main_v1 (broadcastInDim S1x320x3 ![1, 2] bcast_S320x3_S1x320x3_1_2 : (⟨S320x3, .f32⟩ : BufTy).Contents (Elt F) → (⟨S1x320x3, .f32⟩ : BufTy).Contents (Elt F)),
    unary main_v0 main_v2 (broadcastInDim S320x320x3 ![0, 1, 2] bcast_S320x1x3_S320x320x3_0_1_2 : (⟨S320x1x3, .f32⟩ : BufTy).Contents (Elt F) → (⟨S320x320x3, .f32⟩ : BufTy).Contents (Elt F)),
    unary main_v1 main_v3 (broadcastInDim S320x320x3 ![0, 1, 2] bcast_S1x320x3_S320x320x3_0_1_2 : (⟨S1x320x3, .f32⟩ : BufTy).Contents (Elt F) → (⟨S320x320x3, .f32⟩ : BufTy).Contents (Elt F)),
    binary main_v2 main_v3 main_v4 (subf : (⟨S320x320x3, .f32⟩ : BufTy).Contents (Elt F) → (⟨S320x320x3, .f32⟩ : BufTy).Contents (Elt F) → (⟨S320x320x3, .f32⟩ : BufTy).Contents (Elt F)),
    binary main_v4 main_v4 main_v5 (mulf : (⟨S320x320x3, .f32⟩ : BufTy).Contents (Elt F) → (⟨S320x320x3, .f32⟩ : BufTy).Contents (Elt F) → (⟨S320x320x3, .f32⟩ : BufTy).Contents (Elt F)),
    nullary main_cst (constant S_ .f32 0x00000000#32),
    binary main_v5 main_cst main_v6 ((fun x v => Host.reduceAdd x v reducesTo_S320x320x3_S320x320_d2 h_S_) : (⟨S320x320x3, .f32⟩ : BufTy).Contents (Elt F) → (⟨S_, .f32⟩ : BufTy).Contents (Elt F) → (⟨S320x320, .f32⟩ : BufTy).Contents (Elt F)),
    nullary main_cst_0 (constant S_ .f32 0x00000000#32),
    unary main_cst_0 main_v7 (broadcastInDim S320x320 ![] bcast_S_S320x320 : (⟨S_, .f32⟩ : BufTy).Contents (Elt F) → (⟨S320x320, .f32⟩ : BufTy).Contents (Elt F)),
    binary main_v6 main_v7 main_v8 (cmpf .ogt : (⟨S320x320, .f32⟩ : BufTy).Contents (Elt F) → (⟨S320x320, .f32⟩ : BufTy).Contents (Elt F) → (⟨S320x320, .i1⟩ : BufTy).Contents (Elt F)),
    nullary main_cst_1 (constant S_ .f32 0x3F800000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S320x320, .f32⟩) main_call0_v1) (broadcastInDim S320x320 ![] bcast_S_S320x320),
    TRef.ternary (TRef.of (T := ⟨S320x320, .i1⟩) main_v8) (TRef.of (T := ⟨S320x320, .f32⟩) main_v6) (TRef.of (T := ⟨S320x320, .f32⟩) main_call0_v1) (TRef.of (T := ⟨S320x320, .f32⟩) main_v9) select,
    unary main_v9 main_v10 (Host.sqrt : (⟨S320x320, .f32⟩ : BufTy).Contents (Elt F) → (⟨S320x320, .f32⟩ : BufTy).Contents (Elt F)),
    nullary main_cst_2 (constant S_ .f32 0x00000000#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S320x320, .f32⟩) main_call1_v1) (broadcastInDim S320x320 ![] bcast_S_S320x320),
    TRef.ternary (TRef.of (T := ⟨S320x320, .i1⟩) main_v8) (TRef.of (T := ⟨S320x320, .f32⟩) main_v10) (TRef.of (T := ⟨S320x320, .f32⟩) main_call1_v1) (TRef.of (T := ⟨S320x320, .f32⟩) main_v11) select,
    nullary main_v12 (iotaInDim S320x320 32 0),
    nullary main_v13 (iotaInDim S320x320 32 1),
    nullary main_c (constantI S_ 32 0#32),
    unary main_c main_v14 (broadcastInDim S320x320 ![] bcast_S_S320x320 : (⟨S_, .i32⟩ : BufTy).Contents (Elt F) → (⟨S320x320, .i32⟩ : BufTy).Contents (Elt F)),
    binary main_v12 main_v14 main_v15 (addi : (⟨S320x320, .i32⟩ : BufTy).Contents (Elt F) → (⟨S320x320, .i32⟩ : BufTy).Contents (Elt F) → (⟨S320x320, .i32⟩ : BufTy).Contents (Elt F)),
    binary main_v15 main_v13 main_v16 (cmpi .eq : (⟨S320x320, .i32⟩ : BufTy).Contents (Elt F) → (⟨S320x320, .i32⟩ : BufTy).Contents (Elt F) → (⟨S320x320, .i1⟩ : BufTy).Contents (Elt F)),
    unary main_v16 main_v17 (uitofp .f32 : (⟨S320x320, .i1⟩ : BufTy).Contents (Elt F) → (⟨S320x320, .f32⟩ : BufTy).Contents (Elt F)),
    nullary main_cst_3 (constant S_ .f32 0x40C00000#32),
    unary main_cst_3 main_v18 (broadcastInDim S320x320 ![] bcast_S_S320x320 : (⟨S_, .f32⟩ : BufTy).Contents (Elt F) → (⟨S320x320, .f32⟩ : BufTy).Contents (Elt F)),
    binary main_v11 main_v18 main_v19 (cmpf .olt : (⟨S320x320, .f32⟩ : BufTy).Contents (Elt F) → (⟨S320x320, .f32⟩ : BufTy).Contents (Elt F) → (⟨S320x320, .i1⟩ : BufTy).Contents (Elt F)),
    nullary main_cst_4 (constant S_ .f32 0x40490FDB#32),
    unary main_cst_4 main_v20 (broadcastInDim S320x320 ![] bcast_S_S320x320 : (⟨S_, .f32⟩ : BufTy).Contents (Elt F) → (⟨S320x320, .f32⟩ : BufTy).Contents (Elt F)),
    binary main_v20 main_v11 main_v21 (mulf : (⟨S320x320, .f32⟩ : BufTy).Contents (Elt F) → (⟨S320x320, .f32⟩ : BufTy).Contents (Elt F) → (⟨S320x320, .f32⟩ : BufTy).Contents (Elt F)),
    nullary main_cst_5 (constant S_ .f32 0x40C00000#32),
    unary main_cst_5 main_v22 (broadcastInDim S320x320 ![] bcast_S_S320x320 : (⟨S_, .f32⟩ : BufTy).Contents (Elt F) → (⟨S320x320, .f32⟩ : BufTy).Contents (Elt F)),
    binary main_v21 main_v22 main_v23 (Host.divf : (⟨S320x320, .f32⟩ : BufTy).Contents (Elt F) → (⟨S320x320, .f32⟩ : BufTy).Contents (Elt F) → (⟨S320x320, .f32⟩ : BufTy).Contents (Elt F)),
    unary main_v23 main_v24 (Host.cos : (⟨S320x320, .f32⟩ : BufTy).Contents (Elt F) → (⟨S320x320, .f32⟩ : BufTy).Contents (Elt F)),
    nullary main_cst_6 (constant S_ .f32 0x3F800000#32),
    unary main_cst_6 main_v25 (broadcastInDim S320x320 ![] bcast_S_S320x320 : (⟨S_, .f32⟩ : BufTy).Contents (Elt F) → (⟨S320x320, .f32⟩ : BufTy).Contents (Elt F)),
    binary main_v24 main_v25 main_v26 (addf : (⟨S320x320, .f32⟩ : BufTy).Contents (Elt F) → (⟨S320x320, .f32⟩ : BufTy).Contents (Elt F) → (⟨S320x320, .f32⟩ : BufTy).Contents (Elt F)),
    nullary main_cst_7 (constant S_ .f32 0x3F000000#32),
    unary main_cst_7 main_v27 (broadcastInDim S320x320 ![] bcast_S_S320x320 : (⟨S_, .f32⟩ : BufTy).Contents (Elt F) → (⟨S320x320, .f32⟩ : BufTy).Contents (Elt F)),
    binary main_v27 main_v26 main_v28 (mulf : (⟨S320x320, .f32⟩ : BufTy).Contents (Elt F) → (⟨S320x320, .f32⟩ : BufTy).Contents (Elt F) → (⟨S320x320, .f32⟩ : BufTy).Contents (Elt F)),
    nullary main_cst_8 (constant S_ .f32 0x00000000#32),
    TRef.unary (TRef.of (T := ⟨S_, .f32⟩) main_cst_8) (TRef.of (T := ⟨S_, .f32⟩) main_call2_v0) id,
    TRef.unary (TRef.of (T := ⟨S_, .f32⟩) main_call2_v0) (TRef.of (T := ⟨S320x320, .f32⟩) main_call2_v1) (broadcastInDim S320x320 ![] bcast_S_S320x320),
    TRef.ternary (TRef.of (T := ⟨S320x320, .i1⟩) main_v19) (TRef.of (T := ⟨S320x320, .f32⟩) main_v28) (TRef.of (T := ⟨S320x320, .f32⟩) main_call2_v1) (TRef.of (T := ⟨S320x320, .f32⟩) main_v29) select,
    nullary main_cst_9 (constant S_ .f32 0x3F800000#32),
    unary main_cst_9 main_v30 (broadcastInDim S320x320 ![] bcast_S_S320x320 : (⟨S_, .f32⟩ : BufTy).Contents (Elt F) → (⟨S320x320, .f32⟩ : BufTy).Contents (Elt F)),
    binary main_v30 main_v17 main_v31 (subf : (⟨S320x320, .f32⟩ : BufTy).Contents (Elt F) → (⟨S320x320, .f32⟩ : BufTy).Contents (Elt F) → (⟨S320x320, .f32⟩ : BufTy).Contents (Elt F)),
    binary main_v29 main_v31 main_v32 (mulf : (⟨S320x320, .f32⟩ : BufTy).Contents (Elt F) → (⟨S320x320, .f32⟩ : BufTy).Contents (Elt F) → (⟨S320x320, .f32⟩ : BufTy).Contents (Elt F)),
    nullary main_cst_10 (constant S_ .f32 0x00000000#32),
    binary main_v32 main_cst_10 main_v33 ((fun x v => Host.reduceAdd x v reducesTo_S320x320_S320_d1 h_S_) : (⟨S320x320, .f32⟩ : BufTy).Contents (Elt F) → (⟨S_, .f32⟩ : BufTy).Contents (Elt F) → (⟨S320, .f32⟩ : BufTy).Contents (Elt F)),
    unary main_v33 main_v34 (broadcastInDim S320x1 ![0] bcast_S320_S320x1_0 : (⟨S320, .f32⟩ : BufTy).Contents (Elt F) → (⟨S320x1, .f32⟩ : BufTy).Contents (Elt F)),
    nullary main_cst_11 (constant S_ .f32 0x00000000#32),
    unary main_cst_11 main_v35 (broadcastInDim S320x320 ![] bcast_S_S320x320 : (⟨S_, .f32⟩ : BufTy).Contents (Elt F) → (⟨S320x320, .f32⟩ : BufTy).Contents (Elt F)),
    binary main_v11 main_v35 main_v36 (subf : (⟨S320x320, .f32⟩ : BufTy).Contents (Elt F) → (⟨S320x320, .f32⟩ : BufTy).Contents (Elt F) → (⟨S320x320, .f32⟩ : BufTy).Contents (Elt F)),
    binary main_v36 main_v36 main_v37 (mulf : (⟨S320x320, .f32⟩ : BufTy).Contents (Elt F) → (⟨S320x320, .f32⟩ : BufTy).Contents (Elt F) → (⟨S320x320, .f32⟩ : BufTy).Contents (Elt F)),
    nullary main_cst_12 (constant S_ .f32 0xBF000000#32),
    unary main_cst_12 main_v38 (broadcastInDim S320x320 ![] bcast_S_S320x320 : (⟨S_, .f32⟩ : BufTy).Contents (Elt F) → (⟨S320x320, .f32⟩ : BufTy).Contents (Elt F)),
    binary main_v38 main_v37 main_v39 (mulf : (⟨S320x320, .f32⟩ : BufTy).Contents (Elt F) → (⟨S320x320, .f32⟩ : BufTy).Contents (Elt F) → (⟨S320x320, .f32⟩ : BufTy).Contents (Elt F)),
    unary main_v39 main_v40 (Host.exp : (⟨S320x320, .f32⟩ : BufTy).Contents (Elt F) → (⟨S320x320, .f32⟩ : BufTy).Contents (Elt F)),
    binary main_v40 main_v32 main_v41 (mulf : (⟨S320x320, .f32⟩ : BufTy).Contents (Elt F) → (⟨S320x320, .f32⟩ : BufTy).Contents (Elt F) → (⟨S320x320, .f32⟩ : BufTy).Contents (Elt F)),
    nullary main_cst_13 (constant S_ .f32 0x00000000#32),
    binary main_v41 main_cst_13 main_v42 ((fun x v => Host.reduceAdd x v reducesTo_S320x320_S320_d1 h_S_) : (⟨S320x320, .f32⟩ : BufTy).Contents (Elt F) → (⟨S_, .f32⟩ : BufTy).Contents (Elt F) → (⟨S320, .f32⟩ : BufTy).Contents (Elt F)),
    unary main_v42 main_v43 (broadcastInDim S320x1 ![0] bcast_S320_S320x1_0 : (⟨S320, .f32⟩ : BufTy).Contents (Elt F) → (⟨S320x1, .f32⟩ : BufTy).Contents (Elt F)),
    nullary main_cst_14 (constant S_ .f32 0x00000000#32),
    unary main_cst_14 main_v44 (broadcastInDim S320x320 ![] bcast_S_S320x320 : (⟨S_, .f32⟩ : BufTy).Contents (Elt F) → (⟨S320x320, .f32⟩ : BufTy).Contents (Elt F)),
    binary main_v11 main_v44 main_v45 (subf : (⟨S320x320, .f32⟩ : BufTy).Contents (Elt F) → (⟨S320x320, .f32⟩ : BufTy).Contents (Elt F) → (⟨S320x320, .f32⟩ : BufTy).Contents (Elt F)),
    binary main_v45 main_v45 main_v46 (mulf : (⟨S320x320, .f32⟩ : BufTy).Contents (Elt F) → (⟨S320x320, .f32⟩ : BufTy).Contents (Elt F) → (⟨S320x320, .f32⟩ : BufTy).Contents (Elt F)),
    nullary main_cst_15 (constant S_ .f32 0xBF800000#32),
    unary main_cst_15 main_v47 (broadcastInDim S320x320 ![] bcast_S_S320x320 : (⟨S_, .f32⟩ : BufTy).Contents (Elt F) → (⟨S320x320, .f32⟩ : BufTy).Contents (Elt F)),
    binary main_v47 main_v46 main_v48 (mulf : (⟨S320x320, .f32⟩ : BufTy).Contents (Elt F) → (⟨S320x320, .f32⟩ : BufTy).Contents (Elt F) → (⟨S320x320, .f32⟩ : BufTy).Contents (Elt F)),
    unary main_v48 main_v49 (Host.exp : (⟨S320x320, .f32⟩ : BufTy).Contents (Elt F) → (⟨S320x320, .f32⟩ : BufTy).Contents (Elt F)),
    binary main_v49 main_v32 main_v50 (mulf : (⟨S320x320, .f32⟩ : BufTy).Contents (Elt F) → (⟨S320x320, .f32⟩ : BufTy).Contents (Elt F) → (⟨S320x320, .f32⟩ : BufTy).Contents (Elt F)),
    nullary main_cst_16 (constant S_ .f32 0x00000000#32),
    binary main_v50 main_cst_16 main_v51 ((fun x v => Host.reduceAdd x v reducesTo_S320x320_S320_d1 h_S_) : (⟨S320x320, .f32⟩ : BufTy).Contents (Elt F) → (⟨S_, .f32⟩ : BufTy).Contents (Elt F) → (⟨S320, .f32⟩ : BufTy).Contents (Elt F)),
    unary main_v51 main_v52 (broadcastInDim S320x1 ![0] bcast_S320_S320x1_0 : (⟨S320, .f32⟩ : BufTy).Contents (Elt F) → (⟨S320x1, .f32⟩ : BufTy).Contents (Elt F)),
    nullary main_cst_17 (constant S_ .f32 0x00000000#32),
    unary main_cst_17 main_v53 (broadcastInDim S320x320 ![] bcast_S_S320x320 : (⟨S_, .f32⟩ : BufTy).Contents (Elt F) → (⟨S320x320, .f32⟩ : BufTy).Contents (Elt F)),
    binary main_v11 main_v53 main_v54 (subf : (⟨S320x320, .f32⟩ : BufTy).Contents (Elt F) → (⟨S320x320, .f32⟩ : BufTy).Contents (Elt F) → (⟨S320x320, .f32⟩ : BufTy).Contents (Elt F)),
    binary main_v54 main_v54 main_v55 (mulf : (⟨S320x320, .f32⟩ : BufTy).Contents (Elt F) → (⟨S320x320, .f32⟩ : BufTy).Contents (Elt F) → (⟨S320x320, .f32⟩ : BufTy).Contents (Elt F)),
    nullary main_cst_18 (constant S_ .f32 0xC0000000#32),
    unary main_cst_18 main_v56 (broadcastInDim S320x320 ![] bcast_S_S320x320 : (⟨S_, .f32⟩ : BufTy).Contents (Elt F) → (⟨S320x320, .f32⟩ : BufTy).Contents (Elt F)),
    binary main_v56 main_v55 main_v57 (mulf : (⟨S320x320, .f32⟩ : BufTy).Contents (Elt F) → (⟨S320x320, .f32⟩ : BufTy).Contents (Elt F) → (⟨S320x320, .f32⟩ : BufTy).Contents (Elt F)),
    unary main_v57 main_v58 (Host.exp : (⟨S320x320, .f32⟩ : BufTy).Contents (Elt F) → (⟨S320x320, .f32⟩ : BufTy).Contents (Elt F)),
    binary main_v58 main_v32 main_v59 (mulf : (⟨S320x320, .f32⟩ : BufTy).Contents (Elt F) → (⟨S320x320, .f32⟩ : BufTy).Contents (Elt F) → (⟨S320x320, .f32⟩ : BufTy).Contents (Elt F)),
    nullary main_cst_19 (constant S_ .f32 0x00000000#32),
    binary main_v59 main_cst_19 main_v60 ((fun x v => Host.reduceAdd x v reducesTo_S320x320_S320_d1 h_S_) : (⟨S320x320, .f32⟩ : BufTy).Contents (Elt F) → (⟨S_, .f32⟩ : BufTy).Contents (Elt F) → (⟨S320, .f32⟩ : BufTy).Contents (Elt F)),
    unary main_v60 main_v61 (broadcastInDim S320x1 ![0] bcast_S320_S320x1_0 : (⟨S320, .f32⟩ : BufTy).Contents (Elt F) → (⟨S320x1, .f32⟩ : BufTy).Contents (Elt F)),
    nullary main_cst_20 (constant S_ .f32 0x00000000#32),
    unary main_cst_20 main_v62 (broadcastInDim S320x320 ![] bcast_S_S320x320 : (⟨S_, .f32⟩ : BufTy).Contents (Elt F) → (⟨S320x320, .f32⟩ : BufTy).Contents (Elt F)),
    binary main_v11 main_v62 main_v63 (subf : (⟨S320x320, .f32⟩ : BufTy).Contents (Elt F) → (⟨S320x320, .f32⟩ : BufTy).Contents (Elt F) → (⟨S320x320, .f32⟩ : BufTy).Contents (Elt F)),
    binary main_v63 main_v63 main_v64 (mulf : (⟨S320x320, .f32⟩ : BufTy).Contents (Elt F) → (⟨S320x320, .f32⟩ : BufTy).Contents (Elt F) → (⟨S320x320, .f32⟩ : BufTy).Contents (Elt F)),
    nullary main_cst_21 (constant S_ .f32 0xC0800000#32),
    unary main_cst_21 main_v65 (broadcastInDim S320x320 ![] bcast_S_S320x320 : (⟨S_, .f32⟩ : BufTy).Contents (Elt F) → (⟨S320x320, .f32⟩ : BufTy).Contents (Elt F)),
    binary main_v65 main_v64 main_v66 (mulf : (⟨S320x320, .f32⟩ : BufTy).Contents (Elt F) → (⟨S320x320, .f32⟩ : BufTy).Contents (Elt F) → (⟨S320x320, .f32⟩ : BufTy).Contents (Elt F)),
    unary main_v66 main_v67 (Host.exp : (⟨S320x320, .f32⟩ : BufTy).Contents (Elt F) → (⟨S320x320, .f32⟩ : BufTy).Contents (Elt F)),
    binary main_v67 main_v32 main_v68 (mulf : (⟨S320x320, .f32⟩ : BufTy).Contents (Elt F) → (⟨S320x320, .f32⟩ : BufTy).Contents (Elt F) → (⟨S320x320, .f32⟩ : BufTy).Contents (Elt F)),
    nullary main_cst_22 (constant S_ .f32 0x00000000#32),
    binary main_v68 main_cst_22 main_v69 ((fun x v => Host.reduceAdd x v reducesTo_S320x320_S320_d1 h_S_) : (⟨S320x320, .f32⟩ : BufTy).Contents (Elt F) → (⟨S_, .f32⟩ : BufTy).Contents (Elt F) → (⟨S320, .f32⟩ : BufTy).Contents (Elt F)),
    unary main_v69 main_v70 (broadcastInDim S320x1 ![0] bcast_S320_S320x1_0 : (⟨S320, .f32⟩ : BufTy).Contents (Elt F) → (⟨S320x1, .f32⟩ : BufTy).Contents (Elt F)),
    nullary main_cst_23 (constant S_ .f32 0x40400000#32),
    unary main_cst_23 main_v71 (broadcastInDim S320x320 ![] bcast_S_S320x320 : (⟨S_, .f32⟩ : BufTy).Contents (Elt F) → (⟨S320x320, .f32⟩ : BufTy).Contents (Elt F)),
    binary main_v11 main_v71 main_v72 (subf : (⟨S320x320, .f32⟩ : BufTy).Contents (Elt F) → (⟨S320x320, .f32⟩ : BufTy).Contents (Elt F) → (⟨S320x320, .f32⟩ : BufTy).Contents (Elt F)),
    binary main_v72 main_v72 main_v73 (mulf : (⟨S320x320, .f32⟩ : BufTy).Contents (Elt F) → (⟨S320x320, .f32⟩ : BufTy).Contents (Elt F) → (⟨S320x320, .f32⟩ : BufTy).Contents (Elt F)),
    nullary main_cst_24 (constant S_ .f32 0xBF000000#32),
    unary main_cst_24 main_v74 (broadcastInDim S320x320 ![] bcast_S_S320x320 : (⟨S_, .f32⟩ : BufTy).Contents (Elt F) → (⟨S320x320, .f32⟩ : BufTy).Contents (Elt F)),
    binary main_v74 main_v73 main_v75 (mulf : (⟨S320x320, .f32⟩ : BufTy).Contents (Elt F) → (⟨S320x320, .f32⟩ : BufTy).Contents (Elt F) → (⟨S320x320, .f32⟩ : BufTy).Contents (Elt F)),
    unary main_v75 main_v76 (Host.exp : (⟨S320x320, .f32⟩ : BufTy).Contents (Elt F) → (⟨S320x320, .f32⟩ : BufTy).Contents (Elt F)),
    binary main_v76 main_v32 main_v77 (mulf : (⟨S320x320, .f32⟩ : BufTy).Contents (Elt F) → (⟨S320x320, .f32⟩ : BufTy).Contents (Elt F) → (⟨S320x320, .f32⟩ : BufTy).Contents (Elt F)),
    nullary main_cst_25 (constant S_ .f32 0x00000000#32),
    binary main_v77 main_cst_25 main_v78 ((fun x v => Host.reduceAdd x v reducesTo_S320x320_S320_d1 h_S_) : (⟨S320x320, .f32⟩ : BufTy).Contents (Elt F) → (⟨S_, .f32⟩ : BufTy).Contents (Elt F) → (⟨S320, .f32⟩ : BufTy).Contents (Elt F)),
    unary main_v78 main_v79 (broadcastInDim S320x1 ![0] bcast_S320_S320x1_0 : (⟨S320, .f32⟩ : BufTy).Contents (Elt F) → (⟨S320x1, .f32⟩ : BufTy).Contents (Elt F)),
    nullary main_cst_26 (constant S_ .f32 0x40400000#32),
    unary main_cst_26 main_v80 (broadcastInDim S320x320 ![] bcast_S_S320x320 : (⟨S_, .f32⟩ : BufTy).Contents (Elt F) → (⟨S320x320, .f32⟩ : BufTy).Contents (Elt F)),
    binary main_v11 main_v80 main_v81 (subf : (⟨S320x320, .f32⟩ : BufTy).Contents (Elt F) → (⟨S320x320, .f32⟩ : BufTy).Contents (Elt F) → (⟨S320x320, .f32⟩ : BufTy).Contents (Elt F)),
    binary main_v81 main_v81 main_v82 (mulf : (⟨S320x320, .f32⟩ : BufTy).Contents (Elt F) → (⟨S320x320, .f32⟩ : BufTy).Contents (Elt F) → (⟨S320x320, .f32⟩ : BufTy).Contents (Elt F)),
    nullary main_cst_27 (constant S_ .f32 0xBF800000#32),
    unary main_cst_27 main_v83 (broadcastInDim S320x320 ![] bcast_S_S320x320 : (⟨S_, .f32⟩ : BufTy).Contents (Elt F) → (⟨S320x320, .f32⟩ : BufTy).Contents (Elt F)),
    binary main_v83 main_v82 main_v84 (mulf : (⟨S320x320, .f32⟩ : BufTy).Contents (Elt F) → (⟨S320x320, .f32⟩ : BufTy).Contents (Elt F) → (⟨S320x320, .f32⟩ : BufTy).Contents (Elt F)),
    unary main_v84 main_v85 (Host.exp : (⟨S320x320, .f32⟩ : BufTy).Contents (Elt F) → (⟨S320x320, .f32⟩ : BufTy).Contents (Elt F)),
    binary main_v85 main_v32 main_v86 (mulf : (⟨S320x320, .f32⟩ : BufTy).Contents (Elt F) → (⟨S320x320, .f32⟩ : BufTy).Contents (Elt F) → (⟨S320x320, .f32⟩ : BufTy).Contents (Elt F)),
    nullary main_cst_28 (constant S_ .f32 0x00000000#32),
    binary main_v86 main_cst_28 main_v87 ((fun x v => Host.reduceAdd x v reducesTo_S320x320_S320_d1 h_S_) : (⟨S320x320, .f32⟩ : BufTy).Contents (Elt F) → (⟨S_, .f32⟩ : BufTy).Contents (Elt F) → (⟨S320, .f32⟩ : BufTy).Contents (Elt F)),
    unary main_v87 main_v88 (broadcastInDim S320x1 ![0] bcast_S320_S320x1_0 : (⟨S320, .f32⟩ : BufTy).Contents (Elt F) → (⟨S320x1, .f32⟩ : BufTy).Contents (Elt F)),
    nullary main_cst_29 (constant S_ .f32 0x40400000#32),
    unary main_cst_29 main_v89 (broadcastInDim S320x320 ![] bcast_S_S320x320 : (⟨S_, .f32⟩ : BufTy).Contents (Elt F) → (⟨S320x320, .f32⟩ : BufTy).Contents (Elt F)),
    binary main_v11 main_v89 main_v90 (subf : (⟨S320x320, .f32⟩ : BufTy).Contents (Elt F) → (⟨S320x320, .f32⟩ : BufTy).Contents (Elt F) → (⟨S320x320, .f32⟩ : BufTy).Contents (Elt F)),
    binary main_v90 main_v90 main_v91 (mulf : (⟨S320x320, .f32⟩ : BufTy).Contents (Elt F) → (⟨S320x320, .f32⟩ : BufTy).Contents (Elt F) → (⟨S320x320, .f32⟩ : BufTy).Contents (Elt F)),
    nullary main_cst_30 (constant S_ .f32 0xC0000000#32),
    unary main_cst_30 main_v92 (broadcastInDim S320x320 ![] bcast_S_S320x320 : (⟨S_, .f32⟩ : BufTy).Contents (Elt F) → (⟨S320x320, .f32⟩ : BufTy).Contents (Elt F)),
    binary main_v92 main_v91 main_v93 (mulf : (⟨S320x320, .f32⟩ : BufTy).Contents (Elt F) → (⟨S320x320, .f32⟩ : BufTy).Contents (Elt F) → (⟨S320x320, .f32⟩ : BufTy).Contents (Elt F)),
    unary main_v93 main_v94 (Host.exp : (⟨S320x320, .f32⟩ : BufTy).Contents (Elt F) → (⟨S320x320, .f32⟩ : BufTy).Contents (Elt F)),
    binary main_v94 main_v32 main_v95 (mulf : (⟨S320x320, .f32⟩ : BufTy).Contents (Elt F) → (⟨S320x320, .f32⟩ : BufTy).Contents (Elt F) → (⟨S320x320, .f32⟩ : BufTy).Contents (Elt F)),
    nullary main_cst_31 (constant S_ .f32 0x00000000#32),
    binary main_v95 main_cst_31 main_v96 ((fun x v => Host.reduceAdd x v reducesTo_S320x320_S320_d1 h_S_) : (⟨S320x320, .f32⟩ : BufTy).Contents (Elt F) → (⟨S_, .f32⟩ : BufTy).Contents (Elt F) → (⟨S320, .f32⟩ : BufTy).Contents (Elt F)),
    unary main_v96 main_v97 (broadcastInDim S320x1 ![0] bcast_S320_S320x1_0 : (⟨S320, .f32⟩ : BufTy).Contents (Elt F) → (⟨S320x1, .f32⟩ : BufTy).Contents (Elt F)),
    nullary main_cst_32 (constant S_ .f32 0x40400000#32),
    unary main_cst_32 main_v98 (broadcastInDim S320x320 ![] bcast_S_S320x320 : (⟨S_, .f32⟩ : BufTy).Contents (Elt F) → (⟨S320x320, .f32⟩ : BufTy).Contents (Elt F)),
    binary main_v11 main_v98 main_v99 (subf : (⟨S320x320, .f32⟩ : BufTy).Contents (Elt F) → (⟨S320x320, .f32⟩ : BufTy).Contents (Elt F) → (⟨S320x320, .f32⟩ : BufTy).Contents (Elt F)),
    binary main_v99 main_v99 main_v100 (mulf : (⟨S320x320, .f32⟩ : BufTy).Contents (Elt F) → (⟨S320x320, .f32⟩ : BufTy).Contents (Elt F) → (⟨S320x320, .f32⟩ : BufTy).Contents (Elt F)),
    nullary main_cst_33 (constant S_ .f32 0xC0800000#32),
    unary main_cst_33 main_v101 (broadcastInDim S320x320 ![] bcast_S_S320x320 : (⟨S_, .f32⟩ : BufTy).Contents (Elt F) → (⟨S320x320, .f32⟩ : BufTy).Contents (Elt F)),
    binary main_v101 main_v100 main_v102 (mulf : (⟨S320x320, .f32⟩ : BufTy).Contents (Elt F) → (⟨S320x320, .f32⟩ : BufTy).Contents (Elt F) → (⟨S320x320, .f32⟩ : BufTy).Contents (Elt F)),
    unary main_v102 main_v103 (Host.exp : (⟨S320x320, .f32⟩ : BufTy).Contents (Elt F) → (⟨S320x320, .f32⟩ : BufTy).Contents (Elt F)),
    binary main_v103 main_v32 main_v104 (mulf : (⟨S320x320, .f32⟩ : BufTy).Contents (Elt F) → (⟨S320x320, .f32⟩ : BufTy).Contents (Elt F) → (⟨S320x320, .f32⟩ : BufTy).Contents (Elt F)),
    nullary main_cst_34 (constant S_ .f32 0x00000000#32),
    binary main_v104 main_cst_34 main_v105 ((fun x v => Host.reduceAdd x v reducesTo_S320x320_S320_d1 h_S_) : (⟨S320x320, .f32⟩ : BufTy).Contents (Elt F) → (⟨S_, .f32⟩ : BufTy).Contents (Elt F) → (⟨S320, .f32⟩ : BufTy).Contents (Elt F)),
    unary main_v105 main_v106 (broadcastInDim S320x1 ![0] bcast_S320_S320x1_0 : (⟨S320, .f32⟩ : BufTy).Contents (Elt F) → (⟨S320x1, .f32⟩ : BufTy).Contents (Elt F)),
    nullary main_cst_35 (constant S_ .f32 0x3F000000#32),
    unary main_cst_35 main_v107 (broadcastInDim S320x320 ![] bcast_S_S320x320 : (⟨S_, .f32⟩ : BufTy).Contents (Elt F) → (⟨S320x320, .f32⟩ : BufTy).Contents (Elt F)),
    binary main_v107 main_v11 main_v108 (mulf : (⟨S320x320, .f32⟩ : BufTy).Contents (Elt F) → (⟨S320x320, .f32⟩ : BufTy).Contents (Elt F) → (⟨S320x320, .f32⟩ : BufTy).Contents (Elt F)),
    unary main_v108 main_v109 (Host.cos : (⟨S320x320, .f32⟩ : BufTy).Contents (Elt F) → (⟨S320x320, .f32⟩ : BufTy).Contents (Elt F)),
    binary main_v109 main_v32 main_v110 (mulf : (⟨S320x320, .f32⟩ : BufTy).Contents (Elt F) → (⟨S320x320, .f32⟩ : BufTy).Contents (Elt F) → (⟨S320x320, .f32⟩ : BufTy).Contents (Elt F)),
    nullary main_cst_36 (constant S_ .f32 0x00000000#32),
    binary main_v110 main_cst_36 main_v111 ((fun x v => Host.reduceAdd x v reducesTo_S320x320_S320_d1 h_S_) : (⟨S320x320, .f32⟩ : BufTy).Contents (Elt F) → (⟨S_, .f32⟩ : BufTy).Contents (Elt F) → (⟨S320, .f32⟩ : BufTy).Contents (Elt F)),
    unary main_v111 main_v112 (broadcastInDim S320x1 ![0] bcast_S320_S320x1_0 : (⟨S320, .f32⟩ : BufTy).Contents (Elt F) → (⟨S320x1, .f32⟩ : BufTy).Contents (Elt F)),
    nullary main_cst_37 (constant S_ .f32 0x3F800000#32),
    unary main_cst_37 main_v113 (broadcastInDim S320x320 ![] bcast_S_S320x320 : (⟨S_, .f32⟩ : BufTy).Contents (Elt F) → (⟨S320x320, .f32⟩ : BufTy).Contents (Elt F)),
    binary main_v113 main_v11 main_v114 (mulf : (⟨S320x320, .f32⟩ : BufTy).Contents (Elt F) → (⟨S320x320, .f32⟩ : BufTy).Contents (Elt F) → (⟨S320x320, .f32⟩ : BufTy).Contents (Elt F)),
    unary main_v114 main_v115 (Host.cos : (⟨S320x320, .f32⟩ : BufTy).Contents (Elt F) → (⟨S320x320, .f32⟩ : BufTy).Contents (Elt F)),
    binary main_v115 main_v32 main_v116 (mulf : (⟨S320x320, .f32⟩ : BufTy).Contents (Elt F) → (⟨S320x320, .f32⟩ : BufTy).Contents (Elt F) → (⟨S320x320, .f32⟩ : BufTy).Contents (Elt F)),
    nullary main_cst_38 (constant S_ .f32 0x00000000#32),
    binary main_v116 main_cst_38 main_v117 ((fun x v => Host.reduceAdd x v reducesTo_S320x320_S320_d1 h_S_) : (⟨S320x320, .f32⟩ : BufTy).Contents (Elt F) → (⟨S_, .f32⟩ : BufTy).Contents (Elt F) → (⟨S320, .f32⟩ : BufTy).Contents (Elt F)),
    unary main_v117 main_v118 (broadcastInDim S320x1 ![0] bcast_S320_S320x1_0 : (⟨S320, .f32⟩ : BufTy).Contents (Elt F) → (⟨S320x1, .f32⟩ : BufTy).Contents (Elt F)),
    nullary main_cst_39 (constant S_ .f32 0x3FC00000#32),
    unary main_cst_39 main_v119 (broadcastInDim S320x320 ![] bcast_S_S320x320 : (⟨S_, .f32⟩ : BufTy).Contents (Elt F) → (⟨S320x320, .f32⟩ : BufTy).Contents (Elt F)),
    binary main_v119 main_v11 main_v120 (mulf : (⟨S320x320, .f32⟩ : BufTy).Contents (Elt F) → (⟨S320x320, .f32⟩ : BufTy).Contents (Elt F) → (⟨S320x320, .f32⟩ : BufTy).Contents (Elt F)),
    unary main_v120 main_v121 (Host.cos : (⟨S320x320, .f32⟩ : BufTy).Contents (Elt F) → (⟨S320x320, .f32⟩ : BufTy).Contents (Elt F)),
    binary main_v121 main_v32 main_v122 (mulf : (⟨S320x320, .f32⟩ : BufTy).Contents (Elt F) → (⟨S320x320, .f32⟩ : BufTy).Contents (Elt F) → (⟨S320x320, .f32⟩ : BufTy).Contents (Elt F)),
    nullary main_cst_40 (constant S_ .f32 0x00000000#32),
    binary main_v122 main_cst_40 main_v123 ((fun x v => Host.reduceAdd x v reducesTo_S320x320_S320_d1 h_S_) : (⟨S320x320, .f32⟩ : BufTy).Contents (Elt F) → (⟨S_, .f32⟩ : BufTy).Contents (Elt F) → (⟨S320, .f32⟩ : BufTy).Contents (Elt F)),
    unary main_v123 main_v124 (broadcastInDim S320x1 ![0] bcast_S320_S320x1_0 : (⟨S320, .f32⟩ : BufTy).Contents (Elt F) → (⟨S320x1, .f32⟩ : BufTy).Contents (Elt F)),
    nullary main_cst_41 (constant S_ .f32 0x40000000#32),
    unary main_cst_41 main_v125 (broadcastInDim S320x320 ![] bcast_S_S320x320 : (⟨S_, .f32⟩ : BufTy).Contents (Elt F) → (⟨S320x320, .f32⟩ : BufTy).Contents (Elt F)),
    binary main_v125 main_v11 main_v126 (mulf : (⟨S320x320, .f32⟩ : BufTy).Contents (Elt F) → (⟨S320x320, .f32⟩ : BufTy).Contents (Elt F) → (⟨S320x320, .f32⟩ : BufTy).Contents (Elt F)),
    unary main_v126 main_v127 (Host.cos : (⟨S320x320, .f32⟩ : BufTy).Contents (Elt F) → (⟨S320x320, .f32⟩ : BufTy).Contents (Elt F)),
    binary main_v127 main_v32 main_v128 (mulf : (⟨S320x320, .f32⟩ : BufTy).Contents (Elt F) → (⟨S320x320, .f32⟩ : BufTy).Contents (Elt F) → (⟨S320x320, .f32⟩ : BufTy).Contents (Elt F)),
    nullary main_cst_42 (constant S_ .f32 0x00000000#32),
    binary main_v128 main_cst_42 main_v129 ((fun x v => Host.reduceAdd x v reducesTo_S320x320_S320_d1 h_S_) : (⟨S320x320, .f32⟩ : BufTy).Contents (Elt F) → (⟨S_, .f32⟩ : BufTy).Contents (Elt F) → (⟨S320, .f32⟩ : BufTy).Contents (Elt F)),
    unary main_v129 main_v130 (broadcastInDim S320x1 ![0] bcast_S320_S320x1_0 : (⟨S320, .f32⟩ : BufTy).Contents (Elt F) → (⟨S320x1, .f32⟩ : BufTy).Contents (Elt F)),
    binary main_v4 main_v4 main_v131 ((fun l r => Host.dotGeneral dot_S320x320x3_S320x320x3_S320x320x320_2_2_1_1_0_0 none l r) : (⟨S320x320x3, .f32⟩ : BufTy).Contents (Elt F) → (⟨S320x320x3, .f32⟩ : BufTy).Contents (Elt F) → (⟨S320x320x320, .f32⟩ : BufTy).Contents (Elt F)),
    unary main_v11 main_v132 (broadcastInDim S320x320x1 ![0, 1] bcast_S320x320_S320x320x1_0_1 : (⟨S320x320, .f32⟩ : BufTy).Contents (Elt F) → (⟨S320x320x1, .f32⟩ : BufTy).Contents (Elt F)),
    unary main_v11 main_v133 (broadcastInDim S320x1x320 ![0, 2] bcast_S320x320_S320x1x320_0_2 : (⟨S320x320, .f32⟩ : BufTy).Contents (Elt F) → (⟨S320x1x320, .f32⟩ : BufTy).Contents (Elt F)),
    unary main_v132 main_v134 (broadcastInDim S320x320x320 ![0, 1, 2] bcast_S320x320x1_S320x320x320_0_1_2 : (⟨S320x320x1, .f32⟩ : BufTy).Contents (Elt F) → (⟨S320x320x320, .f32⟩ : BufTy).Contents (Elt F)),
    unary main_v133 main_v135 (broadcastInDim S320x320x320 ![0, 1, 2] bcast_S320x1x320_S320x320x320_0_1_2 : (⟨S320x1x320, .f32⟩ : BufTy).Contents (Elt F) → (⟨S320x320x320, .f32⟩ : BufTy).Contents (Elt F)),
    binary main_v134 main_v135 main_v136 (mulf : (⟨S320x320x320, .f32⟩ : BufTy).Contents (Elt F) → (⟨S320x320x320, .f32⟩ : BufTy).Contents (Elt F) → (⟨S320x320x320, .f32⟩ : BufTy).Contents (Elt F)),
    nullary main_cst_43 (constant S_ .f32 0x00000000#32),
    unary main_cst_43 main_v137 (broadcastInDim S320x320x320 ![] bcast_S_S320x320x320 : (⟨S_, .f32⟩ : BufTy).Contents (Elt F) → (⟨S320x320x320, .f32⟩ : BufTy).Contents (Elt F)),
    binary main_v136 main_v137 main_v138 (cmpf .ogt : (⟨S320x320x320, .f32⟩ : BufTy).Contents (Elt F) → (⟨S320x320x320, .f32⟩ : BufTy).Contents (Elt F) → (⟨S320x320x320, .i1⟩ : BufTy).Contents (Elt F)),
    nullary main_cst_44 (constant S_ .f32 0x3F800000#32),
    TRef.unary (TRef.of (T := ⟨S_, .f32⟩) main_cst_44) (TRef.of (T := ⟨S_, .f32⟩) main_call3_v0) id,
    TRef.unary (TRef.of (T := ⟨S_, .f32⟩) main_call3_v0) (TRef.of (T := ⟨S320x320x320, .f32⟩) main_call3_v1) (broadcastInDim S320x320x320 ![] bcast_S_S320x320x320),
    TRef.ternary (TRef.of (T := ⟨S320x320x320, .i1⟩) main_v138) (TRef.of (T := ⟨S320x320x320, .f32⟩) main_v136) (TRef.of (T := ⟨S320x320x320, .f32⟩) main_call3_v1) (TRef.of (T := ⟨S320x320x320, .f32⟩) main_v139) select,
    binary main_v131 main_v139 main_v140 (Host.divf : (⟨S320x320x320, .f32⟩ : BufTy).Contents (Elt F) → (⟨S320x320x320, .f32⟩ : BufTy).Contents (Elt F) → (⟨S320x320x320, .f32⟩ : BufTy).Contents (Elt F)),
    unary main_v6 main_v141 (broadcastInDim S320x320x1 ![0, 1] bcast_S320x320_S320x320x1_0_1 : (⟨S320x320, .f32⟩ : BufTy).Contents (Elt F) → (⟨S320x320x1, .f32⟩ : BufTy).Contents (Elt F)),
    unary main_v6 main_v142 (broadcastInDim S320x1x320 ![0, 2] bcast_S320x320_S320x1x320_0_2 : (⟨S320x320, .f32⟩ : BufTy).Contents (Elt F) → (⟨S320x1x320, .f32⟩ : BufTy).Contents (Elt F)),
    unary main_v141 main_v143 (broadcastInDim S320x320x320 ![0, 1, 2] bcast_S320x320x1_S320x320x320_0_1_2 : (⟨S320x320x1, .f32⟩ : BufTy).Contents (Elt F) → (⟨S320x320x320, .f32⟩ : BufTy).Contents (Elt F)),
    unary main_v142 main_v144 (broadcastInDim S320x320x320 ![0, 1, 2] bcast_S320x1x320_S320x320x320_0_1_2 : (⟨S320x1x320, .f32⟩ : BufTy).Contents (Elt F) → (⟨S320x320x320, .f32⟩ : BufTy).Contents (Elt F)),
    binary main_v143 main_v144 main_v145 (addf : (⟨S320x320x320, .f32⟩ : BufTy).Contents (Elt F) → (⟨S320x320x320, .f32⟩ : BufTy).Contents (Elt F) → (⟨S320x320x320, .f32⟩ : BufTy).Contents (Elt F)),
    unary main_v6 main_v146 (broadcastInDim S1x320x320 ![1, 2] bcast_S320x320_S1x320x320_1_2 : (⟨S320x320, .f32⟩ : BufTy).Contents (Elt F) → (⟨S1x320x320, .f32⟩ : BufTy).Contents (Elt F)),
    unary main_v146 main_v147 (broadcastInDim S320x320x320 ![0, 1, 2] bcast_S1x320x320_S320x320x320_0_1_2 : (⟨S1x320x320, .f32⟩ : BufTy).Contents (Elt F) → (⟨S320x320x320, .f32⟩ : BufTy).Contents (Elt F)),
    binary main_v145 main_v147 main_v148 (addf : (⟨S320x320x320, .f32⟩ : BufTy).Contents (Elt F) → (⟨S320x320x320, .f32⟩ : BufTy).Contents (Elt F) → (⟨S320x320x320, .f32⟩ : BufTy).Contents (Elt F)),
    nullary main_cst_45 (constant S_ .f32 0x3F800000#32),
    unary main_cst_45 main_v149 (broadcastInDim S320x320 ![] bcast_S_S320x320 : (⟨S_, .f32⟩ : BufTy).Contents (Elt F) → (⟨S320x320, .f32⟩ : BufTy).Contents (Elt F)),
    binary main_v149 main_v17 main_v150 (subf : (⟨S320x320, .f32⟩ : BufTy).Contents (Elt F) → (⟨S320x320, .f32⟩ : BufTy).Contents (Elt F) → (⟨S320x320, .f32⟩ : BufTy).Contents (Elt F)),
    unary main_v150 main_v151 (broadcastInDim S1x320x320 ![1, 2] bcast_S320x320_S1x320x320_1_2 : (⟨S320x320, .f32⟩ : BufTy).Contents (Elt F) → (⟨S1x320x320, .f32⟩ : BufTy).Contents (Elt F)),
    unary main_v32 main_v152 (broadcastInDim S320x320x1 ![0, 1] bcast_S320x320_S320x320x1_0_1 : (⟨S320x320, .f32⟩ : BufTy).Contents (Elt F) → (⟨S320x320x1, .f32⟩ : BufTy).Contents (Elt F)),
    unary main_v32 main_v153 (broadcastInDim S320x1x320 ![0, 2] bcast_S320x320_S320x1x320_0_2 : (⟨S320x320, .f32⟩ : BufTy).Contents (Elt F) → (⟨S320x1x320, .f32⟩ : BufTy).Contents (Elt F)),
    unary main_v152 main_v154 (broadcastInDim S320x320x320 ![0, 1, 2] bcast_S320x320x1_S320x320x320_0_1_2 : (⟨S320x320x1, .f32⟩ : BufTy).Contents (Elt F) → (⟨S320x320x320, .f32⟩ : BufTy).Contents (Elt F)),
    unary main_v153 main_v155 (broadcastInDim S320x320x320 ![0, 1, 2] bcast_S320x1x320_S320x320x320_0_1_2 : (⟨S320x1x320, .f32⟩ : BufTy).Contents (Elt F) → (⟨S320x320x320, .f32⟩ : BufTy).Contents (Elt F)),
    binary main_v154 main_v155 main_v156 (mulf : (⟨S320x320x320, .f32⟩ : BufTy).Contents (Elt F) → (⟨S320x320x320, .f32⟩ : BufTy).Contents (Elt F) → (⟨S320x320x320, .f32⟩ : BufTy).Contents (Elt F)),
    unary main_v151 main_v157 (broadcastInDim S320x320x320 ![0, 1, 2] bcast_S1x320x320_S320x320x320_0_1_2 : (⟨S1x320x320, .f32⟩ : BufTy).Contents (Elt F) → (⟨S320x320x320, .f32⟩ : BufTy).Contents (Elt F)),
    binary main_v156 main_v157 main_v158 (mulf : (⟨S320x320x320, .f32⟩ : BufTy).Contents (Elt F) → (⟨S320x320x320, .f32⟩ : BufTy).Contents (Elt F) → (⟨S320x320x320, .f32⟩ : BufTy).Contents (Elt F)),
    unary main_v32 main_v159 (broadcastInDim S1x320x320 ![1, 2] bcast_S320x320_S1x320x320_1_2 : (⟨S320x320, .f32⟩ : BufTy).Contents (Elt F) → (⟨S1x320x320, .f32⟩ : BufTy).Contents (Elt F)),
    unary main_v159 main_v160 (broadcastInDim S320x320x320 ![0, 1, 2] bcast_S1x320x320_S320x320x320_0_1_2 : (⟨S1x320x320, .f32⟩ : BufTy).Contents (Elt F) → (⟨S320x320x320, .f32⟩ : BufTy).Contents (Elt F)),
    binary main_v158 main_v160 main_v161 (mulf : (⟨S320x320x320, .f32⟩ : BufTy).Contents (Elt F) → (⟨S320x320x320, .f32⟩ : BufTy).Contents (Elt F) → (⟨S320x320x320, .f32⟩ : BufTy).Contents (Elt F)),
    nullary main_cst_46 (constant S_ .f32 0x3F800000#32),
    unary main_cst_46 main_v162 (broadcastInDim S320x320x320 ![] bcast_S_S320x320x320 : (⟨S_, .f32⟩ : BufTy).Contents (Elt F) → (⟨S320x320x320, .f32⟩ : BufTy).Contents (Elt F)),
    binary main_v162 main_v140 main_v163 (mulf : (⟨S320x320x320, .f32⟩ : BufTy).Contents (Elt F) → (⟨S320x320x320, .f32⟩ : BufTy).Contents (Elt F) → (⟨S320x320x320, .f32⟩ : BufTy).Contents (Elt F)),
    nullary main_cst_47 (constant S_ .f32 0x3F800000#32),
    unary main_cst_47 main_v164 (broadcastInDim S320x320x320 ![] bcast_S_S320x320x320 : (⟨S_, .f32⟩ : BufTy).Contents (Elt F) → (⟨S320x320x320, .f32⟩ : BufTy).Contents (Elt F)),
    binary main_v164 main_v163 main_v165 (addf : (⟨S320x320x320, .f32⟩ : BufTy).Contents (Elt F) → (⟨S320x320x320, .f32⟩ : BufTy).Contents (Elt F) → (⟨S320x320x320, .f32⟩ : BufTy).Contents (Elt F)),
    nullary main_cst_48 (constant S_ .f32 0x3F800000#32),
    unary main_cst_48 main_v166 (broadcastInDim S320x320x320 ![] bcast_S_S320x320x320 : (⟨S_, .f32⟩ : BufTy).Contents (Elt F) → (⟨S320x320x320, .f32⟩ : BufTy).Contents (Elt F)),
    binary main_v165 main_v166 main_v167 (Host.powf : (⟨S320x320x320, .f32⟩ : BufTy).Contents (Elt F) → (⟨S320x320x320, .f32⟩ : BufTy).Contents (Elt F) → (⟨S320x320x320, .f32⟩ : BufTy).Contents (Elt F)),
    nullary main_cst_49 (constant S_ .f32 0xBDCCCCCD#32),
    unary main_cst_49 main_v168 (broadcastInDim S320x320x320 ![] bcast_S_S320x320x320 : (⟨S_, .f32⟩ : BufTy).Contents (Elt F) → (⟨S320x320x320, .f32⟩ : BufTy).Contents (Elt F)),
    binary main_v168 main_v148 main_v169 (mulf : (⟨S320x320x320, .f32⟩ : BufTy).Contents (Elt F) → (⟨S320x320x320, .f32⟩ : BufTy).Contents (Elt F) → (⟨S320x320x320, .f32⟩ : BufTy).Contents (Elt F)),
    unary main_v169 main_v170 (Host.exp : (⟨S320x320x320, .f32⟩ : BufTy).Contents (Elt F) → (⟨S320x320x320, .f32⟩ : BufTy).Contents (Elt F)),
    binary main_v167 main_v170 main_v171 (mulf : (⟨S320x320x320, .f32⟩ : BufTy).Contents (Elt F) → (⟨S320x320x320, .f32⟩ : BufTy).Contents (Elt F) → (⟨S320x320x320, .f32⟩ : BufTy).Contents (Elt F)),
    binary main_v171 main_v161 main_v172 (mulf : (⟨S320x320x320, .f32⟩ : BufTy).Contents (Elt F) → (⟨S320x320x320, .f32⟩ : BufTy).Contents (Elt F) → (⟨S320x320x320, .f32⟩ : BufTy).Contents (Elt F)),
    nullary main_cst_50 (constant S_ .f32 0x00000000#32),
    binary main_v172 main_cst_50 main_v173 ((fun x v => Host.reduceAdd x v reducesTo_S320x320x320_S320_d1_2 h_S_) : (⟨S320x320x320, .f32⟩ : BufTy).Contents (Elt F) → (⟨S_, .f32⟩ : BufTy).Contents (Elt F) → (⟨S320, .f32⟩ : BufTy).Contents (Elt F)),
    nullary main_cst_51 (constant S_ .f32 0x3F000000#32),
    unary main_cst_51 main_v174 (broadcastInDim S320 ![] bcast_S_S320 : (⟨S_, .f32⟩ : BufTy).Contents (Elt F) → (⟨S320, .f32⟩ : BufTy).Contents (Elt F)),
    binary main_v174 main_v173 main_v175 (mulf : (⟨S320, .f32⟩ : BufTy).Contents (Elt F) → (⟨S320, .f32⟩ : BufTy).Contents (Elt F) → (⟨S320, .f32⟩ : BufTy).Contents (Elt F)),
    unary main_v175 main_v176 (broadcastInDim S320x1 ![0] bcast_S320_S320x1_0 : (⟨S320, .f32⟩ : BufTy).Contents (Elt F) → (⟨S320x1, .f32⟩ : BufTy).Contents (Elt F)),
    nullary main_cst_52 (constant S_ .f32 0xBF800000#32),
    unary main_cst_52 main_v177 (broadcastInDim S320x320x320 ![] bcast_S_S320x320x320 : (⟨S_, .f32⟩ : BufTy).Contents (Elt F) → (⟨S320x320x320, .f32⟩ : BufTy).Contents (Elt F)),
    binary main_v177 main_v140 main_v178 (mulf : (⟨S320x320x320, .f32⟩ : BufTy).Contents (Elt F) → (⟨S320x320x320, .f32⟩ : BufTy).Contents (Elt F) → (⟨S320x320x320, .f32⟩ : BufTy).Contents (Elt F)),
    nullary main_cst_53 (constant S_ .f32 0x3F800000#32),
    unary main_cst_53 main_v179 (broadcastInDim S320x320x320 ![] bcast_S_S320x320x320 : (⟨S_, .f32⟩ : BufTy).Contents (Elt F) → (⟨S320x320x320, .f32⟩ : BufTy).Contents (Elt F)),
    binary main_v179 main_v178 main_v180 (addf : (⟨S320x320x320, .f32⟩ : BufTy).Contents (Elt F) → (⟨S320x320x320, .f32⟩ : BufTy).Contents (Elt F) → (⟨S320x320x320, .f32⟩ : BufTy).Contents (Elt F)),
    nullary main_cst_54 (constant S_ .f32 0x40000000#32),
    unary main_cst_54 main_v181 (broadcastInDim S320x320x320 ![] bcast_S_S320x320x320 : (⟨S_, .f32⟩ : BufTy).Contents (Elt F) → (⟨S320x320x320, .f32⟩ : BufTy).Contents (Elt F)),
    binary main_v180 main_v181 main_v182 (Host.powf : (⟨S320x320x320, .f32⟩ : BufTy).Contents (Elt F) → (⟨S320x320x320, .f32⟩ : BufTy).Contents (Elt F) → (⟨S320x320x320, .f32⟩ : BufTy).Contents (Elt F)),
    nullary main_cst_55 (constant S_ .f32 0xBDCCCCCD#32),
    unary main_cst_55 main_v183 (broadcastInDim S320x320x320 ![] bcast_S_S320x320x320 : (⟨S_, .f32⟩ : BufTy).Contents (Elt F) → (⟨S320x320x320, .f32⟩ : BufTy).Contents (Elt F)),
    binary main_v183 main_v148 main_v184 (mulf : (⟨S320x320x320, .f32⟩ : BufTy).Contents (Elt F) → (⟨S320x320x320, .f32⟩ : BufTy).Contents (Elt F) → (⟨S320x320x320, .f32⟩ : BufTy).Contents (Elt F)),
    unary main_v184 main_v185 (Host.exp : (⟨S320x320x320, .f32⟩ : BufTy).Contents (Elt F) → (⟨S320x320x320, .f32⟩ : BufTy).Contents (Elt F)),
    binary main_v182 main_v185 main_v186 (mulf : (⟨S320x320x320, .f32⟩ : BufTy).Contents (Elt F) → (⟨S320x320x320, .f32⟩ : BufTy).Contents (Elt F) → (⟨S320x320x320, .f32⟩ : BufTy).Contents (Elt F)),
    binary main_v186 main_v161 main_v187 (mulf : (⟨S320x320x320, .f32⟩ : BufTy).Contents (Elt F) → (⟨S320x320x320, .f32⟩ : BufTy).Contents (Elt F) → (⟨S320x320x320, .f32⟩ : BufTy).Contents (Elt F)),
    nullary main_cst_56 (constant S_ .f32 0x00000000#32),
    binary main_v187 main_cst_56 main_v188 ((fun x v => Host.reduceAdd x v reducesTo_S320x320x320_S320_d1_2 h_S_) : (⟨S320x320x320, .f32⟩ : BufTy).Contents (Elt F) → (⟨S_, .f32⟩ : BufTy).Contents (Elt F) → (⟨S320, .f32⟩ : BufTy).Contents (Elt F)),
    nullary main_cst_57 (constant S_ .f32 0x3E800000#32),
    unary main_cst_57 main_v189 (broadcastInDim S320 ![] bcast_S_S320 : (⟨S_, .f32⟩ : BufTy).Contents (Elt F) → (⟨S320, .f32⟩ : BufTy).Contents (Elt F)),
    binary main_v189 main_v188 main_v190 (mulf : (⟨S320, .f32⟩ : BufTy).Contents (Elt F) → (⟨S320, .f32⟩ : BufTy).Contents (Elt F) → (⟨S320, .f32⟩ : BufTy).Contents (Elt F)),
    unary main_v190 main_v191 (broadcastInDim S320x1 ![0] bcast_S320_S320x1_0 : (⟨S320, .f32⟩ : BufTy).Contents (Elt F) → (⟨S320x1, .f32⟩ : BufTy).Contents (Elt F)),
    nullary main_cst_58 (constant S_ .f32 0x3F800000#32),
    unary main_cst_58 main_v192 (broadcastInDim S320x320x320 ![] bcast_S_S320x320x320 : (⟨S_, .f32⟩ : BufTy).Contents (Elt F) → (⟨S320x320x320, .f32⟩ : BufTy).Contents (Elt F)),
    binary main_v192 main_v140 main_v193 (mulf : (⟨S320x320x320, .f32⟩ : BufTy).Contents (Elt F) → (⟨S320x320x320, .f32⟩ : BufTy).Contents (Elt F) → (⟨S320x320x320, .f32⟩ : BufTy).Contents (Elt F)),
    nullary main_cst_59 (constant S_ .f32 0x3F800000#32),
    unary main_cst_59 main_v194 (broadcastInDim S320x320x320 ![] bcast_S_S320x320x320 : (⟨S_, .f32⟩ : BufTy).Contents (Elt F) → (⟨S320x320x320, .f32⟩ : BufTy).Contents (Elt F)),
    binary main_v194 main_v193 main_v195 (addf : (⟨S320x320x320, .f32⟩ : BufTy).Contents (Elt F) → (⟨S320x320x320, .f32⟩ : BufTy).Contents (Elt F) → (⟨S320x320x320, .f32⟩ : BufTy).Contents (Elt F)),
    nullary main_cst_60 (constant S_ .f32 0x40800000#32),
    unary main_cst_60 main_v196 (broadcastInDim S320x320x320 ![] bcast_S_S320x320x320 : (⟨S_, .f32⟩ : BufTy).Contents (Elt F) → (⟨S320x320x320, .f32⟩ : BufTy).Contents (Elt F)),
    binary main_v195 main_v196 main_v197 (Host.powf : (⟨S320x320x320, .f32⟩ : BufTy).Contents (Elt F) → (⟨S320x320x320, .f32⟩ : BufTy).Contents (Elt F) → (⟨S320x320x320, .f32⟩ : BufTy).Contents (Elt F)),
    nullary main_cst_61 (constant S_ .f32 0xBF000000#32),
    unary main_cst_61 main_v198 (broadcastInDim S320x320x320 ![] bcast_S_S320x320x320 : (⟨S_, .f32⟩ : BufTy).Contents (Elt F) → (⟨S320x320x320, .f32⟩ : BufTy).Contents (Elt F)),
    binary main_v198 main_v148 main_v199 (mulf : (⟨S320x320x320, .f32⟩ : BufTy).Contents (Elt F) → (⟨S320x320x320, .f32⟩ : BufTy).Contents (Elt F) → (⟨S320x320x320, .f32⟩ : BufTy).Contents (Elt F)),
    unary main_v199 main_v200 (Host.exp : (⟨S320x320x320, .f32⟩ : BufTy).Contents (Elt F) → (⟨S320x320x320, .f32⟩ : BufTy).Contents (Elt F)),
    binary main_v197 main_v200 main_v201 (mulf : (⟨S320x320x320, .f32⟩ : BufTy).Contents (Elt F) → (⟨S320x320x320, .f32⟩ : BufTy).Contents (Elt F) → (⟨S320x320x320, .f32⟩ : BufTy).Contents (Elt F)),
    binary main_v201 main_v161 main_v202 (mulf : (⟨S320x320x320, .f32⟩ : BufTy).Contents (Elt F) → (⟨S320x320x320, .f32⟩ : BufTy).Contents (Elt F) → (⟨S320x320x320, .f32⟩ : BufTy).Contents (Elt F)),
    nullary main_cst_62 (constant S_ .f32 0x00000000#32),
    binary main_v202 main_cst_62 main_v203 ((fun x v => Host.reduceAdd x v reducesTo_S320x320x320_S320_d1_2 h_S_) : (⟨S320x320x320, .f32⟩ : BufTy).Contents (Elt F) → (⟨S_, .f32⟩ : BufTy).Contents (Elt F) → (⟨S320, .f32⟩ : BufTy).Contents (Elt F)),
    nullary main_cst_63 (constant S_ .f32 0x3D800000#32),
    unary main_cst_63 main_v204 (broadcastInDim S320 ![] bcast_S_S320 : (⟨S_, .f32⟩ : BufTy).Contents (Elt F) → (⟨S320, .f32⟩ : BufTy).Contents (Elt F)),
    binary main_v204 main_v203 main_v205 (mulf : (⟨S320, .f32⟩ : BufTy).Contents (Elt F) → (⟨S320, .f32⟩ : BufTy).Contents (Elt F) → (⟨S320, .f32⟩ : BufTy).Contents (Elt F)),
    unary main_v205 main_v206 (broadcastInDim S320x1 ![0] bcast_S320_S320x1_0 : (⟨S320, .f32⟩ : BufTy).Contents (Elt F) → (⟨S320x1, .f32⟩ : BufTy).Contents (Elt F)),
    nullary main_cst_64 (constant S_ .f32 0xBF800000#32),
    unary main_cst_64 main_v207 (broadcastInDim S320x320x320 ![] bcast_S_S320x320x320 : (⟨S_, .f32⟩ : BufTy).Contents (Elt F) → (⟨S320x320x320, .f32⟩ : BufTy).Contents (Elt F)),
    binary main_v207 main_v140 main_v208 (mulf : (⟨S320x320x320, .f32⟩ : BufTy).Contents (Elt F) → (⟨S320x320x320, .f32⟩ : BufTy).Contents (Elt F) → (⟨S320x320x320, .f32⟩ : BufTy).Contents (Elt F)),
    nullary main_cst_65 (constant S_ .f32 0x3F800000#32),
    unary main_cst_65 main_v209 (broadcastInDim S320x320x320 ![] bcast_S_S320x320x320 : (⟨S_, .f32⟩ : BufTy).Contents (Elt F) → (⟨S320x320x320, .f32⟩ : BufTy).Contents (Elt F)),
    binary main_v209 main_v208 main_v210 (addf : (⟨S320x320x320, .f32⟩ : BufTy).Contents (Elt F) → (⟨S320x320x320, .f32⟩ : BufTy).Contents (Elt F) → (⟨S320x320x320, .f32⟩ : BufTy).Contents (Elt F)),
    nullary main_cst_66 (constant S_ .f32 0x40800000#32),
    unary main_cst_66 main_v211 (broadcastInDim S320x320x320 ![] bcast_S_S320x320x320 : (⟨S_, .f32⟩ : BufTy).Contents (Elt F) → (⟨S320x320x320, .f32⟩ : BufTy).Contents (Elt F)),
    binary main_v210 main_v211 main_v212 (Host.powf : (⟨S320x320x320, .f32⟩ : BufTy).Contents (Elt F) → (⟨S320x320x320, .f32⟩ : BufTy).Contents (Elt F) → (⟨S320x320x320, .f32⟩ : BufTy).Contents (Elt F)),
    nullary main_cst_67 (constant S_ .f32 0xBF000000#32),
    unary main_cst_67 main_v213 (broadcastInDim S320x320x320 ![] bcast_S_S320x320x320 : (⟨S_, .f32⟩ : BufTy).Contents (Elt F) → (⟨S320x320x320, .f32⟩ : BufTy).Contents (Elt F)),
    binary main_v213 main_v148 main_v214 (mulf : (⟨S320x320x320, .f32⟩ : BufTy).Contents (Elt F) → (⟨S320x320x320, .f32⟩ : BufTy).Contents (Elt F) → (⟨S320x320x320, .f32⟩ : BufTy).Contents (Elt F)),
    unary main_v214 main_v215 (Host.exp : (⟨S320x320x320, .f32⟩ : BufTy).Contents (Elt F) → (⟨S320x320x320, .f32⟩ : BufTy).Contents (Elt F)),
    binary main_v212 main_v215 main_v216 (mulf : (⟨S320x320x320, .f32⟩ : BufTy).Contents (Elt F) → (⟨S320x320x320, .f32⟩ : BufTy).Contents (Elt F) → (⟨S320x320x320, .f32⟩ : BufTy).Contents (Elt F)),
    binary main_v216 main_v161 main_v217 (mulf : (⟨S320x320x320, .f32⟩ : BufTy).Contents (Elt F) → (⟨S320x320x320, .f32⟩ : BufTy).Contents (Elt F) → (⟨S320x320x320, .f32⟩ : BufTy).Contents (Elt F)),
    nullary main_cst_68 (constant S_ .f32 0x00000000#32),
    binary main_v217 main_cst_68 main_v218 ((fun x v => Host.reduceAdd x v reducesTo_S320x320x320_S320_d1_2 h_S_) : (⟨S320x320x320, .f32⟩ : BufTy).Contents (Elt F) → (⟨S_, .f32⟩ : BufTy).Contents (Elt F) → (⟨S320, .f32⟩ : BufTy).Contents (Elt F)),
    nullary main_cst_69 (constant S_ .f32 0x3D800000#32),
    unary main_cst_69 main_v219 (broadcastInDim S320 ![] bcast_S_S320 : (⟨S_, .f32⟩ : BufTy).Contents (Elt F) → (⟨S320, .f32⟩ : BufTy).Contents (Elt F)),
    binary main_v219 main_v218 main_v220 (mulf : (⟨S320, .f32⟩ : BufTy).Contents (Elt F) → (⟨S320, .f32⟩ : BufTy).Contents (Elt F) → (⟨S320, .f32⟩ : BufTy).Contents (Elt F)),
    unary main_v220 main_v221 (broadcastInDim S320x1 ![0] bcast_S320_S320x1_0 : (⟨S320, .f32⟩ : BufTy).Contents (Elt F) → (⟨S320x1, .f32⟩ : BufTy).Contents (Elt F)),
    nullary main_cst_70 (constant S_ .f32 0x3F800000#32),
    unary main_cst_70 main_v222 (broadcastInDim S320x320x320 ![] bcast_S_S320x320x320 : (⟨S_, .f32⟩ : BufTy).Contents (Elt F) → (⟨S320x320x320, .f32⟩ : BufTy).Contents (Elt F)),
    binary main_v222 main_v140 main_v223 (mulf : (⟨S320x320x320, .f32⟩ : BufTy).Contents (Elt F) → (⟨S320x320x320, .f32⟩ : BufTy).Contents (Elt F) → (⟨S320x320x320, .f32⟩ : BufTy).Contents (Elt F)),
    nullary main_cst_71 (constant S_ .f32 0x3F800000#32),
    unary main_cst_71 main_v224 (broadcastInDim S320x320x320 ![] bcast_S_S320x320x320 : (⟨S_, .f32⟩ : BufTy).Contents (Elt F) → (⟨S320x320x320, .f32⟩ : BufTy).Contents (Elt F)),
    binary main_v224 main_v223 main_v225 (addf : (⟨S320x320x320, .f32⟩ : BufTy).Contents (Elt F) → (⟨S320x320x320, .f32⟩ : BufTy).Contents (Elt F) → (⟨S320x320x320, .f32⟩ : BufTy).Contents (Elt F)),
    nullary main_cst_72 (constant S_ .f32 0x3F800000#32),
    unary main_cst_72 main_v226 (broadcastInDim S320x320x320 ![] bcast_S_S320x320x320 : (⟨S_, .f32⟩ : BufTy).Contents (Elt F) → (⟨S320x320x320, .f32⟩ : BufTy).Contents (Elt F)),
    binary main_v225 main_v226 main_v227 (Host.powf : (⟨S320x320x320, .f32⟩ : BufTy).Contents (Elt F) → (⟨S320x320x320, .f32⟩ : BufTy).Contents (Elt F) → (⟨S320x320x320, .f32⟩ : BufTy).Contents (Elt F)),
    nullary main_cst_73 (constant S_ .f32 0xBDCCCCCD#32),
    unary main_cst_73 main_v228 (broadcastInDim S320x320x320 ![] bcast_S_S320x320x320 : (⟨S_, .f32⟩ : BufTy).Contents (Elt F) → (⟨S320x320x320, .f32⟩ : BufTy).Contents (Elt F)),
    binary main_v228 main_v145 main_v229 (mulf : (⟨S320x320x320, .f32⟩ : BufTy).Contents (Elt F) → (⟨S320x320x320, .f32⟩ : BufTy).Contents (Elt F) → (⟨S320x320x320, .f32⟩ : BufTy).Contents (Elt F)),
    unary main_v229 main_v230 (Host.exp : (⟨S320x320x320, .f32⟩ : BufTy).Contents (Elt F) → (⟨S320x320x320, .f32⟩ : BufTy).Contents (Elt F)),
    binary main_v227 main_v230 main_v231 (mulf : (⟨S320x320x320, .f32⟩ : BufTy).Contents (Elt F) → (⟨S320x320x320, .f32⟩ : BufTy).Contents (Elt F) → (⟨S320x320x320, .f32⟩ : BufTy).Contents (Elt F)),
    binary main_v231 main_v158 main_v232 (mulf : (⟨S320x320x320, .f32⟩ : BufTy).Contents (Elt F) → (⟨S320x320x320, .f32⟩ : BufTy).Contents (Elt F) → (⟨S320x320x320, .f32⟩ : BufTy).Contents (Elt F)),
    nullary main_cst_74 (constant S_ .f32 0x00000000#32),
    binary main_v232 main_cst_74 main_v233 ((fun x v => Host.reduceAdd x v reducesTo_S320x320x320_S320_d1_2 h_S_) : (⟨S320x320x320, .f32⟩ : BufTy).Contents (Elt F) → (⟨S_, .f32⟩ : BufTy).Contents (Elt F) → (⟨S320, .f32⟩ : BufTy).Contents (Elt F)),
    nullary main_cst_75 (constant S_ .f32 0x3F000000#32),
    unary main_cst_75 main_v234 (broadcastInDim S320 ![] bcast_S_S320 : (⟨S_, .f32⟩ : BufTy).Contents (Elt F) → (⟨S320, .f32⟩ : BufTy).Contents (Elt F)),
    binary main_v234 main_v233 main_v235 (mulf : (⟨S320, .f32⟩ : BufTy).Contents (Elt F) → (⟨S320, .f32⟩ : BufTy).Contents (Elt F) → (⟨S320, .f32⟩ : BufTy).Contents (Elt F)),
    unary main_v235 main_v236 (broadcastInDim S320x1 ![0] bcast_S320_S320x1_0 : (⟨S320, .f32⟩ : BufTy).Contents (Elt F) → (⟨S320x1, .f32⟩ : BufTy).Contents (Elt F)),
    nullary main_cst_76 (constant S_ .f32 0xBF800000#32),
    unary main_cst_76 main_v237 (broadcastInDim S320x320x320 ![] bcast_S_S320x320x320 : (⟨S_, .f32⟩ : BufTy).Contents (Elt F) → (⟨S320x320x320, .f32⟩ : BufTy).Contents (Elt F)),
    binary main_v237 main_v140 main_v238 (mulf : (⟨S320x320x320, .f32⟩ : BufTy).Contents (Elt F) → (⟨S320x320x320, .f32⟩ : BufTy).Contents (Elt F) → (⟨S320x320x320, .f32⟩ : BufTy).Contents (Elt F)),
    nullary main_cst_77 (constant S_ .f32 0x3F800000#32),
    unary main_cst_77 main_v239 (broadcastInDim S320x320x320 ![] bcast_S_S320x320x320 : (⟨S_, .f32⟩ : BufTy).Contents (Elt F) → (⟨S320x320x320, .f32⟩ : BufTy).Contents (Elt F)),
    binary main_v239 main_v238 main_v240 (addf : (⟨S320x320x320, .f32⟩ : BufTy).Contents (Elt F) → (⟨S320x320x320, .f32⟩ : BufTy).Contents (Elt F) → (⟨S320x320x320, .f32⟩ : BufTy).Contents (Elt F)),
    nullary main_cst_78 (constant S_ .f32 0x40000000#32),
    unary main_cst_78 main_v241 (broadcastInDim S320x320x320 ![] bcast_S_S320x320x320 : (⟨S_, .f32⟩ : BufTy).Contents (Elt F) → (⟨S320x320x320, .f32⟩ : BufTy).Contents (Elt F)),
    binary main_v240 main_v241 main_v242 (Host.powf : (⟨S320x320x320, .f32⟩ : BufTy).Contents (Elt F) → (⟨S320x320x320, .f32⟩ : BufTy).Contents (Elt F) → (⟨S320x320x320, .f32⟩ : BufTy).Contents (Elt F)),
    nullary main_cst_79 (constant S_ .f32 0xBDCCCCCD#32),
    unary main_cst_79 main_v243 (broadcastInDim S320x320x320 ![] bcast_S_S320x320x320 : (⟨S_, .f32⟩ : BufTy).Contents (Elt F) → (⟨S320x320x320, .f32⟩ : BufTy).Contents (Elt F)),
    binary main_v243 main_v145 main_v244 (mulf : (⟨S320x320x320, .f32⟩ : BufTy).Contents (Elt F) → (⟨S320x320x320, .f32⟩ : BufTy).Contents (Elt F) → (⟨S320x320x320, .f32⟩ : BufTy).Contents (Elt F)),
    unary main_v244 main_v245 (Host.exp : (⟨S320x320x320, .f32⟩ : BufTy).Contents (Elt F) → (⟨S320x320x320, .f32⟩ : BufTy).Contents (Elt F)),
    binary main_v242 main_v245 main_v246 (mulf : (⟨S320x320x320, .f32⟩ : BufTy).Contents (Elt F) → (⟨S320x320x320, .f32⟩ : BufTy).Contents (Elt F) → (⟨S320x320x320, .f32⟩ : BufTy).Contents (Elt F)),
    binary main_v246 main_v158 main_v247 (mulf : (⟨S320x320x320, .f32⟩ : BufTy).Contents (Elt F) → (⟨S320x320x320, .f32⟩ : BufTy).Contents (Elt F) → (⟨S320x320x320, .f32⟩ : BufTy).Contents (Elt F)),
    nullary main_cst_80 (constant S_ .f32 0x00000000#32),
    binary main_v247 main_cst_80 main_v248 ((fun x v => Host.reduceAdd x v reducesTo_S320x320x320_S320_d1_2 h_S_) : (⟨S320x320x320, .f32⟩ : BufTy).Contents (Elt F) → (⟨S_, .f32⟩ : BufTy).Contents (Elt F) → (⟨S320, .f32⟩ : BufTy).Contents (Elt F)),
    nullary main_cst_81 (constant S_ .f32 0x3E800000#32),
    unary main_cst_81 main_v249 (broadcastInDim S320 ![] bcast_S_S320 : (⟨S_, .f32⟩ : BufTy).Contents (Elt F) → (⟨S320, .f32⟩ : BufTy).Contents (Elt F)),
    binary main_v249 main_v248 main_v250 (mulf : (⟨S320, .f32⟩ : BufTy).Contents (Elt F) → (⟨S320, .f32⟩ : BufTy).Contents (Elt F) → (⟨S320, .f32⟩ : BufTy).Contents (Elt F)),
    unary main_v250 main_v251 (broadcastInDim S320x1 ![0] bcast_S320_S320x1_0 : (⟨S320, .f32⟩ : BufTy).Contents (Elt F) → (⟨S320x1, .f32⟩ : BufTy).Contents (Elt F)),
    nullary main_cst_82 (constant S_ .f32 0x3F800000#32),
    unary main_cst_82 main_v252 (broadcastInDim S320x320x320 ![] bcast_S_S320x320x320 : (⟨S_, .f32⟩ : BufTy).Contents (Elt F) → (⟨S320x320x320, .f32⟩ : BufTy).Contents (Elt F)),
    binary main_v252 main_v140 main_v253 (mulf : (⟨S320x320x320, .f32⟩ : BufTy).Contents (Elt F) → (⟨S320x320x320, .f32⟩ : BufTy).Contents (Elt F) → (⟨S320x320x320, .f32⟩ : BufTy).Contents (Elt F)),
    nullary main_cst_83 (constant S_ .f32 0x3F800000#32),
    unary main_cst_83 main_v254 (broadcastInDim S320x320x320 ![] bcast_S_S320x320x320 : (⟨S_, .f32⟩ : BufTy).Contents (Elt F) → (⟨S320x320x320, .f32⟩ : BufTy).Contents (Elt F)),
    binary main_v254 main_v253 main_v255 (addf : (⟨S320x320x320, .f32⟩ : BufTy).Contents (Elt F) → (⟨S320x320x320, .f32⟩ : BufTy).Contents (Elt F) → (⟨S320x320x320, .f32⟩ : BufTy).Contents (Elt F)),
    nullary main_cst_84 (constant S_ .f32 0x40800000#32),
    unary main_cst_84 main_v256 (broadcastInDim S320x320x320 ![] bcast_S_S320x320x320 : (⟨S_, .f32⟩ : BufTy).Contents (Elt F) → (⟨S320x320x320, .f32⟩ : BufTy).Contents (Elt F)),
    binary main_v255 main_v256 main_v257 (Host.powf : (⟨S320x320x320, .f32⟩ : BufTy).Contents (Elt F) → (⟨S320x320x320, .f32⟩ : BufTy).Contents (Elt F) → (⟨S320x320x320, .f32⟩ : BufTy).Contents (Elt F)),
    nullary main_cst_85 (constant S_ .f32 0xBF000000#32),
    unary main_cst_85 main_v258 (broadcastInDim S320x320x320 ![] bcast_S_S320x320x320 : (⟨S_, .f32⟩ : BufTy).Contents (Elt F) → (⟨S320x320x320, .f32⟩ : BufTy).Contents (Elt F)),
    binary main_v258 main_v145 main_v259 (mulf : (⟨S320x320x320, .f32⟩ : BufTy).Contents (Elt F) → (⟨S320x320x320, .f32⟩ : BufTy).Contents (Elt F) → (⟨S320x320x320, .f32⟩ : BufTy).Contents (Elt F)),
    unary main_v259 main_v260 (Host.exp : (⟨S320x320x320, .f32⟩ : BufTy).Contents (Elt F) → (⟨S320x320x320, .f32⟩ : BufTy).Contents (Elt F)),
    binary main_v257 main_v260 main_v261 (mulf : (⟨S320x320x320, .f32⟩ : BufTy).Contents (Elt F) → (⟨S320x320x320, .f32⟩ : BufTy).Contents (Elt F) → (⟨S320x320x320, .f32⟩ : BufTy).Contents (Elt F)),
    binary main_v261 main_v158 main_v262 (mulf : (⟨S320x320x320, .f32⟩ : BufTy).Contents (Elt F) → (⟨S320x320x320, .f32⟩ : BufTy).Contents (Elt F) → (⟨S320x320x320, .f32⟩ : BufTy).Contents (Elt F)),
    nullary main_cst_86 (constant S_ .f32 0x00000000#32),
    binary main_v262 main_cst_86 main_v263 ((fun x v => Host.reduceAdd x v reducesTo_S320x320x320_S320_d1_2 h_S_) : (⟨S320x320x320, .f32⟩ : BufTy).Contents (Elt F) → (⟨S_, .f32⟩ : BufTy).Contents (Elt F) → (⟨S320, .f32⟩ : BufTy).Contents (Elt F)),
    nullary main_cst_87 (constant S_ .f32 0x3D800000#32),
    unary main_cst_87 main_v264 (broadcastInDim S320 ![] bcast_S_S320 : (⟨S_, .f32⟩ : BufTy).Contents (Elt F) → (⟨S320, .f32⟩ : BufTy).Contents (Elt F)),
    binary main_v264 main_v263 main_v265 (mulf : (⟨S320, .f32⟩ : BufTy).Contents (Elt F) → (⟨S320, .f32⟩ : BufTy).Contents (Elt F) → (⟨S320, .f32⟩ : BufTy).Contents (Elt F)),
    unary main_v265 main_v266 (broadcastInDim S320x1 ![0] bcast_S320_S320x1_0 : (⟨S320, .f32⟩ : BufTy).Contents (Elt F) → (⟨S320x1, .f32⟩ : BufTy).Contents (Elt F)),
    nullary main_cst_88 (constant S_ .f32 0xBF800000#32),
    unary main_cst_88 main_v267 (broadcastInDim S320x320x320 ![] bcast_S_S320x320x320 : (⟨S_, .f32⟩ : BufTy).Contents (Elt F) → (⟨S320x320x320, .f32⟩ : BufTy).Contents (Elt F)),
    binary main_v267 main_v140 main_v268 (mulf : (⟨S320x320x320, .f32⟩ : BufTy).Contents (Elt F) → (⟨S320x320x320, .f32⟩ : BufTy).Contents (Elt F) → (⟨S320x320x320, .f32⟩ : BufTy).Contents (Elt F)),
    nullary main_cst_89 (constant S_ .f32 0x3F800000#32),
    unary main_cst_89 main_v269 (broadcastInDim S320x320x320 ![] bcast_S_S320x320x320 : (⟨S_, .f32⟩ : BufTy).Contents (Elt F) → (⟨S320x320x320, .f32⟩ : BufTy).Contents (Elt F)),
    binary main_v269 main_v268 main_v270 (addf : (⟨S320x320x320, .f32⟩ : BufTy).Contents (Elt F) → (⟨S320x320x320, .f32⟩ : BufTy).Contents (Elt F) → (⟨S320x320x320, .f32⟩ : BufTy).Contents (Elt F)),
    nullary main_cst_90 (constant S_ .f32 0x40800000#32),
    unary main_cst_90 main_v271 (broadcastInDim S320x320x320 ![] bcast_S_S320x320x320 : (⟨S_, .f32⟩ : BufTy).Contents (Elt F) → (⟨S320x320x320, .f32⟩ : BufTy).Contents (Elt F)),
    binary main_v270 main_v271 main_v272 (Host.powf : (⟨S320x320x320, .f32⟩ : BufTy).Contents (Elt F) → (⟨S320x320x320, .f32⟩ : BufTy).Contents (Elt F) → (⟨S320x320x320, .f32⟩ : BufTy).Contents (Elt F)),
    nullary main_cst_91 (constant S_ .f32 0xBF000000#32),
    unary main_cst_91 main_v273 (broadcastInDim S320x320x320 ![] bcast_S_S320x320x320 : (⟨S_, .f32⟩ : BufTy).Contents (Elt F) → (⟨S320x320x320, .f32⟩ : BufTy).Contents (Elt F)),
    binary main_v273 main_v145 main_v274 (mulf : (⟨S320x320x320, .f32⟩ : BufTy).Contents (Elt F) → (⟨S320x320x320, .f32⟩ : BufTy).Contents (Elt F) → (⟨S320x320x320, .f32⟩ : BufTy).Contents (Elt F)),
    unary main_v274 main_v275 (Host.exp : (⟨S320x320x320, .f32⟩ : BufTy).Contents (Elt F) → (⟨S320x320x320, .f32⟩ : BufTy).Contents (Elt F)),
    binary main_v272 main_v275 main_v276 (mulf : (⟨S320x320x320, .f32⟩ : BufTy).Contents (Elt F) → (⟨S320x320x320, .f32⟩ : BufTy).Contents (Elt F) → (⟨S320x320x320, .f32⟩ : BufTy).Contents (Elt F)),
    binary main_v276 main_v158 main_v277 (mulf : (⟨S320x320x320, .f32⟩ : BufTy).Contents (Elt F) → (⟨S320x320x320, .f32⟩ : BufTy).Contents (Elt F) → (⟨S320x320x320, .f32⟩ : BufTy).Contents (Elt F)),
    nullary main_cst_92 (constant S_ .f32 0x00000000#32),
    binary main_v277 main_cst_92 main_v278 ((fun x v => Host.reduceAdd x v reducesTo_S320x320x320_S320_d1_2 h_S_) : (⟨S320x320x320, .f32⟩ : BufTy).Contents (Elt F) → (⟨S_, .f32⟩ : BufTy).Contents (Elt F) → (⟨S320, .f32⟩ : BufTy).Contents (Elt F)),
    nullary main_cst_93 (constant S_ .f32 0x3D800000#32),
    unary main_cst_93 main_v279 (broadcastInDim S320 ![] bcast_S_S320 : (⟨S_, .f32⟩ : BufTy).Contents (Elt F) → (⟨S320, .f32⟩ : BufTy).Contents (Elt F)),
    binary main_v279 main_v278 main_v280 (mulf : (⟨S320, .f32⟩ : BufTy).Contents (Elt F) → (⟨S320, .f32⟩ : BufTy).Contents (Elt F) → (⟨S320, .f32⟩ : BufTy).Contents (Elt F)),
    unary main_v280 main_v281 (broadcastInDim S320x1 ![0] bcast_S320_S320x1_0 : (⟨S320, .f32⟩ : BufTy).Contents (Elt F) → (⟨S320x1, .f32⟩ : BufTy).Contents (Elt F)),
    nary ![main_arg0, main_v34, main_v43, main_v52, main_v61, main_v70, main_v79, main_v88, main_v97, main_v106, main_v112, main_v118, main_v124, main_v130, main_v176, main_v191] main_v282 (fun u => concatenate S320x16 1 [⟨S320x1, u 0⟩, ⟨S320x1, u 1⟩, ⟨S320x1, u 2⟩, ⟨S320x1, u 3⟩, ⟨S320x1, u 4⟩, ⟨S320x1, u 5⟩, ⟨S320x1, u 6⟩, ⟨S320x1, u 7⟩, ⟨S320x1, u 8⟩, ⟨S320x1, u 9⟩, ⟨S320x1, u 10⟩, ⟨S320x1, u 11⟩, ⟨S320x1, u 12⟩, ⟨S320x1, u 13⟩, ⟨S320x1, u 14⟩, ⟨S320x1, u 15⟩] concatenates_S320x1_S320x1_S320x1_S320x1_S320x1_S320x1_S320x1_S320x1_S320x1_S320x1_S320x1_S320x1_S320x1_S320x1_S320x1_S320x1_S320x16_d1),
    nary ![main_v206, main_v221, main_v236, main_v251, main_v266, main_v281] main_v283 (fun u => concatenate S320x6 1 [⟨S320x1, u 0⟩, ⟨S320x1, u 1⟩, ⟨S320x1, u 2⟩, ⟨S320x1, u 3⟩, ⟨S320x1, u 4⟩, ⟨S320x1, u 5⟩] concatenates_S320x1_S320x1_S320x1_S320x1_S320x1_S320x1_S320x6_d1),
    binary main_v282 main_v283 main_v284 ((fun a b => concatenate S320x22 1 [⟨S320x16, a⟩, ⟨S320x6, b⟩] concatenates_S320x16_S320x6_S320x22_d1) : (⟨S320x16, .f32⟩ : BufTy).Contents (Elt F) → (⟨S320x6, .f32⟩ : BufTy).Contents (Elt F) → (⟨S320x22, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., unary_bufs_sub .., unary_bufs_sub .., binary_bufs_sub .., binary_bufs_sub .., nullary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., unary_bufs_sub .., ternary_bufs_sub .., nullary_bufs_sub .., nullary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., binary_bufs_sub .., nullary_bufs_sub .., binary_bufs_sub .., unary_bufs_sub .., nullary_bufs_sub .., unary_bufs_sub .., binary_bufs_sub .., binary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., binary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., binary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., binary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., binary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., binary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., binary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., binary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., binary_bufs_sub .., unary_bufs_sub .., unary_bufs_sub .., unary_bufs_sub .., unary_bufs_sub .., binary_bufs_sub .., nullary_bufs_sub .., unary_bufs_sub .., binary_bufs_sub .., nullary_bufs_sub .., unary_bufs_sub .., unary_bufs_sub .., ternary_bufs_sub .., binary_bufs_sub .., unary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub .., nary_bufs_sub .., nary_bufs_sub .., binary_bufs_sub ..⟩

set_option maxRecDepth 8192 in
set_option maxHeartbeats 40000000 in
theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 40000000 in
theorem ops_eq : (ops : List (HloOp τ sig (Elt F))) = pre11 := rfl

set_option maxRecDepth 8192 in
set_option maxHeartbeats 40000000 in
/-- Every weakly fair execution of the reference program terminates with its result buffer at the last stage of
    the launch arguments and both argument buffers unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v284) = Cert.ReferenceIdeal.ReadP.val_main_v284 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v284).trans ((congrArg (fun l => after l (launchContents m c) (Proc.devRef .tc main_v284)) ops_eq).trans (f11_main_v284 _)),
        (h c main_arg0).trans ((congrArg (fun l => after l (launchContents m c) (Proc.devRef .tc main_arg0)) ops_eq).trans (f11_main_arg0 _)),
        (h c main_arg1).trans ((congrArg (fun l => after l (launchContents m c) (Proc.devRef .tc main_arg1)) ops_eq).trans (f11_main_arg1 _))⟩)
    (run_seq scopedRefs_eq scopedSems_eq defs main (fun _ => ops) main_eq (fun _ => ops_sub) m ρ (fun _ => List.forall_iff_forall_mem.mp ops_fresh))

end Cert.ReferenceIdeal.RunH

end
-- ==== Proof.RefValueTri.lean ====
/-
  The reference's triple quantities read at a centre and an ordered pair of neighbours: the inner product of the
  two difference vectors, the guarded cosine, the sums of squared distances, and the products of cutoff weights.
-/
import proofs.«101160_j40054865002568_2_alg».proof.Proof.RefValuePair

noncomputable section

open scoped BigOperators

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

theorem dot_at (x1 : X1T) (i j k : Fin 320) :
    val_main_v131 (F := Ideal) x1 (ix3 i j k) = Spec.dotrow (Spec.row x1 i) x1 j k := by
  rw [val_main_v131_apply]
  unfold Spec.dotrow
  refine Finset.sum_congr rfl fun d _ => ?_
  rw [show lidx_main_v131 (ix3 i j k) d = ix3 i j d from by idx3,
    show ridx_main_v131 (ix3 i j k) d = ix3 i k d from by idx3, diff_at, diff_at]

theorem cosT_at (x1 : X1T) (i j k : Fin 320) :
    val_main_v140 (F := Ideal) x1 (ix3 i j k) = Spec.cosT (Spec.row x1 i) x1 j k := by
  simp only [val_main_v140_apply, val_main_v139_apply, val_main_v138_apply, val_main_v136_apply, bc_v134, bc_v132, bc_v135, bc_v133, val_main_v137_apply, val_main_cst_43_apply, val_main_call3_v1_apply, val_main_call3_v0_apply, val_main_cst_44_apply, dot_at, r_at]
  rfl

theorem r2pair_at (x1 : X1T) (i j k : Fin 320) :
    val_main_v145 (F := Ideal) x1 (ix3 i j k) = Spec.r2pair (Spec.row x1 i) x1 j k := by
  simp only [val_main_v145_apply, bc_v143, bc_v141, bc_v144, bc_v142, r2_at]
  rfl

theorem r2tri_at (x1 : X1T) (i j k : Fin 320) :
    val_main_v148 (F := Ideal) x1 (ix3 i j k) = Spec.r2pair (Spec.row x1 i) x1 j k + Spec.r2pl x1 j k := by
  simp only [val_main_v148_apply, bc_v147, bc_v146, r2pair_at, r2_at]
  rfl

theorem fc2_at (x1 : X1T) (i j k : Fin 320) :
    val_main_v158 (F := Ideal) x1 (ix3 i j k) = Spec.fc2 i (Spec.row x1 i) x1 j k := by
  simp only [val_main_v158_apply, val_main_v156_apply, bc_v154, bc_v152, bc_v155, bc_v153, bc_v157, bc_v151, val_main_v150_apply, val_main_v149_apply, val_main_cst_45_apply, fc_at, eye_at]
  rfl

theorem fc3_at (x1 : X1T) (i j k : Fin 320) :
    val_main_v161 (F := Ideal) x1 (ix3 i j k) = Spec.fc2 i (Spec.row x1 i) x1 j k * Spec.fcpl x1 j k := by
  simp only [val_main_v161_apply, bc_v160, bc_v159, fc2_at, fc_at]
  rfl

end Cert.ReferenceIdeal.RefValue
-- ==== Proof.RefValueAng.lean ====
/-
  The eight angular features of an atom on the reference side: each summand read at a centre and an ordered pair of
  neighbours is the specification's, the sum over the two neighbour axes is the sum over ordered pairs, and the
  scaled sum is the specification's feature.
-/
import proofs.«101160_j40054865002568_2_alg».proof.Proof.RefValueTri

noncomputable section

open scoped BigOperators

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

theorem t4_0_at (x1 : X1T) (i j k : Fin 320) :
    val_main_v172 (F := Ideal) x1 (ix3 i j k) = Spec.t4 (Ideal.ofBits .f32 0xBDCCCCCD#32) (Ideal.ofBits .f32 0x3F800000#32) (Ideal.ofBits .f32 0x3F800000#32) i (Spec.row x1 i) x1 j k := by
  simp only [val_main_v172_apply, val_main_v171_apply, val_main_v167_apply, val_main_v165_apply, val_main_v164_apply, val_main_cst_47_apply, val_main_v163_apply, val_main_v162_apply, val_main_cst_46_apply, val_main_v166_apply, val_main_cst_48_apply, val_main_v170_apply, val_main_v169_apply, val_main_v168_apply, val_main_cst_49_apply, cosT_at, r2tri_at, fc3_at]
  rfl

theorem red12_v173 (x1 : X1T) (i : Fin 320) :
    val_main_v173 (F := Ideal) x1 (ix1 i) = val_main_cst_50 (F := Ideal) (Shape.Idx.first h_S_) + ∑ j : Fin 320, ∑ k : Fin 320, val_main_v172 (F := Ideal) x1 (ix3 i j k) := by
  unfold val_main_v173 Host.reduceAdd
  exact Cert.RefValueLib.hostReduceAdd_12 _ _ _ i

theorem feat14_at (x1 : X1T) (zn : EReal) (n : Fin 320) :
    val_main_v176 (F := Ideal) x1 (ix2 n (0 : Fin 1)) = Spec.feat zn n (Spec.row x1 n) x1 ⟨14, by decide⟩ := by
  simp only [bc_v176, val_main_v175_apply, val_main_v174_apply, val_main_cst_51_apply, red12_v173, val_main_cst_50_apply, t4_0_at]
  rfl

theorem t4_1_at (x1 : X1T) (i j k : Fin 320) :
    val_main_v187 (F := Ideal) x1 (ix3 i j k) = Spec.t4 (Ideal.ofBits .f32 0xBDCCCCCD#32) (Ideal.ofBits .f32 0xBF800000#32) (Ideal.ofBits .f32 0x40000000#32) i (Spec.row x1 i) x1 j k := by
  simp only [val_main_v187_apply, val_main_v186_apply, val_main_v182_apply, val_main_v180_apply, val_main_v179_apply, val_main_cst_53_apply, val_main_v178_apply, val_main_v177_apply, val_main_cst_52_apply, val_main_v181_apply, val_main_cst_54_apply, val_main_v185_apply, val_main_v184_apply, val_main_v183_apply, val_main_cst_55_apply, cosT_at, r2tri_at, fc3_at]
  rfl

theorem red12_v188 (x1 : X1T) (i : Fin 320) :
    val_main_v188 (F := Ideal) x1 (ix1 i) = val_main_cst_56 (F := Ideal) (Shape.Idx.first h_S_) + ∑ j : Fin 320, ∑ k : Fin 320, val_main_v187 (F := Ideal) x1 (ix3 i j k) := by
  unfold val_main_v188 Host.reduceAdd
  exact Cert.RefValueLib.hostReduceAdd_12 _ _ _ i

theorem feat15_at (x1 : X1T) (zn : EReal) (n : Fin 320) :
    val_main_v191 (F := Ideal) x1 (ix2 n (0 : Fin 1)) = Spec.feat zn n (Spec.row x1 n) x1 ⟨15, by decide⟩ := by
  simp only [bc_v191, val_main_v190_apply, val_main_v189_apply, val_main_cst_57_apply, red12_v188, val_main_cst_56_apply, t4_1_at]
  rfl

theorem t4_2_at (x1 : X1T) (i j k : Fin 320) :
    val_main_v202 (F := Ideal) x1 (ix3 i j k) = Spec.t4 (Ideal.ofBits .f32 0xBF000000#32) (Ideal.ofBits .f32 0x3F800000#32) (Ideal.ofBits .f32 0x40800000#32) i (Spec.row x1 i) x1 j k := by
  simp only [val_main_v202_apply, val_main_v201_apply, val_main_v197_apply, val_main_v195_apply, val_main_v194_apply, val_main_cst_59_apply, val_main_v193_apply, val_main_v192_apply, val_main_cst_58_apply, val_main_v196_apply, val_main_cst_60_apply, val_main_v200_apply, val_main_v199_apply, val_main_v198_apply, val_main_cst_61_apply, cosT_at, r2tri_at, fc3_at]
  rfl

theorem red12_v203 (x1 : X1T) (i : Fin 320) :
    val_main_v203 (F := Ideal) x1 (ix1 i) = val_main_cst_62 (F := Ideal) (Shape.Idx.first h_S_) + ∑ j : Fin 320, ∑ k : Fin 320, val_main_v202 (F := Ideal) x1 (ix3 i j k) := by
  unfold val_main_v203 Host.reduceAdd
  exact Cert.RefValueLib.hostReduceAdd_12 _ _ _ i

theorem feat16_at (x1 : X1T) (zn : EReal) (n : Fin 320) :
    val_main_v206 (F := Ideal) x1 (ix2 n (0 : Fin 1)) = Spec.feat zn n (Spec.row x1 n) x1 ⟨16, by decide⟩ := by
  simp only [bc_v206, val_main_v205_apply, val_main_v204_apply, val_main_cst_63_apply, red12_v203, val_main_cst_62_apply, t4_2_at]
  rfl

theorem t4_3_at (x1 : X1T) (i j k : Fin 320) :
    val_main_v217 (F := Ideal) x1 (ix3 i j k) = Spec.t4 (Ideal.ofBits .f32 0xBF000000#32) (Ideal.ofBits .f32 0xBF800000#32) (Ideal.ofBits .f32 0x40800000#32) i (Spec.row x1 i) x1 j k := by
  simp only [val_main_v217_apply, val_main_v216_apply, val_main_v212_apply, val_main_v210_apply, val_main_v209_apply, val_main_cst_65_apply, val_main_v208_apply, val_main_v207_apply, val_main_cst_64_apply, val_main_v211_apply, val_main_cst_66_apply, val_main_v215_apply, val_main_v214_apply, val_main_v213_apply, val_main_cst_67_apply, cosT_at, r2tri_at, fc3_at]
  rfl

theorem red12_v218 (x1 : X1T) (i : Fin 320) :
    val_main_v218 (F := Ideal) x1 (ix1 i) = val_main_cst_68 (F := Ideal) (Shape.Idx.first h_S_) + ∑ j : Fin 320, ∑ k : Fin 320, val_main_v217 (F := Ideal) x1 (ix3 i j k) := by
  unfold val_main_v218 Host.reduceAdd
  exact Cert.RefValueLib.hostReduceAdd_12 _ _ _ i

theorem feat17_at (x1 : X1T) (zn : EReal) (n : Fin 320) :
    val_main_v221 (F := Ideal) x1 (ix2 n (0 : Fin 1)) = Spec.feat zn n (Spec.row x1 n) x1 ⟨17, by decide⟩ := by
  simp only [bc_v221, val_main_v220_apply, val_main_v219_apply, val_main_cst_69_apply, red12_v218, val_main_cst_68_apply, t4_3_at]
  rfl

theorem t5_0_at (x1 : X1T) (i j k : Fin 320) :
    val_main_v232 (F := Ideal) x1 (ix3 i j k) = Spec.t5 (Ideal.ofBits .f32 0xBDCCCCCD#32) (Ideal.ofBits .f32 0x3F800000#32) (Ideal.ofBits .f32 0x3F800000#32) i (Spec.row x1 i) x1 j k := by
  simp only [val_main_v232_apply, val_main_v231_apply, val_main_v227_apply, val_main_v225_apply, val_main_v224_apply, val_main_cst_71_apply, val_main_v223_apply, val_main_v222_apply, val_main_cst_70_apply, val_main_v226_apply, val_main_cst_72_apply, val_main_v230_apply, val_main_v229_apply, val_main_v228_apply, val_main_cst_73_apply, cosT_at, r2pair_at, fc2_at]
  rfl

theorem red12_v233 (x1 : X1T) (i : Fin 320) :
    val_main_v233 (F := Ideal) x1 (ix1 i) = val_main_cst_74 (F := Ideal) (Shape.Idx.first h_S_) + ∑ j : Fin 320, ∑ k : Fin 320, val_main_v232 (F := Ideal) x1 (ix3 i j k) := by
  unfold val_main_v233 Host.reduceAdd
  exact Cert.RefValueLib.hostReduceAdd_12 _ _ _ i

theorem feat18_at (x1 : X1T) (zn : EReal) (n : Fin 320) :
    val_main_v236 (F := Ideal) x1 (ix2 n (0 : Fin 1)) = Spec.feat zn n (Spec.row x1 n) x1 ⟨18, by decide⟩ := by
  simp only [bc_v236, val_main_v235_apply, val_main_v234_apply, val_main_cst_75_apply, red12_v233, val_main_cst_74_apply, t5_0_at]
  rfl

theorem t5_1_at (x1 : X1T) (i j k : Fin 320) :
    val_main_v247 (F := Ideal) x1 (ix3 i j k) = Spec.t5 (Ideal.ofBits .f32 0xBDCCCCCD#32) (Ideal.ofBits .f32 0xBF800000#32) (Ideal.ofBits .f32 0x40000000#32) i (Spec.row x1 i) x1 j k := by
  simp only [val_main_v247_apply, val_main_v246_apply, val_main_v242_apply, val_main_v240_apply, val_main_v239_apply, val_main_cst_77_apply, val_main_v238_apply, val_main_v237_apply, val_main_cst_76_apply, val_main_v241_apply, val_main_cst_78_apply, val_main_v245_apply, val_main_v244_apply, val_main_v243_apply, val_main_cst_79_apply, cosT_at, r2pair_at, fc2_at]
  rfl

theorem red12_v248 (x1 : X1T) (i : Fin 320) :
    val_main_v248 (F := Ideal) x1 (ix1 i) = val_main_cst_80 (F := Ideal) (Shape.Idx.first h_S_) + ∑ j : Fin 320, ∑ k : Fin 320, val_main_v247 (F := Ideal) x1 (ix3 i j k) := by
  unfold val_main_v248 Host.reduceAdd
  exact Cert.RefValueLib.hostReduceAdd_12 _ _ _ i

theorem feat19_at (x1 : X1T) (zn : EReal) (n : Fin 320) :
    val_main_v251 (F := Ideal) x1 (ix2 n (0 : Fin 1)) = Spec.feat zn n (Spec.row x1 n) x1 ⟨19, by decide⟩ := by
  simp only [bc_v251, val_main_v250_apply, val_main_v249_apply, val_main_cst_81_apply, red12_v248, val_main_cst_80_apply, t5_1_at]
  rfl

theorem t5_2_at (x1 : X1T) (i j k : Fin 320) :
    val_main_v262 (F := Ideal) x1 (ix3 i j k) = Spec.t5 (Ideal.ofBits .f32 0xBF000000#32) (Ideal.ofBits .f32 0x3F800000#32) (Ideal.ofBits .f32 0x40800000#32) i (Spec.row x1 i) x1 j k := by
  simp only [val_main_v262_apply, val_main_v261_apply, val_main_v257_apply, val_main_v255_apply, val_main_v254_apply, val_main_cst_83_apply, val_main_v253_apply, val_main_v252_apply, val_main_cst_82_apply, val_main_v256_apply, val_main_cst_84_apply, val_main_v260_apply, val_main_v259_apply, val_main_v258_apply, val_main_cst_85_apply, cosT_at, r2pair_at, fc2_at]
  rfl

theorem red12_v263 (x1 : X1T) (i : Fin 320) :
    val_main_v263 (F := Ideal) x1 (ix1 i) = val_main_cst_86 (F := Ideal) (Shape.Idx.first h_S_) + ∑ j : Fin 320, ∑ k : Fin 320, val_main_v262 (F := Ideal) x1 (ix3 i j k) := by
  unfold val_main_v263 Host.reduceAdd
  exact Cert.RefValueLib.hostReduceAdd_12 _ _ _ i

theorem feat20_at (x1 : X1T) (zn : EReal) (n : Fin 320) :
    val_main_v266 (F := Ideal) x1 (ix2 n (0 : Fin 1)) = Spec.feat zn n (Spec.row x1 n) x1 ⟨20, by decide⟩ := by
  simp only [bc_v266, val_main_v265_apply, val_main_v264_apply, val_main_cst_87_apply, red12_v263, val_main_cst_86_apply, t5_2_at]
  rfl

theorem t5_3_at (x1 : X1T) (i j k : Fin 320) :
    val_main_v277 (F := Ideal) x1 (ix3 i j k) = Spec.t5 (Ideal.ofBits .f32 0xBF000000#32) (Ideal.ofBits .f32 0xBF800000#32) (Ideal.ofBits .f32 0x40800000#32) i (Spec.row x1 i) x1 j k := by
  simp only [val_main_v277_apply, val_main_v276_apply, val_main_v272_apply, val_main_v270_apply, val_main_v269_apply, val_main_cst_89_apply, val_main_v268_apply, val_main_v267_apply, val_main_cst_88_apply, val_main_v271_apply, val_main_cst_90_apply, val_main_v275_apply, val_main_v274_apply, val_main_v273_apply, val_main_cst_91_apply, cosT_at, r2pair_at, fc2_at]
  rfl

theorem red12_v278 (x1 : X1T) (i : Fin 320) :
    val_main_v278 (F := Ideal) x1 (ix1 i) = val_main_cst_92 (F := Ideal) (Shape.Idx.first h_S_) + ∑ j : Fin 320, ∑ k : Fin 320, val_main_v277 (F := Ideal) x1 (ix3 i j k) := by
  unfold val_main_v278 Host.reduceAdd
  exact Cert.RefValueLib.hostReduceAdd_12 _ _ _ i

theorem feat21_at (x1 : X1T) (zn : EReal) (n : Fin 320) :
    val_main_v281 (F := Ideal) x1 (ix2 n (0 : Fin 1)) = Spec.feat zn n (Spec.row x1 n) x1 ⟨21, by decide⟩ := by
  simp only [bc_v281, val_main_v280_apply, val_main_v279_apply, val_main_cst_93_apply, red12_v278, val_main_cst_92_apply, t5_3_at]
  rfl

end Cert.ReferenceIdeal.RefValue
-- ==== Proof.RefValue.lean ====
/-
  The reference's result array, column by column: the three joins along the column axis pick, for each of the 22
  columns, the single-column piece that holds it, and each piece at an atom is that atom's feature in the
  specification.
-/
import proofs.«101160_j40054865002568_2_alg».proof.Proof.RefValueAng

noncomputable section

open scoped BigOperators

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

theorem c282_0 (x0 : Z0T) (x1 : X1T) (n : Fin 320) :
    val_main_v282 (F := Ideal) x0 x1 (ix2 n (⟨0, by decide⟩ : Fin 16)) = x0 (ix2 n (0 : Fin 1)) := by
  unfold val_main_v282
  exact Cert.RefValueLib.concat_cols _ _ n ⟨0, by decide⟩ 0 (by simp) _ rfl (by simp)

theorem c282_1 (x0 : Z0T) (x1 : X1T) (n : Fin 320) :
    val_main_v282 (F := Ideal) x0 x1 (ix2 n (⟨1, by decide⟩ : Fin 16)) = val_main_v34 (F := Ideal) x1 (ix2 n (0 : Fin 1)) := by
  unfold val_main_v282
  exact Cert.RefValueLib.concat_cols _ _ n ⟨1, by decide⟩ 1 (by simp) _ rfl (by simp)

theorem c282_2 (x0 : Z0T) (x1 : X1T) (n : Fin 320) :
    val_main_v282 (F := Ideal) x0 x1 (ix2 n (⟨2, by decide⟩ : Fin 16)) = val_main_v43 (F := Ideal) x1 (ix2 n (0 : Fin 1)) := by
  unfold val_main_v282
  exact Cert.RefValueLib.concat_cols _ _ n ⟨2, by decide⟩ 2 (by simp) _ rfl (by simp)

theorem c282_3 (x0 : Z0T) (x1 : X1T) (n : Fin 320) :
    val_main_v282 (F := Ideal) x0 x1 (ix2 n (⟨3, by decide⟩ : Fin 16)) = val_main_v52 (F := Ideal) x1 (ix2 n (0 : Fin 1)) := by
  unfold val_main_v282
  exact Cert.RefValueLib.concat_cols _ _ n ⟨3, by decide⟩ 3 (by simp) _ rfl (by simp)

theorem c282_4 (x0 : Z0T) (x1 : X1T) (n : Fin 320) :
    val_main_v282 (F := Ideal) x0 x1 (ix2 n (⟨4, by decide⟩ : Fin 16)) = val_main_v61 (F := Ideal) x1 (ix2 n (0 : Fin 1)) := by
  unfold val_main_v282
  exact Cert.RefValueLib.concat_cols _ _ n ⟨4, by decide⟩ 4 (by simp) _ rfl (by simp)

theorem c282_5 (x0 : Z0T) (x1 : X1T) (n : Fin 320) :
    val_main_v282 (F := Ideal) x0 x1 (ix2 n (⟨5, by decide⟩ : Fin 16)) = val_main_v70 (F := Ideal) x1 (ix2 n (0 : Fin 1)) := by
  unfold val_main_v282
  exact Cert.RefValueLib.concat_cols _ _ n ⟨5, by decide⟩ 5 (by simp) _ rfl (by simp)

theorem c282_6 (x0 : Z0T) (x1 : X1T) (n : Fin 320) :
    val_main_v282 (F := Ideal) x0 x1 (ix2 n (⟨6, by decide⟩ : Fin 16)) = val_main_v79 (F := Ideal) x1 (ix2 n (0 : Fin 1)) := by
  unfold val_main_v282
  exact Cert.RefValueLib.concat_cols _ _ n ⟨6, by decide⟩ 6 (by simp) _ rfl (by simp)

theorem c282_7 (x0 : Z0T) (x1 : X1T) (n : Fin 320) :
    val_main_v282 (F := Ideal) x0 x1 (ix2 n (⟨7, by decide⟩ : Fin 16)) = val_main_v88 (F := Ideal) x1 (ix2 n (0 : Fin 1)) := by
  unfold val_main_v282
  exact Cert.RefValueLib.concat_cols _ _ n ⟨7, by decide⟩ 7 (by simp) _ rfl (by simp)

theorem c282_8 (x0 : Z0T) (x1 : X1T) (n : Fin 320) :
    val_main_v282 (F := Ideal) x0 x1 (ix2 n (⟨8, by decide⟩ : Fin 16)) = val_main_v97 (F := Ideal) x1 (ix2 n (0 : Fin 1)) := by
  unfold val_main_v282
  exact Cert.RefValueLib.concat_cols _ _ n ⟨8, by decide⟩ 8 (by simp) _ rfl (by simp)

theorem c282_9 (x0 : Z0T) (x1 : X1T) (n : Fin 320) :
    val_main_v282 (F := Ideal) x0 x1 (ix2 n (⟨9, by decide⟩ : Fin 16)) = val_main_v106 (F := Ideal) x1 (ix2 n (0 : Fin 1)) := by
  unfold val_main_v282
  exact Cert.RefValueLib.concat_cols _ _ n ⟨9, by decide⟩ 9 (by simp) _ rfl (by simp)

theorem c282_10 (x0 : Z0T) (x1 : X1T) (n : Fin 320) :
    val_main_v282 (F := Ideal) x0 x1 (ix2 n (⟨10, by decide⟩ : Fin 16)) = val_main_v112 (F := Ideal) x1 (ix2 n (0 : Fin 1)) := by
  unfold val_main_v282
  exact Cert.RefValueLib.concat_cols _ _ n ⟨10, by decide⟩ 10 (by simp) _ rfl (by simp)

theorem c282_11 (x0 : Z0T) (x1 : X1T) (n : Fin 320) :
    val_main_v282 (F := Ideal) x0 x1 (ix2 n (⟨11, by decide⟩ : Fin 16)) = val_main_v118 (F := Ideal) x1 (ix2 n (0 : Fin 1)) := by
  unfold val_main_v282
  exact Cert.RefValueLib.concat_cols _ _ n ⟨11, by decide⟩ 11 (by simp) _ rfl (by simp)

theorem c282_12 (x0 : Z0T) (x1 : X1T) (n : Fin 320) :
    val_main_v282 (F := Ideal) x0 x1 (ix2 n (⟨12, by decide⟩ : Fin 16)) = val_main_v124 (F := Ideal) x1 (ix2 n (0 : Fin 1)) := by
  unfold val_main_v282
  exact Cert.RefValueLib.concat_cols _ _ n ⟨12, by decide⟩ 12 (by simp) _ rfl (by simp)

theorem c282_13 (x0 : Z0T) (x1 : X1T) (n : Fin 320) :
    val_main_v282 (F := Ideal) x0 x1 (ix2 n (⟨13, by decide⟩ : Fin 16)) = val_main_v130 (F := Ideal) x1 (ix2 n (0 : Fin 1)) := by
  unfold val_main_v282
  exact Cert.RefValueLib.concat_cols _ _ n ⟨13, by decide⟩ 13 (by simp) _ rfl (by simp)

theorem c282_14 (x0 : Z0T) (x1 : X1T) (n : Fin 320) :
    val_main_v282 (F := Ideal) x0 x1 (ix2 n (⟨14, by decide⟩ : Fin 16)) = val_main_v176 (F := Ideal) x1 (ix2 n (0 : Fin 1)) := by
  unfold val_main_v282
  exact Cert.RefValueLib.concat_cols _ _ n ⟨14, by decide⟩ 14 (by simp) _ rfl (by simp)

theorem c282_15 (x0 : Z0T) (x1 : X1T) (n : Fin 320) :
    val_main_v282 (F := Ideal) x0 x1 (ix2 n (⟨15, by decide⟩ : Fin 16)) = val_main_v191 (F := Ideal) x1 (ix2 n (0 : Fin 1)) := by
  unfold val_main_v282
  exact Cert.RefValueLib.concat_cols _ _ n ⟨15, by decide⟩ 15 (by simp) _ rfl (by simp)

theorem c283_0 (x1 : X1T) (n : Fin 320) :
    val_main_v283 (F := Ideal) x1 (ix2 n (⟨0, by decide⟩ : Fin 6)) = val_main_v206 (F := Ideal) x1 (ix2 n (0 : Fin 1)) := by
  unfold val_main_v283
  exact Cert.RefValueLib.concat_cols _ _ n ⟨0, by decide⟩ 0 (by simp) _ rfl (by simp)

theorem c283_1 (x1 : X1T) (n : Fin 320) :
    val_main_v283 (F := Ideal) x1 (ix2 n (⟨1, by decide⟩ : Fin 6)) = val_main_v221 (F := Ideal) x1 (ix2 n (0 : Fin 1)) := by
  unfold val_main_v283
  exact Cert.RefValueLib.concat_cols _ _ n ⟨1, by decide⟩ 1 (by simp) _ rfl (by simp)

theorem c283_2 (x1 : X1T) (n : Fin 320) :
    val_main_v283 (F := Ideal) x1 (ix2 n (⟨2, by decide⟩ : Fin 6)) = val_main_v236 (F := Ideal) x1 (ix2 n (0 : Fin 1)) := by
  unfold val_main_v283
  exact Cert.RefValueLib.concat_cols _ _ n ⟨2, by decide⟩ 2 (by simp) _ rfl (by simp)

theorem c283_3 (x1 : X1T) (n : Fin 320) :
    val_main_v283 (F := Ideal) x1 (ix2 n (⟨3, by decide⟩ : Fin 6)) = val_main_v251 (F := Ideal) x1 (ix2 n (0 : Fin 1)) := by
  unfold val_main_v283
  exact Cert.RefValueLib.concat_cols _ _ n ⟨3, by decide⟩ 3 (by simp) _ rfl (by simp)

theorem c283_4 (x1 : X1T) (n : Fin 320) :
    val_main_v283 (F := Ideal) x1 (ix2 n (⟨4, by decide⟩ : Fin 6)) = val_main_v266 (F := Ideal) x1 (ix2 n (0 : Fin 1)) := by
  unfold val_main_v283
  exact Cert.RefValueLib.concat_cols _ _ n ⟨4, by decide⟩ 4 (by simp) _ rfl (by simp)

theorem c283_5 (x1 : X1T) (n : Fin 320) :
    val_main_v283 (F := Ideal) x1 (ix2 n (⟨5, by decide⟩ : Fin 6)) = val_main_v281 (F := Ideal) x1 (ix2 n (0 : Fin 1)) := by
  unfold val_main_v283
  exact Cert.RefValueLib.concat_cols _ _ n ⟨5, by decide⟩ 5 (by simp) _ rfl (by simp)

/-- A column below 16 of the result is that column of the first sixteen. -/
theorem c284_left (x0 : Z0T) (x1 : X1T) (n : Fin 320) (f : Fin 16) :
    val_main_v284 (F := Ideal) x0 x1 (ix2 n (⟨f.val, by omega⟩ : Fin 22)) = val_main_v282 (F := Ideal) x0 x1 (ix2 n f) := by
  unfold val_main_v284
  exact concatenate_pair_apply_left (s₁ := S320x16) (s₂ := S320x6) (1 : Fin 2) _ _ _ (ix2 n (⟨f.val, by omega⟩ : Fin 22)) rfl (ix2 n f) (fun b => match b with | ⟨0, _⟩ => rfl | ⟨1, _⟩ => rfl)

/-- A column from 16 on is a column of the last six. -/
theorem c284_right (x0 : Z0T) (x1 : X1T) (n : Fin 320) (f : Fin 6) :
    val_main_v284 (F := Ideal) x0 x1 (ix2 n (⟨f.val + 16, by omega⟩ : Fin 22)) = val_main_v283 (F := Ideal) x1 (ix2 n f) := by
  unfold val_main_v284
  exact concatenate_pair_apply_right (s₁ := S320x16) (s₂ := S320x6) (1 : Fin 2) _ _ _ (ix2 n (⟨f.val + 16, by omega⟩ : Fin 22)) rfl rfl (ix2 n f)
    (fun b hb => match b with | ⟨0, _⟩ => rfl | ⟨1, _⟩ => absurd rfl hb) rfl

/-- **The reference computes the specification**: its result array is `Spec.G` of the two arguments. -/
theorem ref_is_spec (x0 : Z0T) (x1 : X1T) : val_main_v284 (F := Ideal) x0 x1 = Cert.Spec.G x0 x1 := by
  funext idx
  obtain ⟨n, f, rfl⟩ : ∃ (n : Fin 320) (f : Fin 22), idx = ix2 n f := ⟨idx 0, idx 1, eq_ix2 idx⟩
  rw [Cert.Spec.G_ix2]
  match f with
  | ⟨0, _⟩ => exact (c284_left x0 x1 n ⟨0, by decide⟩).trans ((c282_0 x0 x1 n).trans rfl)
  | ⟨1, _⟩ => exact (c284_left x0 x1 n ⟨1, by decide⟩).trans ((c282_1 x0 x1 n).trans (feat1_at x1 (x0 (ix2 n (0 : Fin 1))) n))
  | ⟨2, _⟩ => exact (c284_left x0 x1 n ⟨2, by decide⟩).trans ((c282_2 x0 x1 n).trans (feat2_at x1 (x0 (ix2 n (0 : Fin 1))) n))
  | ⟨3, _⟩ => exact (c284_left x0 x1 n ⟨3, by decide⟩).trans ((c282_3 x0 x1 n).trans (feat3_at x1 (x0 (ix2 n (0 : Fin 1))) n))
  | ⟨4, _⟩ => exact (c284_left x0 x1 n ⟨4, by decide⟩).trans ((c282_4 x0 x1 n).trans (feat4_at x1 (x0 (ix2 n (0 : Fin 1))) n))
  | ⟨5, _⟩ => exact (c284_left x0 x1 n ⟨5, by decide⟩).trans ((c282_5 x0 x1 n).trans (feat5_at x1 (x0 (ix2 n (0 : Fin 1))) n))
  | ⟨6, _⟩ => exact (c284_left x0 x1 n ⟨6, by decide⟩).trans ((c282_6 x0 x1 n).trans (feat6_at x1 (x0 (ix2 n (0 : Fin 1))) n))
  | ⟨7, _⟩ => exact (c284_left x0 x1 n ⟨7, by decide⟩).trans ((c282_7 x0 x1 n).trans (feat7_at x1 (x0 (ix2 n (0 : Fin 1))) n))
  | ⟨8, _⟩ => exact (c284_left x0 x1 n ⟨8, by decide⟩).trans ((c282_8 x0 x1 n).trans (feat8_at x1 (x0 (ix2 n (0 : Fin 1))) n))
  | ⟨9, _⟩ => exact (c284_left x0 x1 n ⟨9, by decide⟩).trans ((c282_9 x0 x1 n).trans (feat9_at x1 (x0 (ix2 n (0 : Fin 1))) n))
  | ⟨10, _⟩ => exact (c284_left x0 x1 n ⟨10, by decide⟩).trans ((c282_10 x0 x1 n).trans (feat10_at x1 (x0 (ix2 n (0 : Fin 1))) n))
  | ⟨11, _⟩ => exact (c284_left x0 x1 n ⟨11, by decide⟩).trans ((c282_11 x0 x1 n).trans (feat11_at x1 (x0 (ix2 n (0 : Fin 1))) n))
  | ⟨12, _⟩ => exact (c284_left x0 x1 n ⟨12, by decide⟩).trans ((c282_12 x0 x1 n).trans (feat12_at x1 (x0 (ix2 n (0 : Fin 1))) n))
  | ⟨13, _⟩ => exact (c284_left x0 x1 n ⟨13, by decide⟩).trans ((c282_13 x0 x1 n).trans (feat13_at x1 (x0 (ix2 n (0 : Fin 1))) n))
  | ⟨14, _⟩ => exact (c284_left x0 x1 n ⟨14, by decide⟩).trans ((c282_14 x0 x1 n).trans (feat14_at x1 (x0 (ix2 n (0 : Fin 1))) n))
  | ⟨15, _⟩ => exact (c284_left x0 x1 n ⟨15, by decide⟩).trans ((c282_15 x0 x1 n).trans (feat15_at x1 (x0 (ix2 n (0 : Fin 1))) n))
  | ⟨16, _⟩ => exact (c284_right x0 x1 n ⟨0, by decide⟩).trans ((c283_0 x1 n).trans (feat16_at x1 (x0 (ix2 n (0 : Fin 1))) n))
  | ⟨17, _⟩ => exact (c284_right x0 x1 n ⟨1, by decide⟩).trans ((c283_1 x1 n).trans (feat17_at x1 (x0 (ix2 n (0 : Fin 1))) n))
  | ⟨18, _⟩ => exact (c284_right x0 x1 n ⟨2, by decide⟩).trans ((c283_2 x1 n).trans (feat18_at x1 (x0 (ix2 n (0 : Fin 1))) n))
  | ⟨19, _⟩ => exact (c284_right x0 x1 n ⟨3, by decide⟩).trans ((c283_3 x1 n).trans (feat19_at x1 (x0 (ix2 n (0 : Fin 1))) n))
  | ⟨20, _⟩ => exact (c284_right x0 x1 n ⟨4, by decide⟩).trans ((c283_4 x1 n).trans (feat20_at x1 (x0 (ix2 n (0 : Fin 1))) n))
  | ⟨21, _⟩ => exact (c284_right x0 x1 n ⟨5, by decide⟩).trans ((c283_5 x1 n).trans (feat21_at x1 (x0 (ix2 n (0 : Fin 1))) n))
  | ⟨k + 22, h⟩ => exact absurd h (by omega)

end Cert.ReferenceIdeal.RefValue
-- ==== Proof.lean ====
/-
  The certificate of the neighbourhood-feature kernel against its reference, assembled.

  Both programs take the atomic numbers z (320×1) and the coordinates x (320×3) of 320 atoms and return, per
  atom, 22 features: the atomic number, fourteen radial sums over the other atoms inside the cutoff radius, and
  eight angular sums over ordered pairs of neighbours. The reference computes everything on whole 320×320 and
  320×320×320 arrays. The kernel computes the two 320×320 pair-weight planes on the host, then visits the atoms
  eight at a time, reading the coordinates through two windows of one array; it forms the angular powers by
  repeated multiplication, splits exp(c·(r²ij + r²ik + r²jk)) as exp(c·(r²ij + r²ik)) · exp(c·r²jk), and sums
  over k before j. On the extended reals these are the same numbers when every coordinate is finite, which the
  precondition states: the specification `Cert.Spec.G` is the common value.

  The three frames: each program runs to the end, faults nowhere and leaves its arguments unchanged — the
  kernel's at both readings of its floats by the run of its pipeline (the shared coordinates array divided
  between its two windows), the reference's by its run as a sequence of host operations. The idealization
  rewrote no operation, so there is nothing to preserve. The algebraic claim: the idealized kernel's result
  array ends at the specification of the arguments (its blocks cover the array, each block the specification's
  by the tile theorem), and the reference's result is the specification of the same arguments.
-/
import proofs.«101160_j40054865002568_2_alg».proof.Defs
import proofs.«101160_j40054865002568_2_alg».proof.Proof.Gen.Kernel
import proofs.«101160_j40054865002568_2_alg».proof.Proof.Gen.KernelIdeal
import proofs.«101160_j40054865002568_2_alg».proof.Proof.Gen.ReferenceIdeal
import proofs.«101160_j40054865002568_2_alg».proof.Proof.Gen.Pre_finite_inputs
import proofs.«101160_j40054865002568_2_alg».proof.Proof.KernelFrame
import proofs.«101160_j40054865002568_2_alg».proof.Proof.KernelIdealValue
import proofs.«101160_j40054865002568_2_alg».proof.Proof.RefRunH
import proofs.«101160_j40054865002568_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.RunH.run (F := Ideal) m ρ)

/-- From memories agreeing on the arguments, finite, both idealized programs end with their result arrays at
    the specification of the kernel's arguments. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.KernelIdeal.Val.run m ρ hpre, ?_⟩
  refine (θ_run Cert.ReferenceIdeal.defs _ _).mono (fun _ h c => ⟨?_, (h c).2⟩) (Cert.ReferenceIdeal.RunH.run (F := Ideal) m' ρ')
  rw [(h c).1, Cert.ReferenceIdeal.RefValue.ref_is_spec, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
